-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S8192x128 : Shape := ⟨2, ![8192, 128]⟩
abbrev S50000x1 : Shape := ⟨2, ![50000, 1]⟩
abbrev S8192x1 : Shape := ⟨2, ![8192, 1]⟩
abbrev S8192x8192 : Shape := ⟨2, ![8192, 8192]⟩
abbrev S1000000 : Shape := ⟨1, ![1000000]⟩
abbrev S8192 : Shape := ⟨1, ![8192]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S50000x1 : S_.BroadcastsInDim S50000x1 (![] : Fin 0 → Fin S50000x1.rank)
  reducesTo_S50000x1_S_d0_1 : S50000x1.ReducesTo [0, 1] S_
  bcast_S_S8192x1 : S_.BroadcastsInDim S8192x1 (![] : Fin 0 → Fin S8192x1.rank)
  reducesTo_S8192x1_S_d0_1 : S8192x1.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part9 {F : FTy → Type} [FloatOps F] (main_arg37 : FVec F S128 .f32) (main_v153 : IVec S_ 1) : IVec S_ 1 :=
  let main_v154 : FVec F S128 .f32 := Host.absf main_arg37
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  main_v158

def fn_part8 {F : FTy → Type} [FloatOps F] (main_arg34 : FVec F S128x128 .f32) (main_arg35 : FVec F S128 .f32) (main_arg36 : FVec F S128 .f32) (main_arg37 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg34
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg35
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128 .f32 := Host.absf main_arg36
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg37 main_v153

def fn_part7 {F : FTy → Type} [FloatOps F] (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg31
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg32
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg33
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg34 main_arg35 main_arg36 main_arg37 main_v133 main_v136

def fn_part6 {F : FTy → Type} [FloatOps F] (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg27
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg28
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg29
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg30
  fn_part7 (F := F) main_arg31 main_arg32 main_arg33 main_arg34 main_arg35 main_arg36 main_arg37 main_v118 main_v119

def fn_part5 {F : FTy → Type} [FloatOps F] (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg24
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg25
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg26
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg27 main_arg28 main_arg29 main_arg30 main_arg31 main_arg32 main_arg33 main_arg34 main_arg35 main_arg36 main_arg37 main_v98 main_v101 main_c_39

def fn_part4 {F : FTy → Type} [FloatOps F] (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg22
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg23
  let main_cst_32 : FVec F S_ .f32 := constant S_ .f32 0x7F800000#32
  fn_part5 (F := F) main_arg24 main_arg25 main_arg26 main_arg27 main_arg28 main_arg29 main_arg30 main_arg31 main_arg32 main_arg33 main_arg34 main_arg35 main_arg36 main_arg37 main_v83 main_v84 main_cst_32

def fn_part3 {F : FTy → Type} [FloatOps F] (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_arg22 main_arg23 main_arg24 main_arg25 main_arg26 main_arg27 main_arg28 main_arg29 main_arg30 main_arg31 main_arg32 main_arg33 main_arg34 main_arg35 main_arg36 main_arg37 main_v63 main_v67

def fn_part2 {F : FTy → Type} [FloatOps F] (main_arg7 : FVec F S8192x8192 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg4 : FVec F S8192x1 .f32) (main_arg5 : FVec F S8192x1 .f32) (main_arg6 : FVec F S8192x8192 .f32) (main_arg7 : FVec F S8192x8192 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S8192x1 .f32 := Host.absf main_arg4
  let main_cst_6 : FVec F S_ .f32 := constant S_ .f32 0x7F800000#32
  let main_v20 : FVec F S8192x1 .f32 := broadcastInDim S8192x1 ![] bcast_S_S8192x1 main_cst_6
  let main_v21 : IVec S8192x1 1 := cmpf .olt main_v19 main_v20
  let main_c_7 : IVec S_ 1 := constantI S_ 1 1#1
  let main_v22 : IVec S_ 1 := (fun x v => Host.reduce IntOp.andi x v reducesTo_S8192x1_S_d0_1 h_S_) main_v21 main_c_7
  let main_v23 : IVec S_ 1 := andi main_v18 main_v22
  let main_v24 : FVec F S8192x1 .f32 := Host.absf main_arg5
  let main_cst_8 : FVec F S_ .f32 := constant S_ .f32 0x7F800000#32
  let main_v25 : FVec F S8192x1 .f32 := broadcastInDim S8192x1 ![] bcast_S_S8192x1 main_cst_8
  let main_v26 : IVec S8192x1 1 := cmpf .olt main_v24 main_v25
  let main_c_9 : IVec S_ 1 := constantI S_ 1 1#1
  let main_v27 : IVec S_ 1 := (fun x v => Host.reduce IntOp.andi x v reducesTo_S8192x1_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S50000x128 .f32) (main_arg1 : FVec F S8192x128 .f32) (main_arg2 : FVec F S50000x1 .f32) (main_arg3 : FVec F S50000x1 .f32) (main_arg4 : FVec F S8192x1 .f32) (main_arg5 : FVec F S8192x1 .f32) (main_arg6 : FVec F S8192x8192 .f32) (main_arg7 : FVec F S8192x8192 .f32) (main_arg8 : IVec S1000000 32) (main_arg9 : IVec S1000000 32) (main_arg10 : IVec S1000000 32) (main_arg11 : IVec S1000000 32) (main_arg12 : IVec S8192 32) (main_arg13 : IVec S8192 32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128x128 .f32) (main_arg27 : FVec F S128 .f32) (main_arg28 : FVec F S128x128 .f32) (main_arg29 : FVec F S128 .f32) (main_arg30 : FVec F S128 .f32) (main_arg31 : FVec F S128 .f32) (main_arg32 : FVec F S128x128 .f32) (main_arg33 : FVec F S128 .f32) (main_arg34 : FVec F S128x128 .f32) (main_arg35 : FVec F S128 .f32) (main_arg36 : FVec F S128 .f32) (main_arg37 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_arg6 main_arg7 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S50000x128 : Shape := ⟨2, ![50000, 128]⟩
abbrev S8192x128 : Shape := ⟨2, ![8192, 128]⟩
abbrev S50000x1 : Shape := ⟨2, ![50000, 1]⟩
abbrev S8192x1 : Shape := ⟨2, ![8192, 1]⟩
abbrev S8192x8192 : Shape := ⟨2, ![8192, 8192]⟩
abbrev S1000000 : Shape := ⟨1, ![1000000]⟩
abbrev S8192 : Shape := ⟨1, ![8192]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S50000 : Shape := ⟨1, ![50000]⟩
abbrev S1024x2048 : Shape := ⟨2, ![1024, 2048]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 315
  | .vmem => 40
  | .smem => 0
  | _ => 0

abbrev hbmTy0_0 (i : Nat) : BufTy := match i % 128 with
  | 0 => ⟨S50000x128, .f32⟩
  | 1 => ⟨S8192x128, .f32⟩
  | 2 => ⟨S50000x1, .f32⟩
  | 3 => ⟨S50000x1, .f32⟩
  | 4 => ⟨S8192x1, .f32⟩
  | 5 => ⟨S8192x1, .f32⟩
  | 6 => ⟨S8192x8192, .f32⟩
  | 7 => ⟨S8192x8192, .f32⟩
  | 8 => ⟨S1000000, .i32⟩
  | 9 => ⟨S1000000, .i32⟩
  | 10 => ⟨S1000000, .i32⟩
  | 11 => ⟨S1000000, .i32⟩
  | 12 => ⟨S8192, .i32⟩
  | 13 => ⟨S8192, .i32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128, .f32⟩
  | 25 => ⟨S128, .f32⟩
  | 26 => ⟨S128x128, .f32⟩
  | 27 => ⟨S128, .f32⟩
  | 28 => ⟨S128x128, .f32⟩
  | 29 => ⟨S128, .f32⟩
  | 30 => ⟨S128, .f32⟩
  | 31 => ⟨S128, .f32⟩
  | 32 => ⟨S128x128, .f32⟩
  | 33 => ⟨S128, .f32⟩
  | 34 => ⟨S128x128, .f32⟩
  | 35 => ⟨S128, .f32⟩
  | 36 => ⟨S128, .f32⟩
  | 37 => ⟨S128, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x1, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x1, .f32⟩
  | 56 => ⟨S1000000x1, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x128, .f32⟩
  | 66 => ⟨S1000000x128, .f32⟩
  | 67 => ⟨S1000000x128, .f32⟩
  | 68 => ⟨S_, .f32⟩
  | 69 => ⟨S8192x128, .f32⟩
  | 70 => ⟨S1000000x1, .i32⟩
  | 71 => ⟨S8192x128, .f32⟩
  | 72 => ⟨S8192x128, .f32⟩
  | 73 => ⟨S1x128, .f32⟩
  | 74 => ⟨S8192x128, .f32⟩
  | 75 => ⟨S8192x128, .f32⟩
  | 76 => ⟨S_, .f32⟩
  | 77 => ⟨S8192x128, .f32⟩
  | 78 => ⟨S8192x128, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S8192x128, .f32⟩
  | 86 => ⟨S8192x128, .f32⟩
  | 87 => ⟨S8192x128, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S8192x128, .f32⟩
  | 95 => ⟨S8192x128, .f32⟩
  | 96 => ⟨S_, .f32⟩
  | 97 => ⟨S8192x1, .f32⟩
  | 98 => ⟨S8192x1, .f32⟩
  | 99 => ⟨S8192x1, .f32⟩
  | 100 => ⟨S8192x128, .f32⟩
  | 101 => ⟨S8192x128, .f32⟩
  | 102 => ⟨S1x128, .f32⟩
  | 103 => ⟨S8192x128, .f32⟩
  | 104 => ⟨S8192x128, .f32⟩
  | 105 => ⟨S1x128, .f32⟩
  | 106 => ⟨S8192x128, .f32⟩
  | 107 => ⟨S8192x128, .f32⟩
  | 108 => ⟨S8192x128, .f32⟩
  | 109 => ⟨S1x128, .f32⟩
  | 110 => ⟨S8192x128, .f32⟩
  | 111 => ⟨S8192x128, .f32⟩
  | 112 => ⟨S8192x128, .f32⟩
  | 113 => ⟨S8192x128, .bf16⟩
  | 114 => ⟨S128x128, .bf16⟩
  | 115 => ⟨S1x128, .f32⟩
  | 116 => ⟨S1x128, .f32⟩
  | 117 => ⟨S1x128, .f32⟩
  | 118 => ⟨S8192x128, .f32⟩
  | 119 => ⟨S128x128, .bf16⟩
  | 120 => ⟨S1x128, .f32⟩
  | 121 => ⟨S8192x128, .f32⟩
  | 122 => ⟨S8192x128, .bf16⟩
  | 123 => ⟨S128x128, .bf16⟩
  | 124 => ⟨S1x128, .f32⟩
  | 125 => ⟨S1x128, .f32⟩
  | 126 => ⟨S1x128, .f32⟩
  | 127 => ⟨S8192x128, .f32⟩
  | _ => ⟨S50000x128, .f32⟩

abbrev hbmTy0_1 (i : Nat) : BufTy := match i % 128 with
  | 0 => ⟨S128x128, .bf16⟩
  | 1 => ⟨S1x128, .f32⟩
  | 2 => ⟨S8192x128, .f32⟩
  | 3 => ⟨S8192x128, .f32⟩
  | 4 => ⟨S_, .f32⟩
  | 5 => ⟨S8192, .f32⟩
  | 6 => ⟨S8192x128, .f32⟩
  | 7 => ⟨S_, .f32⟩
  | 8 => ⟨S8192, .f32⟩
  | 9 => ⟨S8192, .f32⟩
  | 10 => ⟨S8192x128, .f32⟩
  | 11 => ⟨S_, .f32⟩
  | 12 => ⟨S8192, .f32⟩
  | 13 => ⟨S8192, .f32⟩
  | 14 => ⟨S8192, .f32⟩
  | 15 => ⟨S_, .f32⟩
  | 16 => ⟨S8192, .f32⟩
  | 17 => ⟨S8192, .f32⟩
  | 18 => ⟨S8192, .f32⟩
  | 19 => ⟨S_, .f32⟩
  | 20 => ⟨S_, .f32⟩
  | 21 => ⟨S_, .f32⟩
  | 22 => ⟨S_, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x128, .f32⟩
  | 32 => ⟨S8192x128, .f32⟩
  | 33 => ⟨S_, .f32⟩
  | 34 => ⟨S8192, .f32⟩
  | 35 => ⟨S8192x128, .f32⟩
  | 36 => ⟨S_, .f32⟩
  | 37 => ⟨S8192, .f32⟩
  | 38 => ⟨S8192, .f32⟩
  | 39 => ⟨S8192x128, .f32⟩
  | 40 => ⟨S_, .f32⟩
  | 41 => ⟨S8192, .f32⟩
  | 42 => ⟨S8192, .f32⟩
  | 43 => ⟨S8192, .f32⟩
  | 44 => ⟨S_, .f32⟩
  | 45 => ⟨S8192, .f32⟩
  | 46 => ⟨S8192, .f32⟩
  | 47 => ⟨S8192, .f32⟩
  | 48 => ⟨S_, .f32⟩
  | 49 => ⟨S_, .f32⟩
  | 50 => ⟨S_, .f32⟩
  | 51 => ⟨S_, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x128, .f32⟩
  | 61 => ⟨S8192x128, .f32⟩
  | 62 => ⟨S_, .f32⟩
  | 63 => ⟨S8192, .f32⟩
  | 64 => ⟨S8192x128, .f32⟩
  | 65 => ⟨S_, .f32⟩
  | 66 => ⟨S8192, .f32⟩
  | 67 => ⟨S8192, .f32⟩
  | 68 => ⟨S8192x128, .f32⟩
  | 69 => ⟨S_, .f32⟩
  | 70 => ⟨S8192, .f32⟩
  | 71 => ⟨S8192, .f32⟩
  | 72 => ⟨S8192, .f32⟩
  | 73 => ⟨S_, .f32⟩
  | 74 => ⟨S8192, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8192x128, .f32⟩
  | 112 => ⟨S8192x128, .f32⟩
  | 113 => ⟨S_, .f32⟩
  | 114 => ⟨S8192x128, .f32⟩
  | 115 => ⟨S8192x128, .f32⟩
  | 116 => ⟨S8192x128, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x1, .f32⟩
  | 126 => ⟨S_, .i32⟩
  | 127 => ⟨S1000000, .i32⟩
  | _ => ⟨S50000x128, .f32⟩

abbrev hbmTy0_2 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000x1, .f32⟩
  | 7 => ⟨S1000000x1, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x128, .f32⟩
  | 17 => ⟨S1000000x128, .f32⟩
  | 18 => ⟨S1000000x128, .f32⟩
  | 19 => ⟨S_, .f32⟩
  | 20 => ⟨S50000x128, .f32⟩
  | 21 => ⟨S1000000x1, .i32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S_, .f32⟩
  | 31 => ⟨S50000, .f32⟩
  | 32 => ⟨S50000x1, .f32⟩
  | 33 => ⟨S_, .f32⟩
  | 34 => ⟨S50000x1, .f32⟩
  | 35 => ⟨S50000x1, .f32⟩
  | 36 => ⟨S50000x128, .f32⟩
  | 37 => ⟨S50000x128, .f32⟩
  | 38 => ⟨S50000x128, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S_, .f32⟩
  | 48 => ⟨S50000x1, .f32⟩
  | 49 => ⟨S50000x1, .f32⟩
  | 50 => ⟨S50000x1, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S2048x128, .bf16⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x2048, .f32⟩
  | .local _ .vmem, ⟨12, _⟩ => ⟨S1024x2048, .f32⟩
  | .local _ .vmem, ⟨13, _⟩ => ⟨S2048x128, .f32⟩
  | .local _ .vmem, ⟨14, _⟩ => ⟨S2048x128, .f32⟩
  | .local _ .vmem, ⟨15, _⟩ => ⟨S128x128, .bf16⟩
  | .local _ .vmem, ⟨16, _⟩ => ⟨S1x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x2048, .f32⟩
  | .local _ .vmem, ⟨21, _⟩ => ⟨S1024x2048, .f32⟩
  | .local _ .vmem, ⟨22, _⟩ => ⟨S2048x128, .bf16⟩
  | .local _ .vmem, ⟨23, _⟩ => ⟨S2048x128, .bf16⟩
  | .local _ .vmem, ⟨24, _⟩ => ⟨S128x128, .bf16⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x2048, .f32⟩
  | .local _ .vmem, ⟨32, _⟩ => ⟨S1024x2048, .f32⟩
  | .local _ .vmem, ⟨33, _⟩ => ⟨S2048x128, .f32⟩
  | .local _ .vmem, ⟨34, _⟩ => ⟨S2048x128, .f32⟩
  | .local _ .vmem, ⟨35, _⟩ => ⟨S128x128, .bf16⟩
  | .local _ .vmem, ⟨36, _⟩ => ⟨S1x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_c_1 : Ref sig .tc := ⟨.hbm, 47, rfl⟩
abbrev main_call0_v7 : Ref sig .tc := ⟨.hbm, 48, rfl⟩
abbrev main_call0_v8 : Ref sig .tc := ⟨.hbm, 49, rfl⟩
abbrev main_call0_c_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_c_3 : Ref sig .tc := ⟨.hbm, 57, rfl⟩
abbrev main_call0_v15 : Ref sig .tc := ⟨.hbm, 58, rfl⟩
abbrev main_call0_v16 : Ref sig .tc := ⟨.hbm, 59, rfl⟩
abbrev main_call0_c_4 : Ref sig .tc := ⟨.hbm, 60, rfl⟩
abbrev main_call0_v17 : Ref sig .tc := ⟨.hbm, 61, rfl⟩
abbrev main_call0_v18 : Ref sig .tc := ⟨.hbm, 62, rfl⟩
abbrev main_call0_v19 : Ref sig .tc := ⟨.hbm, 63, rfl⟩
abbrev main_call0_v20 : Ref sig .tc := ⟨.hbm, 64, rfl⟩
abbrev main_call0_v21 : Ref sig .tc := ⟨.hbm, 65, rfl⟩
abbrev main_call0_v22 : Ref sig .tc := ⟨.hbm, 66, rfl⟩
abbrev main_call0_v23 : Ref sig .tc := ⟨.hbm, 67, rfl⟩
abbrev main_call0_cst : Ref sig .tc := ⟨.hbm, 68, rfl⟩
abbrev main_call0_v24 : Ref sig .tc := ⟨.hbm, 69, rfl⟩
abbrev main_call0_v25 : Ref sig .tc := ⟨.hbm, 70, rfl⟩
abbrev main_call0_v26 : Ref sig .tc := ⟨.hbm, 71, rfl⟩
abbrev main_call0_v27 : Ref sig .tc := ⟨.hbm, 72, rfl⟩
abbrev main_call0_v28 : Ref sig .tc := ⟨.hbm, 73, rfl⟩
abbrev main_call0_v29 : Ref sig .tc := ⟨.hbm, 74, rfl⟩
abbrev main_call0_v30 : Ref sig .tc := ⟨.hbm, 75, rfl⟩
abbrev main_call0_call0_cst : Ref sig .tc := ⟨.hbm, 76, rfl⟩
abbrev main_call0_call0_v0 : Ref sig .tc := ⟨.hbm, 77, rfl⟩
abbrev main_call0_v31 : Ref sig .tc := ⟨.hbm, 78, rfl⟩
abbrev main_call0_cst_5 : Ref sig .tc := ⟨.hbm, 79, rfl⟩
abbrev main_call0_v32 : Ref sig .tc := ⟨.hbm, 80, rfl⟩
abbrev main_call0_v33 : Ref sig .tc := ⟨.hbm, 81, rfl⟩
abbrev main_call0_cst_6 : Ref sig .tc := ⟨.hbm, 82, rfl⟩
abbrev main_call0_v34 : Ref sig .tc := ⟨.hbm, 83, rfl⟩
abbrev main_call0_v35 : Ref sig .tc := ⟨.hbm, 84, rfl⟩
abbrev main_call0_v36 : Ref sig .tc := ⟨.hbm, 85, rfl⟩
abbrev main_call0_v37 : Ref sig .tc := ⟨.hbm, 86, rfl⟩
abbrev main_call0_v38 : Ref sig .tc := ⟨.hbm, 87, rfl⟩
abbrev main_call0_cst_7 : Ref sig .tc := ⟨.hbm, 88, rfl⟩
abbrev main_call0_v39 : Ref sig .tc := ⟨.hbm, 89, rfl⟩
abbrev main_call0_v40 : Ref sig .tc := ⟨.hbm, 90, rfl⟩
abbrev main_call0_cst_8 : Ref sig .tc := ⟨.hbm, 91, rfl⟩
abbrev main_call0_v41 : Ref sig .tc := ⟨.hbm, 92, rfl⟩
abbrev main_call0_v42 : Ref sig .tc := ⟨.hbm, 93, rfl⟩
abbrev main_call0_v43 : Ref sig .tc := ⟨.hbm, 94, rfl⟩
abbrev main_call0_v44 : Ref sig .tc := ⟨.hbm, 95, rfl⟩
abbrev main_call0_cst_9 : Ref sig .tc := ⟨.hbm, 96, rfl⟩
abbrev main_call0_v45 : Ref sig .tc := ⟨.hbm, 97, rfl⟩
abbrev main_call0_v46 : Ref sig .tc := ⟨.hbm, 98, rfl⟩
abbrev main_call0_v47 : Ref sig .tc := ⟨.hbm, 99, rfl⟩
abbrev main_call0_v48 : Ref sig .tc := ⟨.hbm, 100, rfl⟩
abbrev main_call0_v49 : Ref sig .tc := ⟨.hbm, 101, rfl⟩
abbrev main_call0_v50 : Ref sig .tc := ⟨.hbm, 102, rfl⟩
abbrev main_call0_v51 : Ref sig .tc := ⟨.hbm, 103, rfl⟩
abbrev main_call0_v52 : Ref sig .tc := ⟨.hbm, 104, rfl⟩
abbrev main_call0_v53 : Ref sig .tc := ⟨.hbm, 105, rfl⟩
abbrev main_call0_v54 : Ref sig .tc := ⟨.hbm, 106, rfl⟩
abbrev main_call0_v55 : Ref sig .tc := ⟨.hbm, 107, rfl⟩
abbrev main_call0_v56 : Ref sig .tc := ⟨.hbm, 108, rfl⟩
abbrev main_call0_v57 : Ref sig .tc := ⟨.hbm, 109, rfl⟩
abbrev main_call0_v58 : Ref sig .tc := ⟨.hbm, 110, rfl⟩
abbrev main_call0_v59 : Ref sig .tc := ⟨.hbm, 111, rfl⟩
abbrev main_call0_v60 : Ref sig .tc := ⟨.hbm, 112, rfl⟩
abbrev main_call0_v61 : Ref sig .tc := ⟨.hbm, 113, rfl⟩
abbrev main_call0_v62 : Ref sig .tc := ⟨.hbm, 114, rfl⟩
abbrev main_call0_v63 : Ref sig .tc := ⟨.hbm, 115, rfl⟩
abbrev main_call0_v64 : Ref sig .tc := ⟨.hbm, 116, rfl⟩
abbrev main_call0_v65 : Ref sig .tc := ⟨.hbm, 117, rfl⟩
abbrev main_call0_v66 : Ref sig .tc := ⟨.hbm, 118, rfl⟩
abbrev main_call0_v67 : Ref sig .tc := ⟨.hbm, 119, rfl⟩
abbrev main_call0_v68 : Ref sig .tc := ⟨.hbm, 120, rfl⟩
abbrev main_call0_v69 : Ref sig .tc := ⟨.hbm, 121, rfl⟩
abbrev main_call0_v70 : Ref sig .tc := ⟨.hbm, 122, rfl⟩
abbrev main_call0_v71 : Ref sig .tc := ⟨.hbm, 123, rfl⟩
abbrev main_call0_v72 : Ref sig .tc := ⟨.hbm, 124, rfl⟩
abbrev main_call0_v73 : Ref sig .tc := ⟨.hbm, 125, rfl⟩
abbrev main_call0_v74 : Ref sig .tc := ⟨.hbm, 126, rfl⟩
abbrev main_call0_v75 : Ref sig .tc := ⟨.hbm, 127, rfl⟩
abbrev main_call0_v76 : Ref sig .tc := ⟨.hbm, 128, rfl⟩
abbrev main_call0_v77 : Ref sig .tc := ⟨.hbm, 129, rfl⟩
abbrev main_call0_v78 : Ref sig .tc := ⟨.hbm, 130, rfl⟩
abbrev main_call0_v79 : Ref sig .tc := ⟨.hbm, 131, rfl⟩
abbrev main_call0_cst_10 : Ref sig .tc := ⟨.hbm, 132, rfl⟩
abbrev main_call0_v80 : Ref sig .tc := ⟨.hbm, 133, rfl⟩
abbrev main_call0_call1_v0 : Ref sig .tc := ⟨.hbm, 134, rfl⟩
abbrev main_call0_call1_cst : Ref sig .tc := ⟨.hbm, 135, rfl⟩
abbrev main_call0_call1_v1 : Ref sig .tc := ⟨.hbm, 136, rfl⟩
abbrev main_call0_v81 : Ref sig .tc := ⟨.hbm, 137, rfl⟩
abbrev main_call0_call2_v0 : Ref sig .tc := ⟨.hbm, 138, rfl⟩
abbrev main_call0_call2_cst : Ref sig .tc := ⟨.hbm, 139, rfl⟩
abbrev main_call0_call2_v1 : Ref sig .tc := ⟨.hbm, 140, rfl⟩
abbrev main_call0_v82 : Ref sig .tc := ⟨.hbm, 141, rfl⟩
abbrev main_call0_v83 : Ref sig .tc := ⟨.hbm, 142, rfl⟩
abbrev main_call0_cst_11 : Ref sig .tc := ⟨.hbm, 143, rfl⟩
abbrev main_call0_v84 : Ref sig .tc := ⟨.hbm, 144, rfl⟩
abbrev main_call0_v85 : Ref sig .tc := ⟨.hbm, 145, rfl⟩
abbrev main_call0_v86 : Ref sig .tc := ⟨.hbm, 146, rfl⟩
abbrev main_call0_cst_12 : Ref sig .tc := ⟨.hbm, 147, rfl⟩
abbrev main_call0_v87 : Ref sig .tc := ⟨.hbm, 148, rfl⟩
abbrev main_call0_cst_13 : Ref sig .tc := ⟨.hbm, 149, rfl⟩
abbrev main_call0_v88 : Ref sig .tc := ⟨.hbm, 150, rfl⟩
abbrev main_call0_c_14 : Ref sig .tc := ⟨.hbm, 151, rfl⟩
abbrev main_call0_v89 : Ref sig .tc := ⟨.hbm, 152, rfl⟩
abbrev main_call0_v90 : Ref sig .tc := ⟨.hbm, 153, rfl⟩
abbrev main_call0_c_15 : Ref sig .tc := ⟨.hbm, 154, rfl⟩
abbrev main_call0_v91 : Ref sig .tc := ⟨.hbm, 155, rfl⟩
abbrev main_call0_v92 : Ref sig .tc := ⟨.hbm, 156, rfl⟩
abbrev main_call0_v93 : Ref sig .tc := ⟨.hbm, 157, rfl⟩
abbrev main_call0_v94 : Ref sig .tc := ⟨.hbm, 158, rfl⟩
abbrev main_call0_v95 : Ref sig .tc := ⟨.hbm, 159, rfl⟩
abbrev main_call0_v96 : Ref sig .tc := ⟨.hbm, 160, rfl⟩
abbrev main_call0_cst_16 : Ref sig .tc := ⟨.hbm, 161, rfl⟩
abbrev main_call0_v97 : Ref sig .tc := ⟨.hbm, 162, rfl⟩
abbrev main_call0_call3_v0 : Ref sig .tc := ⟨.hbm, 163, rfl⟩
abbrev main_call0_call3_cst : Ref sig .tc := ⟨.hbm, 164, rfl⟩
abbrev main_call0_call3_v1 : Ref sig .tc := ⟨.hbm, 165, rfl⟩
abbrev main_call0_v98 : Ref sig .tc := ⟨.hbm, 166, rfl⟩
abbrev main_call0_call4_v0 : Ref sig .tc := ⟨.hbm, 167, rfl⟩
abbrev main_call0_call4_cst : Ref sig .tc := ⟨.hbm, 168, rfl⟩
abbrev main_call0_call4_v1 : Ref sig .tc := ⟨.hbm, 169, rfl⟩
abbrev main_call0_v99 : Ref sig .tc := ⟨.hbm, 170, rfl⟩
abbrev main_call0_v100 : Ref sig .tc := ⟨.hbm, 171, rfl⟩
abbrev main_call0_cst_17 : Ref sig .tc := ⟨.hbm, 172, rfl⟩
abbrev main_call0_v101 : Ref sig .tc := ⟨.hbm, 173, rfl⟩
abbrev main_call0_v102 : Ref sig .tc := ⟨.hbm, 174, rfl⟩
abbrev main_call0_v103 : Ref sig .tc := ⟨.hbm, 175, rfl⟩
abbrev main_call0_cst_18 : Ref sig .tc := ⟨.hbm, 176, rfl⟩
abbrev main_call0_v104 : Ref sig .tc := ⟨.hbm, 177, rfl⟩
abbrev main_call0_cst_19 : Ref sig .tc := ⟨.hbm, 178, rfl⟩
abbrev main_call0_v105 : Ref sig .tc := ⟨.hbm, 179, rfl⟩
abbrev main_call0_c_20 : Ref sig .tc := ⟨.hbm, 180, rfl⟩
abbrev main_call0_v106 : Ref sig .tc := ⟨.hbm, 181, rfl⟩
abbrev main_call0_v107 : Ref sig .tc := ⟨.hbm, 182, rfl⟩
abbrev main_call0_c_21 : Ref sig .tc := ⟨.hbm, 183, rfl⟩
abbrev main_call0_v108 : Ref sig .tc := ⟨.hbm, 184, rfl⟩
abbrev main_call0_v109 : Ref sig .tc := ⟨.hbm, 185, rfl⟩
abbrev main_call0_v110 : Ref sig .tc := ⟨.hbm, 186, rfl⟩
abbrev main_call0_v111 : Ref sig .tc := ⟨.hbm, 187, rfl⟩
abbrev main_call0_v112 : Ref sig .tc := ⟨.hbm, 188, rfl⟩
abbrev main_call0_v113 : Ref sig .tc := ⟨.hbm, 189, rfl⟩
abbrev main_call0_cst_22 : Ref sig .tc := ⟨.hbm, 190, rfl⟩
abbrev main_call0_v114 : Ref sig .tc := ⟨.hbm, 191, rfl⟩
abbrev main_call0_call5_v0 : Ref sig .tc := ⟨.hbm, 192, rfl⟩
abbrev main_call0_call5_cst : Ref sig .tc := ⟨.hbm, 193, rfl⟩
abbrev main_call0_call5_v1 : Ref sig .tc := ⟨.hbm, 194, rfl⟩
abbrev main_call0_v115 : Ref sig .tc := ⟨.hbm, 195, rfl⟩
abbrev main_call0_call6_v0 : Ref sig .tc := ⟨.hbm, 196, rfl⟩
abbrev main_call0_call6_cst : Ref sig .tc := ⟨.hbm, 197, rfl⟩
abbrev main_call0_call6_v1 : Ref sig .tc := ⟨.hbm, 198, rfl⟩
abbrev main_call0_v116 : Ref sig .tc := ⟨.hbm, 199, rfl⟩
abbrev main_call0_v117 : Ref sig .tc := ⟨.hbm, 200, rfl⟩
abbrev main_call0_cst_23 : Ref sig .tc := ⟨.hbm, 201, rfl⟩
abbrev main_call0_v118 : Ref sig .tc := ⟨.hbm, 202, rfl⟩
abbrev main_call0_v119 : Ref sig .tc := ⟨.hbm, 203, rfl⟩
abbrev main_call0_v120 : Ref sig .tc := ⟨.hbm, 204, rfl⟩
abbrev main_call0_cst_24 : Ref sig .tc := ⟨.hbm, 205, rfl⟩
abbrev main_call0_v121 : Ref sig .tc := ⟨.hbm, 206, rfl⟩
abbrev main_call0_cst_25 : Ref sig .tc := ⟨.hbm, 207, rfl⟩
abbrev main_call0_v122 : Ref sig .tc := ⟨.hbm, 208, rfl⟩
abbrev main_call0_v123 : Ref sig .tc := ⟨.hbm, 209, rfl⟩
abbrev main_call0_v124 : Ref sig .tc := ⟨.hbm, 210, rfl⟩
abbrev main_call0_cst_26 : Ref sig .tc := ⟨.hbm, 211, rfl⟩
abbrev main_call0_v125 : Ref sig .tc := ⟨.hbm, 212, rfl⟩
abbrev main_call0_cst_27 : Ref sig .tc := ⟨.hbm, 213, rfl⟩
abbrev main_call0_v126 : Ref sig .tc := ⟨.hbm, 214, rfl⟩
abbrev main_call0_v127 : Ref sig .tc := ⟨.hbm, 215, rfl⟩
abbrev main_call0_v128 : Ref sig .tc := ⟨.hbm, 216, rfl⟩
abbrev main_call0_v129 : Ref sig .tc := ⟨.hbm, 217, rfl⟩
abbrev main_call0_v130 : Ref sig .tc := ⟨.hbm, 218, rfl⟩
abbrev main_call0_cst_28 : Ref sig .tc := ⟨.hbm, 219, rfl⟩
abbrev main_call0_v131 : Ref sig .tc := ⟨.hbm, 220, rfl⟩
abbrev main_call0_cst_29 : Ref sig .tc := ⟨.hbm, 221, rfl⟩
abbrev main_call0_v132 : Ref sig .tc := ⟨.hbm, 222, rfl⟩
abbrev main_call0_cst_30 : Ref sig .tc := ⟨.hbm, 223, rfl⟩
abbrev main_call0_v133 : Ref sig .tc := ⟨.hbm, 224, rfl⟩
abbrev main_call0_v134 : Ref sig .tc := ⟨.hbm, 225, rfl⟩
abbrev main_call0_v135 : Ref sig .tc := ⟨.hbm, 226, rfl⟩
abbrev main_call0_v136 : Ref sig .tc := ⟨.hbm, 227, rfl⟩
abbrev main_call0_v137 : Ref sig .tc := ⟨.hbm, 228, rfl⟩
abbrev main_call0_cst_31 : Ref sig .tc := ⟨.hbm, 229, rfl⟩
abbrev main_call0_v138 : Ref sig .tc := ⟨.hbm, 230, rfl⟩
abbrev main_call0_cst_32 : Ref sig .tc := ⟨.hbm, 231, rfl⟩
abbrev main_call0_v139 : Ref sig .tc := ⟨.hbm, 232, rfl⟩
abbrev main_call0_cst_33 : Ref sig .tc := ⟨.hbm, 233, rfl⟩
abbrev main_call0_v140 : Ref sig .tc := ⟨.hbm, 234, rfl⟩
abbrev main_call0_v141 : Ref sig .tc := ⟨.hbm, 235, rfl⟩
abbrev main_call0_v142 : Ref sig .tc := ⟨.hbm, 236, rfl⟩
abbrev main_v0_2 : Ref sig .tc := ⟨.hbm, 237, rfl⟩
abbrev main_call0_cst_34 : Ref sig .tc := ⟨.hbm, 238, rfl⟩
abbrev main_call0_v144 : Ref sig .tc := ⟨.hbm, 239, rfl⟩
abbrev main_call0_v145 : Ref sig .tc := ⟨.hbm, 240, rfl⟩
abbrev main_call0_cst_35 : Ref sig .tc := ⟨.hbm, 241, rfl⟩
abbrev main_call0_v146 : Ref sig .tc := ⟨.hbm, 242, rfl⟩
abbrev main_call0_v147 : Ref sig .tc := ⟨.hbm, 243, rfl⟩
abbrev main_v0_1 : Ref sig .tc := ⟨.hbm, 244, rfl⟩
abbrev main_call0_c_36 : Ref sig .tc := ⟨.hbm, 245, rfl⟩
abbrev main_call0_v149 : Ref sig .tc := ⟨.hbm, 246, rfl⟩
abbrev main_call0_v150 : Ref sig .tc := ⟨.hbm, 247, rfl⟩
abbrev main_call0_c_37 : Ref sig .tc := ⟨.hbm, 248, rfl⟩
abbrev main_call0_v151 : Ref sig .tc := ⟨.hbm, 249, rfl⟩
abbrev main_call0_v152 : Ref sig .tc := ⟨.hbm, 250, rfl⟩
abbrev main_call0_v153 : Ref sig .tc := ⟨.hbm, 251, rfl⟩
abbrev main_call0_v154 : Ref sig .tc := ⟨.hbm, 252, rfl⟩
abbrev main_call0_v155 : Ref sig .tc := ⟨.hbm, 253, rfl⟩
abbrev main_call0_c_38 : Ref sig .tc := ⟨.hbm, 254, rfl⟩
abbrev main_call0_v156 : Ref sig .tc := ⟨.hbm, 255, rfl⟩
abbrev main_call0_v157 : Ref sig .tc := ⟨.hbm, 256, rfl⟩
abbrev main_call0_c_39 : Ref sig .tc := ⟨.hbm, 257, rfl⟩
abbrev main_call0_v158 : Ref sig .tc := ⟨.hbm, 258, rfl⟩
abbrev main_call0_v159 : Ref sig .tc := ⟨.hbm, 259, rfl⟩
abbrev main_call0_v160 : Ref sig .tc := ⟨.hbm, 260, rfl⟩
abbrev main_call0_v161 : Ref sig .tc := ⟨.hbm, 261, rfl⟩
abbrev main_call0_v162 : Ref sig .tc := ⟨.hbm, 262, rfl⟩
abbrev main_call0_v163 : Ref sig .tc := ⟨.hbm, 263, rfl⟩
abbrev main_call0_c_40 : Ref sig .tc := ⟨.hbm, 264, rfl⟩
abbrev main_call0_v164 : Ref sig .tc := ⟨.hbm, 265, rfl⟩
abbrev main_call0_v165 : Ref sig .tc := ⟨.hbm, 266, rfl⟩
abbrev main_call0_c_41 : Ref sig .tc := ⟨.hbm, 267, rfl⟩
abbrev main_call0_v166 : Ref sig .tc := ⟨.hbm, 268, rfl⟩
abbrev main_call0_v167 : Ref sig .tc := ⟨.hbm, 269, rfl⟩
abbrev main_call0_v168 : Ref sig .tc := ⟨.hbm, 270, rfl⟩
abbrev main_call0_v169 : Ref sig .tc := ⟨.hbm, 271, rfl⟩
abbrev main_call0_v170 : Ref sig .tc := ⟨.hbm, 272, rfl⟩
abbrev main_call0_v171 : Ref sig .tc := ⟨.hbm, 273, rfl⟩
abbrev main_call0_v172 : Ref sig .tc := ⟨.hbm, 274, rfl⟩
abbrev main_call0_cst_42 : Ref sig .tc := ⟨.hbm, 275, rfl⟩
abbrev main_call0_v173 : Ref sig .tc := ⟨.hbm, 276, rfl⟩
abbrev main_call0_v174 : Ref sig .tc := ⟨.hbm, 277, rfl⟩
abbrev main_call0_v175 : Ref sig .tc := ⟨.hbm, 278, rfl⟩
abbrev main_call0_v176 : Ref sig .tc := ⟨.hbm, 279, rfl⟩
abbrev main_call0_v177 : Ref sig .tc := ⟨.hbm, 280, rfl⟩
abbrev main_call0_v178 : Ref sig .tc := ⟨.hbm, 281, rfl⟩
abbrev main_call0_v179 : Ref sig .tc := ⟨.hbm, 282, rfl⟩
abbrev main_call0_call7_cst : Ref sig .tc := ⟨.hbm, 283, rfl⟩
abbrev main_call0_call7_v0 : Ref sig .tc := ⟨.hbm, 284, rfl⟩
abbrev main_call0_v180 : Ref sig .tc := ⟨.hbm, 285, rfl⟩
abbrev main_call0_cst_43 : Ref sig .tc := ⟨.hbm, 286, rfl⟩
abbrev main_call0_v181 : Ref sig .tc := ⟨.hbm, 287, rfl⟩
abbrev main_call0_v182 : Ref sig .tc := ⟨.hbm, 288, rfl⟩
abbrev main_call0_cst_44 : Ref sig .tc := ⟨.hbm, 289, rfl⟩
abbrev main_call0_v183 : Ref sig .tc := ⟨.hbm, 290, rfl⟩
abbrev main_call0_v184 : Ref sig .tc := ⟨.hbm, 291, rfl⟩
abbrev main_call0_v185 : Ref sig .tc := ⟨.hbm, 292, rfl⟩
abbrev main_call0_v186 : Ref sig .tc := ⟨.hbm, 293, rfl⟩
abbrev main_call0_v187 : Ref sig .tc := ⟨.hbm, 294, rfl⟩
abbrev main_call0_cst_45 : Ref sig .tc := ⟨.hbm, 295, rfl⟩
abbrev main_call0_v188 : Ref sig .tc := ⟨.hbm, 296, rfl⟩
abbrev main_call0_v189 : Ref sig .tc := ⟨.hbm, 297, rfl⟩
abbrev main_call0_cst_46 : Ref sig .tc := ⟨.hbm, 298, rfl⟩
abbrev main_call0_v190 : Ref sig .tc := ⟨.hbm, 299, rfl⟩
abbrev main_call0_v191 : Ref sig .tc := ⟨.hbm, 300, rfl⟩
abbrev main_call0_v192 : Ref sig .tc := ⟨.hbm, 301, rfl⟩
abbrev main_call0_v193 : Ref sig .tc := ⟨.hbm, 302, rfl⟩
abbrev main_call0_cst_47 : Ref sig .tc := ⟨.hbm, 303, rfl⟩
abbrev main_call0_v194 : Ref sig .tc := ⟨.hbm, 304, rfl⟩
abbrev main_call0_v195 : Ref sig .tc := ⟨.hbm, 305, rfl⟩
abbrev main_call0_v196 : Ref sig .tc := ⟨.hbm, 306, rfl⟩
abbrev main_call0_v197 : Ref sig .tc := ⟨.hbm, 307, rfl⟩
abbrev main_call0_v198 : Ref sig .tc := ⟨.hbm, 308, rfl⟩
abbrev main_call0_v199 : Ref sig .tc := ⟨.hbm, 309, rfl⟩
abbrev main_call0_v200 : Ref sig .tc := ⟨.hbm, 310, rfl⟩
abbrev main_call0_v201 : Ref sig .tc := ⟨.hbm, 311, rfl⟩
abbrev main_call0_v202 : Ref sig .tc := ⟨.hbm, 312, rfl⟩
abbrev main_call0_v203 : Ref sig .tc := ⟨.hbm, 313, rfl⟩
abbrev main_v0_0 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg4_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S128_S1x128 : S128.ShapeCasts S1x128
  bcast_S_S8192 : S_.BroadcastsInDim S8192 (![] : Fin 0 → Fin S8192.rank)
  reducesTo_S8192_S_d0 : S8192.ReducesTo [0] S_
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  gather_S50000x1_S1000000x1_S1000000x1_1_0_n_n_0_1_11_wf : GatherDims.WF S50000x1 S1000000x1 S1000000x1 [1] [0] [] [0] [] 1 ![1, 1]
  gather_S8192x1_S1000000x1_S1000000x1_1_0_n_n_0_1_11_wf : GatherDims.WF S8192x1 S1000000x1 S1000000x1 [1] [0] [] [0] [] 1 ![1, 1]
  gather_S50000x128_S1000000x1_S1000000x128_1_0_n_n_0_1_1128_wf : GatherDims.WF S50000x128 S1000000x1 S1000000x128 [1] [0] [] [0] [] 1 ![1, 128]
  scatter_S8192x128_S1000000x1_S1000000x128_1_0_0_1_wf : ScatterDims.WF S8192x128 S1000000x1 S1000000x128 [1] [0] [0] 1
  dot_S8192x128_S128x128_S8192x128_1_0_0_1_n_n_wf : DotDims.WF S8192x128 S128x128 S8192x128 [1] [0] [0] [1] [] []
  gather_S8192x128_S8192x1_S8192x128_1_0_n_n_0_1_1128_wf : GatherDims.WF S8192x128 S8192x1 S8192x128 [1] [0] [] [0] [] 1 ![1, 128]
  gather_S8192x128_S1000000x1_S1000000x128_1_0_n_n_0_1_1128_wf : GatherDims.WF S8192x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .bf16 = 32 ∨ (Rect.block (s := S8192x128) S2048x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S8192x128.size a
  hwx2_6 : ∀ i : grid2.Coords, EltTy.bits .f32 = 32 ∨ (Rect.block (s := S8192x128) S1024x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S8192x128.size a
  hwx3_4 : ∀ i : grid3.Coords, EltTy.bits .f32 = 32 ∨ (Rect.block (s := S8192x128) S1024x128.size (cc3_transform_4 i) (hinb3_4 i)).WholeWords (EltTy.packing .f32)

variable [Facts₀]

def gather_S50000x1_S1000000x1_S1000000x1_1_0_n_n_0_1_11 : GatherDims S50000x1 S1000000x1 S1000000x1 where
  offsetDims := [1]
  collapsedSliceDims := [0]
  operandBatchingDims := []
  startIndicesBatchingDims := []
  startIndexMap := [0]
  indexVectorDim := 1
  sliceSizes := ![1, 1]
  wf := gather_S50000x1_S1000000x1_S1000000x1_1_0_n_n_0_1_11_wf
def gather_S8192x1_S1000000x1_S1000000x1_1_0_n_n_0_1_11 : GatherDims S8192x1 S1000000x1 S1000000x1 where
  offsetDims := [1]
  collapsedSliceDims := [0]
  operandBatchingDims := []
  startIndicesBatchingDims := []
  startIndexMap := [0]
  indexVectorDim := 1
  sliceSizes := ![1, 1]
  wf := gather_S8192x1_S1000000x1_S1000000x1_1_0_n_n_0_1_11_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S8192x128_S1000000x1_S1000000x128_1_0_0_1 : ScatterDims S8192x128 S1000000x1 S1000000x128 where
  updateWindowDims := [1]
  insertedWindowDims := [0]
  scatterDimsToOperandDims := [0]
  indexVectorDim := 1
  wf := scatter_S8192x128_S1000000x1_S1000000x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def gather_S8192x128_S1000000x1_S1000000x128_1_0_n_n_0_1_1128 : GatherDims S8192x128 S1000000x1 S1000000x128 where
  offsetDims := [1]
  collapsedSliceDims := [0]
  operandBatchingDims := []
  startIndicesBatchingDims := []
  startIndexMap := [0]
  indexVectorDim := 1
  sliceSizes := ![1, 128]
  wf := gather_S8192x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg6) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v61) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v62) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v63) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v64) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v65) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v66) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v66) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v67) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v68) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v69) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg7) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v70) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v71) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v73) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v74) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v75) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_arg7) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v75) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v76) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v78) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S8192x128 : Shape := ⟨2, ![8192, 128]⟩
abbrev S50000x1 : Shape := ⟨2, ![50000, 1]⟩
abbrev S8192x1 : Shape := ⟨2, ![8192, 1]⟩
abbrev S8192x8192 : Shape := ⟨2, ![8192, 8192]⟩
abbrev S1000000 : Shape := ⟨1, ![1000000]⟩
abbrev S8192 : Shape := ⟨1, ![8192]⟩
abbrev S128x128 : Shape := ⟨2, ![128, 128]⟩
abbrev S128 : Shape := ⟨1, ![128]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩

abbrev nBuf : Space → Nat
  | .hbm => 379
  | .vmem => 0
  | .smem => 0
  | _ => 0

abbrev hbmTy0_0 (i : Nat) : BufTy := match i % 128 with
  | 0 => ⟨S50000x128, .f32⟩
  | 1 => ⟨S8192x128, .f32⟩
  | 2 => ⟨S50000x1, .f32⟩
  | 3 => ⟨S50000x1, .f32⟩
  | 4 => ⟨S8192x1, .f32⟩
  | 5 => ⟨S8192x1, .f32⟩
  | 6 => ⟨S8192x8192, .f32⟩
  | 7 => ⟨S8192x8192, .f32⟩
  | 8 => ⟨S1000000, .i32⟩
  | 9 => ⟨S1000000, .i32⟩
  | 10 => ⟨S1000000, .i32⟩
  | 11 => ⟨S1000000, .i32⟩
  | 12 => ⟨S8192, .i32⟩
  | 13 => ⟨S8192, .i32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128, .f32⟩
  | 25 => ⟨S128, .f32⟩
  | 26 => ⟨S128x128, .f32⟩
  | 27 => ⟨S128, .f32⟩
  | 28 => ⟨S128x128, .f32⟩
  | 29 => ⟨S128, .f32⟩
  | 30 => ⟨S128, .f32⟩
  | 31 => ⟨S128, .f32⟩
  | 32 => ⟨S128x128, .f32⟩
  | 33 => ⟨S128, .f32⟩
  | 34 => ⟨S128x128, .f32⟩
  | 35 => ⟨S128, .f32⟩
  | 36 => ⟨S128, .f32⟩
  | 37 => ⟨S128, .f32⟩
  | 38 => ⟨S50000x128, .f32⟩
  | 39 => ⟨S1x128, .f32⟩
  | 40 => ⟨S50000x128, .f32⟩
  | 41 => ⟨S50000x128, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x1, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x1, .f32⟩
  | 60 => ⟨S1000000x1, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x128, .f32⟩
  | 70 => ⟨S1000000x128, .f32⟩
  | 71 => ⟨S1000000x128, .f32⟩
  | 72 => ⟨S_, .f32⟩
  | 73 => ⟨S8192x128, .f32⟩
  | 74 => ⟨S1000000x1, .i32⟩
  | 75 => ⟨S8192x128, .f32⟩
  | 76 => ⟨S8192x128, .f32⟩
  | 77 => ⟨S1x128, .f32⟩
  | 78 => ⟨S8192x128, .f32⟩
  | 79 => ⟨S8192x128, .f32⟩
  | 80 => ⟨S_, .f32⟩
  | 81 => ⟨S8192x128, .f32⟩
  | 82 => ⟨S8192x128, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S8192x128, .f32⟩
  | 90 => ⟨S8192x128, .f32⟩
  | 91 => ⟨S8192x128, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x128, .f32⟩
  | 99 => ⟨S8192x128, .f32⟩
  | 100 => ⟨S_, .f32⟩
  | 101 => ⟨S8192x1, .f32⟩
  | 102 => ⟨S8192x1, .f32⟩
  | 103 => ⟨S8192x1, .f32⟩
  | 104 => ⟨S8192x128, .f32⟩
  | 105 => ⟨S8192x128, .f32⟩
  | 106 => ⟨S1x128, .f32⟩
  | 107 => ⟨S8192x128, .f32⟩
  | 108 => ⟨S8192x128, .f32⟩
  | 109 => ⟨S1x128, .f32⟩
  | 110 => ⟨S8192x128, .f32⟩
  | 111 => ⟨S8192x128, .f32⟩
  | 112 => ⟨S8192x128, .f32⟩
  | 113 => ⟨S1x128, .f32⟩
  | 114 => ⟨S8192x128, .f32⟩
  | 115 => ⟨S8192x128, .f32⟩
  | 116 => ⟨S8192x128, .f32⟩
  | 117 => ⟨S8192x128, .f32⟩
  | 118 => ⟨S8192x128, .f32⟩
  | 119 => ⟨S1x128, .f32⟩
  | 120 => ⟨S8192x128, .f32⟩
  | 121 => ⟨S8192x128, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S50000x128, .f32⟩

abbrev hbmTy0_1 (i : Nat) : BufTy := match i % 128 with
  | 0 => ⟨S8192x128, .f32⟩
  | 1 => ⟨S8192x128, .f32⟩
  | 2 => ⟨S8192x128, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S8192x128, .f32⟩
  | 10 => ⟨S8192x128, .f32⟩
  | 11 => ⟨S_, .f32⟩
  | 12 => ⟨S8192x1, .f32⟩
  | 13 => ⟨S8192x1, .f32⟩
  | 14 => ⟨S8192x1, .f32⟩
  | 15 => ⟨S8192x128, .f32⟩
  | 16 => ⟨S8192x128, .f32⟩
  | 17 => ⟨S1x128, .f32⟩
  | 18 => ⟨S8192x128, .f32⟩
  | 19 => ⟨S8192x128, .f32⟩
  | 20 => ⟨S1x128, .f32⟩
  | 21 => ⟨S8192x128, .f32⟩
  | 22 => ⟨S8192x128, .f32⟩
  | 23 => ⟨S8192x128, .f32⟩
  | 24 => ⟨S8192x128, .f32⟩
  | 25 => ⟨S1x128, .f32⟩
  | 26 => ⟨S8192x128, .f32⟩
  | 27 => ⟨S8192x128, .f32⟩
  | 28 => ⟨S8192x128, .f32⟩
  | 29 => ⟨S8192x128, .f32⟩
  | 30 => ⟨S1x128, .f32⟩
  | 31 => ⟨S8192x128, .f32⟩
  | 32 => ⟨S8192x128, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x128, .f32⟩
  | 40 => ⟨S8192x128, .f32⟩
  | 41 => ⟨S8192x128, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x128, .f32⟩
  | 49 => ⟨S8192x128, .f32⟩
  | 50 => ⟨S_, .f32⟩
  | 51 => ⟨S8192x1, .f32⟩
  | 52 => ⟨S8192x1, .f32⟩
  | 53 => ⟨S8192x1, .f32⟩
  | 54 => ⟨S8192x128, .f32⟩
  | 55 => ⟨S8192x128, .f32⟩
  | 56 => ⟨S1x128, .f32⟩
  | 57 => ⟨S8192x128, .f32⟩
  | 58 => ⟨S8192x128, .f32⟩
  | 59 => ⟨S1x128, .f32⟩
  | 60 => ⟨S8192x128, .f32⟩
  | 61 => ⟨S8192x128, .f32⟩
  | 62 => ⟨S8192x128, .f32⟩
  | 63 => ⟨S8192x128, .f32⟩
  | 64 => ⟨S1x128, .f32⟩
  | 65 => ⟨S8192x128, .f32⟩
  | 66 => ⟨S8192x128, .f32⟩
  | 67 => ⟨S8192x128, .f32⟩
  | 68 => ⟨S_, .f32⟩
  | 69 => ⟨S8192, .f32⟩
  | 70 => ⟨S8192x128, .f32⟩
  | 71 => ⟨S_, .f32⟩
  | 72 => ⟨S8192, .f32⟩
  | 73 => ⟨S8192, .f32⟩
  | 74 => ⟨S8192x128, .f32⟩
  | 75 => ⟨S_, .f32⟩
  | 76 => ⟨S8192, .f32⟩
  | 77 => ⟨S8192, .f32⟩
  | 78 => ⟨S8192, .f32⟩
  | 79 => ⟨S_, .f32⟩
  | 80 => ⟨S8192, .f32⟩
  | 81 => ⟨S8192, .f32⟩
  | 82 => ⟨S8192, .f32⟩
  | 83 => ⟨S_, .f32⟩
  | 84 => ⟨S_, .f32⟩
  | 85 => ⟨S_, .f32⟩
  | 86 => ⟨S_, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x128, .f32⟩
  | 96 => ⟨S8192x128, .f32⟩
  | 97 => ⟨S_, .f32⟩
  | 98 => ⟨S8192, .f32⟩
  | 99 => ⟨S8192x128, .f32⟩
  | 100 => ⟨S_, .f32⟩
  | 101 => ⟨S8192, .f32⟩
  | 102 => ⟨S8192, .f32⟩
  | 103 => ⟨S8192x128, .f32⟩
  | 104 => ⟨S_, .f32⟩
  | 105 => ⟨S8192, .f32⟩
  | 106 => ⟨S8192, .f32⟩
  | 107 => ⟨S8192, .f32⟩
  | 108 => ⟨S_, .f32⟩
  | 109 => ⟨S8192, .f32⟩
  | 110 => ⟨S8192, .f32⟩
  | 111 => ⟨S8192, .f32⟩
  | 112 => ⟨S_, .f32⟩
  | 113 => ⟨S_, .f32⟩
  | 114 => ⟨S_, .f32⟩
  | 115 => ⟨S_, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x128, .f32⟩
  | 125 => ⟨S8192x128, .f32⟩
  | 126 => ⟨S_, .f32⟩
  | 127 => ⟨S8192, .f32⟩
  | _ => ⟨S50000x128, .f32⟩

abbrev hbmTy0_2 (i : Nat) : BufTy := match i % 128 with
  | 0 => ⟨S8192x128, .f32⟩
  | 1 => ⟨S_, .f32⟩
  | 2 => ⟨S8192, .f32⟩
  | 3 => ⟨S8192, .f32⟩
  | 4 => ⟨S8192x128, .f32⟩
  | 5 => ⟨S_, .f32⟩
  | 6 => ⟨S8192, .f32⟩
  | 7 => ⟨S8192, .f32⟩
  | 8 => ⟨S8192, .f32⟩
  | 9 => ⟨S_, .f32⟩
  | 10 => ⟨S8192, .f32⟩
  | 11 => ⟨S8192, .f32⟩
  | 12 => ⟨S8192, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S8192x128, .f32⟩
  | 48 => ⟨S8192x128, .f32⟩
  | 49 => ⟨S_, .f32⟩
  | 50 => ⟨S8192x128, .f32⟩
  | 51 => ⟨S8192x128, .f32⟩
  | 52 => ⟨S8192x128, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x1, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x1, .f32⟩
  | 71 => ⟨S1000000x1, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x128, .f32⟩
  | 81 => ⟨S1000000x128, .f32⟩
  | 82 => ⟨S1000000x128, .f32⟩
  | 83 => ⟨S_, .f32⟩
  | 84 => ⟨S50000x128, .f32⟩
  | 85 => ⟨S1000000x1, .i32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S50000x128, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S_, .f32⟩
  | 112 => ⟨S50000x1, .f32⟩
  | 113 => ⟨S50000x1, .f32⟩
  | 114 => ⟨S50000x1, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_v5 : Ref sig .tc := ⟨.hbm, 44, rfl⟩
abbrev main_c_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_c_1 : Ref sig .tc := ⟨.hbm, 51, rfl⟩
abbrev main_v11 : Ref sig .tc := ⟨.hbm, 52, rfl⟩
abbrev main_v12 : Ref sig .tc := ⟨.hbm, 53, rfl⟩
abbrev main_c_2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_c_3 : Ref sig .tc := ⟨.hbm, 61, rfl⟩
abbrev main_v19 : Ref sig .tc := ⟨.hbm, 62, rfl⟩
abbrev main_v20 : Ref sig .tc := ⟨.hbm, 63, rfl⟩
abbrev main_c_4 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_call0_cst : Ref sig .tc := ⟨.hbm, 80, rfl⟩
abbrev main_call0_v0 : Ref sig .tc := ⟨.hbm, 81, rfl⟩
abbrev main_v35 : Ref sig .tc := ⟨.hbm, 82, rfl⟩
abbrev main_cst_5 : Ref sig .tc := ⟨.hbm, 83, rfl⟩
abbrev main_v36 : Ref sig .tc := ⟨.hbm, 84, rfl⟩
abbrev main_v37 : Ref sig .tc := ⟨.hbm, 85, rfl⟩
abbrev main_cst_6 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_7 : Ref sig .tc := ⟨.hbm, 92, rfl⟩
abbrev main_v43 : Ref sig .tc := ⟨.hbm, 93, rfl⟩
abbrev main_v44 : Ref sig .tc := ⟨.hbm, 94, rfl⟩
abbrev main_cst_8 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_9 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_10 : Ref sig .tc := ⟨.hbm, 122, rfl⟩
abbrev main_v70 : Ref sig .tc := ⟨.hbm, 123, rfl⟩
abbrev main_v71 : Ref sig .tc := ⟨.hbm, 124, rfl⟩
abbrev main_cst_11 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_12 : Ref sig .tc := ⟨.hbm, 131, rfl⟩
abbrev main_v77 : Ref sig .tc := ⟨.hbm, 132, rfl⟩
abbrev main_v78 : Ref sig .tc := ⟨.hbm, 133, rfl⟩
abbrev main_cst_13 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_14 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_15 : Ref sig .tc := ⟨.hbm, 161, rfl⟩
abbrev main_v104 : Ref sig .tc := ⟨.hbm, 162, rfl⟩
abbrev main_v105 : Ref sig .tc := ⟨.hbm, 163, rfl⟩
abbrev main_cst_16 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_17 : Ref sig .tc := ⟨.hbm, 170, rfl⟩
abbrev main_v111 : Ref sig .tc := ⟨.hbm, 171, rfl⟩
abbrev main_v112 : Ref sig .tc := ⟨.hbm, 172, rfl⟩
abbrev main_cst_18 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_19 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_20 : Ref sig .tc := ⟨.hbm, 196, rfl⟩
abbrev main_v134 : Ref sig .tc := ⟨.hbm, 197, rfl⟩
abbrev main_call1_v0 : Ref sig .tc := ⟨.hbm, 198, rfl⟩
abbrev main_call1_cst : Ref sig .tc := ⟨.hbm, 199, rfl⟩
abbrev main_call1_v1 : Ref sig .tc := ⟨.hbm, 200, rfl⟩
abbrev main_v135 : Ref sig .tc := ⟨.hbm, 201, rfl⟩
abbrev main_call2_v0 : Ref sig .tc := ⟨.hbm, 202, rfl⟩
abbrev main_call2_cst : Ref sig .tc := ⟨.hbm, 203, rfl⟩
abbrev main_call2_v1 : Ref sig .tc := ⟨.hbm, 204, rfl⟩
abbrev main_v136 : Ref sig .tc := ⟨.hbm, 205, rfl⟩
abbrev main_v137 : Ref sig .tc := ⟨.hbm, 206, rfl⟩
abbrev main_cst_21 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_22 : Ref sig .tc := ⟨.hbm, 211, rfl⟩
abbrev main_v141 : Ref sig .tc := ⟨.hbm, 212, rfl⟩
abbrev main_cst_23 : Ref sig .tc := ⟨.hbm, 213, rfl⟩
abbrev main_v142 : Ref sig .tc := ⟨.hbm, 214, rfl⟩
abbrev main_c_24 : Ref sig .tc := ⟨.hbm, 215, rfl⟩
abbrev main_v143 : Ref sig .tc := ⟨.hbm, 216, rfl⟩
abbrev main_v144 : Ref sig .tc := ⟨.hbm, 217, rfl⟩
abbrev main_c_25 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_cst_26 : Ref sig .tc := ⟨.hbm, 225, rfl⟩
abbrev main_v151 : Ref sig .tc := ⟨.hbm, 226, rfl⟩
abbrev main_call3_v0 : Ref sig .tc := ⟨.hbm, 227, rfl⟩
abbrev main_call3_cst : Ref sig .tc := ⟨.hbm, 228, rfl⟩
abbrev main_call3_v1 : Ref sig .tc := ⟨.hbm, 229, rfl⟩
abbrev main_v152 : Ref sig .tc := ⟨.hbm, 230, rfl⟩
abbrev main_call4_v0 : Ref sig .tc := ⟨.hbm, 231, rfl⟩
abbrev main_call4_cst : Ref sig .tc := ⟨.hbm, 232, rfl⟩
abbrev main_call4_v1 : Ref sig .tc := ⟨.hbm, 233, rfl⟩
abbrev main_v153 : Ref sig .tc := ⟨.hbm, 234, rfl⟩
abbrev main_v154 : Ref sig .tc := ⟨.hbm, 235, rfl⟩
abbrev main_cst_27 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_28 : Ref sig .tc := ⟨.hbm, 240, rfl⟩
abbrev main_v158 : Ref sig .tc := ⟨.hbm, 241, rfl⟩
abbrev main_cst_29 : Ref sig .tc := ⟨.hbm, 242, rfl⟩
abbrev main_v159 : Ref sig .tc := ⟨.hbm, 243, rfl⟩
abbrev main_c_30 : Ref sig .tc := ⟨.hbm, 244, rfl⟩
abbrev main_v160 : Ref sig .tc := ⟨.hbm, 245, rfl⟩
abbrev main_v161 : Ref sig .tc := ⟨.hbm, 246, rfl⟩
abbrev main_c_31 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_32 : Ref sig .tc := ⟨.hbm, 254, rfl⟩
abbrev main_v168 : Ref sig .tc := ⟨.hbm, 255, rfl⟩
abbrev main_call5_v0 : Ref sig .tc := ⟨.hbm, 256, rfl⟩
abbrev main_call5_cst : Ref sig .tc := ⟨.hbm, 257, rfl⟩
abbrev main_call5_v1 : Ref sig .tc := ⟨.hbm, 258, rfl⟩
abbrev main_v169 : Ref sig .tc := ⟨.hbm, 259, rfl⟩
abbrev main_call6_v0 : Ref sig .tc := ⟨.hbm, 260, rfl⟩
abbrev main_call6_cst : Ref sig .tc := ⟨.hbm, 261, rfl⟩
abbrev main_call6_v1 : Ref sig .tc := ⟨.hbm, 262, rfl⟩
abbrev main_v170 : Ref sig .tc := ⟨.hbm, 263, rfl⟩
abbrev main_v171 : Ref sig .tc := ⟨.hbm, 264, rfl⟩
abbrev main_cst_33 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_cst_34 : Ref sig .tc := ⟨.hbm, 269, rfl⟩
abbrev main_v175 : Ref sig .tc := ⟨.hbm, 270, rfl⟩
abbrev main_cst_35 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_cst_36 : Ref sig .tc := ⟨.hbm, 275, rfl⟩
abbrev main_v179 : Ref sig .tc := ⟨.hbm, 276, rfl⟩
abbrev main_cst_37 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_cst_38 : Ref sig .tc := ⟨.hbm, 283, rfl⟩
abbrev main_v185 : Ref sig .tc := ⟨.hbm, 284, rfl⟩
abbrev main_cst_39 : Ref sig .tc := ⟨.hbm, 285, rfl⟩
abbrev main_v186 : Ref sig .tc := ⟨.hbm, 286, rfl⟩
abbrev main_cst_40 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_41 : Ref sig .tc := ⟨.hbm, 293, rfl⟩
abbrev main_v192 : Ref sig .tc := ⟨.hbm, 294, rfl⟩
abbrev main_cst_42 : Ref sig .tc := ⟨.hbm, 295, rfl⟩
abbrev main_v193 : Ref sig .tc := ⟨.hbm, 296, rfl⟩
abbrev main_cst_43 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_cst_44 : Ref sig .tc := ⟨.hbm, 302, rfl⟩
abbrev main_v198 : Ref sig .tc := ⟨.hbm, 303, rfl⟩
abbrev main_v199 : Ref sig .tc := ⟨.hbm, 304, rfl⟩
abbrev main_cst_45 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_c_46 : Ref sig .tc := ⟨.hbm, 309, rfl⟩
abbrev main_v203 : Ref sig .tc := ⟨.hbm, 310, rfl⟩
abbrev main_v204 : Ref sig .tc := ⟨.hbm, 311, rfl⟩
abbrev main_c_47 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_c_48 : Ref sig .tc := ⟨.hbm, 318, rfl⟩
abbrev main_v210 : Ref sig .tc := ⟨.hbm, 319, rfl⟩
abbrev main_v211 : Ref sig .tc := ⟨.hbm, 320, rfl⟩
abbrev main_c_49 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_c_50 : Ref sig .tc := ⟨.hbm, 328, rfl⟩
abbrev main_v218 : Ref sig .tc := ⟨.hbm, 329, rfl⟩
abbrev main_v219 : Ref sig .tc := ⟨.hbm, 330, rfl⟩
abbrev main_c_51 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_cst_52 : Ref sig .tc := ⟨.hbm, 339, rfl⟩
abbrev main_v227 : Ref sig .tc := ⟨.hbm, 340, rfl⟩
abbrev main_v228 : Ref sig .tc := ⟨.hbm, 341, rfl⟩
abbrev main_v229 : Ref sig .tc := ⟨.hbm, 342, rfl⟩
abbrev main_v230 : Ref sig .tc := ⟨.hbm, 343, rfl⟩
abbrev main_v231 : Ref sig .tc := ⟨.hbm, 344, rfl⟩
abbrev main_v232 : Ref sig .tc := ⟨.hbm, 345, rfl⟩
abbrev main_v233 : Ref sig .tc := ⟨.hbm, 346, rfl⟩
abbrev main_call7_cst : Ref sig .tc := ⟨.hbm, 347, rfl⟩
abbrev main_call7_v0 : Ref sig .tc := ⟨.hbm, 348, rfl⟩
abbrev main_v234 : Ref sig .tc := ⟨.hbm, 349, rfl⟩
abbrev main_cst_53 : Ref sig .tc := ⟨.hbm, 350, rfl⟩
abbrev main_v235 : Ref sig .tc := ⟨.hbm, 351, rfl⟩
abbrev main_v236 : Ref sig .tc := ⟨.hbm, 352, rfl⟩
abbrev main_cst_54 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_cst_55 : Ref sig .tc := ⟨.hbm, 359, rfl⟩
abbrev main_v242 : Ref sig .tc := ⟨.hbm, 360, rfl⟩
abbrev main_v243 : Ref sig .tc := ⟨.hbm, 361, rfl⟩
abbrev main_cst_56 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_cst_57 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S8192x128 : S_.BroadcastsInDim S8192x128 (![] : Fin 0 → Fin S8192x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192 : S_.BroadcastsInDim S8192 (![] : Fin 0 → Fin S8192.rank)
  reducesTo_S8192_S_d0 : S8192.ReducesTo [0] S_
  bcast_S_S50000x128 : S_.BroadcastsInDim S50000x128 (![] : Fin 0 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x1_S1000000x1_S1000000x1_1_0_n_n_0_1_11_wf : GatherDims.WF S50000x1 S1000000x1 S1000000x1 [1] [0] [] [0] [] 1 ![1, 1]
  gather_S8192x1_S1000000x1_S1000000x1_1_0_n_n_0_1_11_wf : GatherDims.WF S8192x1 S1000000x1 S1000000x1 [1] [0] [] [0] [] 1 ![1, 1]
  gather_S50000x128_S1000000x1_S1000000x128_1_0_n_n_0_1_1128_wf : GatherDims.WF S50000x128 S1000000x1 S1000000x128 [1] [0] [] [0] [] 1 ![1, 128]
  scatter_S8192x128_S1000000x1_S1000000x128_1_0_0_1_wf : ScatterDims.WF S8192x128 S1000000x1 S1000000x128 [1] [0] [0] 1
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  gather_S8192x128_S8192x1_S8192x128_1_0_n_n_0_1_1128_wf : GatherDims.WF S8192x128 S8192x1 S8192x128 [1] [0] [] [0] [] 1 ![1, 128]
  gather_S8192x128_S1000000x1_S1000000x128_1_0_n_n_0_1_1128_wf : GatherDims.WF S8192x128 S1000000x1 S1000000x128 [1] [0] [] [0] [] 1 ![1, 128]
  scatter_S50000x128_S1000000x1_S1000000x128_1_0_0_1_wf : ScatterDims.WF S50000x128 S1000000x1 S1000000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x1_S1000000x1_S1000000x1_1_0_n_n_0_1_11 : GatherDims S50000x1 S1000000x1 S1000000x1 where
  offsetDims := [1]
  collapsedSliceDims := [0]
  operandBatchingDims := []
  startIndicesBatchingDims := []
  startIndexMap := [0]
  indexVectorDim := 1
  sliceSizes := ![1, 1]
  wf := gather_S50000x1_S1000000x1_S1000000x1_1_0_n_n_0_1_11_wf
def gather_S8192x1_S1000000x1_S1000000x1_1_0_n_n_0_1_11 : GatherDims S8192x1 S1000000x1 S1000000x1 where
  offsetDims := [1]
  collapsedSliceDims := [0]
  operandBatchingDims := []
  startIndicesBatchingDims := []
  startIndexMap := [0]
  indexVectorDim := 1
  sliceSizes := ![1, 1]
  wf := gather_S8192x1_S1000000x1_S1000000x1_1_0_n_n_0_1_11_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S8192x128_S1000000x1_S1000000x128_1_0_0_1 : ScatterDims S8192x128 S1000000x1 S1000000x128 where
  updateWindowDims := [1]
  insertedWindowDims := [0]
  scatterDimsToOperandDims := [0]
  indexVectorDim := 1
  wf := scatter_S8192x128_S1000000x1_S1000000x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def gather_S8192x128_S1000000x1_S1000000x128_1_0_n_n_0_1_1128 : GatherDims S8192x128 S1000000x1 S1000000x128 where
  offsetDims := [1]
  collapsedSliceDims := [0]
  operandBatchingDims := []
  startIndicesBatchingDims := []
  startIndexMap := [0]
  indexVectorDim := 1
  sliceSizes := ![1, 128]
  wf := gather_S8192x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf

class Facts : Prop extends Facts₀ where

variable [Facts]
-- ==== Proof.KbR0Runs.lean ====
/-
  Region 0 of the program (the first stage of a graph convolution: a row block of the adjacency matrix times a
  column block of the features, accumulated over the four column blocks into a scratch buffer, and on the last
  column block the small dense layer and the layer normalisation applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.Kernel.Launch
import proofs.«119995_j74062416053450_2_alg».proof.Proof.Gen.Kernel.Skeleton
import proofs.«119995_j74062416053450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the epilogue: the output block is computed and stored) is taken when it is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The staging buffers at a point, and the scratch -/

abbrev VO0 : View sig .tc .vmem S1024x128 .f32 := (Memref.whole cc0_stg6_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from one grid point to the next. -/
abbrev scM0 : Memref sig .tc .vmem S1024x128 .f32 := Memref.whole cc0_scratch0
abbrev VS0 : View sig .tc .vmem S1024x128 .f32 := (scM0).view

/-- The rest of the region's invariant: every other scoped buffer, unopened. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator split off: the accumulator at some contents, the other scoped
    buffers, the generator register. -/
theorem PhiA0_eq (c : Dev nD) :
    (Pipeline.ΦA spec0 c : sProp 𝕄)
      = iprop(iprop((∃ d, owns (c : Thread nD τ) scM0 fullShare d) ∗ restBut0 c) ∗ (∃ r, prngReg c r)) := by
  unfold Pipeline.ΦA; rw [scopedRest0_split]; simp only [scM0, owns_whole]; try rfl

end Cert.Kernel.Fr

end
-- ==== Proof.KbR0RunA.lean ====
/-
  Region 0, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KbR0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__gcn_stage1_kernel i arg2 harg2 arg3 harg3 arg4 harg4 arg5 harg5 arg6 harg6 arg7 harg7 arg8 harg8 arg9 harg9) K } := by
  refine ⟨?_, fun E K => ?run⟩
  case run =>
    simp only [cc0__gcn_stage1_kernel_eq_skeleton]; unfold cc0__gcn_stage1_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR0RunB.lean ====
/-
  Region 0, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KbR0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__gcn_stage1_kernel i arg2 harg2 arg3 harg3 arg4 harg4 arg5 harg5 arg6 harg6 arg7 harg7 arg8 harg8 arg9 harg9) K } := by
  refine ⟨?_, fun E K => ?run⟩
  case run =>
    simp only [cc0__gcn_stage1_kernel_eq_skeleton]; unfold cc0__gcn_stage1_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR0RunC.lean ====
/-
  Region 0, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KbR0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__gcn_stage1_kernel i arg2 harg2 arg3 harg3 arg4 harg4 arg5 harg5 arg6 harg6 arg7 harg7 arg8 harg8 arg9 harg9) K } := by
  refine ⟨?_, ?_, fun E K => ?run⟩
  case run =>
    simp only [cc0__gcn_stage1_kernel_eq_skeleton]; unfold cc0__gcn_stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.Kernel.Fr

end
-- ==== Proof.KbR0Body.lean ====
/-
  Region 0: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KbR0RunA
import proofs.«119995_j74062416053450_2_alg».proof.Proof.KbR0RunB
import proofs.«119995_j74062416053450_2_alg».proof.Proof.KbR0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- A placeholder for the output's staging buffer at the points where the window is idle (nothing consults it). -/
def outIdle0 : Vec F S1024x128 .f32 := VO0.read (Elt F) VO0.junk

theorem scover0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) (y : S1024x128.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1024x128.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) : Vec F S1024x128 .f32 :=
  VS0.read (Elt F) (VS0.writes (Elt F) VS0.junk (kernelRun0_A c i arg2 harg2 arg3 harg3 arg4 harg4 arg5 harg5 arg6 harg6 arg7 harg7 arg8 harg8 arg9 harg9 hc0 hc1 x0 x1).1)

theorem scover0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 xs0).1, y ∈ pc.1.set :=
  View.cover_of_tiledL (kernelRun0_B c i arg2 harg2 arg3 harg3 arg4 harg4 arg5 harg5 arg6 harg6 arg7 harg7 arg8 harg8 arg9 harg9 hc0 hc1 x0 x1 xs0).1 S1024x128.size (by sl_kernel_rfl) y

/-- What case B leaves in the accumulator: its pieces read back. -/
def sout0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) : Vec F S1024x128 .f32 :=
  VS0.read (Elt F) (VS0.writes (Elt F) VS0.junk (kernelRun0_B c i arg2 harg2 arg3 harg3 arg4 harg4 arg5 harg5 arg6 harg6 arg7 harg7 arg8 harg8 arg9 harg9 hc0 hc1 x0 x1 xs0).1)

theorem scover0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back. -/
def sout0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 arg7 harg7 arg8 harg8 arg9 harg9 hc0 hc1 x0 x1 x2 x3 x4 x5 xs0).2.1)

theorem cover0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What case C leaves in the output's staging buffer: its pieces read back. -/
def out0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VO0.read (Elt F) (VO0.writes (Elt F) VO0.junk (kernelRun0_C c i arg2 harg2 arg3 harg3 arg4 harg4 arg5 harg5 arg6 harg6 arg7 harg7 arg8 harg8 arg9 harg9 hc0 hc1 x0 x1 x2 x3 x4 x5 xs0).1)

/-! ## The accumulation over the grid -/

/-- The output's staging buffer and the accumulator after the body at position `n`. -/
def outsAt0 (c : Dev nD) : (n : ℕ) → n < cfg0.N → Vec F S1024x128 .f32 × Vec F S1024x128 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (outIdle0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (outIdle0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 4 = 0
  · by_cases h1 : t.val % 4 = 3
    · exfalso; omega
    ·
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

      ·
        rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 4 = 3
    · rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C sout0_C; (try dsimp only)
      have hz : t.val ≠ 0 := by omega
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eO, H6⟩, ⟨%es0, HS⟩⟩
      isplitl [HS Hr Hg]
      · isplitl [HS Hr]
        · isplitl [HS]
          · unfold owns; iexists _; isplitr
            swap; · iexact HS
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2)

    ·
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS, Hr⟩, Hg⟩
  isplitl [HS Hr]
  · isplitl [HS]
    · iexists _; iexact HS
    iexact Hr
  iexact Hg

end Region

end Cert.Kernel.Fr

end
-- ==== Proof.KbR1Runs.lean ====
/-
  Region 1 of the program (the second stage of a graph convolution: a row block of the adjacency matrix times a
  column block of the features, accumulated over the four column blocks into a scratch buffer, and on the last
  column block the small dense layer applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.Kernel.Launch
import proofs.«119995_j74062416053450_2_alg».proof.Proof.Gen.Kernel.Skeleton
import proofs.«119995_j74062416053450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the epilogue: the output block is computed and stored) is taken when it is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The staging buffers at a point, and the scratch -/

abbrev VO1 : View sig .tc .vmem S1024x128 .f32 := (Memref.whole cc1_stg4_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1 : Memref sig .tc .vmem S1024x128 .f32 := Memref.whole cc1_scratch0
abbrev VS1 : View sig .tc .vmem S1024x128 .f32 := (scM1).view

/-- The rest of the region's invariant: every other scoped buffer, unopened. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the accumulator split off: the accumulator at some contents, the other scoped
    buffers, the generator register. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA; rw [scopedRest1_split]; simp only [scM1, owns_whole]; try rfl

end Cert.Kernel.Fr

end
-- ==== Proof.KbR1RunA.lean ====
/-
  Region 1, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KbR1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_stage2_kernel i arg2 harg2 arg3 harg3 arg4 harg4 arg5 harg5 arg6 harg6 arg7 harg7) K } := by
  refine ⟨?_, fun E K => ?run⟩
  case run =>
    simp only [cc1__gcn_stage2_kernel_eq_skeleton]; unfold cc1__gcn_stage2_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR1RunB.lean ====
/-
  Region 1, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KbR1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_stage2_kernel i arg2 harg2 arg3 harg3 arg4 harg4 arg5 harg5 arg6 harg6 arg7 harg7) K } := by
  refine ⟨?_, fun E K => ?run⟩
  case run =>
    simp only [cc1__gcn_stage2_kernel_eq_skeleton]; unfold cc1__gcn_stage2_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR1RunC.lean ====
/-
  Region 1, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KbR1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_stage2_kernel i arg2 harg2 arg3 harg3 arg4 harg4 arg5 harg5 arg6 harg6 arg7 harg7) K } := by
  refine ⟨?_, ?_, fun E K => ?run⟩
  case run =>
    simp only [cc1__gcn_stage2_kernel_eq_skeleton]; unfold cc1__gcn_stage2_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.Fr

end
-- ==== Proof.KbR1Body.lean ====
/-
  Region 1: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KbR1RunA
import proofs.«119995_j74062416053450_2_alg».proof.Proof.KbR1RunB
import proofs.«119995_j74062416053450_2_alg».proof.Proof.KbR1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- A placeholder for the output's staging buffer at the points where the window is idle (nothing consults it). -/
def outIdle1 : Vec F S1024x128 .f32 := VO1.read (Elt F) VO1.junk

theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) (y : S1024x128.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x128.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) : Vec F S1024x128 .f32 :=
  VS1.read (Elt F) (VS1.writes (Elt F) VS1.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 xs0).1, y ∈ pc.1.set :=
  View.cover_of_tiledL (kernelRun1_B c i arg2 harg2 arg3 harg3 arg4 harg4 arg5 harg5 arg6 harg6 arg7 harg7 hc0 hc1 x0 x1 xs0).1 S1024x128.size (by sl_kernel_rfl) y

/-- What case B leaves in the accumulator: its pieces read back. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 hc0 hc1 x0 x1 xs0).1)

theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

theorem cover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What case C leaves in the output's staging buffer: its pieces read back. -/
def out1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) : Vec F S1024x128 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-! ## The accumulation over the grid -/

/-- The output's staging buffer and the accumulator after the body at position `n`. -/
def outsAt1 (c : Dev nD) : (n : ℕ) → n < cfg1.N → Vec F S1024x128 .f32 × Vec F S1024x128 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · by_cases h1 : t.val % 4 = 3
    · exfalso; omega
    ·
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS, Hr⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t))
            iexact Hr
          iexact Hg
        isplitl [Ho]; · iexact Ho
        isplitl [H0]; · iexact H0
        isplitl [H1]; · iexact H1
        isplitl [H2]; · iexact H2
        isplitl [H3]; · iexact H3
        iexists _; iexact H4

      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t))
            iexact Hr
          iexact Hg
        isplitl [Ho]; · iexact Ho
        isplitl [H0]; · iexact H0
        isplitl [H1]; · iexact H1
        isplitl [H2]; · iexact H2
        isplitl [H3]; · iexact H3
        iexists _; iexact H4

  · by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C sout1_C; (try dsimp only)
      have hz : t.val ≠ 0 := by omega
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eO, H4⟩, ⟨%es0, HS⟩⟩
      isplitl [HS Hr Hg]
      · isplitl [HS Hr]
        · isplitl [HS]
          · unfold owns; iexists _; isplitr
            swap; · iexact HS
            ipureintro; exact View.read_writes_of_cover _ _ _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)

    ·
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS, Hr⟩, Hg⟩
  isplitl [HS Hr]
  · isplitl [HS]
    · iexists _; iexact HS
    iexact Hr
  iexact Hg

end Region

end Cert.Kernel.Fr

end
-- ==== Proof.KbR2Runs.lean ====
/-
  Region 2 of the program (the first stage of a graph convolution: a row block of the adjacency matrix times a
  column block of the features, accumulated over the four column blocks into a scratch buffer, and on the last
  column block the small dense layer and the layer normalisation applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.Kernel.Launch
import proofs.«119995_j74062416053450_2_alg».proof.Proof.Gen.Kernel.Skeleton
import proofs.«119995_j74062416053450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second branch (the epilogue: the output block is computed and stored) is taken when it is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

/-! ## The staging buffers at a point, and the scratch -/

abbrev VO2 : View sig .tc .vmem S1024x128 .f32 := (Memref.whole cc2_stg6_0 : Memref sig .tc .vmem S1024x128 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
/-- The accumulator: a whole scoped buffer of the kernel's own, carried from one grid point to the next. -/
abbrev scM2 : Memref sig .tc .vmem S1024x128 .f32 := Memref.whole cc2_scratch0
abbrev VS2 : View sig .tc .vmem S1024x128 .f32 := (scM2).view

/-- The rest of the region's invariant: every other scoped buffer, unopened. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the accumulator split off: the accumulator at some contents, the other scoped
    buffers, the generator register. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; try rfl

end Cert.Kernel.Fr

end
-- ==== Proof.KbR2RunA.lean ====
/-
  Region 2, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KbR2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__gcn_stage1_kernel i arg2 harg2 arg3 harg3 arg4 harg4 arg5 harg5 arg6 harg6 arg7 harg7 arg8 harg8 arg9 harg9) K } := by
  refine ⟨?_, fun E K => ?run⟩
  case run =>
    simp only [cc2__gcn_stage1_kernel_eq_skeleton]; unfold cc2__gcn_stage1_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR2RunB.lean ====
/-
  Region 2, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KbR2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__gcn_stage1_kernel i arg2 harg2 arg3 harg3 arg4 harg4 arg5 harg5 arg6 harg6 arg7 harg7 arg8 harg8 arg9 harg9) K } := by
  refine ⟨?_, fun E K => ?run⟩
  case run =>
    simp only [cc2__gcn_stage1_kernel_eq_skeleton]; unfold cc2__gcn_stage1_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR2RunC.lean ====
/-
  Region 2, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KbR2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc2__gcn_stage1_kernel i arg2 harg2 arg3 harg3 arg4 harg4 arg5 harg5 arg6 harg6 arg7 harg7 arg8 harg8 arg9 harg9) K } := by
  refine ⟨?_, ?_, fun E K => ?run⟩
  case run =>
    simp only [cc2__gcn_stage1_kernel_eq_skeleton]; unfold cc2__gcn_stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.Kernel.Fr

end
-- ==== Proof.KbR2Body.lean ====
/-
  Region 2: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KbR2RunA
import proofs.«119995_j74062416053450_2_alg».proof.Proof.KbR2RunB
import proofs.«119995_j74062416053450_2_alg».proof.Proof.KbR2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- A placeholder for the output's staging buffer at the points where the window is idle (nothing consults it). -/
def outIdle2 : Vec F S1024x128 .f32 := VO2.read (Elt F) VO2.junk

theorem scover2_A (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) (y : S1024x128.Idx) :
    ∃ pc ∈ (kernelRun2_A c i arg2 harg2 arg3 harg3 arg4 harg4 arg5 harg5 arg6 harg6 arg7 harg7 arg8 harg8 arg9 harg9 hc0 hc1 x0 x1).1, y ∈ pc.1.set :=
  View.cover_of_tiledL (kernelRun2_A c i arg2 harg2 arg3 harg3 arg4 harg4 arg5 harg5 arg6 harg6 arg7 harg7 arg8 harg8 arg9 harg9 hc0 hc1 x0 x1).1 S1024x128.size (by sl_kernel_rfl) y

/-- What case A leaves in the accumulator: its pieces read back. -/
def sout2_A (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) : Vec F S1024x128 .f32 :=
  VS2.read (Elt F) (VS2.writes (Elt F) VS2.junk (kernelRun2_A c i arg2 harg2 arg3 harg3 arg4 harg4 arg5 harg5 arg6 harg6 arg7 harg7 arg8 harg8 arg9 harg9 hc0 hc1 x0 x1).1)

theorem scover2_B (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 xs0).1, y ∈ pc.1.set :=
  View.cover_of_tiledL (kernelRun2_B c i arg2 harg2 arg3 harg3 arg4 harg4 arg5 harg5 arg6 harg6 arg7 harg7 arg8 harg8 arg9 harg9 hc0 hc1 x0 x1 xs0).1 S1024x128.size (by sl_kernel_rfl) y

/-- What case B leaves in the accumulator: its pieces read back. -/
def sout2_B (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) : Vec F S1024x128 .f32 :=
  VS2.read (Elt F) (VS2.writes (Elt F) VS2.junk (kernelRun2_B c i arg2 harg2 arg3 harg3 arg4 harg4 arg5 harg5 arg6 harg6 arg7 harg7 arg8 harg8 arg9 harg9 hc0 hc1 x0 x1 xs0).1)

theorem scover2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back. -/
def sout2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VS2.read (Elt F) (VS2.writes (Elt F) VS2.junk (kernelRun2_C c i arg2 harg2 arg3 harg3 arg4 harg4 arg5 harg5 arg6 harg6 arg7 harg7 arg8 harg8 arg9 harg9 hc0 hc1 x0 x1 x2 x3 x4 x5 xs0).2.1)

theorem cover2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What case C leaves in the output's staging buffer: its pieces read back. -/
def out2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VO2.read (Elt F) (VO2.writes (Elt F) VO2.junk (kernelRun2_C c i arg2 harg2 arg3 harg3 arg4 harg4 arg5 harg5 arg6 harg6 arg7 harg7 arg8 harg8 arg9 harg9 hc0 hc1 x0 x1 x2 x3 x4 x5 xs0).1)

/-! ## The accumulation over the grid -/

/-- The output's staging buffer and the accumulator after the body at position `n`. -/
def outsAt2 (c : Dev nD) : (n : ℕ) → n < cfg2.N → Vec F S1024x128 .f32 × Vec F S1024x128 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (outIdle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (outIdle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 4 = 0
  · by_cases h1 : t.val % 4 = 3
    · exfalso; omega
    ·
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A; (try dsimp only)
      by_cases hz : t.val = 0
      ·
        rw [PhiS2_castSucc V c t, PhiS2_zero V c _ _ hz, PhiA2_eq]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

      ·
        rw [PhiS2_castSucc V c t, PhiS2_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 4 = 3
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C sout2_C; (try dsimp only)
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eO, H6⟩, ⟨%es0, HS⟩⟩
      isplitl [HS Hr Hg]
      · isplitl [HS Hr]
        · isplitl [HS]
          · unfold owns; iexists _; isplitr
            swap; · iexact HS
            ipureintro; exact View.read_writes_of_cover _ _ _ _ _ (scover2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2)

    ·
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B; (try dsimp only)
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS, Hr⟩, Hg⟩
  isplitl [HS Hr]
  · isplitl [HS]
    · iexists _; iexact HS
    iexact Hr
  iexact Hg

end Region

end Cert.Kernel.Fr

end
-- ==== Proof.KbR3Runs.lean ====
/-
  Region 3 of the program (the second stage of a graph convolution: a row block of the adjacency matrix times a
  column block of the features, accumulated over the four column blocks into a scratch buffer, and on the last
  column block the small dense layer applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.Kernel.Launch
import proofs.«119995_j74062416053450_2_alg».proof.Proof.Gen.Kernel.Skeleton
import proofs.«119995_j74062416053450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- The second branch (the epilogue: the output block is computed and stored) is taken when it is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
theorem idleAt3_4_B : ∀ t : Fin cfg3.N, ¬cond3_0 (grid3.coords t) → ¬cond3_1 (grid3.coords t) → cfg3.idle 4 (grid3.coords t) = true := by decide +kernel
theorem noFlush3_4_B : ∀ t : Fin cfg3.N, ¬cond3_0 (grid3.coords t) → ¬cond3_1 (grid3.coords t) → (cfg3.win 4).flush t = false := by decide +kernel
theorem liveAt3_4_C : ∀ t : Fin cfg3.N, ¬cond3_0 (grid3.coords t) → cond3_1 (grid3.coords t) → cfg3.idle 4 (grid3.coords t) = false := by decide +kernel

/-! ## The staging buffers at a point, and the scratch -/

abbrev VO3 : View sig .tc .vmem S1024x128 .f32 := (Memref.whole cc3_stg4_0 : Memref sig .tc .vmem S1024x128 .f32).view
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
/-- The accumulator: a whole scoped buffer of the kernel's own, carried from one grid point to the next. -/
abbrev scM3 : Memref sig .tc .vmem S1024x128 .f32 := Memref.whole cc3_scratch0
abbrev VS3 : View sig .tc .vmem S1024x128 .f32 := (scM3).view

/-- The rest of the region's invariant: every other scoped buffer, unopened. -/
abbrev restBut3 (c : Dev nD) : sProp 𝕄 :=
  Pipeline.scopedRestBut (Ix := Unit) (Name := ℕ) (U := UR sig nD τ) (Lvl := ℕ) (Val := Elt F) spec3 c [cc3_scratch0]

/-- The class invariant with the accumulator split off: the accumulator at some contents, the other scoped
    buffers, the generator register. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA; rw [scopedRest3_split]; simp only [scM3, owns_whole]; try rfl

end Cert.Kernel.Fr

end
-- ==== Proof.KbR3RunA.lean ====
/-
  Region 3, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KbR3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc3__gcn_stage2_kernel i arg2 harg2 arg3 harg3 arg4 harg4 arg5 harg5 arg6 harg6 arg7 harg7) K } := by
  refine ⟨?_, fun E K => ?run⟩
  case run =>
    simp only [cc3__gcn_stage2_kernel_eq_skeleton]; unfold cc3__gcn_stage2_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR3RunB.lean ====
/-
  Region 3, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KbR3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc3__gcn_stage2_kernel i arg2 harg2 arg3 harg3 arg4 harg4 arg5 harg5 arg6 harg6 arg7 harg7) K } := by
  refine ⟨?_, fun E K => ?run⟩
  case run =>
    simp only [cc3__gcn_stage2_kernel_eq_skeleton]; unfold cc3__gcn_stage2_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KbR3RunC.lean ====
/-
  Region 3, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KbR3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3__gcn_stage2_kernel i arg2 harg2 arg3 harg3 arg4 harg4 arg5 harg5 arg6 harg6 arg7 harg7) K } := by
  refine ⟨?_, ?_, fun E K => ?run⟩
  case run =>
    simp only [cc3__gcn_stage2_kernel_eq_skeleton]; unfold cc3__gcn_stage2_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.Fr

end
-- ==== Proof.KbR3Body.lean ====
/-
  Region 3: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KbR3RunA
import proofs.«119995_j74062416053450_2_alg».proof.Proof.KbR3RunB
import proofs.«119995_j74062416053450_2_alg».proof.Proof.KbR3RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

/-- A placeholder for the output's staging buffer at the points where the window is idle (nothing consults it). -/
def outIdle3 : Vec F S1024x128 .f32 := VO3.read (Elt F) VO3.junk

theorem scover3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) (y : S1024x128.Idx) :
    ∃ pc ∈ (kernelRun3_A c i arg2 harg2 arg3 harg3 arg4 harg4 arg5 harg5 arg6 harg6 arg7 harg7 hc0 hc1 x0 x1).1, y ∈ pc.1.set :=
  View.cover_of_tiledL (kernelRun3_A c i arg2 harg2 arg3 harg3 arg4 harg4 arg5 harg5 arg6 harg6 arg7 harg7 hc0 hc1 x0 x1).1 S1024x128.size (by sl_kernel_rfl) y

/-- What case A leaves in the accumulator: its pieces read back. -/
def sout3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) : Vec F S1024x128 .f32 :=
  VS3.read (Elt F) (VS3.writes (Elt F) VS3.junk (kernelRun3_A c i arg2 harg2 arg3 harg3 arg4 harg4 arg5 harg5 arg6 harg6 arg7 harg7 hc0 hc1 x0 x1).1)

theorem scover3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) (y : S1024x128.Idx) :
    ∃ pc ∈ (kernelRun3_B c i arg2 harg2 arg3 harg3 arg4 harg4 arg5 harg5 arg6 harg6 arg7 harg7 hc0 hc1 x0 x1 xs0).1, y ∈ pc.1.set :=
  View.cover_of_tiledL (kernelRun3_B c i arg2 harg2 arg3 harg3 arg4 harg4 arg5 harg5 arg6 harg6 arg7 harg7 hc0 hc1 x0 x1 xs0).1 S1024x128.size (by sl_kernel_rfl) y

/-- What case B leaves in the accumulator: its pieces read back. -/
def sout3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) : Vec F S1024x128 .f32 :=
  VS3.read (Elt F) (VS3.writes (Elt F) VS3.junk (kernelRun3_B c i arg2 harg2 arg3 harg3 arg4 harg4 arg5 harg5 arg6 harg6 arg7 harg7 hc0 hc1 x0 x1 xs0).1)

theorem scover3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) : Vec F S1024x128 .f32 :=
  VS3.read (Elt F) (VS3.writes (Elt F) VS3.junk (kernelRun3_C c i arg2 harg2 arg3 harg3 arg4 harg4 arg5 harg5 arg6 harg6 arg7 harg7 hc0 hc1 x0 x1 x2 x3 xs0).2.1)

theorem cover3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S1024x128.size (by sl_kernel_rfl) y

/-- What case C leaves in the output's staging buffer: its pieces read back. -/
def out3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) : Vec F S1024x128 .f32 :=
  VO3.read (Elt F) (VO3.writes (Elt F) VO3.junk (kernelRun3_C c i arg2 harg2 arg3 harg3 arg4 harg4 arg5 harg5 arg6 harg6 arg7 harg7 hc0 hc1 x0 x1 x2 x3 xs0).1)

/-! ## The accumulation over the grid -/

/-- The output's staging buffer and the accumulator after the body at position `n`. -/
def outsAt3 (c : Dev nD) : (n : ℕ) → n < cfg3.N → Vec F S1024x128 .f32 × Vec F S1024x128 .f32
  | 0, hn => (outIdle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (outIdle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (outIdle3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (outIdle3, sout3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (outIdle3, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ restBut3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val % 4 = 0
  · by_cases h1 : t.val % 4 = 3
    · exfalso; omega
    ·
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      unfold sout3_A; (try dsimp only)
      by_cases hz : t.val = 0
      ·
        rw [PhiS3_castSucc V c t, PhiS3_zero V c _ _ hz, PhiA3_eq]
        iintro ⟨⟨⟨HS, Hr⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t))
            iexact Hr
          iexact Hg
        isplitl [Ho]; · iexact Ho
        isplitl [H0]; · iexact H0
        isplitl [H1]; · iexact H1
        isplitl [H2]; · iexact H2
        isplitl [H3]; · iexact H3
        iexists _; iexact H4

      ·
        rw [PhiS3_castSucc V c t, PhiS3_pos V c _ _ hz]
        iintro ⟨⟨⟨HS, Hr⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t))
            iexact Hr
          iexact Hg
        isplitl [Ho]; · iexact Ho
        isplitl [H0]; · iexact H0
        isplitl [H1]; · iexact H1
        isplitl [H2]; · iexact H2
        isplitl [H3]; · iexact H3
        iexists _; iexact H4

  · by_cases h1 : t.val % 4 = 3
    · rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      unfold out3_C sout3_C; (try dsimp only)
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eO, H4⟩, ⟨%es0, HS⟩⟩
      isplitl [HS Hr Hg]
      · isplitl [HS Hr]
        · isplitl [HS]
          · unfold owns; iexists _; isplitr
            swap; · iexact HS
            ipureintro; exact View.read_writes_of_cover _ _ _ _ _ (scover3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2)

    ·
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      unfold sout3_B; (try dsimp only)
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 32 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS, Hr⟩, Hg⟩
  isplitl [HS Hr]
  · isplitl [HS]
    · iexists _; iexact HS
    iexact Hr
  iexact Hg

end Region

end Cert.Kernel.Fr

end
-- ==== Proof.KbFrame.lean ====
/-
  The run of the whole program: the buffers' contents at each boundary between a stretch of host operations and
  a kernel region, as a fold from the launch memory (a stretch applies its operations; a region leaves its arrays
  at what its write-backs produce and every other buffer as it was); that no argument array is ever written
  (no host operation's result buffer is an argument, and a region only reads the one argument it stages); the four
  regions as segments over the thread state "every unscoped buffer at the boundary's contents"; and the run: every
  weakly fair execution terminates, nothing faults, and every unscoped buffer ends at the last boundary's contents.
-/
import proofs.«119995_j74062416053450_2_alg».proof.Proof.KbR0Body
import proofs.«119995_j74062416053450_2_alg».proof.Proof.KbR1Body
import proofs.«119995_j74062416053450_2_alg».proof.Proof.KbR2Body
import proofs.«119995_j74062416053450_2_alg».proof.Proof.KbR3Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

/-! ## The arguments are never written

An argument array is one of the first 38 buffers; every host operation writes its own result buffer, a later one. -/

theorem keeps0 (b : Ref sig .tc) (hb : b.idx.val < 38) :
    ∀ op ∈ (hostOps0 : List (HloOp τ sig (Elt F))), Proc.devRef .tc b ∉ op.writes :=
  List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps1 (b : Ref sig .tc) (hb : b.idx.val < 38) :
    ∀ op ∈ (hostOps1 : List (HloOp τ sig (Elt F))), Proc.devRef .tc b ∉ op.writes :=
  List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps2 (b : Ref sig .tc) (hb : b.idx.val < 38) :
    ∀ op ∈ (hostOps2 : List (HloOp τ sig (Elt F))), Proc.devRef .tc b ∉ op.writes :=
  List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps3 (b : Ref sig .tc) (hb : b.idx.val < 38) :
    ∀ op ∈ (hostOps3 : List (HloOp τ sig (Elt F))), Proc.devRef .tc b ∉ op.writes :=
  List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps4 (b : Ref sig .tc) (hb : b.idx.val < 38) :
    ∀ op ∈ (hostOps4 : List (HloOp τ sig (Elt F))), Proc.devRef .tc b ∉ op.writes :=
  List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

/-- Region 0 reads the one argument it stages and writes none. -/
theorem W2_arg (c : Dev nD) (b : Ref sig .tc) (hb : b.idx.val < 38) :
    W2 m ρ c (Proc.devRef .tc b) = W1 m ρ c (Proc.devRef .tc b) := by
  by_cases h6 : b = main_arg6
  · subst h6
    exact (W2_arr m ρ c 0).trans (((dat0 (V1 m ρ) c).arrAt_in 0 rfl _).trans (A_eq0 (V1 m ρ) c 0))
  · refine W2_of_ne m ρ c b fun w e => ?_
    fin_cases w
    · exact h6 e.symm
    all_goals (subst e; exact absurd hb (by decide))

/-- Region 1 reads the one argument it stages and writes none. -/
theorem W4_arg (c : Dev nD) (b : Ref sig .tc) (hb : b.idx.val < 38) :
    W4 m ρ c (Proc.devRef .tc b) = W3 m ρ c (Proc.devRef .tc b) := by
  by_cases h6 : b = main_arg6
  · subst h6
    exact (W4_arr m ρ c 0).trans (((dat1 (V3 m ρ) c).arrAt_in 0 rfl _).trans (A_eq1 (V3 m ρ) c 0))
  · refine W4_of_ne m ρ c b fun w e => ?_
    fin_cases w
    · exact h6 e.symm
    all_goals (subst e; exact absurd hb (by decide))

/-- Region 2 reads the one argument it stages and writes none. -/
theorem W6_arg (c : Dev nD) (b : Ref sig .tc) (hb : b.idx.val < 38) :
    W6 m ρ c (Proc.devRef .tc b) = W5 m ρ c (Proc.devRef .tc b) := by
  by_cases h6 : b = main_arg7
  · subst h6
    exact (W6_arr m ρ c 0).trans (((dat2 (V5 m ρ) c).arrAt_in 0 rfl _).trans (A_eq2 (V5 m ρ) c 0))
  · refine W6_of_ne m ρ c b fun w e => ?_
    fin_cases w
    · exact h6 e.symm
    all_goals (subst e; exact absurd hb (by decide))

/-- Region 3 reads the one argument it stages and writes none. -/
theorem W8_arg (c : Dev nD) (b : Ref sig .tc) (hb : b.idx.val < 38) :
    W8 m ρ c (Proc.devRef .tc b) = W7 m ρ c (Proc.devRef .tc b) := by
  by_cases h6 : b = main_arg7
  · subst h6
    exact (W8_arr m ρ c 0).trans (((dat3 (V7 m ρ) c).arrAt_in 0 rfl _).trans (A_eq3 (V7 m ρ) c 0))
  · refine W8_of_ne m ρ c b fun w e => ?_
    fin_cases w
    · exact h6 e.symm
    all_goals (subst e; exact absurd hb (by decide))

/-- An argument array ends as launched. -/
theorem W9_arg (c : Dev nD) (b : Ref sig .tc) (hb : b.idx.val < 38) :
    W9 m ρ c (Proc.devRef .tc b) = m ((c : Thread nD τ).loc b) :=
  calc W9 m ρ c (Proc.devRef .tc b)
    _ = W8 m ρ c (Proc.devRef .tc b) := StableHlo.after_of_forall_not_mem (b := Proc.devRef .tc b) _ _ (keeps4 b hb)
    _ = W7 m ρ c (Proc.devRef .tc b) := W8_arg m ρ c b hb
    _ = W6 m ρ c (Proc.devRef .tc b) := StableHlo.after_of_forall_not_mem (b := Proc.devRef .tc b) _ _ (keeps3 b hb)
    _ = W5 m ρ c (Proc.devRef .tc b) := W6_arg m ρ c b hb
    _ = W4 m ρ c (Proc.devRef .tc b) := StableHlo.after_of_forall_not_mem (b := Proc.devRef .tc b) _ _ (keeps2 b hb)
    _ = W3 m ρ c (Proc.devRef .tc b) := W4_arg m ρ c b hb
    _ = W2 m ρ c (Proc.devRef .tc b) := StableHlo.after_of_forall_not_mem (b := Proc.devRef .tc b) _ _ (keeps1 b hb)
    _ = W1 m ρ c (Proc.devRef .tc b) := W2_arg m ρ c b hb
    _ = W0 m ρ c (Proc.devRef .tc b) := StableHlo.after_of_forall_not_mem (b := Proc.devRef .tc b) _ _ (keeps0 b hb)
    _ = m ((c : Thread nD τ).loc b) := rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: its arrays split out of the unscoped buffers and put back at the exit
    contents; the generator register and the scoped buffers into the region's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit
    contents; the generator register and the scoped buffers into the region's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit
    contents; the generator register and the scoped buffers into the region's invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers and put back at the exit
    contents; the generator register and the scoped buffers into the region's invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option maxRecDepth 65536 in
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m ρ c) ∗ iprop((∃ r, prngReg c r) ∗ ∃ W, owes (c : Thread nD τ) (0 : CellTallies nD τ sig Unit) W))
          ⊢ iprop(iprop(StableHlo.held (c : Thread nD τ) (Pipeline.ucRefs τ sig) (W9 m ρ c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- An argument array's buffer is unscoped, so the run's post speaks of it; it ends as launched. -/
theorem arg_kept {r : PUnit × MemSt nD τ sig (Elt F)} (h : ∀ c : Dev nD, ∀ b ∈ Pipeline.ucRefs τ sig, r.2.mem (((c : Thread nD τ)).1, b) = W9 m ρ c b)
    (c : Dev nD) (b : Ref sig .tc) (hs : ¬ (Proc.devRef .tc b : DevRef τ sig).isScoped) (hb : b.idx.val < 38) :
    r.2.mem ((c.tc : Thread nD τ).loc b) = m ((c.tc : Thread nD τ).loc b) :=
  (h c _ (mem_uc b hs)).trans (W9_arg m ρ c b hb)

end Cert.Kernel.Fr

end
-- ==== Proof.KiR0Runs.lean ====
/-
  Region 0 of the program (the first stage of a graph convolution: a row block of the adjacency matrix times a
  column block of the features, accumulated over the four column blocks into a scratch buffer, and on the last
  column block the small dense layer and the layer normalisation applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.KernelIdeal.Launch
import proofs.«119995_j74062416053450_2_alg».proof.Proof.Gen.KernelIdeal.Skeleton
import proofs.«119995_j74062416053450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the epilogue: the output block is computed and stored) is taken when it is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The staging buffers at a point, and the scratch -/

abbrev VO0 : View sig .tc .vmem S1024x128 .f32 := (Memref.whole cc0_stg6_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from one grid point to the next. -/
abbrev scM0 : Memref sig .tc .vmem S1024x128 .f32 := Memref.whole cc0_scratch0
abbrev VS0 : View sig .tc .vmem S1024x128 .f32 := (scM0).view

/-- The rest of the region's invariant: every other scoped buffer, unopened. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator split off: the accumulator at some contents, the other scoped
    buffers, the generator register. -/
theorem PhiA0_eq (c : Dev nD) :
    (Pipeline.ΦA spec0 c : sProp 𝕄)
      = iprop(iprop((∃ d, owns (c : Thread nD τ) scM0 fullShare d) ∗ restBut0 c) ∗ (∃ r, prngReg c r)) := by
  unfold Pipeline.ΦA; rw [scopedRest0_split]; simp only [scM0, owns_whole]; try rfl

end Cert.KernelIdeal.Fr

end
-- ==== Proof.KiR0RunA.lean ====
/-
  Region 0, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KiR0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__gcn_stage1_kernel i arg2 harg2 arg3 harg3 arg4 harg4 arg5 harg5 arg6 harg6 arg7 harg7 arg8 harg8 arg9 harg9) K } := by
  refine ⟨?_, fun E K => ?run⟩
  case run =>
    simp only [cc0__gcn_stage1_kernel_eq_skeleton]; unfold cc0__gcn_stage1_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR0RunB.lean ====
/-
  Region 0, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KiR0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__gcn_stage1_kernel i arg2 harg2 arg3 harg3 arg4 harg4 arg5 harg5 arg6 harg6 arg7 harg7 arg8 harg8 arg9 harg9) K } := by
  refine ⟨?_, fun E K => ?run⟩
  case run =>
    simp only [cc0__gcn_stage1_kernel_eq_skeleton]; unfold cc0__gcn_stage1_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR0RunC.lean ====
/-
  Region 0, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KiR0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__gcn_stage1_kernel i arg2 harg2 arg3 harg3 arg4 harg4 arg5 harg5 arg6 harg6 arg7 harg7 arg8 harg8 arg9 harg9) K } := by
  refine ⟨?_, ?_, fun E K => ?run⟩
  case run =>
    simp only [cc0__gcn_stage1_kernel_eq_skeleton]; unfold cc0__gcn_stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.KernelIdeal.Fr

end
-- ==== Proof.KiR0Body.lean ====
/-
  Region 0: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KiR0RunA
import proofs.«119995_j74062416053450_2_alg».proof.Proof.KiR0RunB
import proofs.«119995_j74062416053450_2_alg».proof.Proof.KiR0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- A placeholder for the output's staging buffer at the points where the window is idle (nothing consults it). -/
def outIdle0 : Vec F S1024x128 .f32 := VO0.read (Elt F) VO0.junk

theorem scover0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) (y : S1024x128.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1024x128.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) : Vec F S1024x128 .f32 :=
  VS0.read (Elt F) (VS0.writes (Elt F) VS0.junk (kernelRun0_A c i arg2 harg2 arg3 harg3 arg4 harg4 arg5 harg5 arg6 harg6 arg7 harg7 arg8 harg8 arg9 harg9 hc0 hc1 x0 x1).1)

theorem scover0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 xs0).1, y ∈ pc.1.set :=
  View.cover_of_tiledL (kernelRun0_B c i arg2 harg2 arg3 harg3 arg4 harg4 arg5 harg5 arg6 harg6 arg7 harg7 arg8 harg8 arg9 harg9 hc0 hc1 x0 x1 xs0).1 S1024x128.size (by sl_kernel_rfl) y

/-- What case B leaves in the accumulator: its pieces read back. -/
def sout0_B (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) : Vec F S1024x128 .f32 :=
  VS0.read (Elt F) (VS0.writes (Elt F) VS0.junk (kernelRun0_B c i arg2 harg2 arg3 harg3 arg4 harg4 arg5 harg5 arg6 harg6 arg7 harg7 arg8 harg8 arg9 harg9 hc0 hc1 x0 x1 xs0).1)

theorem scover0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back. -/
def sout0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 arg7 harg7 arg8 harg8 arg9 harg9 hc0 hc1 x0 x1 x2 x3 x4 x5 xs0).2.1)

theorem cover0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What case C leaves in the output's staging buffer: its pieces read back. -/
def out0_C (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VO0.read (Elt F) (VO0.writes (Elt F) VO0.junk (kernelRun0_C c i arg2 harg2 arg3 harg3 arg4 harg4 arg5 harg5 arg6 harg6 arg7 harg7 arg8 harg8 arg9 harg9 hc0 hc1 x0 x1 x2 x3 x4 x5 xs0).1)

/-! ## The accumulation over the grid -/

/-- The output's staging buffer and the accumulator after the body at position `n`. -/
def outsAt0 (c : Dev nD) : (n : ℕ) → n < cfg0.N → Vec F S1024x128 .f32 × Vec F S1024x128 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (outIdle0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (outIdle0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 4 = 0
  · by_cases h1 : t.val % 4 = 3
    · exfalso; omega
    ·
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

      ·
        rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 4 = 3
    · rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C sout0_C; (try dsimp only)
      have hz : t.val ≠ 0 := by omega
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eO, H6⟩, ⟨%es0, HS⟩⟩
      isplitl [HS Hr Hg]
      · isplitl [HS Hr]
        · isplitl [HS]
          · unfold owns; iexists _; isplitr
            swap; · iexact HS
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2)

    ·
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS, Hr⟩, Hg⟩
  isplitl [HS Hr]
  · isplitl [HS]
    · iexists _; iexact HS
    iexact Hr
  iexact Hg

end Region

end Cert.KernelIdeal.Fr

end
-- ==== Proof.KiR1Runs.lean ====
/-
  Region 1 of the program (the second stage of a graph convolution: a row block of the adjacency matrix times a
  column block of the features, accumulated over the four column blocks into a scratch buffer, and on the last
  column block the small dense layer applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.KernelIdeal.Launch
import proofs.«119995_j74062416053450_2_alg».proof.Proof.Gen.KernelIdeal.Skeleton
import proofs.«119995_j74062416053450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the epilogue: the output block is computed and stored) is taken when it is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The staging buffers at a point, and the scratch -/

abbrev VO1 : View sig .tc .vmem S1024x128 .f32 := (Memref.whole cc1_stg4_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1 : Memref sig .tc .vmem S1024x128 .f32 := Memref.whole cc1_scratch0
abbrev VS1 : View sig .tc .vmem S1024x128 .f32 := (scM1).view

/-- The rest of the region's invariant: every other scoped buffer, unopened. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the accumulator split off: the accumulator at some contents, the other scoped
    buffers, the generator register. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA; rw [scopedRest1_split]; simp only [scM1, owns_whole]; try rfl

end Cert.KernelIdeal.Fr

end
-- ==== Proof.KiR1RunA.lean ====
/-
  Region 1, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KiR1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_stage2_kernel i arg2 harg2 arg3 harg3 arg4 harg4 arg5 harg5 arg6 harg6 arg7 harg7) K } := by
  refine ⟨?_, fun E K => ?run⟩
  case run =>
    simp only [cc1__gcn_stage2_kernel_eq_skeleton]; unfold cc1__gcn_stage2_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR1RunB.lean ====
/-
  Region 1, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KiR1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_stage2_kernel i arg2 harg2 arg3 harg3 arg4 harg4 arg5 harg5 arg6 harg6 arg7 harg7) K } := by
  refine ⟨?_, fun E K => ?run⟩
  case run =>
    simp only [cc1__gcn_stage2_kernel_eq_skeleton]; unfold cc1__gcn_stage2_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR1RunC.lean ====
/-
  Region 1, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KiR1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_stage2_kernel i arg2 harg2 arg3 harg3 arg4 harg4 arg5 harg5 arg6 harg6 arg7 harg7) K } := by
  refine ⟨?_, ?_, fun E K => ?run⟩
  case run =>
    simp only [cc1__gcn_stage2_kernel_eq_skeleton]; unfold cc1__gcn_stage2_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.Fr

end
-- ==== Proof.KiR1Body.lean ====
/-
  Region 1: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KiR1RunA
import proofs.«119995_j74062416053450_2_alg».proof.Proof.KiR1RunB
import proofs.«119995_j74062416053450_2_alg».proof.Proof.KiR1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- A placeholder for the output's staging buffer at the points where the window is idle (nothing consults it). -/
def outIdle1 : Vec F S1024x128 .f32 := VO1.read (Elt F) VO1.junk

theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) (y : S1024x128.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S1024x128.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) : Vec F S1024x128 .f32 :=
  VS1.read (Elt F) (VS1.writes (Elt F) VS1.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 xs0).1, y ∈ pc.1.set :=
  View.cover_of_tiledL (kernelRun1_B c i arg2 harg2 arg3 harg3 arg4 harg4 arg5 harg5 arg6 harg6 arg7 harg7 hc0 hc1 x0 x1 xs0).1 S1024x128.size (by sl_kernel_rfl) y

/-- What case B leaves in the accumulator: its pieces read back. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 hc0 hc1 x0 x1 xs0).1)

theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

theorem cover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What case C leaves in the output's staging buffer: its pieces read back. -/
def out1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) : Vec F S1024x128 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-! ## The accumulation over the grid -/

/-- The output's staging buffer and the accumulator after the body at position `n`. -/
def outsAt1 (c : Dev nD) : (n : ℕ) → n < cfg1.N → Vec F S1024x128 .f32 × Vec F S1024x128 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · by_cases h1 : t.val % 4 = 3
    · exfalso; omega
    ·
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS, Hr⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t))
            iexact Hr
          iexact Hg
        isplitl [Ho]; · iexact Ho
        isplitl [H0]; · iexact H0
        isplitl [H1]; · iexact H1
        isplitl [H2]; · iexact H2
        isplitl [H3]; · iexact H3
        iexists _; iexact H4

      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t))
            iexact Hr
          iexact Hg
        isplitl [Ho]; · iexact Ho
        isplitl [H0]; · iexact H0
        isplitl [H1]; · iexact H1
        isplitl [H2]; · iexact H2
        isplitl [H3]; · iexact H3
        iexists _; iexact H4

  · by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C sout1_C; (try dsimp only)
      have hz : t.val ≠ 0 := by omega
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eO, H4⟩, ⟨%es0, HS⟩⟩
      isplitl [HS Hr Hg]
      · isplitl [HS Hr]
        · isplitl [HS]
          · unfold owns; iexists _; isplitr
            swap; · iexact HS
            ipureintro; exact View.read_writes_of_cover _ _ _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)

    ·
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS, Hr⟩, Hg⟩
  isplitl [HS Hr]
  · isplitl [HS]
    · iexists _; iexact HS
    iexact Hr
  iexact Hg

end Region

end Cert.KernelIdeal.Fr

end
-- ==== Proof.KiR2Runs.lean ====
/-
  Region 2 of the program (the first stage of a graph convolution: a row block of the adjacency matrix times a
  column block of the features, accumulated over the four column blocks into a scratch buffer, and on the last
  column block the small dense layer and the layer normalisation applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.KernelIdeal.Launch
import proofs.«119995_j74062416053450_2_alg».proof.Proof.Gen.KernelIdeal.Skeleton
import proofs.«119995_j74062416053450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second branch (the epilogue: the output block is computed and stored) is taken when it is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

/-! ## The staging buffers at a point, and the scratch -/

abbrev VO2 : View sig .tc .vmem S1024x128 .f32 := (Memref.whole cc2_stg6_0 : Memref sig .tc .vmem S1024x128 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
/-- The accumulator: a whole scoped buffer of the kernel's own, carried from one grid point to the next. -/
abbrev scM2 : Memref sig .tc .vmem S1024x128 .f32 := Memref.whole cc2_scratch0
abbrev VS2 : View sig .tc .vmem S1024x128 .f32 := (scM2).view

/-- The rest of the region's invariant: every other scoped buffer, unopened. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the accumulator split off: the accumulator at some contents, the other scoped
    buffers, the generator register. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; try rfl

end Cert.KernelIdeal.Fr

end
-- ==== Proof.KiR2RunA.lean ====
/-
  Region 2, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KiR2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__gcn_stage1_kernel i arg2 harg2 arg3 harg3 arg4 harg4 arg5 harg5 arg6 harg6 arg7 harg7 arg8 harg8 arg9 harg9) K } := by
  refine ⟨?_, fun E K => ?run⟩
  case run =>
    simp only [cc2__gcn_stage1_kernel_eq_skeleton]; unfold cc2__gcn_stage1_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR2RunB.lean ====
/-
  Region 2, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KiR2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__gcn_stage1_kernel i arg2 harg2 arg3 harg3 arg4 harg4 arg5 harg5 arg6 harg6 arg7 harg7 arg8 harg8 arg9 harg9) K } := by
  refine ⟨?_, fun E K => ?run⟩
  case run =>
    simp only [cc2__gcn_stage1_kernel_eq_skeleton]; unfold cc2__gcn_stage1_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR2RunC.lean ====
/-
  Region 2, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KiR2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc2__gcn_stage1_kernel i arg2 harg2 arg3 harg3 arg4 harg4 arg5 harg5 arg6 harg6 arg7 harg7 arg8 harg8 arg9 harg9) K } := by
  refine ⟨?_, ?_, fun E K => ?run⟩
  case run =>
    simp only [cc2__gcn_stage1_kernel_eq_skeleton]; unfold cc2__gcn_stage1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.KernelIdeal.Fr

end
-- ==== Proof.KiR2Body.lean ====
/-
  Region 2: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KiR2RunA
import proofs.«119995_j74062416053450_2_alg».proof.Proof.KiR2RunB
import proofs.«119995_j74062416053450_2_alg».proof.Proof.KiR2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- A placeholder for the output's staging buffer at the points where the window is idle (nothing consults it). -/
def outIdle2 : Vec F S1024x128 .f32 := VO2.read (Elt F) VO2.junk

theorem scover2_A (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) (y : S1024x128.Idx) :
    ∃ pc ∈ (kernelRun2_A c i arg2 harg2 arg3 harg3 arg4 harg4 arg5 harg5 arg6 harg6 arg7 harg7 arg8 harg8 arg9 harg9 hc0 hc1 x0 x1).1, y ∈ pc.1.set :=
  View.cover_of_tiledL (kernelRun2_A c i arg2 harg2 arg3 harg3 arg4 harg4 arg5 harg5 arg6 harg6 arg7 harg7 arg8 harg8 arg9 harg9 hc0 hc1 x0 x1).1 S1024x128.size (by sl_kernel_rfl) y

/-- What case A leaves in the accumulator: its pieces read back. -/
def sout2_A (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) : Vec F S1024x128 .f32 :=
  VS2.read (Elt F) (VS2.writes (Elt F) VS2.junk (kernelRun2_A c i arg2 harg2 arg3 harg3 arg4 harg4 arg5 harg5 arg6 harg6 arg7 harg7 arg8 harg8 arg9 harg9 hc0 hc1 x0 x1).1)

theorem scover2_B (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 xs0).1, y ∈ pc.1.set :=
  View.cover_of_tiledL (kernelRun2_B c i arg2 harg2 arg3 harg3 arg4 harg4 arg5 harg5 arg6 harg6 arg7 harg7 arg8 harg8 arg9 harg9 hc0 hc1 x0 x1 xs0).1 S1024x128.size (by sl_kernel_rfl) y

/-- What case B leaves in the accumulator: its pieces read back. -/
def sout2_B (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) : Vec F S1024x128 .f32 :=
  VS2.read (Elt F) (VS2.writes (Elt F) VS2.junk (kernelRun2_B c i arg2 harg2 arg3 harg3 arg4 harg4 arg5 harg5 arg6 harg6 arg7 harg7 arg8 harg8 arg9 harg9 hc0 hc1 x0 x1 xs0).1)

theorem scover2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back. -/
def sout2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VS2.read (Elt F) (VS2.writes (Elt F) VS2.junk (kernelRun2_C c i arg2 harg2 arg3 harg3 arg4 harg4 arg5 harg5 arg6 harg6 arg7 harg7 arg8 harg8 arg9 harg9 hc0 hc1 x0 x1 x2 x3 x4 x5 xs0).2.1)

theorem cover2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What case C leaves in the output's staging buffer: its pieces read back. -/
def out2_C (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) : Vec F S1024x128 .f32 :=
  VO2.read (Elt F) (VO2.writes (Elt F) VO2.junk (kernelRun2_C c i arg2 harg2 arg3 harg3 arg4 harg4 arg5 harg5 arg6 harg6 arg7 harg7 arg8 harg8 arg9 harg9 hc0 hc1 x0 x1 x2 x3 x4 x5 xs0).1)

/-! ## The accumulation over the grid -/

/-- The output's staging buffer and the accumulator after the body at position `n`. -/
def outsAt2 (c : Dev nD) : (n : ℕ) → n < cfg2.N → Vec F S1024x128 .f32 × Vec F S1024x128 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (outIdle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (outIdle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 4 = 0
  · by_cases h1 : t.val % 4 = 3
    · exfalso; omega
    ·
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A; (try dsimp only)
      by_cases hz : t.val = 0
      ·
        rw [PhiS2_castSucc V c t, PhiS2_zero V c _ _ hz, PhiA2_eq]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

      ·
        rw [PhiS2_castSucc V c t, PhiS2_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 4 = 3
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C sout2_C; (try dsimp only)
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eO, H6⟩, ⟨%es0, HS⟩⟩
      isplitl [HS Hr Hg]
      · isplitl [HS Hr]
        · isplitl [HS]
          · unfold owns; iexists _; isplitr
            swap; · iexact HS
            ipureintro; exact View.read_writes_of_cover _ _ _ _ _ (scover2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2)

    ·
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B; (try dsimp only)
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS, Hr⟩, Hg⟩
  isplitl [HS Hr]
  · isplitl [HS]
    · iexists _; iexact HS
    iexact Hr
  iexact Hg

end Region

end Cert.KernelIdeal.Fr

end
-- ==== Proof.KiR3Runs.lean ====
/-
  Region 3 of the program (the second stage of a graph convolution: a row block of the adjacency matrix times a
  column block of the features, accumulated over the four column blocks into a scratch buffer, and on the last
  column block the small dense layer applied to the accumulated block). What the three control cases of
  the body share: the two branch conditions as functions of the grid position and their closed forms over the
  32 grid points (the position's column coordinate is its index modulo 4), where the output window is idle, the
  staging buffers at a point, and the region's invariant with the accumulator scratch split off.
-/
import proofs.«119995_j74062416053450_2_alg».proof.Proof.Gen.KernelIdeal.Launch
import proofs.«119995_j74062416053450_2_alg».proof.Proof.Gen.KernelIdeal.Skeleton
import proofs.«119995_j74062416053450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the accumulator is reset) is taken when the column-block coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- The second branch (the epilogue: the output block is computed and stored) is taken when it is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
theorem idleAt3_4_B : ∀ t : Fin cfg3.N, ¬cond3_0 (grid3.coords t) → ¬cond3_1 (grid3.coords t) → cfg3.idle 4 (grid3.coords t) = true := by decide +kernel
theorem noFlush3_4_B : ∀ t : Fin cfg3.N, ¬cond3_0 (grid3.coords t) → ¬cond3_1 (grid3.coords t) → (cfg3.win 4).flush t = false := by decide +kernel
theorem liveAt3_4_C : ∀ t : Fin cfg3.N, ¬cond3_0 (grid3.coords t) → cond3_1 (grid3.coords t) → cfg3.idle 4 (grid3.coords t) = false := by decide +kernel

/-! ## The staging buffers at a point, and the scratch -/

abbrev VO3 : View sig .tc .vmem S1024x128 .f32 := (Memref.whole cc3_stg4_0 : Memref sig .tc .vmem S1024x128 .f32).view
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
/-- The accumulator: a whole scoped buffer of the kernel's own, carried from one grid point to the next. -/
abbrev scM3 : Memref sig .tc .vmem S1024x128 .f32 := Memref.whole cc3_scratch0
abbrev VS3 : View sig .tc .vmem S1024x128 .f32 := (scM3).view

/-- The rest of the region's invariant: every other scoped buffer, unopened. -/
abbrev restBut3 (c : Dev nD) : sProp 𝕄 :=
  Pipeline.scopedRestBut (Ix := Unit) (Name := ℕ) (U := UR sig nD τ) (Lvl := ℕ) (Val := Elt F) spec3 c [cc3_scratch0]

/-- The class invariant with the accumulator split off: the accumulator at some contents, the other scoped
    buffers, the generator register. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA; rw [scopedRest3_split]; simp only [scM3, owns_whole]; try rfl

end Cert.KernelIdeal.Fr

end
-- ==== Proof.KiR3RunA.lean ====
/-
  Region 3, the body's run in the control case where the accumulator is reset and the first column block's product is added:
  from the staging buffers of the windows the case reads held at their blocks (and the accumulator at anything),
  the body runs to its end and hands every buffer back, the accumulator with
  the pieces its stores wrote (found by the run itself).
-/
import proofs.«119995_j74062416053450_2_alg».proof.Proof.KiR3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc3__gcn_stage2_kernel i arg2 harg2 arg3 harg3 arg4 harg4 arg5 harg5 arg6 harg6 arg7 harg7) K } := by
  refine ⟨?_, fun E K => ?run⟩
  case run =>
    simp only [cc3__gcn_stage2_kernel_eq_skeleton]; unfold cc3__gcn_stage2_kernel_skel
    unfold owns
    iintro ⟨⟨%f0, %hf0, H0⟩, ⟨%f1, %hf1, H1⟩, ⟨%ds0, %fs0, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR3RunB.lean ====
/-
  Region 3, the body's run in the control case where a middle column block's product is added to the accumulator:
  from the staging buffers of the windows the case reads held at their blocks (and the accumulator at what the point before left),
  the body runs to its end and hands every buffer back, the accumulator with
  the pieces its stores wrote (found by the run itself).
-/
import proofs.«119995_j74062416053450_2_alg».proof.Proof.KiR3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc3__gcn_stage2_kernel i arg2 harg2 arg3 harg3 arg4 harg4 arg5 harg5 arg6 harg6 arg7 harg7) K } := by
  refine ⟨?_, fun E K => ?run⟩
  case run =>
    simp only [cc3__gcn_stage2_kernel_eq_skeleton]; unfold cc3__gcn_stage2_kernel_skel
    unfold owns
    iintro ⟨⟨%f0, %hf0, H0⟩, ⟨%f1, %hf1, H1⟩, ⟨%fs0, %hfs0, HS⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KiR3RunC.lean ====
/-
  Region 3, the body's run in the control case where the last column block's product is added and the output block is computed from the accumulator and stored:
  from the staging buffers of the windows the case reads held at their blocks (and the accumulator at what the point before left),
  the body runs to its end and hands every buffer back, the accumulator and the output's staging buffer with
  the pieces its stores wrote (found by the run itself).
-/
import proofs.«119995_j74062416053450_2_alg».proof.Proof.KiR3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3__gcn_stage2_kernel i arg2 harg2 arg3 harg3 arg4 harg4 arg5 harg5 arg6 harg6 arg7 harg7) K } := by
  refine ⟨?_, ?_, fun E K => ?run⟩
  case run =>
    simp only [cc3__gcn_stage2_kernel_eq_skeleton]; unfold cc3__gcn_stage2_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.Fr

end
-- ==== Proof.KiR3Body.lean ====
/-
  Region 3: what the accumulator and the output's staging buffer hold after each grid point, by recursion on
  the point (the control case the point is in, run at the point's blocks, the accumulator taken from the point
  before), the region's invariant carrying the accumulator's contents from point to point, the pipeline's
  proof data over these, and the body's obligation at every point.
-/
import proofs.«119995_j74062416053450_2_alg».proof.Proof.KiR3RunA
import proofs.«119995_j74062416053450_2_alg».proof.Proof.KiR3RunB
import proofs.«119995_j74062416053450_2_alg».proof.Proof.KiR3RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

/-- A placeholder for the output's staging buffer at the points where the window is idle (nothing consults it). -/
def outIdle3 : Vec F S1024x128 .f32 := VO3.read (Elt F) VO3.junk

theorem scover3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) (y : S1024x128.Idx) :
    ∃ pc ∈ (kernelRun3_A c i arg2 harg2 arg3 harg3 arg4 harg4 arg5 harg5 arg6 harg6 arg7 harg7 hc0 hc1 x0 x1).1, y ∈ pc.1.set :=
  View.cover_of_tiledL (kernelRun3_A c i arg2 harg2 arg3 harg3 arg4 harg4 arg5 harg5 arg6 harg6 arg7 harg7 hc0 hc1 x0 x1).1 S1024x128.size (by sl_kernel_rfl) y

/-- What case A leaves in the accumulator: its pieces read back. -/
def sout3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) : Vec F S1024x128 .f32 :=
  VS3.read (Elt F) (VS3.writes (Elt F) VS3.junk (kernelRun3_A c i arg2 harg2 arg3 harg3 arg4 harg4 arg5 harg5 arg6 harg6 arg7 harg7 hc0 hc1 x0 x1).1)

theorem scover3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) (y : S1024x128.Idx) :
    ∃ pc ∈ (kernelRun3_B c i arg2 harg2 arg3 harg3 arg4 harg4 arg5 harg5 arg6 harg6 arg7 harg7 hc0 hc1 x0 x1 xs0).1, y ∈ pc.1.set :=
  View.cover_of_tiledL (kernelRun3_B c i arg2 harg2 arg3 harg3 arg4 harg4 arg5 harg5 arg6 harg6 arg7 harg7 hc0 hc1 x0 x1 xs0).1 S1024x128.size (by sl_kernel_rfl) y

/-- What case B leaves in the accumulator: its pieces read back. -/
def sout3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) : Vec F S1024x128 .f32 :=
  VS3.read (Elt F) (VS3.writes (Elt F) VS3.junk (kernelRun3_B c i arg2 harg2 arg3 harg3 arg4 harg4 arg5 harg5 arg6 harg6 arg7 harg7 hc0 hc1 x0 x1 xs0).1)

theorem scover3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) : Vec F S1024x128 .f32 :=
  VS3.read (Elt F) (VS3.writes (Elt F) VS3.junk (kernelRun3_C c i arg2 harg2 arg3 harg3 arg4 harg4 arg5 harg5 arg6 harg6 arg7 harg7 hc0 hc1 x0 x1 x2 x3 xs0).2.1)

theorem cover3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) (y : S1024x128.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S1024x128.size (by sl_kernel_rfl) y

/-- What case C leaves in the output's staging buffer: its pieces read back. -/
def out3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) : Vec F S1024x128 .f32 :=
  VO3.read (Elt F) (VO3.writes (Elt F) VO3.junk (kernelRun3_C c i arg2 harg2 arg3 harg3 arg4 harg4 arg5 harg5 arg6 harg6 arg7 harg7 hc0 hc1 x0 x1 x2 x3 xs0).1)

/-! ## The accumulation over the grid -/

/-- The output's staging buffer and the accumulator after the body at position `n`. -/
def outsAt3 (c : Dev nD) : (n : ℕ) → n < cfg3.N → Vec F S1024x128 .f32 × Vec F S1024x128 .f32
  | 0, hn => (outIdle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (outIdle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (outIdle3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (outIdle3, sout3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (outIdle3, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class invariant; afterwards the accumulator at what the point before left, the
    other scoped buffers, the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ restBut3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val % 4 = 0
  · by_cases h1 : t.val % 4 = 3
    · exfalso; omega
    ·
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      unfold sout3_A; (try dsimp only)
      by_cases hz : t.val = 0
      ·
        rw [PhiS3_castSucc V c t, PhiS3_zero V c _ _ hz, PhiA3_eq]
        iintro ⟨⟨⟨HS, Hr⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t))
            iexact Hr
          iexact Hg
        isplitl [Ho]; · iexact Ho
        isplitl [H0]; · iexact H0
        isplitl [H1]; · iexact H1
        isplitl [H2]; · iexact H2
        isplitl [H3]; · iexact H3
        iexists _; iexact H4

      ·
        rw [PhiS3_castSucc V c t, PhiS3_pos V c _ _ hz]
        iintro ⟨⟨⟨HS, Hr⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexists _; iexact HS
        iintro ⟨H0, H1, ⟨%es0, HS⟩⟩
        isplitl [HS Hr Hg]
        · isplitl [HS Hr]
          · isplitl [HS]
            · unfold owns; iexists _; isplitr
              swap; · iexact HS
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t))
            iexact Hr
          iexact Hg
        isplitl [Ho]; · iexact Ho
        isplitl [H0]; · iexact H0
        isplitl [H1]; · iexact H1
        isplitl [H2]; · iexact H2
        isplitl [H3]; · iexact H3
        iexists _; iexact H4

  · by_cases h1 : t.val % 4 = 3
    · rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      unfold out3_C sout3_C; (try dsimp only)
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eO, H4⟩, ⟨%es0, HS⟩⟩
      isplitl [HS Hr Hg]
      · isplitl [HS Hr]
        · isplitl [HS]
          · unfold owns; iexists _; isplitr
            swap; · iexact HS
            ipureintro; exact View.read_writes_of_cover _ _ _ _ _ (scover3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2)

    ·
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      unfold sout3_B; (try dsimp only)
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply ((kernelRun3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2).2 Set.univ _)
      isplitl [H0]; · iexact H0
      isplitl [H1]; · iexact H1
      isplitl [HS]; · iexact HS
      iintro ⟨H0, H1, ⟨%es0, HS⟩⟩
      isplitl [HS Hr Hg]
      · isplitl [HS Hr]
        · isplitl [HS]
          · unfold owns; iexists _; isplitr
            swap; · iexact HS
            ipureintro; exact View.read_writes_of_cover _ _ _ _ _ (scover3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 32 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS, Hr⟩, Hg⟩
  isplitl [HS Hr]
  · isplitl [HS]
    · iexists _; iexact HS
    iexact Hr
  iexact Hg

end Region

end Cert.KernelIdeal.Fr

end
-- ==== Proof.KiFrame.lean ====
/-
  The run of the whole program: the buffers' contents at each boundary between a stretch of host operations and
  a kernel region, as a fold from the launch memory (a stretch applies its operations; a region leaves its arrays
  at what its write-backs produce and every other buffer as it was); that no argument array is ever written
  (no host operation's result buffer is an argument, and a region only reads the one argument it stages); the four
  regions as segments over the thread state "every unscoped buffer at the boundary's contents"; and the run: every
  weakly fair execution terminates, nothing faults, and every unscoped buffer ends at the last boundary's contents.
-/
import proofs.«119995_j74062416053450_2_alg».proof.Proof.KiR0Body
import proofs.«119995_j74062416053450_2_alg».proof.Proof.KiR1Body
import proofs.«119995_j74062416053450_2_alg».proof.Proof.KiR2Body
import proofs.«119995_j74062416053450_2_alg».proof.Proof.KiR3Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

/-! ## The arguments are never written

An argument array is one of the first 38 buffers; every host operation writes its own result buffer, a later one. -/

theorem keeps0 (b : Ref sig .tc) (hb : b.idx.val < 38) :
    ∀ op ∈ (hostOps0 : List (HloOp τ sig (Elt F))), Proc.devRef .tc b ∉ op.writes :=
  List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps1 (b : Ref sig .tc) (hb : b.idx.val < 38) :
    ∀ op ∈ (hostOps1 : List (HloOp τ sig (Elt F))), Proc.devRef .tc b ∉ op.writes :=
  List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps2 (b : Ref sig .tc) (hb : b.idx.val < 38) :
    ∀ op ∈ (hostOps2 : List (HloOp τ sig (Elt F))), Proc.devRef .tc b ∉ op.writes :=
  List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps3 (b : Ref sig .tc) (hb : b.idx.val < 38) :
    ∀ op ∈ (hostOps3 : List (HloOp τ sig (Elt F))), Proc.devRef .tc b ∉ op.writes :=
  List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem keeps4 (b : Ref sig .tc) (hb : b.idx.val < 38) :
    ∀ op ∈ (hostOps4 : List (HloOp τ sig (Elt F))), Proc.devRef .tc b ∉ op.writes :=
  List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

/-- Region 0 reads the one argument it stages and writes none. -/
theorem W2_arg (c : Dev nD) (b : Ref sig .tc) (hb : b.idx.val < 38) :
    W2 m ρ c (Proc.devRef .tc b) = W1 m ρ c (Proc.devRef .tc b) := by
  by_cases h6 : b = main_arg6
  · subst h6
    exact (W2_arr m ρ c 0).trans (((dat0 (V1 m ρ) c).arrAt_in 0 rfl _).trans (A_eq0 (V1 m ρ) c 0))
  · refine W2_of_ne m ρ c b fun w e => ?_
    fin_cases w
    · exact h6 e.symm
    all_goals (subst e; exact absurd hb (by decide))

/-- Region 1 reads the one argument it stages and writes none. -/
theorem W4_arg (c : Dev nD) (b : Ref sig .tc) (hb : b.idx.val < 38) :
    W4 m ρ c (Proc.devRef .tc b) = W3 m ρ c (Proc.devRef .tc b) := by
  by_cases h6 : b = main_arg6
  · subst h6
    exact (W4_arr m ρ c 0).trans (((dat1 (V3 m ρ) c).arrAt_in 0 rfl _).trans (A_eq1 (V3 m ρ) c 0))
  · refine W4_of_ne m ρ c b fun w e => ?_
    fin_cases w
    · exact h6 e.symm
    all_goals (subst e; exact absurd hb (by decide))

/-- Region 2 reads the one argument it stages and writes none. -/
theorem W6_arg (c : Dev nD) (b : Ref sig .tc) (hb : b.idx.val < 38) :
    W6 m ρ c (Proc.devRef .tc b) = W5 m ρ c (Proc.devRef .tc b) := by
  by_cases h6 : b = main_arg7
  · subst h6
    exact (W6_arr m ρ c 0).trans (((dat2 (V5 m ρ) c).arrAt_in 0 rfl _).trans (A_eq2 (V5 m ρ) c 0))
  · refine W6_of_ne m ρ c b fun w e => ?_
    fin_cases w
    · exact h6 e.symm
    all_goals (subst e; exact absurd hb (by decide))

/-- Region 3 reads the one argument it stages and writes none. -/
theorem W8_arg (c : Dev nD) (b : Ref sig .tc) (hb : b.idx.val < 38) :
    W8 m ρ c (Proc.devRef .tc b) = W7 m ρ c (Proc.devRef .tc b) := by
  by_cases h6 : b = main_arg7
  · subst h6
    exact (W8_arr m ρ c 0).trans (((dat3 (V7 m ρ) c).arrAt_in 0 rfl _).trans (A_eq3 (V7 m ρ) c 0))
  · refine W8_of_ne m ρ c b fun w e => ?_
    fin_cases w
    · exact h6 e.symm
    all_goals (subst e; exact absurd hb (by decide))

/-- An argument array ends as launched. -/
theorem W9_arg (c : Dev nD) (b : Ref sig .tc) (hb : b.idx.val < 38) :
    W9 m ρ c (Proc.devRef .tc b) = m ((c : Thread nD τ).loc b) :=
  calc W9 m ρ c (Proc.devRef .tc b)
    _ = W8 m ρ c (Proc.devRef .tc b) := StableHlo.after_of_forall_not_mem (b := Proc.devRef .tc b) _ _ (keeps4 b hb)
    _ = W7 m ρ c (Proc.devRef .tc b) := W8_arg m ρ c b hb
    _ = W6 m ρ c (Proc.devRef .tc b) := StableHlo.after_of_forall_not_mem (b := Proc.devRef .tc b) _ _ (keeps3 b hb)
    _ = W5 m ρ c (Proc.devRef .tc b) := W6_arg m ρ c b hb
    _ = W4 m ρ c (Proc.devRef .tc b) := StableHlo.after_of_forall_not_mem (b := Proc.devRef .tc b) _ _ (keeps2 b hb)
    _ = W3 m ρ c (Proc.devRef .tc b) := W4_arg m ρ c b hb
    _ = W2 m ρ c (Proc.devRef .tc b) := StableHlo.after_of_forall_not_mem (b := Proc.devRef .tc b) _ _ (keeps1 b hb)
    _ = W1 m ρ c (Proc.devRef .tc b) := W2_arg m ρ c b hb
    _ = W0 m ρ c (Proc.devRef .tc b) := StableHlo.after_of_forall_not_mem (b := Proc.devRef .tc b) _ _ (keeps0 b hb)
    _ = m ((c : Thread nD τ).loc b) := rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: its arrays split out of the unscoped buffers and put back at the exit
    contents; the generator register and the scoped buffers into the region's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit
    contents; the generator register and the scoped buffers into the region's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit
    contents; the generator register and the scoped buffers into the region's invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers and put back at the exit
    contents; the generator register and the scoped buffers into the region's invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option maxRecDepth 65536 in
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m ρ c) ∗ iprop((∃ r, prngReg c r) ∗ ∃ W, owes (c : Thread nD τ) (0 : CellTallies nD τ sig Unit) W))
          ⊢ iprop(iprop(StableHlo.held (c : Thread nD τ) (Pipeline.ucRefs τ sig) (W9 m ρ c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- An argument array's buffer is unscoped, so the run's post speaks of it; it ends as launched. -/
theorem arg_kept {r : PUnit × MemSt nD τ sig (Elt F)} (h : ∀ c : Dev nD, ∀ b ∈ Pipeline.ucRefs τ sig, r.2.mem (((c : Thread nD τ)).1, b) = W9 m ρ c b)
    (c : Dev nD) (b : Ref sig .tc) (hs : ¬ (Proc.devRef .tc b : DevRef τ sig).isScoped) (hb : b.idx.val < 38) :
    r.2.mem ((c.tc : Thread nD τ).loc b) = m ((c.tc : Thread nD τ).loc b) :=
  (h c _ (mem_uc b hs)).trans (W9_arg m ρ c b hb)

end Cert.KernelIdeal.Fr

end
-- ==== Proof.Frames.lean ====
/-
  The frame claims of the two kernel programs: each program's run ends with every unscoped buffer at the last
  boundary's contents, and an argument array, never written, is there as launched.
-/
import proofs.«119995_j74062416053450_2_alg».proof.Defs
import proofs.«119995_j74062416053450_2_alg».proof.Proof.Gen.Pre_finite_inputs
import proofs.«119995_j74062416053450_2_alg».proof.Proof.KbFrame
import proofs.«119995_j74062416053450_2_alg».proof.Proof.KiFrame

noncomputable section

namespace Cert.Proof.Frames

open Idealize.ShloMosaic Idealize.ShloMosaic.TcCoe Idealize.SL.Sem

theorem frame_k : Cert.frame_Kernel := fun m ρ _ =>
  (θ_run (Cert.Kernel.defs (F := Bits)) _ _).mono (fun r h c =>
    ⟨Cert.Kernel.Fr.arg_kept m ρ h c Cert.Kernel.main_arg0 (by decide) (by decide),
      Cert.Kernel.Fr.arg_kept m ρ h c Cert.Kernel.main_arg1 (by decide) (by decide),
      Cert.Kernel.Fr.arg_kept m ρ h c Cert.Kernel.main_arg2 (by decide) (by decide),
      Cert.Kernel.Fr.arg_kept m ρ h c Cert.Kernel.main_arg3 (by decide) (by decide),
      Cert.Kernel.Fr.arg_kept m ρ h c Cert.Kernel.main_arg4 (by decide) (by decide),
      Cert.Kernel.Fr.arg_kept m ρ h c Cert.Kernel.main_arg5 (by decide) (by decide),
      Cert.Kernel.Fr.arg_kept m ρ h c Cert.Kernel.main_arg6 (by decide) (by decide),
      Cert.Kernel.Fr.arg_kept m ρ h c Cert.Kernel.main_arg7 (by decide) (by decide),
      Cert.Kernel.Fr.arg_kept m ρ h c Cert.Kernel.main_arg8 (by decide) (by decide),
      Cert.Kernel.Fr.arg_kept m ρ h c Cert.Kernel.main_arg9 (by decide) (by decide),
      Cert.Kernel.Fr.arg_kept m ρ h c Cert.Kernel.main_arg10 (by decide) (by decide),
      Cert.Kernel.Fr.arg_kept m ρ h c Cert.Kernel.main_arg11 (by decide) (by decide),
      Cert.Kernel.Fr.arg_kept m ρ h c Cert.Kernel.main_arg12 (by decide) (by decide),
      Cert.Kernel.Fr.arg_kept m ρ h c Cert.Kernel.main_arg13 (by decide) (by decide),
      Cert.Kernel.Fr.arg_kept m ρ h c Cert.Kernel.main_arg14 (by decide) (by decide),
      Cert.Kernel.Fr.arg_kept m ρ h c Cert.Kernel.main_arg15 (by decide) (by decide),
      Cert.Kernel.Fr.arg_kept m ρ h c Cert.Kernel.main_arg16 (by decide) (by decide),
      Cert.Kernel.Fr.arg_kept m ρ h c Cert.Kernel.main_arg17 (by decide) (by decide),
      Cert.Kernel.Fr.arg_kept m ρ h c Cert.Kernel.main_arg18 (by decide) (by decide),
      Cert.Kernel.Fr.arg_kept m ρ h c Cert.Kernel.main_arg19 (by decide) (by decide),
      Cert.Kernel.Fr.arg_kept m ρ h c Cert.Kernel.main_arg20 (by decide) (by decide),
      Cert.Kernel.Fr.arg_kept m ρ h c Cert.Kernel.main_arg21 (by decide) (by decide),
      Cert.Kernel.Fr.arg_kept m ρ h c Cert.Kernel.main_arg22 (by decide) (by decide),
      Cert.Kernel.Fr.arg_kept m ρ h c Cert.Kernel.main_arg23 (by decide) (by decide),
      Cert.Kernel.Fr.arg_kept m ρ h c Cert.Kernel.main_arg24 (by decide) (by decide),
      Cert.Kernel.Fr.arg_kept m ρ h c Cert.Kernel.main_arg25 (by decide) (by decide),
      Cert.Kernel.Fr.arg_kept m ρ h c Cert.Kernel.main_arg26 (by decide) (by decide),
      Cert.Kernel.Fr.arg_kept m ρ h c Cert.Kernel.main_arg27 (by decide) (by decide),
      Cert.Kernel.Fr.arg_kept m ρ h c Cert.Kernel.main_arg28 (by decide) (by decide),
      Cert.Kernel.Fr.arg_kept m ρ h c Cert.Kernel.main_arg29 (by decide) (by decide),
      Cert.Kernel.Fr.arg_kept m ρ h c Cert.Kernel.main_arg30 (by decide) (by decide),
      Cert.Kernel.Fr.arg_kept m ρ h c Cert.Kernel.main_arg31 (by decide) (by decide),
      Cert.Kernel.Fr.arg_kept m ρ h c Cert.Kernel.main_arg32 (by decide) (by decide),
      Cert.Kernel.Fr.arg_kept m ρ h c Cert.Kernel.main_arg33 (by decide) (by decide),
      Cert.Kernel.Fr.arg_kept m ρ h c Cert.Kernel.main_arg34 (by decide) (by decide),
      Cert.Kernel.Fr.arg_kept m ρ h c Cert.Kernel.main_arg35 (by decide) (by decide),
      Cert.Kernel.Fr.arg_kept m ρ h c Cert.Kernel.main_arg36 (by decide) (by decide),
      Cert.Kernel.Fr.arg_kept m ρ h c Cert.Kernel.main_arg37 (by decide) (by decide)⟩)
    (Cert.Kernel.Fr.run_main (F := Bits) m ρ)

theorem frame_ki : Cert.frame_KernelIdeal := fun m ρ _ =>
  (θ_run (Cert.KernelIdeal.defs (F := Ideal)) _ _).mono (fun r h c =>
    ⟨Cert.KernelIdeal.Fr.arg_kept m ρ h c Cert.KernelIdeal.main_arg0 (by decide) (by decide),
      Cert.KernelIdeal.Fr.arg_kept m ρ h c Cert.KernelIdeal.main_arg1 (by decide) (by decide),
      Cert.KernelIdeal.Fr.arg_kept m ρ h c Cert.KernelIdeal.main_arg2 (by decide) (by decide),
      Cert.KernelIdeal.Fr.arg_kept m ρ h c Cert.KernelIdeal.main_arg3 (by decide) (by decide),
      Cert.KernelIdeal.Fr.arg_kept m ρ h c Cert.KernelIdeal.main_arg4 (by decide) (by decide),
      Cert.KernelIdeal.Fr.arg_kept m ρ h c Cert.KernelIdeal.main_arg5 (by decide) (by decide),
      Cert.KernelIdeal.Fr.arg_kept m ρ h c Cert.KernelIdeal.main_arg6 (by decide) (by decide),
      Cert.KernelIdeal.Fr.arg_kept m ρ h c Cert.KernelIdeal.main_arg7 (by decide) (by decide),
      Cert.KernelIdeal.Fr.arg_kept m ρ h c Cert.KernelIdeal.main_arg8 (by decide) (by decide),
      Cert.KernelIdeal.Fr.arg_kept m ρ h c Cert.KernelIdeal.main_arg9 (by decide) (by decide),
      Cert.KernelIdeal.Fr.arg_kept m ρ h c Cert.KernelIdeal.main_arg10 (by decide) (by decide),
      Cert.KernelIdeal.Fr.arg_kept m ρ h c Cert.KernelIdeal.main_arg11 (by decide) (by decide),
      Cert.KernelIdeal.Fr.arg_kept m ρ h c Cert.KernelIdeal.main_arg12 (by decide) (by decide),
      Cert.KernelIdeal.Fr.arg_kept m ρ h c Cert.KernelIdeal.main_arg13 (by decide) (by decide),
      Cert.KernelIdeal.Fr.arg_kept m ρ h c Cert.KernelIdeal.main_arg14 (by decide) (by decide),
      Cert.KernelIdeal.Fr.arg_kept m ρ h c Cert.KernelIdeal.main_arg15 (by decide) (by decide),
      Cert.KernelIdeal.Fr.arg_kept m ρ h c Cert.KernelIdeal.main_arg16 (by decide) (by decide),
      Cert.KernelIdeal.Fr.arg_kept m ρ h c Cert.KernelIdeal.main_arg17 (by decide) (by decide),
      Cert.KernelIdeal.Fr.arg_kept m ρ h c Cert.KernelIdeal.main_arg18 (by decide) (by decide),
      Cert.KernelIdeal.Fr.arg_kept m ρ h c Cert.KernelIdeal.main_arg19 (by decide) (by decide),
      Cert.KernelIdeal.Fr.arg_kept m ρ h c Cert.KernelIdeal.main_arg20 (by decide) (by decide),
      Cert.KernelIdeal.Fr.arg_kept m ρ h c Cert.KernelIdeal.main_arg21 (by decide) (by decide),
      Cert.KernelIdeal.Fr.arg_kept m ρ h c Cert.KernelIdeal.main_arg22 (by decide) (by decide),
      Cert.KernelIdeal.Fr.arg_kept m ρ h c Cert.KernelIdeal.main_arg23 (by decide) (by decide),
      Cert.KernelIdeal.Fr.arg_kept m ρ h c Cert.KernelIdeal.main_arg24 (by decide) (by decide),
      Cert.KernelIdeal.Fr.arg_kept m ρ h c Cert.KernelIdeal.main_arg25 (by decide) (by decide),
      Cert.KernelIdeal.Fr.arg_kept m ρ h c Cert.KernelIdeal.main_arg26 (by decide) (by decide),
      Cert.KernelIdeal.Fr.arg_kept m ρ h c Cert.KernelIdeal.main_arg27 (by decide) (by decide),
      Cert.KernelIdeal.Fr.arg_kept m ρ h c Cert.KernelIdeal.main_arg28 (by decide) (by decide),
      Cert.KernelIdeal.Fr.arg_kept m ρ h c Cert.KernelIdeal.main_arg29 (by decide) (by decide),
      Cert.KernelIdeal.Fr.arg_kept m ρ h c Cert.KernelIdeal.main_arg30 (by decide) (by decide),
      Cert.KernelIdeal.Fr.arg_kept m ρ h c Cert.KernelIdeal.main_arg31 (by decide) (by decide),
      Cert.KernelIdeal.Fr.arg_kept m ρ h c Cert.KernelIdeal.main_arg32 (by decide) (by decide),
      Cert.KernelIdeal.Fr.arg_kept m ρ h c Cert.KernelIdeal.main_arg33 (by decide) (by decide),
      Cert.KernelIdeal.Fr.arg_kept m ρ h c Cert.KernelIdeal.main_arg34 (by decide) (by decide),
      Cert.KernelIdeal.Fr.arg_kept m ρ h c Cert.KernelIdeal.main_arg35 (by decide) (by decide),
      Cert.KernelIdeal.Fr.arg_kept m ρ h c Cert.KernelIdeal.main_arg36 (by decide) (by decide),
      Cert.KernelIdeal.Fr.arg_kept m ρ h c Cert.KernelIdeal.main_arg37 (by decide) (by decide)⟩)
    (Cert.KernelIdeal.Fr.run_main (F := Ideal) m ρ)

end Cert.Proof.Frames

end
-- ==== Proof.RefFrame.lean ====
/-
  The reference program's frame: it is a straight line of host operations, so it runs to the end with every
  buffer at the fold of the operations' results over the launch memory; no operation's result buffer is an
  argument array (an argument is one of the first 38 buffers), so every argument ends as launched.
-/
import proofs.«119995_j74062416053450_2_alg».proof.Defs
import proofs.«119995_j74062416053450_2_alg».proof.Proof.RefOpsP

noncomputable section

namespace Cert.ReferenceIdeal.RefFrame

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem keeps (b : Ref sig .tc) (hb : b.idx.val < 38) :
    ∀ op ∈ (ValueP.ops : List (HloOp τ sig (Elt F))), Proc.devRef .tc b ∉ op.writes :=
  List.forall_iff_forall_mem.mp (by
    simp only [ValueP.ops, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

theorem frame (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc, b.idx.val < 38 →
      r.2.mem ((c.tc : Thread nD τ).loc b) = m ((c.tc : Thread nD τ).loc b)) :=
  (θ_run defs _ _).mono (fun _ h c b hb => (h c b).trans (after_of_forall_not_mem (b := Proc.devRef .tc b) _ _ (keeps b hb)))
    (run_seq ValueP.scopedRefs_eq ValueP.scopedSems_eq defs main (fun _ => ValueP.ops) ValueP.main_eq (fun _ => ValueP.ops_sub) m ρ)

end Cert.ReferenceIdeal.RefFrame

end
-- ==== Proof.KiR0Val.lean ====
/-
  Region 0, the values. What the three control cases leave: resetting and adding the first column block's
  product leaves that product added to the zero block; a middle point adds its block's product to what the
  accumulator held; the last point does the same and stores the epilogue of the new accumulator into the
  output's buffer. So the accumulator after a point is the fold of the block products since the last reset, and the
  output's buffer after a row block's last point is the epilogue of that fold.
-/
import proofs.«119995_j74062416053450_2_alg».proof.Proof.KiR0Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl

section Pieces
local notation "hz2" => hz2_0

theorem soutA0_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x2048 .f32) (x1 : Vec F S2048x128 .bf16) :
    sout0_A c i arg2 harg2 arg3 harg3 arg4 harg4 arg5 harg5 arg6 harg6 arg7 harg7 arg8 harg8 arg9 harg9 hc0 hc1 x0 x1 = k0_pay2 x0 (k0_pay1 (F := F)) x1 := by
  unfold sout0_A
  rw [View.read_writes_eq_canon _ _ _ (scover0_A c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2, View.ld_unit_zero (S := S2048x128) hz2]

theorem soutB0_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x2048 .f32) (x1 : Vec F S2048x128 .bf16) (xs0 : Vec F S1024x128 .f32) :
    sout0_B c i arg2 harg2 arg3 harg3 arg4 harg4 arg5 harg5 arg6 harg6 arg7 harg7 arg8 harg8 arg9 harg9 hc0 hc1 x0 x1 xs0 = k0_pay2 x0 xs0 x1 := by
  unfold sout0_B
  rw [View.read_writes_eq_canon _ _ _ (scover0_B c i arg2 harg2 arg3 harg3 arg4 harg4 arg5 harg5 arg6 harg6 arg7 harg7 arg8 harg8 arg9 harg9 hc0 hc1 x0 x1 xs0)]
  unfold kernelRun0_B
  dsimp only
  sl_unfold_words
  rw [View.canon_unit_zero hz2]
  simp only [View.readAt_eq_ld, harg2.read_unread, harg3.read_unread, harg9.read_unread, View.ld_unit_zero (S := S1024x2048) hz2, View.ld_unit_zero (S := S2048x128) hz2, View.ld_unit_zero (S := S1024x128) hz2]

theorem soutC0_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    sout0_C c i arg2 harg2 arg3 harg3 arg4 harg4 arg5 harg5 arg6 harg6 arg7 harg7 arg8 harg8 arg9 harg9 hc0 hc1 x0 x1 x2 x3 x4 x5 xs0 = k0_pay2 x0 xs0 x1 := by
  unfold sout0_C
  rw [View.read_writes_eq_canon _ _ _ (scover0_C c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg9.read_unread, View.ld_unit_zero (S := S1024x2048) hz2, View.ld_unit_zero (S := S2048x128) hz2, View.ld_unit_zero (S := S1024x128) hz2]

theorem outC0_eq (c : Dev nD) (i : grid0.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    out0_C c i arg2 harg2 arg3 harg3 arg4 harg4 arg5 harg5 arg6 harg6 arg7 harg7 arg8 harg8 arg9 harg9 hc0 hc1 x0 x1 x2 x3 x4 x5 xs0 = k0_pay3 (k0_pay2 x0 xs0 x1) x2 x3 x4 x5 := by
  unfold out0_C
  rw [View.read_writes_eq_canon _ _ _ (cover0_C c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2, View.readCov_unit_zero (S := S1024x128) _ hz2]
  simp only [View.readAt_eq_ld, harg2.read_unread, harg3.read_unread, harg4.read_unread, harg5.read_unread, harg6.read_unread, harg7.read_unread, harg9.read_unread, View.ld_unit_zero (S := S1024x2048) hz2, View.ld_unit_zero (S := S2048x128) hz2, View.ld_unit_zero (S := S128x128) hz2, View.ld_unit_zero (S := S1x128) hz2, View.ld_unit_zero (S := S1024x128) hz2]

end Pieces

/-! ## The fold over the grid -/

section Fold
variable (V : (c : Dev nD) → (b : Ref sig .tc) → Buf (Elt F) ((c : Thread nD τ).loc b))

/-- The accumulator after point `n`: the block product of the point added to the zero block at a row block's first
    point, to the accumulator of the point before elsewhere. -/
def acc0 (c : Dev nD) : (n : ℕ) → n < cfg0.N → Vec F S1024x128 .f32
  | 0, h => k0_pay2 (iblk0 V c 0 ⟨0, h⟩) (k0_pay1 (F := F)) (iblk0 V c 1 ⟨0, h⟩)
  | n + 1, h =>
    if (n + 1) % 4 = 0 then k0_pay2 (iblk0 V c 0 ⟨n + 1, h⟩) (k0_pay1 (F := F)) (iblk0 V c 1 ⟨n + 1, h⟩)
    else k0_pay2 (iblk0 V c 0 ⟨n + 1, h⟩) (acc0 c n (Nat.lt_of_succ_lt h)) (iblk0 V c 1 ⟨n + 1, h⟩)

theorem outsAt0_snd (c : Dev nD) : ∀ (n : ℕ) (h : n < cfg0.N), (outsAt0 V c n h).2 = acc0 V c n h
  | 0, h => by
    rw [outsAt0_A V c ⟨0, h⟩ rfl (show ¬ (0 : ℕ) % 4 = 3 by decide)]
    dsimp only
    exact soutA0_eq ..
  | n + 1, h => by
    by_cases h0 : (n + 1) % 4 = 0
    · have h1 : ¬ (n + 1) % 4 = 3 := by omega
      rw [outsAt0_A V c ⟨n + 1, h⟩ h0 h1]
      dsimp only
      rw [soutA0_eq]
      unfold acc0; rw [if_pos h0]
    · have ih := outsAt0_snd c n (Nat.lt_of_succ_lt h)
      by_cases h1 : (n + 1) % 4 = 3
      · rw [outsAt0_C V c ⟨n + 1, h⟩ h0 h1]
        dsimp only
        rw [soutC0_eq]
        unfold acc0; rw [if_neg h0]
        exact congrArg (fun a => k0_pay2 _ a _) ih
      · rw [outsAt0_B V c ⟨n + 1, h⟩ h0 h1]
        dsimp only
        rw [soutB0_eq]
        unfold acc0; rw [if_neg h0]
        exact congrArg (fun a => k0_pay2 _ a _) ih

/-- At a row block's last point the output's buffer is left at the epilogue of the accumulator. -/
theorem outsAt0_fst (c : Dev nD) (t : Fin cfg0.N) (h1 : t.val % 4 = 3) :
    (outsAt0 V c t.val t.isLt).1 = k0_pay3 (acc0 V c t.val t.isLt) (iblk0 V c 2 t) (iblk0 V c 3 t) (iblk0 V c 4 t) (iblk0 V c 5 t) := by
  have h0 : ¬ t.val % 4 = 0 := by omega
  have hs := outsAt0_snd V c t.val t.isLt
  rw [outsAt0_C V c t h0 h1] at hs ⊢
  dsimp only at hs ⊢
  rw [soutC0_eq] at hs
  rw [outC0_eq, hs]

end Fold

end Cert.KernelIdeal.Fr

end
-- ==== Proof.KiMm.lean ====
/-
  The two matrix products the kernels' bodies make, read at an entry on the extended reals: a 1024×2048 block of
  the adjacency matrix times a 2048×128 block of the features, and a 1024×128 block times a 128×128 weight matrix;
  and a row's sum over its 128 lanes.
-/
import proofs.«119995_j74062416053450_2_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.KernelIdeal.Sem

open Cert.KernelIdeal Cert.KernelIdeal.Gen Idealize.ShloMosaic Idealize.ShloMosaic.ValueIdx

/-! ### The 1024×2048 by 2048×128 product -/

theorem lhsA_0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsA_1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsA_1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The matrix unit's product into an accumulator, read at an entry: the accumulator's entry plus the sum over the
    contracted axis of the products of the row's and the column's entries. -/
theorem mmA {φ₁ φ₂ : FTy} (l : FVec Ideal S1024x2048 φ₁) (r : FVec Ideal S2048x128 φ₂) (acc : FVec Ideal S1024x128 .f32) (p : Fin 1024) (j : Fin 128) :
    FloatOps.matmul dot_S1024x2048_S2048x128_S1024x128_1_0_0_1_n_n none l r acc (ix2 p j) = acc (ix2 p j) + ∑ q : Fin 2048, l (ix2 p q) * r (ix2 q j) := by
  rw [Ideal.matmul_apply, ← Equiv.sum_comp (ValueIdx.contrEquiv1 dot_S1024x2048_S2048x128_S1024x128_1_0_0_1_n_n 2048 rfl rfl).symm]
  refine congrArg (acc (ix2 p j) + ·) (Finset.sum_congr rfl fun k _ => ?_)
  have hk := ValueIdx.contrEquiv1_symm_val dot_S1024x2048_S2048x128_S1024x128_1_0_0_1_n_n 2048 rfl rfl k
  have el : dot_S1024x2048_S2048x128_S1024x128_1_0_0_1_n_n.lhsIdx (ix2 p j) ((ValueIdx.contrEquiv1 dot_S1024x2048_S2048x128_S1024x128_1_0_0_1_n_n 2048 rfl rfl).symm k) = ix2 p k := funext fun a => Fin.ext (by
    match a with
    | ⟨0, _⟩ => exact lhsA_0 _ _
    | ⟨1, _⟩ => exact (lhsA_1 _ _).trans hk)
  have er : dot_S1024x2048_S2048x128_S1024x128_1_0_0_1_n_n.rhsIdx (ix2 p j) ((ValueIdx.contrEquiv1 dot_S1024x2048_S2048x128_S1024x128_1_0_0_1_n_n 2048 rfl rfl).symm k) = ix2 k j := funext fun a => Fin.ext (by
    match a with
    | ⟨0, _⟩ => exact (rhsA_0 _ _).trans hk
    | ⟨1, _⟩ => exact rhsA_1 _ _)
  rw [el, er]

/-! ### The 1024×128 by 128×128 product -/

theorem lhsW_0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsW_1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem rhsW_0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem rhsW_1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The matrix unit's product into an accumulator, read at an entry: the accumulator's entry plus the sum over the
    contracted axis of the products of the row's and the column's entries. -/
theorem mmW {φ₁ φ₂ : FTy} (l : FVec Ideal S1024x128 φ₁) (r : FVec Ideal S128x128 φ₂) (acc : FVec Ideal S1024x128 .f32) (p : Fin 1024) (j : Fin 128) :
    FloatOps.matmul dot_S1024x128_S128x128_S1024x128_1_0_0_1_n_n none l r acc (ix2 p j) = acc (ix2 p j) + ∑ q : Fin 128, l (ix2 p q) * r (ix2 q j) := by
  rw [Ideal.matmul_apply, ← Equiv.sum_comp (ValueIdx.contrEquiv1 dot_S1024x128_S128x128_S1024x128_1_0_0_1_n_n 128 rfl rfl).symm]
  refine congrArg (acc (ix2 p j) + ·) (Finset.sum_congr rfl fun k _ => ?_)
  have hk := ValueIdx.contrEquiv1_symm_val dot_S1024x128_S128x128_S1024x128_1_0_0_1_n_n 128 rfl rfl k
  have el : dot_S1024x128_S128x128_S1024x128_1_0_0_1_n_n.lhsIdx (ix2 p j) ((ValueIdx.contrEquiv1 dot_S1024x128_S128x128_S1024x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S1024x128_S128x128_S1024x128_1_0_0_1_n_n.rhsIdx (ix2 p j) ((ValueIdx.contrEquiv1 dot_S1024x128_S128x128_S1024x128_1_0_0_1_n_n 128 rfl rfl).symm k) = ix2 k j := funext fun a => Fin.ext (by
    match a with
    | ⟨0, _⟩ => exact (rhsW_0 _ _).trans hk
    | ⟨1, _⟩ => exact rhsW_1 _ _)
  rw [el, er]

/-- A row's sum over its 128 lanes (the lane reduction of a 1024×128 block, read at row `p`). -/
theorem rowsum (src : FVec Ideal S1024x128 .f32) (hacc : (0x00000000#32 : BitVec 32) = 0x00000000#32) (p : Fin 1024) :
    multiReduction .add [1] S1024 src 0x00000000#32 reduces_S1024x128_S1024 (.inl rfl) hacc (ix1 p) = ∑ k : Fin 128, src (ix2 p k) := by
  refine (Ideal.multiReduction_add_single src 0x00000000#32 reduces_S1024x128_S1024 (.inl rfl) hacc (ix1 p)).trans ?_
  refine Finset.sum_congr rfl fun k _ => ?_
  exact congrArg src (funext fun a => Fin.ext (by match a with | ⟨0, _⟩ => rfl | ⟨1, _⟩ => rfl))

end Cert.KernelIdeal.Sem

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.Spec.lean ====
/-
  What one graph convolution computes, entry by entry, on the extended reals: the adjacency matrix times the
  features (a sum over the 8192 hyperedges), a dense layer (a sum over the 128 features, plus a bias), the layer
  normalisation of each row (its mean and its mean squared deviation over the 128 features, both by the constant
  128, the reciprocal square root of the latter plus a small constant, then a scale and a shift), the adjacency
  matrix again and a second dense layer. Both programs are read against these definitions.
-/
import Idealize.ShloMosaic.PureOps.Ideal
import Idealize.ShloMosaic.Lib.ValueIdx

noncomputable section

namespace Cert.Spec

open Idealize.ShloMosaic Idealize.ShloMosaic.ValueIdx

/-- Row `i` of the adjacency matrix times column `l` of the features. -/
def conv (A : (⟨2, ![8192, 8192]⟩ : Shape).Idx → EReal) (X : (⟨2, ![8192, 128]⟩ : Shape).Idx → EReal) (i : Fin 8192) (l : Fin 128) : EReal :=
  ∑ k : Fin 8192, A (ix2 i k) * X (ix2 k l)

/-- A dense layer applied to one row: the row times the weight matrix, plus the bias. -/
def dense (a : Fin 128 → EReal) (W : (⟨2, ![128, 128]⟩ : Shape).Idx → EReal) (b : Fin 128 → EReal) (j : Fin 128) : EReal :=
  (∑ l : Fin 128, a l * W (ix2 l j)) + b j

/-- The constant 128 and the normalisation's small constant, as the programs spell them. -/
def c128 : EReal := Ideal.ofBits .f32 0x43000000#32
def ceps : EReal := Ideal.ofBits .f32 0x3727C5AC#32

/-- A row's mean over its 128 entries. -/
def mean (y : Fin 128 → EReal) : EReal := Ideal.div (∑ l : Fin 128, y l) c128

/-- The layer normalisation of one row, with scale `g` and shift `β`. -/
def lnorm (y g β : Fin 128 → EReal) (j : Fin 128) : EReal :=
  (y j - mean y) * Ideal.rsqrt (Ideal.div (∑ l : Fin 128, (y l - mean y) * (y l - mean y)) c128 + ceps) * g j + β j

/-- The convolution's first stage: product, dense layer, normalisation. -/
def stage1 (A : (⟨2, ![8192, 8192]⟩ : Shape).Idx → EReal) (X : (⟨2, ![8192, 128]⟩ : Shape).Idx → EReal)
    (W : (⟨2, ![128, 128]⟩ : Shape).Idx → EReal) (b g β : Fin 128 → EReal) : (⟨2, ![8192, 128]⟩ : Shape).Idx → EReal :=
  fun idx => lnorm (dense (conv A X (idx 0)) W b) g β (idx 1)

/-- Its second stage: product, dense layer. -/
def stage2 (A : (⟨2, ![8192, 8192]⟩ : Shape).Idx → EReal) (H : (⟨2, ![8192, 128]⟩ : Shape).Idx → EReal)
    (W : (⟨2, ![128, 128]⟩ : Shape).Idx → EReal) (b : Fin 128 → EReal) : (⟨2, ![8192, 128]⟩ : Shape).Idx → EReal :=
  fun idx => dense (conv A H (idx 0)) W b (idx 1)

/-- One graph convolution. -/
def gcn (A : (⟨2, ![8192, 8192]⟩ : Shape).Idx → EReal) (X : (⟨2, ![8192, 128]⟩ : Shape).Idx → EReal)
    (W1 : (⟨2, ![128, 128]⟩ : Shape).Idx → EReal) (b1 g β : Fin 128 → EReal)
    (W2 : (⟨2, ![128, 128]⟩ : Shape).Idx → EReal) (b2 : Fin 128 → EReal) : (⟨2, ![8192, 128]⟩ : Shape).Idx → EReal :=
  stage2 A (stage1 A X W1 b1 g β) W2 b2

end Cert.Spec

end
-- ==== Proof.KiR0Sem.lean ====
/-
  Region 0's arithmetic read at an entry on the extended reals: adding a block product to the accumulator adds,
  entry by entry, the sum over the block's 2048 columns; the epilogue is, row by row, the dense layer and the layer
  normalisation of the accumulated row.
-/
import proofs.«119995_j74062416053450_2_alg».proof.Proof.Gen.KernelIdeal.Skeleton
import proofs.«119995_j74062416053450_2_alg».proof.Proof.KiMm
import proofs.«119995_j74062416053450_2_alg».proof.Proof.LibColumns
import proofs.«119995_j74062416053450_2_alg».proof.Proof.Spec
import Idealize.ShloMosaic.Lib.ValueLayout

set_option maxRecDepth 16384

noncomputable section

namespace Cert.KernelIdeal.Sem

open Cert.KernelIdeal Cert.KernelIdeal.Gen Idealize.ShloMosaic Idealize.ShloMosaic.ValueIdx Idealize.ShloMosaic.LibColumns

theorem rsqrt_apply0 {s : Shape} {φ : FTy} (v : FVec Ideal s φ) (i : s.Idx) : rsqrt v i = Ideal.rsqrt (v i) := rfl

/-- The reset stores the zero block. -/
theorem pay1_0 (p : Fin 1024) (j : Fin 128) : k0_pay1 (F := Ideal) (ix2 p j) = 0 := by
  unfold k0_pay1
  simp only [shapeCast_self]
  exact Ideal.ofBits_zero_f32

/-- A point adds its block product to the accumulator. -/
theorem pay2_0 (a : FVec Ideal S1024x2048 .f32) (acc : FVec Ideal S1024x128 .f32) (x : FVec Ideal S2048x128 .bf16) (p : Fin 1024) (j : Fin 128) :
    k0_pay2 (F := Ideal) a acc x (ix2 p j) = acc (ix2 p j) + ∑ q : Fin 2048, a (ix2 p q) * x (ix2 q j) := by
  unfold k0_pay2
  simp only [shapeCast_self]
  refine congrArg (acc (ix2 p j) + ·) ?_
  refine (mmA _ _ _ p j).trans ?_
  rw [constant_apply, Ideal.ofBits_zero_f32, zero_add]
  rfl

/-- The epilogue of a row: the dense layer, then the layer normalisation. -/
theorem pay3_0 (v16 : FVec Ideal S1024x128 .f32) (v18 : FVec Ideal S128x128 .bf16) (v21 v43 v47 : FVec Ideal S1x128 .f32) (p : Fin 1024) (j : Fin 128) :
    k0_pay3 (F := Ideal) v16 v18 v21 v43 v47 (ix2 p j)
      = Cert.Spec.lnorm (Cert.Spec.dense (fun l => v16 (ix2 p l)) v18 (fun c => v21 (ix2 (0 : Fin 1) c)))
          (fun c => v43 (ix2 (0 : Fin 1) c)) (fun c => v47 (ix2 (0 : Fin 1) c)) j := by
  unfold k0_pay3
  simp only [shapeCast_self]
  generalize hY : addf (matmul dot_S1024x128_S128x128_S1024x128_1_0_0_1_n_n none (truncf .bf16 v16 bitsLt_bf16_f32) v18 (constant S1024x128 .f32 0x00000000#32)) (broadcastTo S1024x128 v21 broadcasts_S1x128_S1024x128) = Y
  have hYrow : ∀ c : Fin 128, Y (ix2 p c) = Cert.Spec.dense (fun l => v16 (ix2 p l)) v18 (fun c => v21 (ix2 (0 : Fin 1) c)) c := by
    intro c; subst hY
    simp only [addf_apply, mmW, broadcastTo_1b_ab_apply, constant_apply, truncf_apply, Ideal.ofBits_zero_f32, zero_add]
    rfl
  simp only [addf_apply, subf_apply, mulf_apply, divf_apply, rsqrt_apply0, broadcast_apply, broadcastTo_1b_ab_apply, broadcastTo_a1_ab_apply, shapeCast_a_a1_apply]
  rw [rowsum, rowsum]
  simp only [addf_apply, subf_apply, mulf_apply, divf_apply, broadcast_apply, broadcastTo_a1_ab_apply, shapeCast_a_a1_apply]
  rw [rowsum]
  simp only [hYrow]
  unfold Cert.Spec.lnorm Cert.Spec.mean Cert.Spec.c128 Cert.Spec.ceps
  rfl

end Cert.KernelIdeal.Sem

end
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.KiBlocks.lean ====
/-
  A matrix product accumulated over four column blocks is the whole product. The adjacency matrix's row `i`
  times column `l` of the features, summed over the 8192 hyperedges, is the sum over the four blocks of 2048
  hyperedges of the blocks' partial sums: a sum over 4 × 2048 terms regrouped into tiles, which holds on the
  extended reals because only the order of a finite sum changes.
-/
import proofs.«119995_j74062416053450_2_alg».proof.Proof.Spec
import proofs.«119995_j74062416053450_2_alg».proof.Proof.LibMoments

noncomputable section

namespace Cert.Blocks

open Idealize.ShloMosaic Idealize.ShloMosaic.ValueIdx

/-- The adjacency matrix read at natural-number coordinates (zero outside its extent). -/
def Aat (A : (⟨2, ![8192, 8192]⟩ : Shape).Idx → EReal) (i k : ℕ) : EReal :=
  if h : i < 8192 ∧ k < 8192 then A (ix2 ⟨i, h.1⟩ ⟨k, h.2⟩) else 0

/-- The features read at a natural-number row (zero outside). -/
def Xat (X : (⟨2, ![8192, 128]⟩ : Shape).Idx → EReal) (k : ℕ) (l : Fin 128) : EReal :=
  if h : k < 8192 then X (ix2 ⟨k, h⟩ l) else 0

/-- Block `k'`'s partial sum: the 2048 products of the block's columns. -/
def bsum (A : (⟨2, ![8192, 8192]⟩ : Shape).Idx → EReal) (X : (⟨2, ![8192, 128]⟩ : Shape).Idx → EReal) (i : ℕ) (l : Fin 128) (k' : ℕ) : EReal :=
  ∑ q ∈ Finset.range 2048, Aat A i (2048 * k' + q) * Xat X (2048 * k' + q) l

/-- The partial sums of the first `n` blocks. -/
def psum (A : (⟨2, ![8192, 8192]⟩ : Shape).Idx → EReal) (X : (⟨2, ![8192, 128]⟩ : Shape).Idx → EReal) (i : ℕ) (l : Fin 128) (n : ℕ) : EReal :=
  ∑ k' ∈ Finset.range n, bsum A X i l k'

/-- A block product's entry is the block's partial sum, when the two blocks read the adjacency matrix and the features
    at the block's offsets. -/
theorem bstep (A : (⟨2, ![8192, 8192]⟩ : Shape).Idx → EReal) (X : (⟨2, ![8192, 128]⟩ : Shape).Idx → EReal)
    (a : (⟨2, ![1024, 2048]⟩ : Shape).Idx → EReal) (x : (⟨2, ![2048, 128]⟩ : Shape).Idx → EReal) (i k : ℕ) (p : Fin 1024) (l : Fin 128)
    (ha : ∀ q : Fin 2048, a (ix2 p q) = Aat A i (2048 * k + q.val)) (hx : ∀ q : Fin 2048, x (ix2 q l) = Xat X (2048 * k + q.val) l) :
    ∑ q : Fin 2048, a (ix2 p q) * x (ix2 q l) = bsum A X i l k := by
  unfold bsum
  rw [Finset.sum_range]
  exact Finset.sum_congr rfl fun q _ => by rw [ha, hx]

theorem psum_one (A X) (i : ℕ) (l : Fin 128) : psum A X i l 1 = bsum A X i l 0 := by
  unfold psum; rw [Finset.sum_range_one]

theorem psum_succ (A X) (i : ℕ) (l : Fin 128) (n : ℕ) : psum A X i l (n + 1) = psum A X i l n + bsum A X i l n := by
  unfold psum; rw [Finset.sum_range_succ]

/-- All four blocks: the whole product's entry. -/
theorem psum_four (A : (⟨2, ![8192, 8192]⟩ : Shape).Idx → EReal) (X : (⟨2, ![8192, 128]⟩ : Shape).Idx → EReal) (i : Fin 8192) (l : Fin 128) :
    psum A X i.val l 4 = Cert.Spec.conv A X i l := by
  unfold Cert.Spec.conv
  have h := Cert.LibMoments.sum_fin_mul 4 2048 (fun kk : Fin (4 * 2048) => A (ix2 i ⟨kk.val, kk.isLt⟩) * X (ix2 ⟨kk.val, kk.isLt⟩ l))
  refine Eq.trans ?_ h.symm
  unfold psum bsum
  rw [Finset.sum_range]
  refine Finset.sum_congr rfl fun t _ => ?_
  rw [Finset.sum_range]
  refine Finset.sum_congr rfl fun r _ => ?_
  have ht := t.isLt
  have hr := r.isLt
  unfold Aat Xat
  rw [dif_pos ⟨i.isLt, by omega⟩, dif_pos (by omega)]

end Cert.Blocks

end
-- ==== Proof.KiR0Fin.lean ====
/-
  Region 0, from blocks to the array. A row block's accumulator after its `k`-th point holds, entry by entry, the
  partial sums of the first `k + 1` column blocks; after the fourth, the whole product's entries. The block the
  pipeline writes back after a row block's last point is therefore the specification's block, the eight row blocks
  cover the result array, and the array ends at the specification's function of the region's arrays.
-/
import proofs.«119995_j74062416053450_2_alg».proof.Proof.KiR0Val
import proofs.«119995_j74062416053450_2_alg».proof.Proof.KiR0Sem
import proofs.«119995_j74062416053450_2_alg».proof.Proof.KiBlocks
import Idealize.ShloMosaic.Lib.Pipeline.Value

set_option maxRecDepth 16384

noncomputable section

namespace Cert.KernelIdeal.Fr

open Cert.KernelIdeal Cert.KernelIdeal.Gen Cert.KernelIdeal.Sem Cert.Blocks
open Idealize.ShloMosaic Idealize.ShloMosaic.TcCoe Idealize.ShloMosaic.ValueIdx Idealize.SL.Sem
open Idealize.ShloMosaic.Pipeline (Dat)

section Fin
variable (V : (c : Dev nD) → (b : Ref sig .tc) → Buf (Elt Ideal) ((c : Thread nD τ).loc b))

/-- The windows' block indices over the grid: the grid point's row-block and column-block coordinates. -/
theorem idx0 : ∀ t : Fin cfg0.N, win0_0.index t (0 : Fin 2) = t.val / 4
    ∧ win0_0.index t (1 : Fin 2) = t.val % 4
    ∧ win0_1.index t (0 : Fin 2) = t.val % 4
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val / 4
    ∧ win0_6.index t (1 : Fin 2) = 0 :=
  (by decide +kernel : ∀ t : Fin grid0.N, _)

/-- The adjacency block at a point, read at an entry. -/
theorem blkA0 (c : Dev nD) (t : Fin cfg0.N) (p : Fin 1024) (q : Fin 2048) :
    iblk0 V c 0 t (ix2 p q) = Aat (V c main_arg6) (1024 * (t.val / 4) + p.val) (2048 * (t.val % 4) + q.val) := by
  obtain ⟨e0, e1, e2, e3, e4, e5, e6, e7, e8, e9, e10, e11, e12, e13⟩ := idx0 t
  have hN : t.val < 32 := lt_of_lt_of_eq t.isLt N_0
  have hp := p.isLt
  have hq := q.isLt
  unfold Aat
  rw [dif_pos ⟨by omega, by omega⟩]
  unfold iblk0
  rw [View.read_apply]
  show V c main_arg6 _ = V c main_arg6 _
  congr 1
  funext a
  apply Fin.ext
  match a with
  | ⟨0, _⟩ => show win0_0.index t (0 : Fin 2) * 1024 + 1 * p.val = 1024 * (t.val / 4) + p.val; rw [e0]; omega
  | ⟨1, _⟩ => show win0_0.index t (1 : Fin 2) * 2048 + 1 * q.val = 2048 * (t.val % 4) + q.val; rw [e1]; omega

/-- The feature block at a point, read at an entry. -/
theorem blkX0 (c : Dev nD) (t : Fin cfg0.N) (q : Fin 2048) (l : Fin 128) :
    iblk0 V c 1 t (ix2 q l) = Xat (V c main_call0_v61) (2048 * (t.val % 4) + q.val) l := by
  obtain ⟨e0, e1, e2, e3, e4, e5, e6, e7, e8, e9, e10, e11, e12, e13⟩ := idx0 t
  have hN : t.val < 32 := lt_of_lt_of_eq t.isLt N_0
  have hq := q.isLt
  unfold Xat
  rw [dif_pos (by omega)]
  unfold iblk0
  rw [View.read_apply]
  show V c main_call0_v61 _ = V c main_call0_v61 _
  congr 1
  funext a
  apply Fin.ext
  match a with
  | ⟨0, _⟩ => show win0_1.index t (0 : Fin 2) * 2048 + 1 * q.val = 2048 * (t.val % 4) + q.val; rw [e2]; omega
  | ⟨1, _⟩ => show win0_1.index t (1 : Fin 2) * 128 + 1 * l.val = l.val; rw [e3]; omega

/-- Window 2's one block is its whole array. -/
theorem blk0_2 (c : Dev nD) (t : Fin cfg0.N) : iblk0 V c 2 t = V c main_call0_v62 := by
  obtain ⟨e0, e1, e2, e3, e4, e5, e6, e7, e8, e9, e10, e11, e12, e13⟩ := idx0 t
  funext y
  unfold iblk0
  rw [View.read_apply]
  show V c main_call0_v62 _ = V c main_call0_v62 y
  congr 1
  funext a
  apply Fin.ext
  match a with
  | ⟨0, _⟩ => show win0_2.index t (0 : Fin 2) * 128 + 1 * (y 0).val = (y 0).val; rw [e4]; omega
  | ⟨1, _⟩ => show win0_2.index t (1 : Fin 2) * 128 + 1 * (y 1).val = (y 1).val; rw [e5]; omega

/-- Window 3's one block is its whole array. -/
theorem blk0_3 (c : Dev nD) (t : Fin cfg0.N) : iblk0 V c 3 t = V c main_call0_v63 := by
  obtain ⟨e0, e1, e2, e3, e4, e5, e6, e7, e8, e9, e10, e11, e12, e13⟩ := idx0 t
  funext y
  unfold iblk0
  rw [View.read_apply]
  show V c main_call0_v63 _ = V c main_call0_v63 y
  congr 1
  funext a
  apply Fin.ext
  match a with
  | ⟨0, _⟩ => show win0_3.index t (0 : Fin 2) * 1 + 1 * (y 0).val = (y 0).val; rw [e6]; omega
  | ⟨1, _⟩ => show win0_3.index t (1 : Fin 2) * 128 + 1 * (y 1).val = (y 1).val; rw [e7]; omega

/-- Window 4's one block is its whole array. -/
theorem blk0_4 (c : Dev nD) (t : Fin cfg0.N) : iblk0 V c 4 t = V c main_call0_v64 := by
  obtain ⟨e0, e1, e2, e3, e4, e5, e6, e7, e8, e9, e10, e11, e12, e13⟩ := idx0 t
  funext y
  unfold iblk0
  rw [View.read_apply]
  show V c main_call0_v64 _ = V c main_call0_v64 y
  congr 1
  funext a
  apply Fin.ext
  match a with
  | ⟨0, _⟩ => show win0_4.index t (0 : Fin 2) * 1 + 1 * (y 0).val = (y 0).val; rw [e8]; omega
  | ⟨1, _⟩ => show win0_4.index t (1 : Fin 2) * 128 + 1 * (y 1).val = (y 1).val; rw [e9]; omega

/-- Window 5's one block is its whole array. -/
theorem blk0_5 (c : Dev nD) (t : Fin cfg0.N) : iblk0 V c 5 t = V c main_call0_v65 := by
  obtain ⟨e0, e1, e2, e3, e4, e5, e6, e7, e8, e9, e10, e11, e12, e13⟩ := idx0 t
  funext y
  unfold iblk0
  rw [View.read_apply]
  show V c main_call0_v65 _ = V c main_call0_v65 y
  congr 1
  funext a
  apply Fin.ext
  match a with
  | ⟨0, _⟩ => show win0_5.index t (0 : Fin 2) * 1 + 1 * (y 0).val = (y 0).val; rw [e10]; omega
  | ⟨1, _⟩ => show win0_5.index t (1 : Fin 2) * 128 + 1 * (y 1).val = (y 1).val; rw [e11]; omega

/-- The accumulator after point `n`: the partial sums of the column blocks up to the point's. -/
theorem acc0_eq (c : Dev nD) : ∀ (n : ℕ) (h : n < cfg0.N) (p : Fin 1024) (l : Fin 128),
    acc0 V c n h (ix2 p l) = psum (V c main_arg6) (V c main_call0_v61) (1024 * (n / 4) + p.val) l (n % 4 + 1)
  | 0, h, p, l => by
    unfold acc0
    refine (pay2_0 _ _ _ p l).trans ?_
    rw [pay1_0, zero_add]
    refine (bstep (V c main_arg6) (V c main_call0_v61) _ _ (1024 * (0 / 4) + p.val) (0 % 4) p l (fun q => blkA0 V c ⟨0, h⟩ p q) (fun q => blkX0 V c ⟨0, h⟩ q l)).trans ?_
    exact (psum_one _ _ _ _).symm
  | n + 1, h, p, l => by
    unfold acc0
    by_cases h0 : (n + 1) % 4 = 0
    · rw [if_pos h0]
      refine (pay2_0 _ _ _ p l).trans ?_
      rw [pay1_0, zero_add]
      refine (bstep (V c main_arg6) (V c main_call0_v61) _ _ (1024 * ((n + 1) / 4) + p.val) ((n + 1) % 4) p l (fun q => blkA0 V c ⟨n + 1, h⟩ p q) (fun q => blkX0 V c ⟨n + 1, h⟩ q l)).trans ?_
      rw [h0]
      exact (psum_one _ _ _ _).symm
    · rw [if_neg h0]
      refine (pay2_0 _ _ _ p l).trans ?_
      rw [acc0_eq c n (Nat.lt_of_succ_lt h) p l]
      refine (congrArg (psum (V c main_arg6) (V c main_call0_v61) (1024 * (n / 4) + p.val) l (n % 4 + 1) + ·) (bstep (V c main_arg6) (V c main_call0_v61) _ _ (1024 * ((n + 1) / 4) + p.val) ((n + 1) % 4) p l (fun q => blkA0 V c ⟨n + 1, h⟩ p q) (fun q => blkX0 V c ⟨n + 1, h⟩ q l))).trans ?_
      have hd : (n + 1) / 4 = n / 4 := by omega
      have hm : (n + 1) % 4 = n % 4 + 1 := by omega
      rw [hd, hm]
      exact (psum_succ _ _ _ _ _).symm

/-- What the region's result array ends holding. -/
abbrev G0 (c : Dev nD) : (⟨2, ![8192, 128]⟩ : Shape).Idx → EReal := Cert.Spec.stage1 (V c main_arg6) (V c main_call0_v61) (V c main_call0_v62) (fun j => V c main_call0_v63 (ix2 (0 : Fin 1) j)) (fun j => V c main_call0_v64 (ix2 (0 : Fin 1) j)) (fun j => V c main_call0_v65 (ix2 (0 : Fin 1) j))

/-- What a row block's last point writes back is the specification's block. -/
theorem flushed0_eq (c : Dev nD) (t : Fin cfg0.N) (hf : (cfg0.win 6).flush t = true) :
    (dat0 V c).flushed 6 t = ((cfg0.win 6).blk t).view.read (Elt Ideal) (G0 V c) := by
  have h3 : t.val % 4 = 3 := (flush0_6 t).mp hf
  have hN : t.val < 32 := lt_of_lt_of_eq t.isLt N_0
  obtain ⟨e0, e1, e2, e3, e4, e5, e6, e7, e8, e9, e10, e11, e12, e13⟩ := idx0 t
  show (cfg0.win 6).cut (grid0.coords t) ((dat0 V c).after 6 t) = _
  rw [after0_6, outsAt0_fst V c t h3]
  funext y
  obtain ⟨p, j, rfl⟩ : ∃ (p : Fin 1024) (j : Fin 128), y = ix2 p j := ⟨y 0, y 1, eq_ix2 y⟩
  have hp := p.isLt
  rw [View.read_apply]
  have hemb : ((cfg0.win 6).blk t).view.emb (ix2 p j) = ix2 (⟨1024 * (t.val / 4) + p.val, by omega⟩ : Fin 8192) j := by
    funext a
    apply Fin.ext
    match a with
    | ⟨0, _⟩ => show win0_6.index t (0 : Fin 2) * 1024 + 1 * p.val = 1024 * (t.val / 4) + p.val; rw [e12]; omega
    | ⟨1, _⟩ => show win0_6.index t (1 : Fin 2) * 128 + 1 * j.val = j.val; rw [e13]; omega
  rw [hemb]
  show k0_pay3 (F := Ideal) (acc0 V c t.val t.isLt) (iblk0 V c 2 t) (iblk0 V c 3 t) (iblk0 V c 4 t) (iblk0 V c 5 t) (ix2 p j) = _
  rw [pay3_0, blk0_2 V c t, blk0_3 V c t, blk0_4 V c t, blk0_5 V c t]
  have hrow : (fun l => acc0 V c t.val t.isLt (ix2 p l)) = Cert.Spec.conv (V c main_arg6) (V c main_call0_v61) (⟨1024 * (t.val / 4) + p.val, by omega⟩ : Fin 8192) := by
    funext l
    rw [acc0_eq V c t.val t.isLt p l, h3]
    exact psum_four _ _ (⟨1024 * (t.val / 4) + p.val, by omega⟩ : Fin 8192) l
  rw [hrow]
  rfl

/-- An index of the array is in a point's block iff each coordinate is in the block's range. -/
theorem mem0 (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_call0_v66).slice (win0_6.rect t)).set ↔ _
  rw [View.set_slice_whole, Rect.mem_set_unit]
  exact Iff.rfl

/-- The eight row blocks cover the result array. -/
theorem cover0 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  have hlt : 4 * ((i 0).val / 1024) + 3 < cfg0.N := by rw [show cfg0.N = 32 from N_0]; omega
  refine ⟨⟨4 * ((i 0).val / 1024) + 3, hlt⟩, (flush0_6 _).mpr (by show (4 * ((i 0).val / 1024) + 3) % 4 = 3; omega), ?_⟩
  obtain ⟨e0, e1, e2, e3, e4, e5, e6, e7, e8, e9, e10, e11, e12, e13⟩ := idx0 ⟨4 * ((i 0).val / 1024) + 3, hlt⟩
  rw [mem0]
  intro a
  match a with
  | ⟨0, _⟩ =>
    show win0_6.index _ (0 : Fin 2) * 1024 ≤ (i 0).val ∧ (i 0).val < win0_6.index _ (0 : Fin 2) * 1024 + 1024
    rw [e12]
    show (4 * ((i 0).val / 1024) + 3) / 4 * 1024 ≤ (i 0).val ∧ (i 0).val < (4 * ((i 0).val / 1024) + 3) / 4 * 1024 + 1024
    omega
  | ⟨1, _⟩ =>
    show win0_6.index _ (1 : Fin 2) * 128 ≤ (i 1).val ∧ (i 1).val < win0_6.index _ (1 : Fin 2) * 128 + 128
    rw [e13]
    omega

/-- The region's result array after the run. -/
theorem final0 (c : Dev nD) : (dat0 V c).arrAt 6 cfg0.N = G0 V c :=
  (dat0 V c).arrAt_eq_of_cover 6 (G0 V c) (flushed0_eq V c) (cover0)

end Fin

end Cert.KernelIdeal.Fr

end
-- ==== Proof.KiR1Val.lean ====
/-
  Region 1, the values. What the three control cases leave: resetting and adding the first column block's
  product leaves that product added to the zero block; a middle point adds its block's product to what the
  accumulator held; the last point does the same and stores the epilogue of the new accumulator into the
  output's buffer. So the accumulator after a point is the fold of the block products since the last reset, and the
  output's buffer after a row block's last point is the epilogue of that fold.
-/
import proofs.«119995_j74062416053450_2_alg».proof.Proof.KiR1Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

section Pieces
local notation "hz2" => hz2_1

theorem soutA1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S2048x128 .f32) :
    sout1_A c i arg2 harg2 arg3 harg3 arg4 harg4 arg5 harg5 arg6 harg6 arg7 harg7 hc0 hc1 x0 x1 = k1_pay2 x0 x1 (k1_pay1 (F := F)) := by
  unfold sout1_A
  rw [View.read_writes_eq_canon _ _ _ (scover1_A c i arg2 harg2 arg3 harg3 arg4 harg4 arg5 harg5 arg6 harg6 arg7 harg7 hc0 hc1 x0 x1)]
  unfold kernelRun1_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2, View.ld_unit_zero (S := S2048x128) hz2]

theorem soutB1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S2048x128 .f32) (xs0 : Vec F S1024x128 .f32) :
    sout1_B c i arg2 harg2 arg3 harg3 arg4 harg4 arg5 harg5 arg6 harg6 arg7 harg7 hc0 hc1 x0 x1 xs0 = k1_pay2 x0 x1 xs0 := by
  unfold sout1_B
  rw [View.read_writes_eq_canon _ _ _ (scover1_B c i arg2 harg2 arg3 harg3 arg4 harg4 arg5 harg5 arg6 harg6 arg7 harg7 hc0 hc1 x0 x1 xs0)]
  unfold kernelRun1_B
  dsimp only
  sl_unfold_words
  rw [View.canon_unit_zero hz2]
  simp only [View.readAt_eq_ld, harg2.read_unread, harg3.read_unread, harg7.read_unread, View.ld_unit_zero (S := S1024x2048) hz2, View.ld_unit_zero (S := S2048x128) hz2, View.ld_unit_zero (S := S1024x128) hz2]

theorem soutC1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) :
    sout1_C c i arg2 harg2 arg3 harg3 arg4 harg4 arg5 harg5 arg6 harg6 arg7 harg7 hc0 hc1 x0 x1 x2 x3 xs0 = k1_pay2 x0 x1 xs0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz2]
  simp only [View.readAt_eq_ld, harg2.read_unread, harg3.read_unread, harg7.read_unread, View.ld_unit_zero (S := S1024x2048) hz2, View.ld_unit_zero (S := S2048x128) hz2, View.ld_unit_zero (S := S1024x128) hz2]

theorem outC1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S2048x128 .f32) (x2 : Vec F S128x128 .bf16) (x3 : Vec F S1x128 .f32) (xs0 : Vec F S1024x128 .f32) :
    out1_C c i arg2 harg2 arg3 harg3 arg4 harg4 arg5 harg5 arg6 harg6 arg7 harg7 hc0 hc1 x0 x1 x2 x3 xs0 = k1_pay3 (k1_pay2 x0 x1 xs0) x2 x3 := by
  unfold out1_C
  rw [View.read_writes_eq_canon _ _ _ (cover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz2, View.readCov_unit_zero (S := S1024x128) _ hz2]
  simp only [View.readAt_eq_ld, harg2.read_unread, harg3.read_unread, harg4.read_unread, harg5.read_unread, harg7.read_unread, View.ld_unit_zero (S := S1024x2048) hz2, View.ld_unit_zero (S := S2048x128) hz2, View.ld_unit_zero (S := S128x128) hz2, View.ld_unit_zero (S := S1x128) hz2, View.ld_unit_zero (S := S1024x128) hz2]

end Pieces

/-! ## The fold over the grid -/

section Fold
variable (V : (c : Dev nD) → (b : Ref sig .tc) → Buf (Elt F) ((c : Thread nD τ).loc b))

/-- The accumulator after point `n`: the block product of the point added to the zero block at a row block's first
    point, to the accumulator of the point before elsewhere. -/
def acc1 (c : Dev nD) : (n : ℕ) → n < cfg1.N → Vec F S1024x128 .f32
  | 0, h => k1_pay2 (iblk1 V c 0 ⟨0, h⟩) (iblk1 V c 1 ⟨0, h⟩) (k1_pay1 (F := F))
  | n + 1, h =>
    if (n + 1) % 4 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem outsAt1_snd (c : Dev nD) : ∀ (n : ℕ) (h : n < cfg1.N), (outsAt1 V c n h).2 = acc1 V c n h
  | 0, h => by
    rw [outsAt1_A V c ⟨0, h⟩ rfl (show ¬ (0 : ℕ) % 4 = 3 by decide)]
    dsimp only
    exact soutA1_eq ..
  | n + 1, h => by
    by_cases h0 : (n + 1) % 4 = 0
    · have h1 : ¬ (n + 1) % 4 = 3 := by omega
      rw [outsAt1_A V c ⟨n + 1, h⟩ h0 h1]
      dsimp only
      rw [soutA1_eq]
      unfold acc1; rw [if_pos h0]
    · have ih := outsAt1_snd c n (Nat.lt_of_succ_lt h)
      by_cases h1 : (n + 1) % 4 = 3
      · rw [outsAt1_C V c ⟨n + 1, h⟩ h0 h1]
        dsimp only
        rw [soutC1_eq]
        unfold acc1; rw [if_neg h0]
        exact congrArg (fun a => k1_pay2 _ _ a) ih
      · rw [outsAt1_B V c ⟨n + 1, h⟩ h0 h1]
        dsimp only
        rw [soutB1_eq]
        unfold acc1; rw [if_neg h0]
        exact congrArg (fun a => k1_pay2 _ _ a) ih

/-- At a row block's last point the output's buffer is left at the epilogue of the accumulator. -/
theorem outsAt1_fst (c : Dev nD) (t : Fin cfg1.N) (h1 : t.val % 4 = 3) :
    (outsAt1 V c t.val t.isLt).1 = k1_pay3 (acc1 V c t.val t.isLt) (iblk1 V c 2 t) (iblk1 V c 3 t) := by
  have h0 : ¬ t.val % 4 = 0 := by omega
  have hs := outsAt1_snd V c t.val t.isLt
  rw [outsAt1_C V c t h0 h1] at hs ⊢
  dsimp only at hs ⊢
  rw [soutC1_eq] at hs
  rw [outC1_eq, hs]

end Fold

end Cert.KernelIdeal.Fr

end
-- ==== Proof.KiR1Sem.lean ====
/-
  Region 1's arithmetic read at an entry on the extended reals: adding a block product to the accumulator adds,
  entry by entry, the sum over the block's 2048 columns; the epilogue is, row by row, the dense layer of the accumulated row.
-/
import proofs.«119995_j74062416053450_2_alg».proof.Proof.Gen.KernelIdeal.Skeleton
import proofs.«119995_j74062416053450_2_alg».proof.Proof.KiMm
import proofs.«119995_j74062416053450_2_alg».proof.Proof.LibColumns
import proofs.«119995_j74062416053450_2_alg».proof.Proof.Spec
import Idealize.ShloMosaic.Lib.ValueLayout

set_option maxRecDepth 16384

noncomputable section

namespace Cert.KernelIdeal.Sem

open Cert.KernelIdeal Cert.KernelIdeal.Gen Idealize.ShloMosaic Idealize.ShloMosaic.ValueIdx Idealize.ShloMosaic.LibColumns

theorem rsqrt_apply1 {s : Shape} {φ : FTy} (v : FVec Ideal s φ) (i : s.Idx) : rsqrt v i = Ideal.rsqrt (v i) := rfl

/-- The reset stores the zero block. -/
theorem pay1_1 (p : Fin 1024) (j : Fin 128) : k1_pay1 (F := Ideal) (ix2 p j) = 0 := by
  unfold k1_pay1
  simp only [shapeCast_self]
  exact Ideal.ofBits_zero_f32

/-- A point adds its block product to the accumulator. -/
theorem pay2_1 (a : FVec Ideal S1024x2048 .f32) (acc : FVec Ideal S1024x128 .f32) (x : FVec Ideal S2048x128 .f32) (p : Fin 1024) (j : Fin 128) :
    k1_pay2 (F := Ideal) a x acc (ix2 p j) = acc (ix2 p j) + ∑ q : Fin 2048, a (ix2 p q) * x (ix2 q j) := by
  unfold k1_pay2
  simp only [shapeCast_self]
  refine congrArg (acc (ix2 p j) + ·) ?_
  refine (mmA _ _ _ p j).trans ?_
  rw [constant_apply, Ideal.ofBits_zero_f32, zero_add]
  rfl

/-- The epilogue of a row: the dense layer. -/
theorem pay3_1 (v17 : FVec Ideal S1024x128 .f32) (v19 : FVec Ideal S128x128 .bf16) (v22 : FVec Ideal S1x128 .f32) (p : Fin 1024) (j : Fin 128) :
    k1_pay3 (F := Ideal) v17 v19 v22 (ix2 p j)
      = Cert.Spec.dense (fun l => v17 (ix2 p l)) v19 (fun c => v22 (ix2 (0 : Fin 1) c)) j := by
  unfold k1_pay3
  simp only [shapeCast_self]
  simp only [addf_apply, mmW, broadcastTo_1b_ab_apply, constant_apply, truncf_apply, Ideal.ofBits_zero_f32, zero_add]
  rfl

end Cert.KernelIdeal.Sem

end
-- ==== Proof.KiR1Fin.lean ====
/-
  Region 1, from blocks to the array. A row block's accumulator after its `k`-th point holds, entry by entry, the
  partial sums of the first `k + 1` column blocks; after the fourth, the whole product's entries. The block the
  pipeline writes back after a row block's last point is therefore the specification's block, the eight row blocks
  cover the result array, and the array ends at the specification's function of the region's arrays.
-/
import proofs.«119995_j74062416053450_2_alg».proof.Proof.KiR1Val
import proofs.«119995_j74062416053450_2_alg».proof.Proof.KiR1Sem
import proofs.«119995_j74062416053450_2_alg».proof.Proof.KiBlocks
import Idealize.ShloMosaic.Lib.Pipeline.Value

set_option maxRecDepth 16384

noncomputable section

namespace Cert.KernelIdeal.Fr

open Cert.KernelIdeal Cert.KernelIdeal.Gen Cert.KernelIdeal.Sem Cert.Blocks
open Idealize.ShloMosaic Idealize.ShloMosaic.TcCoe Idealize.ShloMosaic.ValueIdx Idealize.SL.Sem
open Idealize.ShloMosaic.Pipeline (Dat)

section Fin
variable (V : (c : Dev nD) → (b : Ref sig .tc) → Buf (Elt Ideal) ((c : Thread nD τ).loc b))

/-- The windows' block indices over the grid: the grid point's row-block and column-block coordinates. -/
theorem idx1 : ∀ t : Fin cfg1.N, win1_0.index t (0 : Fin 2) = t.val / 4
    ∧ win1_0.index t (1 : Fin 2) = t.val % 4
    ∧ win1_1.index t (0 : Fin 2) = t.val % 4
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val / 4
    ∧ win1_4.index t (1 : Fin 2) = 0 :=
  (by decide +kernel : ∀ t : Fin grid1.N, _)

/-- The adjacency block at a point, read at an entry. -/
theorem blkA1 (c : Dev nD) (t : Fin cfg1.N) (p : Fin 1024) (q : Fin 2048) :
    iblk1 V c 0 t (ix2 p q) = Aat (V c main_arg6) (1024 * (t.val / 4) + p.val) (2048 * (t.val % 4) + q.val) := by
  obtain ⟨e0, e1, e2, e3, e4, e5, e6, e7, e8, e9⟩ := idx1 t
  have hN : t.val < 32 := lt_of_lt_of_eq t.isLt N_1
  have hp := p.isLt
  have hq := q.isLt
  unfold Aat
  rw [dif_pos ⟨by omega, by omega⟩]
  unfold iblk1
  rw [View.read_apply]
  show V c main_arg6 _ = V c main_arg6 _
  congr 1
  funext a
  apply Fin.ext
  match a with
  | ⟨0, _⟩ => show win1_0.index t (0 : Fin 2) * 1024 + 1 * p.val = 1024 * (t.val / 4) + p.val; rw [e0]; omega
  | ⟨1, _⟩ => show win1_0.index t (1 : Fin 2) * 2048 + 1 * q.val = 2048 * (t.val % 4) + q.val; rw [e1]; omega

/-- The feature block at a point, read at an entry. -/
theorem blkX1 (c : Dev nD) (t : Fin cfg1.N) (q : Fin 2048) (l : Fin 128) :
    iblk1 V c 1 t (ix2 q l) = Xat (V c main_call0_v66) (2048 * (t.val % 4) + q.val) l := by
  obtain ⟨e0, e1, e2, e3, e4, e5, e6, e7, e8, e9⟩ := idx1 t
  have hN : t.val < 32 := lt_of_lt_of_eq t.isLt N_1
  have hq := q.isLt
  unfold Xat
  rw [dif_pos (by omega)]
  unfold iblk1
  rw [View.read_apply]
  show V c main_call0_v66 _ = V c main_call0_v66 _
  congr 1
  funext a
  apply Fin.ext
  match a with
  | ⟨0, _⟩ => show win1_1.index t (0 : Fin 2) * 2048 + 1 * q.val = 2048 * (t.val % 4) + q.val; rw [e2]; omega
  | ⟨1, _⟩ => show win1_1.index t (1 : Fin 2) * 128 + 1 * l.val = l.val; rw [e3]; omega

/-- Window 2's one block is its whole array. -/
theorem blk1_2 (c : Dev nD) (t : Fin cfg1.N) : iblk1 V c 2 t = V c main_call0_v67 := by
  obtain ⟨e0, e1, e2, e3, e4, e5, e6, e7, e8, e9⟩ := idx1 t
  funext y
  unfold iblk1
  rw [View.read_apply]
  show V c main_call0_v67 _ = V c main_call0_v67 y
  congr 1
  funext a
  apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- Window 3's one block is its whole array. -/
theorem blk1_3 (c : Dev nD) (t : Fin cfg1.N) : iblk1 V c 3 t = V c main_call0_v68 := by
  obtain ⟨e0, e1, e2, e3, e4, e5, e6, e7, e8, e9⟩ := idx1 t
  funext y
  unfold iblk1
  rw [View.read_apply]
  show V c main_call0_v68 _ = V c main_call0_v68 y
  congr 1
  funext a
  apply Fin.ext
  match a with
  | ⟨0, _⟩ => show win1_3.index t (0 : Fin 2) * 1 + 1 * (y 0).val = (y 0).val; rw [e6]; omega
  | ⟨1, _⟩ => show win1_3.index t (1 : Fin 2) * 128 + 1 * (y 1).val = (y 1).val; rw [e7]; omega

/-- The accumulator after point `n`: the partial sums of the column blocks up to the point's. -/
theorem acc1_eq (c : Dev nD) : ∀ (n : ℕ) (h : n < cfg1.N) (p : Fin 1024) (l : Fin 128),
    acc1 V c n h (ix2 p l) = psum (V c main_arg6) (V c main_call0_v66) (1024 * (n / 4) + p.val) l (n % 4 + 1)
  | 0, h, p, l => by
    unfold acc1
    refine (pay2_1 _ _ _ p l).trans ?_
    rw [pay1_1, zero_add]
    refine (bstep (V c main_arg6) (V c main_call0_v66) _ _ (1024 * (0 / 4) + p.val) (0 % 4) p l (fun q => blkA1 V c ⟨0, h⟩ p q) (fun q => blkX1 V c ⟨0, h⟩ q l)).trans ?_
    exact (psum_one _ _ _ _).symm
  | n + 1, h, p, l => by
    unfold acc1
    by_cases h0 : (n + 1) % 4 = 0
    · rw [if_pos h0]
      refine (pay2_1 _ _ _ p l).trans ?_
      rw [pay1_1, zero_add]
      refine (bstep (V c main_arg6) (V c main_call0_v66) _ _ (1024 * ((n + 1) / 4) + p.val) ((n + 1) % 4) p l (fun q => blkA1 V c ⟨n + 1, h⟩ p q) (fun q => blkX1 V c ⟨n + 1, h⟩ q l)).trans ?_
      rw [h0]
      exact (psum_one _ _ _ _).symm
    · rw [if_neg h0]
      refine (pay2_1 _ _ _ p l).trans ?_
      rw [acc1_eq c n (Nat.lt_of_succ_lt h) p l]
      refine (congrArg (psum (V c main_arg6) (V c main_call0_v66) (1024 * (n / 4) + p.val) l (n % 4 + 1) + ·) (bstep (V c main_arg6) (V c main_call0_v66) _ _ (1024 * ((n + 1) / 4) + p.val) ((n + 1) % 4) p l (fun q => blkA1 V c ⟨n + 1, h⟩ p q) (fun q => blkX1 V c ⟨n + 1, h⟩ q l))).trans ?_
      have hd : (n + 1) / 4 = n / 4 := by omega
      have hm : (n + 1) % 4 = n % 4 + 1 := by omega
      rw [hd, hm]
      exact (psum_succ _ _ _ _ _).symm

/-- What the region's result array ends holding. -/
abbrev G1 (c : Dev nD) : (⟨2, ![8192, 128]⟩ : Shape).Idx → EReal := Cert.Spec.stage2 (V c main_arg6) (V c main_call0_v66) (V c main_call0_v67) (fun j => V c main_call0_v68 (ix2 (0 : Fin 1) j))

/-- What a row block's last point writes back is the specification's block. -/
theorem flushed1_eq (c : Dev nD) (t : Fin cfg1.N) (hf : (cfg1.win 4).flush t = true) :
    (dat1 V c).flushed 4 t = ((cfg1.win 4).blk t).view.read (Elt Ideal) (G1 V c) := by
  have h3 : t.val % 4 = 3 := (flush1_4 t).mp hf
  have hN : t.val < 32 := lt_of_lt_of_eq t.isLt N_1
  obtain ⟨e0, e1, e2, e3, e4, e5, e6, e7, e8, e9⟩ := idx1 t
  show (cfg1.win 4).cut (grid1.coords t) ((dat1 V c).after 4 t) = _
  rw [after1_4, outsAt1_fst V c t h3]
  funext y
  obtain ⟨p, j, rfl⟩ : ∃ (p : Fin 1024) (j : Fin 128), y = ix2 p j := ⟨y 0, y 1, eq_ix2 y⟩
  have hp := p.isLt
  rw [View.read_apply]
  have hemb : ((cfg1.win 4).blk t).view.emb (ix2 p j) = ix2 (⟨1024 * (t.val / 4) + p.val, by omega⟩ : Fin 8192) j := by
    funext a
    apply Fin.ext
    match a with
    | ⟨0, _⟩ => show win1_4.index t (0 : Fin 2) * 1024 + 1 * p.val = 1024 * (t.val / 4) + p.val; rw [e8]; omega
    | ⟨1, _⟩ => show win1_4.index t (1 : Fin 2) * 128 + 1 * j.val = j.val; rw [e9]; omega
  rw [hemb]
  show k1_pay3 (F := Ideal) (acc1 V c t.val t.isLt) (iblk1 V c 2 t) (iblk1 V c 3 t) (ix2 p j) = _
  rw [pay3_1, blk1_2 V c t, blk1_3 V c t]
  have hrow : (fun l => acc1 V c t.val t.isLt (ix2 p l)) = Cert.Spec.conv (V c main_arg6) (V c main_call0_v66) (⟨1024 * (t.val / 4) + p.val, by omega⟩ : Fin 8192) := by
    funext l
    rw [acc1_eq V c t.val t.isLt p l, h3]
    exact psum_four _ _ (⟨1024 * (t.val / 4) + p.val, by omega⟩ : Fin 8192) l
  rw [hrow]
  rfl

/-- An index of the array is in a point's block iff each coordinate is in the block's range. -/
theorem mem1 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_call0_v69).slice (win1_4.rect t)).set ↔ _
  rw [View.set_slice_whole, Rect.mem_set_unit]
  exact Iff.rfl

/-- The eight row blocks cover the result array. -/
theorem cover1 (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hlt : 4 * ((i 0).val / 1024) + 3 < cfg1.N := by rw [show cfg1.N = 32 from N_1]; omega
  refine ⟨⟨4 * ((i 0).val / 1024) + 3, hlt⟩, (flush1_4 _).mpr (by show (4 * ((i 0).val / 1024) + 3) % 4 = 3; omega), ?_⟩
  obtain ⟨e0, e1, e2, e3, e4, e5, e6, e7, e8, e9⟩ := idx1 ⟨4 * ((i 0).val / 1024) + 3, hlt⟩
  rw [mem1]
  intro a
  match a with
  | ⟨0, _⟩ =>
    show win1_4.index _ (0 : Fin 2) * 1024 ≤ (i 0).val ∧ (i 0).val < win1_4.index _ (0 : Fin 2) * 1024 + 1024
    rw [e8]
    show (4 * ((i 0).val / 1024) + 3) / 4 * 1024 ≤ (i 0).val ∧ (i 0).val < (4 * ((i 0).val / 1024) + 3) / 4 * 1024 + 1024
    omega
  | ⟨1, _⟩ =>
    show win1_4.index _ (1 : Fin 2) * 128 ≤ (i 1).val ∧ (i 1).val < win1_4.index _ (1 : Fin 2) * 128 + 128
    rw [e9]
    omega

/-- The region's result array after the run. -/
theorem final1 (c : Dev nD) : (dat1 V c).arrAt 4 cfg1.N = G1 V c :=
  (dat1 V c).arrAt_eq_of_cover 4 (G1 V c) (flushed1_eq V c) (cover1)

end Fin

end Cert.KernelIdeal.Fr

end
-- ==== Proof.KiR2Val.lean ====
/-
  Region 2, the values. What the three control cases leave: resetting and adding the first column block's
  product leaves that product added to the zero block; a middle point adds its block's product to what the
  accumulator held; the last point does the same and stores the epilogue of the new accumulator into the
  output's buffer. So the accumulator after a point is the fold of the block products since the last reset, and the
  output's buffer after a row block's last point is the epilogue of that fold.
-/
import proofs.«119995_j74062416053450_2_alg».proof.Proof.KiR2Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_2 : (![0, 0] : Fin 2 → Nat) = fun _ => 0 := funext fun a => by fin_cases a <;> rfl

section Pieces
local notation "hz2" => hz2_2

theorem soutA2_eq (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .f32) (x1 : Vec F S2048x128 .bf16) :
    sout2_A c i arg2 harg2 arg3 harg3 arg4 harg4 arg5 harg5 arg6 harg6 arg7 harg7 arg8 harg8 arg9 harg9 hc0 hc1 x0 x1 = k2_pay2 x0 (k2_pay1 (F := F)) x1 := by
  unfold sout2_A
  rw [View.read_writes_eq_canon _ _ _ (scover2_A c i arg2 harg2 arg3 harg3 arg4 harg4 arg5 harg5 arg6 harg6 arg7 harg7 arg8 harg8 arg9 harg9 hc0 hc1 x0 x1)]
  unfold kernelRun2_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2, View.ld_unit_zero (S := S2048x128) hz2]

theorem soutB2_eq (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .f32) (x1 : Vec F S2048x128 .bf16) (xs0 : Vec F S1024x128 .f32) :
    sout2_B c i arg2 harg2 arg3 harg3 arg4 harg4 arg5 harg5 arg6 harg6 arg7 harg7 arg8 harg8 arg9 harg9 hc0 hc1 x0 x1 xs0 = k2_pay2 x0 xs0 x1 := by
  unfold sout2_B
  rw [View.read_writes_eq_canon _ _ _ (scover2_B c i arg2 harg2 arg3 harg3 arg4 harg4 arg5 harg5 arg6 harg6 arg7 harg7 arg8 harg8 arg9 harg9 hc0 hc1 x0 x1 xs0)]
  unfold kernelRun2_B
  dsimp only
  sl_unfold_words
  rw [View.canon_unit_zero hz2]
  simp only [View.readAt_eq_ld, harg2.read_unread, harg3.read_unread, harg9.read_unread, View.ld_unit_zero (S := S1024x2048) hz2, View.ld_unit_zero (S := S2048x128) hz2, View.ld_unit_zero (S := S1024x128) hz2]

theorem soutC2_eq (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    sout2_C c i arg2 harg2 arg3 harg3 arg4 harg4 arg5 harg5 arg6 harg6 arg7 harg7 arg8 harg8 arg9 harg9 hc0 hc1 x0 x1 x2 x3 x4 x5 xs0 = k2_pay2 x0 xs0 x1 := by
  unfold sout2_C
  rw [View.read_writes_eq_canon _ _ _ (scover2_C c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2]
  simp only [View.readAt_eq_ld, harg2.read_unread, harg3.read_unread, harg9.read_unread, View.ld_unit_zero (S := S1024x2048) hz2, View.ld_unit_zero (S := S2048x128) hz2, View.ld_unit_zero (S := S1024x128) hz2]

theorem outC2_eq (c : Dev nD) (i : grid2.Coords) (arg2 : Memref sig .tc .vmem S1024x2048 .f32) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .f32) (x1 : Vec F S2048x128 .bf16) (x2 : Vec F S128x128 .bf16) (x3 : Vec F S1x128 .f32) (x4 : Vec F S1x128 .f32) (x5 : Vec F S1x128 .f32) (xs0 : Vec F S1024x128 .f32) :
    out2_C c i arg2 harg2 arg3 harg3 arg4 harg4 arg5 harg5 arg6 harg6 arg7 harg7 arg8 harg8 arg9 harg9 hc0 hc1 x0 x1 x2 x3 x4 x5 xs0 = k2_pay3 (k2_pay2 x0 xs0 x1) x2 x3 x4 x5 := by
  unfold out2_C
  rw [View.read_writes_eq_canon _ _ _ (cover2_C c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2, View.readCov_unit_zero (S := S1024x128) _ hz2]
  simp only [View.readAt_eq_ld, harg2.read_unread, harg3.read_unread, harg4.read_unread, harg5.read_unread, harg6.read_unread, harg7.read_unread, harg9.read_unread, View.ld_unit_zero (S := S1024x2048) hz2, View.ld_unit_zero (S := S2048x128) hz2, View.ld_unit_zero (S := S128x128) hz2, View.ld_unit_zero (S := S1x128) hz2, View.ld_unit_zero (S := S1024x128) hz2]

end Pieces

/-! ## The fold over the grid -/

section Fold
variable (V : (c : Dev nD) → (b : Ref sig .tc) → Buf (Elt F) ((c : Thread nD τ).loc b))

/-- The accumulator after point `n`: the block product of the point added to the zero block at a row block's first
    point, to the accumulator of the point before elsewhere. -/
def acc2 (c : Dev nD) : (n : ℕ) → n < cfg2.N → Vec F S1024x128 .f32
  | 0, h => k2_pay2 (iblk2 V c 0 ⟨0, h⟩) (k2_pay1 (F := F)) (iblk2 V c 1 ⟨0, h⟩)
  | n + 1, h =>
    if (n + 1) % 4 = 0 then k2_pay2 (iblk2 V c 0 ⟨n + 1, h⟩) (k2_pay1 (F := F)) (iblk2 V c 1 ⟨n + 1, h⟩)
    else k2_pay2 (iblk2 V c 0 ⟨n + 1, h⟩) (acc2 c n (Nat.lt_of_succ_lt h)) (iblk2 V c 1 ⟨n + 1, h⟩)

theorem outsAt2_snd (c : Dev nD) : ∀ (n : ℕ) (h : n < cfg2.N), (outsAt2 V c n h).2 = acc2 V c n h
  | 0, h => by
    rw [outsAt2_A V c ⟨0, h⟩ rfl (show ¬ (0 : ℕ) % 4 = 3 by decide)]
    dsimp only
    exact soutA2_eq ..
  | n + 1, h => by
    by_cases h0 : (n + 1) % 4 = 0
    · have h1 : ¬ (n + 1) % 4 = 3 := by omega
      rw [outsAt2_A V c ⟨n + 1, h⟩ h0 h1]
      dsimp only
      rw [soutA2_eq]
      unfold acc2; rw [if_pos h0]
    · have ih := outsAt2_snd c n (Nat.lt_of_succ_lt h)
      by_cases h1 : (n + 1) % 4 = 3
      · rw [outsAt2_C V c ⟨n + 1, h⟩ h0 h1]
        dsimp only
        rw [soutC2_eq]
        unfold acc2; rw [if_neg h0]
        exact congrArg (fun a => k2_pay2 _ a _) ih
      · rw [outsAt2_B V c ⟨n + 1, h⟩ h0 h1]
        dsimp only
        rw [soutB2_eq]
        unfold acc2; rw [if_neg h0]
        exact congrArg (fun a => k2_pay2 _ a _) ih

/-- At a row block's last point the output's buffer is left at the epilogue of the accumulator. -/
theorem outsAt2_fst (c : Dev nD) (t : Fin cfg2.N) (h1 : t.val % 4 = 3) :
    (outsAt2 V c t.val t.isLt).1 = k2_pay3 (acc2 V c t.val t.isLt) (iblk2 V c 2 t) (iblk2 V c 3 t) (iblk2 V c 4 t) (iblk2 V c 5 t) := by
  have h0 : ¬ t.val % 4 = 0 := by omega
  have hs := outsAt2_snd V c t.val t.isLt
  rw [outsAt2_C V c t h0 h1] at hs ⊢
  dsimp only at hs ⊢
  rw [soutC2_eq] at hs
  rw [outC2_eq, hs]

end Fold

end Cert.KernelIdeal.Fr

end
-- ==== Proof.KiR2Sem.lean ====
/-
  Region 2's arithmetic read at an entry on the extended reals: adding a block product to the accumulator adds,
  entry by entry, the sum over the block's 2048 columns; the epilogue is, row by row, the dense layer and the layer
  normalisation of the accumulated row.
-/
import proofs.«119995_j74062416053450_2_alg».proof.Proof.Gen.KernelIdeal.Skeleton
import proofs.«119995_j74062416053450_2_alg».proof.Proof.KiMm
import proofs.«119995_j74062416053450_2_alg».proof.Proof.LibColumns
import proofs.«119995_j74062416053450_2_alg».proof.Proof.Spec
import Idealize.ShloMosaic.Lib.ValueLayout

set_option maxRecDepth 16384

noncomputable section

namespace Cert.KernelIdeal.Sem

open Cert.KernelIdeal Cert.KernelIdeal.Gen Idealize.ShloMosaic Idealize.ShloMosaic.ValueIdx Idealize.ShloMosaic.LibColumns

theorem rsqrt_apply2 {s : Shape} {φ : FTy} (v : FVec Ideal s φ) (i : s.Idx) : rsqrt v i = Ideal.rsqrt (v i) := rfl

/-- The reset stores the zero block. -/
theorem pay1_2 (p : Fin 1024) (j : Fin 128) : k2_pay1 (F := Ideal) (ix2 p j) = 0 := by
  unfold k2_pay1
  simp only [shapeCast_self]
  exact Ideal.ofBits_zero_f32

/-- A point adds its block product to the accumulator. -/
theorem pay2_2 (a : FVec Ideal S1024x2048 .f32) (acc : FVec Ideal S1024x128 .f32) (x : FVec Ideal S2048x128 .bf16) (p : Fin 1024) (j : Fin 128) :
    k2_pay2 (F := Ideal) a acc x (ix2 p j) = acc (ix2 p j) + ∑ q : Fin 2048, a (ix2 p q) * x (ix2 q j) := by
  unfold k2_pay2
  simp only [shapeCast_self]
  refine congrArg (acc (ix2 p j) + ·) ?_
  refine (mmA _ _ _ p j).trans ?_
  rw [constant_apply, Ideal.ofBits_zero_f32, zero_add]
  rfl

/-- The epilogue of a row: the dense layer, then the layer normalisation. -/
theorem pay3_2 (v16 : FVec Ideal S1024x128 .f32) (v18 : FVec Ideal S128x128 .bf16) (v21 v43 v47 : FVec Ideal S1x128 .f32) (p : Fin 1024) (j : Fin 128) :
    k2_pay3 (F := Ideal) v16 v18 v21 v43 v47 (ix2 p j)
      = Cert.Spec.lnorm (Cert.Spec.dense (fun l => v16 (ix2 p l)) v18 (fun c => v21 (ix2 (0 : Fin 1) c)))
          (fun c => v43 (ix2 (0 : Fin 1) c)) (fun c => v47 (ix2 (0 : Fin 1) c)) j := by
  unfold k2_pay3
  simp only [shapeCast_self]
  generalize hY : addf (matmul dot_S1024x128_S128x128_S1024x128_1_0_0_1_n_n none (truncf .bf16 v16 bitsLt_bf16_f32) v18 (constant S1024x128 .f32 0x00000000#32)) (broadcastTo S1024x128 v21 broadcasts_S1x128_S1024x128) = Y
  have hYrow : ∀ c : Fin 128, Y (ix2 p c) = Cert.Spec.dense (fun l => v16 (ix2 p l)) v18 (fun c => v21 (ix2 (0 : Fin 1) c)) c := by
    intro c; subst hY
    simp only [addf_apply, mmW, broadcastTo_1b_ab_apply, constant_apply, truncf_apply, Ideal.ofBits_zero_f32, zero_add]
    rfl
  simp only [addf_apply, subf_apply, mulf_apply, divf_apply, rsqrt_apply2, broadcast_apply, broadcastTo_1b_ab_apply, broadcastTo_a1_ab_apply, shapeCast_a_a1_apply]
  rw [rowsum, rowsum]
  simp only [addf_apply, subf_apply, mulf_apply, divf_apply, broadcast_apply, broadcastTo_a1_ab_apply, shapeCast_a_a1_apply]
  rw [rowsum]
  simp only [hYrow]
  unfold Cert.Spec.lnorm Cert.Spec.mean Cert.Spec.c128 Cert.Spec.ceps
  rfl

end Cert.KernelIdeal.Sem

end
-- ==== Proof.KiR2Fin.lean ====
/-
  Region 2, from blocks to the array. A row block's accumulator after its `k`-th point holds, entry by entry, the
  partial sums of the first `k + 1` column blocks; after the fourth, the whole product's entries. The block the
  pipeline writes back after a row block's last point is therefore the specification's block, the eight row blocks
  cover the result array, and the array ends at the specification's function of the region's arrays.
-/
import proofs.«119995_j74062416053450_2_alg».proof.Proof.KiR2Val
import proofs.«119995_j74062416053450_2_alg».proof.Proof.KiR2Sem
import proofs.«119995_j74062416053450_2_alg».proof.Proof.KiBlocks
import Idealize.ShloMosaic.Lib.Pipeline.Value

set_option maxRecDepth 16384

noncomputable section

namespace Cert.KernelIdeal.Fr

open Cert.KernelIdeal Cert.KernelIdeal.Gen Cert.KernelIdeal.Sem Cert.Blocks
open Idealize.ShloMosaic Idealize.ShloMosaic.TcCoe Idealize.ShloMosaic.ValueIdx Idealize.SL.Sem
open Idealize.ShloMosaic.Pipeline (Dat)

section Fin
variable (V : (c : Dev nD) → (b : Ref sig .tc) → Buf (Elt Ideal) ((c : Thread nD τ).loc b))

/-- The windows' block indices over the grid: the grid point's row-block and column-block coordinates. -/
theorem idx2 : ∀ t : Fin cfg2.N, win2_0.index t (0 : Fin 2) = t.val / 4
    ∧ win2_0.index t (1 : Fin 2) = t.val % 4
    ∧ win2_1.index t (0 : Fin 2) = t.val % 4
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val / 4
    ∧ win2_6.index t (1 : Fin 2) = 0 :=
  (by decide +kernel : ∀ t : Fin grid2.N, _)

/-- The adjacency block at a point, read at an entry. -/
theorem blkA2 (c : Dev nD) (t : Fin cfg2.N) (p : Fin 1024) (q : Fin 2048) :
    iblk2 V c 0 t (ix2 p q) = Aat (V c main_arg7) (1024 * (t.val / 4) + p.val) (2048 * (t.val % 4) + q.val) := by
  obtain ⟨e0, e1, e2, e3, e4, e5, e6, e7, e8, e9, e10, e11, e12, e13⟩ := idx2 t
  have hN : t.val < 32 := lt_of_lt_of_eq t.isLt N_2
  have hp := p.isLt
  have hq := q.isLt
  unfold Aat
  rw [dif_pos ⟨by omega, by omega⟩]
  unfold iblk2
  rw [View.read_apply]
  show V c main_arg7 _ = V c main_arg7 _
  congr 1
  funext a
  apply Fin.ext
  match a with
  | ⟨0, _⟩ => show win2_0.index t (0 : Fin 2) * 1024 + 1 * p.val = 1024 * (t.val / 4) + p.val; rw [e0]; omega
  | ⟨1, _⟩ => show win2_0.index t (1 : Fin 2) * 2048 + 1 * q.val = 2048 * (t.val % 4) + q.val; rw [e1]; omega

/-- The feature block at a point, read at an entry. -/
theorem blkX2 (c : Dev nD) (t : Fin cfg2.N) (q : Fin 2048) (l : Fin 128) :
    iblk2 V c 1 t (ix2 q l) = Xat (V c main_call0_v70) (2048 * (t.val % 4) + q.val) l := by
  obtain ⟨e0, e1, e2, e3, e4, e5, e6, e7, e8, e9, e10, e11, e12, e13⟩ := idx2 t
  have hN : t.val < 32 := lt_of_lt_of_eq t.isLt N_2
  have hq := q.isLt
  unfold Xat
  rw [dif_pos (by omega)]
  unfold iblk2
  rw [View.read_apply]
  show V c main_call0_v70 _ = V c main_call0_v70 _
  congr 1
  funext a
  apply Fin.ext
  match a with
  | ⟨0, _⟩ => show win2_1.index t (0 : Fin 2) * 2048 + 1 * q.val = 2048 * (t.val % 4) + q.val; rw [e2]; omega
  | ⟨1, _⟩ => show win2_1.index t (1 : Fin 2) * 128 + 1 * l.val = l.val; rw [e3]; omega

/-- Window 2's one block is its whole array. -/
theorem blk2_2 (c : Dev nD) (t : Fin cfg2.N) : iblk2 V c 2 t = V c main_call0_v71 := by
  obtain ⟨e0, e1, e2, e3, e4, e5, e6, e7, e8, e9, e10, e11, e12, e13⟩ := idx2 t
  funext y
  unfold iblk2
  rw [View.read_apply]
  show V c main_call0_v71 _ = V c main_call0_v71 y
  congr 1
  funext a
  apply Fin.ext
  match a with
  | ⟨0, _⟩ => show win2_2.index t (0 : Fin 2) * 128 + 1 * (y 0).val = (y 0).val; rw [e4]; omega
  | ⟨1, _⟩ => show win2_2.index t (1 : Fin 2) * 128 + 1 * (y 1).val = (y 1).val; rw [e5]; omega

/-- Window 3's one block is its whole array. -/
theorem blk2_3 (c : Dev nD) (t : Fin cfg2.N) : iblk2 V c 3 t = V c main_call0_v72 := by
  obtain ⟨e0, e1, e2, e3, e4, e5, e6, e7, e8, e9, e10, e11, e12, e13⟩ := idx2 t
  funext y
  unfold iblk2
  rw [View.read_apply]
  show V c main_call0_v72 _ = V c main_call0_v72 y
  congr 1
  funext a
  apply Fin.ext
  match a with
  | ⟨0, _⟩ => show win2_3.index t (0 : Fin 2) * 1 + 1 * (y 0).val = (y 0).val; rw [e6]; omega
  | ⟨1, _⟩ => show win2_3.index t (1 : Fin 2) * 128 + 1 * (y 1).val = (y 1).val; rw [e7]; omega

/-- Window 4's one block is its whole array. -/
theorem blk2_4 (c : Dev nD) (t : Fin cfg2.N) : iblk2 V c 4 t = V c main_call0_v73 := by
  obtain ⟨e0, e1, e2, e3, e4, e5, e6, e7, e8, e9, e10, e11, e12, e13⟩ := idx2 t
  funext y
  unfold iblk2
  rw [View.read_apply]
  show V c main_call0_v73 _ = V c main_call0_v73 y
  congr 1
  funext a
  apply Fin.ext
  match a with
  | ⟨0, _⟩ => show win2_4.index t (0 : Fin 2) * 1 + 1 * (y 0).val = (y 0).val; rw [e8]; omega
  | ⟨1, _⟩ => show win2_4.index t (1 : Fin 2) * 128 + 1 * (y 1).val = (y 1).val; rw [e9]; omega

/-- Window 5's one block is its whole array. -/
theorem blk2_5 (c : Dev nD) (t : Fin cfg2.N) : iblk2 V c 5 t = V c main_call0_v74 := by
  obtain ⟨e0, e1, e2, e3, e4, e5, e6, e7, e8, e9, e10, e11, e12, e13⟩ := idx2 t
  funext y
  unfold iblk2
  rw [View.read_apply]
  show V c main_call0_v74 _ = V c main_call0_v74 y
  congr 1
  funext a
  apply Fin.ext
  match a with
  | ⟨0, _⟩ => show win2_5.index t (0 : Fin 2) * 1 + 1 * (y 0).val = (y 0).val; rw [e10]; omega
  | ⟨1, _⟩ => show win2_5.index t (1 : Fin 2) * 128 + 1 * (y 1).val = (y 1).val; rw [e11]; omega

/-- The accumulator after point `n`: the partial sums of the column blocks up to the point's. -/
theorem acc2_eq (c : Dev nD) : ∀ (n : ℕ) (h : n < cfg2.N) (p : Fin 1024) (l : Fin 128),
    acc2 V c n h (ix2 p l) = psum (V c main_arg7) (V c main_call0_v70) (1024 * (n / 4) + p.val) l (n % 4 + 1)
  | 0, h, p, l => by
    unfold acc2
    refine (pay2_2 _ _ _ p l).trans ?_
    rw [pay1_2, zero_add]
    refine (bstep (V c main_arg7) (V c main_call0_v70) _ _ (1024 * (0 / 4) + p.val) (0 % 4) p l (fun q => blkA2 V c ⟨0, h⟩ p q) (fun q => blkX2 V c ⟨0, h⟩ q l)).trans ?_
    exact (psum_one _ _ _ _).symm
  | n + 1, h, p, l => by
    unfold acc2
    by_cases h0 : (n + 1) % 4 = 0
    · rw [if_pos h0]
      refine (pay2_2 _ _ _ p l).trans ?_
      rw [pay1_2, zero_add]
      refine (bstep (V c main_arg7) (V c main_call0_v70) _ _ (1024 * ((n + 1) / 4) + p.val) ((n + 1) % 4) p l (fun q => blkA2 V c ⟨n + 1, h⟩ p q) (fun q => blkX2 V c ⟨n + 1, h⟩ q l)).trans ?_
      rw [h0]
      exact (psum_one _ _ _ _).symm
    · rw [if_neg h0]
      refine (pay2_2 _ _ _ p l).trans ?_
      rw [acc2_eq c n (Nat.lt_of_succ_lt h) p l]
      refine (congrArg (psum (V c main_arg7) (V c main_call0_v70) (1024 * (n / 4) + p.val) l (n % 4 + 1) + ·) (bstep (V c main_arg7) (V c main_call0_v70) _ _ (1024 * ((n + 1) / 4) + p.val) ((n + 1) % 4) p l (fun q => blkA2 V c ⟨n + 1, h⟩ p q) (fun q => blkX2 V c ⟨n + 1, h⟩ q l))).trans ?_
      have hd : (n + 1) / 4 = n / 4 := by omega
      have hm : (n + 1) % 4 = n % 4 + 1 := by omega
      rw [hd, hm]
      exact (psum_succ _ _ _ _ _).symm

/-- What the region's result array ends holding. -/
abbrev G2 (c : Dev nD) : (⟨2, ![8192, 128]⟩ : Shape).Idx → EReal := Cert.Spec.stage1 (V c main_arg7) (V c main_call0_v70) (V c main_call0_v71) (fun j => V c main_call0_v72 (ix2 (0 : Fin 1) j)) (fun j => V c main_call0_v73 (ix2 (0 : Fin 1) j)) (fun j => V c main_call0_v74 (ix2 (0 : Fin 1) j))

/-- What a row block's last point writes back is the specification's block. -/
theorem flushed2_eq (c : Dev nD) (t : Fin cfg2.N) (hf : (cfg2.win 6).flush t = true) :
    (dat2 V c).flushed 6 t = ((cfg2.win 6).blk t).view.read (Elt Ideal) (G2 V c) := by
  have h3 : t.val % 4 = 3 := (flush2_6 t).mp hf
  have hN : t.val < 32 := lt_of_lt_of_eq t.isLt N_2
  obtain ⟨e0, e1, e2, e3, e4, e5, e6, e7, e8, e9, e10, e11, e12, e13⟩ := idx2 t
  show (cfg2.win 6).cut (grid2.coords t) ((dat2 V c).after 6 t) = _
  rw [after2_6, outsAt2_fst V c t h3]
  funext y
  obtain ⟨p, j, rfl⟩ : ∃ (p : Fin 1024) (j : Fin 128), y = ix2 p j := ⟨y 0, y 1, eq_ix2 y⟩
  have hp := p.isLt
  rw [View.read_apply]
  have hemb : ((cfg2.win 6).blk t).view.emb (ix2 p j) = ix2 (⟨1024 * (t.val / 4) + p.val, by omega⟩ : Fin 8192) j := by
    funext a
    apply Fin.ext
    match a with
    | ⟨0, _⟩ => show win2_6.index t (0 : Fin 2) * 1024 + 1 * p.val = 1024 * (t.val / 4) + p.val; rw [e12]; omega
    | ⟨1, _⟩ => show win2_6.index t (1 : Fin 2) * 128 + 1 * j.val = j.val; rw [e13]; omega
  rw [hemb]
  show k2_pay3 (F := Ideal) (acc2 V c t.val t.isLt) (iblk2 V c 2 t) (iblk2 V c 3 t) (iblk2 V c 4 t) (iblk2 V c 5 t) (ix2 p j) = _
  rw [pay3_2, blk2_2 V c t, blk2_3 V c t, blk2_4 V c t, blk2_5 V c t]
  have hrow : (fun l => acc2 V c t.val t.isLt (ix2 p l)) = Cert.Spec.conv (V c main_arg7) (V c main_call0_v70) (⟨1024 * (t.val / 4) + p.val, by omega⟩ : Fin 8192) := by
    funext l
    rw [acc2_eq V c t.val t.isLt p l, h3]
    exact psum_four _ _ (⟨1024 * (t.val / 4) + p.val, by omega⟩ : Fin 8192) l
  rw [hrow]
  rfl

/-- An index of the array is in a point's block iff each coordinate is in the block's range. -/
theorem mem2 (t : Fin cfg2.N) (i : S8192x128.Idx) :
    i ∈ ((cfg2.win 6).blk t).view.set ↔ ∀ a : Fin 2, win2_6.index t a * S1024x128.size a ≤ (i a).val ∧ (i a).val < win2_6.index t a * S1024x128.size a + S1024x128.size a := by
  show i ∈ ((View.whole main_call0_v75).slice (win2_6.rect t)).set ↔ _
  rw [View.set_slice_whole, Rect.mem_set_unit]
  exact Iff.rfl

/-- The eight row blocks cover the result array. -/
theorem cover2 (i : S8192x128.Idx) : ∃ t : Fin cfg2.N, (cfg2.win 6).flush t = true ∧ i ∈ ((cfg2.win 6).blk t).view.set := by
  have hi0 : (i 0).val < 8192 := (i 0).isLt
  have hi1 : (i 1).val < 128 := (i 1).isLt
  have hlt : 4 * ((i 0).val / 1024) + 3 < cfg2.N := by rw [show cfg2.N = 32 from N_2]; omega
  refine ⟨⟨4 * ((i 0).val / 1024) + 3, hlt⟩, (flush2_6 _).mpr (by show (4 * ((i 0).val / 1024) + 3) % 4 = 3; omega), ?_⟩
  obtain ⟨e0, e1, e2, e3, e4, e5, e6, e7, e8, e9, e10, e11, e12, e13⟩ := idx2 ⟨4 * ((i 0).val / 1024) + 3, hlt⟩
  rw [mem2]
  intro a
  match a with
  | ⟨0, _⟩ =>
    show win2_6.index _ (0 : Fin 2) * 1024 ≤ (i 0).val ∧ (i 0).val < win2_6.index _ (0 : Fin 2) * 1024 + 1024
    rw [e12]
    show (4 * ((i 0).val / 1024) + 3) / 4 * 1024 ≤ (i 0).val ∧ (i 0).val < (4 * ((i 0).val / 1024) + 3) / 4 * 1024 + 1024
    omega
  | ⟨1, _⟩ =>
    show win2_6.index _ (1 : Fin 2) * 128 ≤ (i 1).val ∧ (i 1).val < win2_6.index _ (1 : Fin 2) * 128 + 128
    rw [e13]
    omega

/-- The region's result array after the run. -/
theorem final2 (c : Dev nD) : (dat2 V c).arrAt 6 cfg2.N = G2 V c :=
  (dat2 V c).arrAt_eq_of_cover 6 (G2 V c) (flushed2_eq V c) (cover2)

end Fin

end Cert.KernelIdeal.Fr

end
-- ==== Proof.KiR3Val.lean ====
/-
  Region 3, the values. What the three control cases leave: resetting and adding the first column block's
  product leaves that product added to the zero block; a middle point adds its block's product to what the
  accumulator held; the last point does the same and stores the epilogue of the new accumulator into the
  output's buffer. So the accumulator after a point is the fold of the block products since the last reset, and the
  output's buffer after a row block's last point is the epilogue of that fold.
-/
import proofs.«119995_j74062416053450_2_alg».proof.Proof.KiR3Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_3 : (![0, 0] : Fin 2 → Nat) = fun _ => 0 := funext fun a => by fin_cases a <;> rfl

section Pieces
local notation "hz2" => hz2_3

theorem soutA3_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond3_0 i) (hc1 : ¬cond3_1 i)
    (x0 : Vec F S1024x2048 .f32) (x1 : Vec F S2048x128 .f32) :
    sout3_A c i arg2 harg2 arg3 harg3 arg4 harg4 arg5 harg5 arg6 harg6 arg7 harg7 hc0 hc1 x0 x1 = k3_pay2 x0 x1 (k3_pay1 (F := F)) := by
  unfold sout3_A
  rw [View.read_writes_eq_canon _ _ _ (scover3_A c i arg2 harg2 arg3 harg3 arg4 harg4 arg5 harg5 arg6 harg6 arg7 harg7 hc0 hc1 x0 x1)]
  unfold kernelRun3_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2, View.ld_unit_zero (S := S2048x128) hz2]

theorem soutB3_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : ¬cond3_1 i)
    (x0 : Vec F S1024x2048 .f32) (x1 : Vec F S2048x128 .f32) (xs0 : Vec F S1024x128 .f32) :
    sout3_B c i arg2 harg2 arg3 harg3 arg4 harg4 arg5 harg5 arg6 harg6 arg7 harg7 hc0 hc1 x0 x1 xs0 = k3_pay2 x0 x1 xs0 := by
  unfold sout3_B
  rw [View.read_writes_eq_canon _ _ _ (scover3_B c i arg2 harg2 arg3 harg3 arg4 harg4 arg5 harg5 arg6 harg6 arg7 harg7 hc0 hc1 x0 x1 xs0)]
  unfold kernelRun3_B
  dsimp only
  sl_unfold_words
  rw [View.canon_unit_zero hz2]
  simp only [View.readAt_eq_ld, harg2.read_unread, harg3.read_unread, harg7.read_unread, View.ld_unit_zero (S := S1024x2048) hz2, View.ld_unit_zero (S := S2048x128) hz2, View.ld_unit_zero (S := S1024x128) hz2]

theorem soutC3_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) :
    sout3_C c i arg2 harg2 arg3 harg3 arg4 harg4 arg5 harg5 arg6 harg6 arg7 harg7 hc0 hc1 x0 x1 x2 x3 xs0 = k3_pay2 x0 x1 xs0 := by
  unfold sout3_C
  rw [View.read_writes_eq_canon _ _ _ (scover3_C c i arg2 harg2 arg3 harg3 arg4 harg4 arg5 harg5 arg6 harg6 arg7 harg7 hc0 hc1 x0 x1 x2 x3 xs0)]
  unfold kernelRun3_C
  dsimp only
  sl_unfold_words
  rw [View.canon_unit_zero hz2]
  simp only [View.readAt_eq_ld, harg2.read_unread, harg3.read_unread, harg7.read_unread, View.ld_unit_zero (S := S1024x2048) hz2, View.ld_unit_zero (S := S2048x128) hz2, View.ld_unit_zero (S := S1024x128) hz2]

theorem outC3_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond3_0 i) (hc1 : cond3_1 i)
    (x0 : Vec F S1024x2048 .f32) (x1 : Vec F S2048x128 .f32) (x2 : Vec F S128x128 .bf16) (x3 : Vec F S1x128 .f32) (xs0 : Vec F S1024x128 .f32) :
    out3_C c i arg2 harg2 arg3 harg3 arg4 harg4 arg5 harg5 arg6 harg6 arg7 harg7 hc0 hc1 x0 x1 x2 x3 xs0 = k3_pay3 (k3_pay2 x0 x1 xs0) x2 x3 := by
  unfold out3_C
  rw [View.read_writes_eq_canon _ _ _ (cover3_C c i arg2 harg2 arg3 harg3 arg4 harg4 arg5 harg5 arg6 harg6 arg7 harg7 hc0 hc1 x0 x1 x2 x3 xs0)]
  unfold kernelRun3_C
  dsimp only
  sl_unfold_words
  rw [View.canon_unit_zero hz2, View.readCov_unit_zero (S := S1024x128) _ hz2]
  simp only [View.readAt_eq_ld, harg2.read_unread, harg3.read_unread, harg4.read_unread, harg5.read_unread, harg7.read_unread, View.ld_unit_zero (S := S1024x2048) hz2, View.ld_unit_zero (S := S2048x128) hz2, View.ld_unit_zero (S := S128x128) hz2, View.ld_unit_zero (S := S1x128) hz2, View.ld_unit_zero (S := S1024x128) hz2]

end Pieces

/-! ## The fold over the grid -/

section Fold
variable (V : (c : Dev nD) → (b : Ref sig .tc) → Buf (Elt F) ((c : Thread nD τ).loc b))

/-- The accumulator after point `n`: the block product of the point added to the zero block at a row block's first
    point, to the accumulator of the point before elsewhere. -/
def acc3 (c : Dev nD) : (n : ℕ) → n < cfg3.N → Vec F S1024x128 .f32
  | 0, h => k3_pay2 (iblk3 V c 0 ⟨0, h⟩) (iblk3 V c 1 ⟨0, h⟩) (k3_pay1 (F := F))
  | n + 1, h =>
    if (n + 1) % 4 = 0 then k3_pay2 (iblk3 V c 0 ⟨n + 1, h⟩) (iblk3 V c 1 ⟨n + 1, h⟩) (k3_pay1 (F := F))
    else k3_pay2 (iblk3 V c 0 ⟨n + 1, h⟩) (iblk3 V c 1 ⟨n + 1, h⟩) (acc3 c n (Nat.lt_of_succ_lt h))

theorem outsAt3_snd (c : Dev nD) : ∀ (n : ℕ) (h : n < cfg3.N), (outsAt3 V c n h).2 = acc3 V c n h
  | 0, h => by
    rw [outsAt3_A V c ⟨0, h⟩ rfl (show ¬ (0 : ℕ) % 4 = 3 by decide)]
    dsimp only
    exact soutA3_eq ..
  | n + 1, h => by
    by_cases h0 : (n + 1) % 4 = 0
    · have h1 : ¬ (n + 1) % 4 = 3 := by omega
      rw [outsAt3_A V c ⟨n + 1, h⟩ h0 h1]
      dsimp only
      rw [soutA3_eq]
      unfold acc3; rw [if_pos h0]
    · have ih := outsAt3_snd c n (Nat.lt_of_succ_lt h)
      by_cases h1 : (n + 1) % 4 = 3
      · rw [outsAt3_C V c ⟨n + 1, h⟩ h0 h1]
        dsimp only
        rw [soutC3_eq]
        unfold acc3; rw [if_neg h0]
        exact congrArg (fun a => k3_pay2 _ _ a) ih
      · rw [outsAt3_B V c ⟨n + 1, h⟩ h0 h1]
        dsimp only
        rw [soutB3_eq]
        unfold acc3; rw [if_neg h0]
        exact congrArg (fun a => k3_pay2 _ _ a) ih

/-- At a row block's last point the output's buffer is left at the epilogue of the accumulator. -/
theorem outsAt3_fst (c : Dev nD) (t : Fin cfg3.N) (h1 : t.val % 4 = 3) :
    (outsAt3 V c t.val t.isLt).1 = k3_pay3 (acc3 V c t.val t.isLt) (iblk3 V c 2 t) (iblk3 V c 3 t) := by
  have h0 : ¬ t.val % 4 = 0 := by omega
  have hs := outsAt3_snd V c t.val t.isLt
  rw [outsAt3_C V c t h0 h1] at hs ⊢
  dsimp only at hs ⊢
  rw [soutC3_eq] at hs
  rw [outC3_eq, hs]

end Fold

end Cert.KernelIdeal.Fr

end
-- ==== Proof.KiR3Sem.lean ====
/-
  Region 3's arithmetic read at an entry on the extended reals: adding a block product to the accumulator adds,
  entry by entry, the sum over the block's 2048 columns; the epilogue is, row by row, the dense layer of the accumulated row.
-/
import proofs.«119995_j74062416053450_2_alg».proof.Proof.Gen.KernelIdeal.Skeleton
import proofs.«119995_j74062416053450_2_alg».proof.Proof.KiMm
import proofs.«119995_j74062416053450_2_alg».proof.Proof.LibColumns
import proofs.«119995_j74062416053450_2_alg».proof.Proof.Spec
import Idealize.ShloMosaic.Lib.ValueLayout

set_option maxRecDepth 16384

noncomputable section

namespace Cert.KernelIdeal.Sem

open Cert.KernelIdeal Cert.KernelIdeal.Gen Idealize.ShloMosaic Idealize.ShloMosaic.ValueIdx Idealize.ShloMosaic.LibColumns

theorem rsqrt_apply3 {s : Shape} {φ : FTy} (v : FVec Ideal s φ) (i : s.Idx) : rsqrt v i = Ideal.rsqrt (v i) := rfl

/-- The reset stores the zero block. -/
theorem pay1_3 (p : Fin 1024) (j : Fin 128) : k3_pay1 (F := Ideal) (ix2 p j) = 0 := by
  unfold k3_pay1
  simp only [shapeCast_self]
  exact Ideal.ofBits_zero_f32

/-- A point adds its block product to the accumulator. -/
theorem pay2_3 (a : FVec Ideal S1024x2048 .f32) (acc : FVec Ideal S1024x128 .f32) (x : FVec Ideal S2048x128 .f32) (p : Fin 1024) (j : Fin 128) :
    k3_pay2 (F := Ideal) a x acc (ix2 p j) = acc (ix2 p j) + ∑ q : Fin 2048, a (ix2 p q) * x (ix2 q j) := by
  unfold k3_pay2
  simp only [shapeCast_self]
  refine congrArg (acc (ix2 p j) + ·) ?_
  refine (mmA _ _ _ p j).trans ?_
  rw [constant_apply, Ideal.ofBits_zero_f32, zero_add]
  rfl

/-- The epilogue of a row: the dense layer. -/
theorem pay3_3 (v17 : FVec Ideal S1024x128 .f32) (v19 : FVec Ideal S128x128 .bf16) (v22 : FVec Ideal S1x128 .f32) (p : Fin 1024) (j : Fin 128) :
    k3_pay3 (F := Ideal) v17 v19 v22 (ix2 p j)
      = Cert.Spec.dense (fun l => v17 (ix2 p l)) v19 (fun c => v22 (ix2 (0 : Fin 1) c)) j := by
  unfold k3_pay3
  simp only [shapeCast_self]
  simp only [addf_apply, mmW, broadcastTo_1b_ab_apply, constant_apply, truncf_apply, Ideal.ofBits_zero_f32, zero_add]
  rfl

end Cert.KernelIdeal.Sem

end
-- ==== Proof.KiR3Fin.lean ====
/-
  Region 3, from blocks to the array. A row block's accumulator after its `k`-th point holds, entry by entry, the
  partial sums of the first `k + 1` column blocks; after the fourth, the whole product's entries. The block the
  pipeline writes back after a row block's last point is therefore the specification's block, the eight row blocks
  cover the result array, and the array ends at the specification's function of the region's arrays.
-/
import proofs.«119995_j74062416053450_2_alg».proof.Proof.KiR3Val
import proofs.«119995_j74062416053450_2_alg».proof.Proof.KiR3Sem
import proofs.«119995_j74062416053450_2_alg».proof.Proof.KiBlocks
import Idealize.ShloMosaic.Lib.Pipeline.Value

set_option maxRecDepth 16384

noncomputable section

namespace Cert.KernelIdeal.Fr

open Cert.KernelIdeal Cert.KernelIdeal.Gen Cert.KernelIdeal.Sem Cert.Blocks
open Idealize.ShloMosaic Idealize.ShloMosaic.TcCoe Idealize.ShloMosaic.ValueIdx Idealize.SL.Sem
open Idealize.ShloMosaic.Pipeline (Dat)

section Fin
variable (V : (c : Dev nD) → (b : Ref sig .tc) → Buf (Elt Ideal) ((c : Thread nD τ).loc b))

/-- The windows' block indices over the grid: the grid point's row-block and column-block coordinates. -/
theorem idx3 : ∀ t : Fin cfg3.N, win3_0.index t (0 : Fin 2) = t.val / 4
    ∧ win3_0.index t (1 : Fin 2) = t.val % 4
    ∧ win3_1.index t (0 : Fin 2) = t.val % 4
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val / 4
    ∧ win3_4.index t (1 : Fin 2) = 0 :=
  (by decide +kernel : ∀ t : Fin grid3.N, _)

/-- The adjacency block at a point, read at an entry. -/
theorem blkA3 (c : Dev nD) (t : Fin cfg3.N) (p : Fin 1024) (q : Fin 2048) :
    iblk3 V c 0 t (ix2 p q) = Aat (V c main_arg7) (1024 * (t.val / 4) + p.val) (2048 * (t.val % 4) + q.val) := by
  obtain ⟨e0, e1, e2, e3, e4, e5, e6, e7, e8, e9⟩ := idx3 t
  have hN : t.val < 32 := lt_of_lt_of_eq t.isLt N_3
  have hp := p.isLt
  have hq := q.isLt
  unfold Aat
  rw [dif_pos ⟨by omega, by omega⟩]
  unfold iblk3
  rw [View.read_apply]
  show V c main_arg7 _ = V c main_arg7 _
  congr 1
  funext a
  apply Fin.ext
  match a with
  | ⟨0, _⟩ => show win3_0.index t (0 : Fin 2) * 1024 + 1 * p.val = 1024 * (t.val / 4) + p.val; rw [e0]; omega
  | ⟨1, _⟩ => show win3_0.index t (1 : Fin 2) * 2048 + 1 * q.val = 2048 * (t.val % 4) + q.val; rw [e1]; omega

/-- The feature block at a point, read at an entry. -/
theorem blkX3 (c : Dev nD) (t : Fin cfg3.N) (q : Fin 2048) (l : Fin 128) :
    iblk3 V c 1 t (ix2 q l) = Xat (V c main_call0_v75) (2048 * (t.val % 4) + q.val) l := by
  obtain ⟨e0, e1, e2, e3, e4, e5, e6, e7, e8, e9⟩ := idx3 t
  have hN : t.val < 32 := lt_of_lt_of_eq t.isLt N_3
  have hq := q.isLt
  unfold Xat
  rw [dif_pos (by omega)]
  unfold iblk3
  rw [View.read_apply]
  show V c main_call0_v75 _ = V c main_call0_v75 _
  congr 1
  funext a
  apply Fin.ext
  match a with
  | ⟨0, _⟩ => show win3_1.index t (0 : Fin 2) * 2048 + 1 * q.val = 2048 * (t.val % 4) + q.val; rw [e2]; omega
  | ⟨1, _⟩ => show win3_1.index t (1 : Fin 2) * 128 + 1 * l.val = l.val; rw [e3]; omega

/-- Window 2's one block is its whole array. -/
theorem blk3_2 (c : Dev nD) (t : Fin cfg3.N) : iblk3 V c 2 t = V c main_call0_v76 := by
  obtain ⟨e0, e1, e2, e3, e4, e5, e6, e7, e8, e9⟩ := idx3 t
  funext y
  unfold iblk3
  rw [View.read_apply]
  show V c main_call0_v76 _ = V c main_call0_v76 y
  congr 1
  funext a
  apply Fin.ext
  match a with
  | ⟨0, _⟩ => show win3_2.index t (0 : Fin 2) * 128 + 1 * (y 0).val = (y 0).val; rw [e4]; omega
  | ⟨1, _⟩ => show win3_2.index t (1 : Fin 2) * 128 + 1 * (y 1).val = (y 1).val; rw [e5]; omega

/-- Window 3's one block is its whole array. -/
theorem blk3_3 (c : Dev nD) (t : Fin cfg3.N) : iblk3 V c 3 t = V c main_call0_v77 := by
  obtain ⟨e0, e1, e2, e3, e4, e5, e6, e7, e8, e9⟩ := idx3 t
  funext y
  unfold iblk3
  rw [View.read_apply]
  show V c main_call0_v77 _ = V c main_call0_v77 y
  congr 1
  funext a
  apply Fin.ext
  match a with
  | ⟨0, _⟩ => show win3_3.index t (0 : Fin 2) * 1 + 1 * (y 0).val = (y 0).val; rw [e6]; omega
  | ⟨1, _⟩ => show win3_3.index t (1 : Fin 2) * 128 + 1 * (y 1).val = (y 1).val; rw [e7]; omega

/-- The accumulator after point `n`: the partial sums of the column blocks up to the point's. -/
theorem acc3_eq (c : Dev nD) : ∀ (n : ℕ) (h : n < cfg3.N) (p : Fin 1024) (l : Fin 128),
    acc3 V c n h (ix2 p l) = psum (V c main_arg7) (V c main_call0_v75) (1024 * (n / 4) + p.val) l (n % 4 + 1)
  | 0, h, p, l => by
    unfold acc3
    refine (pay2_3 _ _ _ p l).trans ?_
    rw [pay1_3, zero_add]
    refine (bstep (V c main_arg7) (V c main_call0_v75) _ _ (1024 * (0 / 4) + p.val) (0 % 4) p l (fun q => blkA3 V c ⟨0, h⟩ p q) (fun q => blkX3 V c ⟨0, h⟩ q l)).trans ?_
    exact (psum_one _ _ _ _).symm
  | n + 1, h, p, l => by
    unfold acc3
    by_cases h0 : (n + 1) % 4 = 0
    · rw [if_pos h0]
      refine (pay2_3 _ _ _ p l).trans ?_
      rw [pay1_3, zero_add]
      refine (bstep (V c main_arg7) (V c main_call0_v75) _ _ (1024 * ((n + 1) / 4) + p.val) ((n + 1) % 4) p l (fun q => blkA3 V c ⟨n + 1, h⟩ p q) (fun q => blkX3 V c ⟨n + 1, h⟩ q l)).trans ?_
      rw [h0]
      exact (psum_one _ _ _ _).symm
    · rw [if_neg h0]
      refine (pay2_3 _ _ _ p l).trans ?_
      rw [acc3_eq c n (Nat.lt_of_succ_lt h) p l]
      refine (congrArg (psum (V c main_arg7) (V c main_call0_v75) (1024 * (n / 4) + p.val) l (n % 4 + 1) + ·) (bstep (V c main_arg7) (V c main_call0_v75) _ _ (1024 * ((n + 1) / 4) + p.val) ((n + 1) % 4) p l (fun q => blkA3 V c ⟨n + 1, h⟩ p q) (fun q => blkX3 V c ⟨n + 1, h⟩ q l))).trans ?_
      have hd : (n + 1) / 4 = n / 4 := by omega
      have hm : (n + 1) % 4 = n % 4 + 1 := by omega
      rw [hd, hm]
      exact (psum_succ _ _ _ _ _).symm

/-- What the region's result array ends holding. -/
abbrev G3 (c : Dev nD) : (⟨2, ![8192, 128]⟩ : Shape).Idx → EReal := Cert.Spec.stage2 (V c main_arg7) (V c main_call0_v75) (V c main_call0_v76) (fun j => V c main_call0_v77 (ix2 (0 : Fin 1) j))

/-- What a row block's last point writes back is the specification's block. -/
theorem flushed3_eq (c : Dev nD) (t : Fin cfg3.N) (hf : (cfg3.win 4).flush t = true) :
    (dat3 V c).flushed 4 t = ((cfg3.win 4).blk t).view.read (Elt Ideal) (G3 V c) := by
  have h3 : t.val % 4 = 3 := (flush3_4 t).mp hf
  have hN : t.val < 32 := lt_of_lt_of_eq t.isLt N_3
  obtain ⟨e0, e1, e2, e3, e4, e5, e6, e7, e8, e9⟩ := idx3 t
  show (cfg3.win 4).cut (grid3.coords t) ((dat3 V c).after 4 t) = _
  rw [after3_4, outsAt3_fst V c t h3]
  funext y
  obtain ⟨p, j, rfl⟩ : ∃ (p : Fin 1024) (j : Fin 128), y = ix2 p j := ⟨y 0, y 1, eq_ix2 y⟩
  have hp := p.isLt
  rw [View.read_apply]
  have hemb : ((cfg3.win 4).blk t).view.emb (ix2 p j) = ix2 (⟨1024 * (t.val / 4) + p.val, by omega⟩ : Fin 8192) j := by
    funext a
    apply Fin.ext
    match a with
    | ⟨0, _⟩ => show win3_4.index t (0 : Fin 2) * 1024 + 1 * p.val = 1024 * (t.val / 4) + p.val; rw [e8]; omega
    | ⟨1, _⟩ => show win3_4.index t (1 : Fin 2) * 128 + 1 * j.val = j.val; rw [e9]; omega
  rw [hemb]
  show k3_pay3 (F := Ideal) (acc3 V c t.val t.isLt) (iblk3 V c 2 t) (iblk3 V c 3 t) (ix2 p j) = _
  rw [pay3_3, blk3_2 V c t, blk3_3 V c t]
  have hrow : (fun l => acc3 V c t.val t.isLt (ix2 p l)) = Cert.Spec.conv (V c main_arg7) (V c main_call0_v75) (⟨1024 * (t.val / 4) + p.val, by omega⟩ : Fin 8192) := by
    funext l
    rw [acc3_eq V c t.val t.isLt p l, h3]
    exact psum_four _ _ (⟨1024 * (t.val / 4) + p.val, by omega⟩ : Fin 8192) l
  rw [hrow]
  rfl

/-- An index of the array is in a point's block iff each coordinate is in the block's range. -/
theorem mem3 (t : Fin cfg3.N) (i : S8192x128.Idx) :
    i ∈ ((cfg3.win 4).blk t).view.set ↔ ∀ a : Fin 2, win3_4.index t a * S1024x128.size a ≤ (i a).val ∧ (i a).val < win3_4.index t a * S1024x128.size a + S1024x128.size a := by
  show i ∈ ((View.whole main_call0_v78).slice (win3_4.rect t)).set ↔ _
  rw [View.set_slice_whole, Rect.mem_set_unit]
  exact Iff.rfl

/-- The eight row blocks cover the result array. -/
theorem cover3 (i : S8192x128.Idx) : ∃ t : Fin cfg3.N, (cfg3.win 4).flush t = true ∧ i ∈ ((cfg3.win 4).blk t).view.set := by
  have hi0 : (i 0).val < 8192 := (i 0).isLt
  have hi1 : (i 1).val < 128 := (i 1).isLt
  have hlt : 4 * ((i 0).val / 1024) + 3 < cfg3.N := by rw [show cfg3.N = 32 from N_3]; omega
  refine ⟨⟨4 * ((i 0).val / 1024) + 3, hlt⟩, (flush3_4 _).mpr (by show (4 * ((i 0).val / 1024) + 3) % 4 = 3; omega), ?_⟩
  obtain ⟨e0, e1, e2, e3, e4, e5, e6, e7, e8, e9⟩ := idx3 ⟨4 * ((i 0).val / 1024) + 3, hlt⟩
  rw [mem3]
  intro a
  match a with
  | ⟨0, _⟩ =>
    show win3_4.index _ (0 : Fin 2) * 1024 ≤ (i 0).val ∧ (i 0).val < win3_4.index _ (0 : Fin 2) * 1024 + 1024
    rw [e8]
    show (4 * ((i 0).val / 1024) + 3) / 4 * 1024 ≤ (i 0).val ∧ (i 0).val < (4 * ((i 0).val / 1024) + 3) / 4 * 1024 + 1024
    omega
  | ⟨1, _⟩ =>
    show win3_4.index _ (1 : Fin 2) * 128 ≤ (i 1).val ∧ (i 1).val < win3_4.index _ (1 : Fin 2) * 128 + 128
    rw [e9]
    omega

/-- The region's result array after the run. -/
theorem final3 (c : Dev nD) : (dat3 V c).arrAt 4 cfg3.N = G3 V c :=
  (dat3 V c).arrAt_eq_of_cover 4 (G3 V c) (flushed3_eq V c) (cover3)

end Fin

end Cert.KernelIdeal.Fr

end
-- ==== Proof.KiParts.lean ====
/-
  The kernel program's first stretch of host operations cut in three: up to the rectified dense layer of the
  node-to-hyperedge aggregation; from there to the edge features entering the convolutions; and the casts and
  reshapes that make the first region's operands.
-/
import proofs.«119995_j74062416053450_2_alg».proof.Proof.Gen.KernelIdeal.Launch

set_option maxRecDepth 16384

noncomputable section

namespace Cert.KernelIdeal.Parts

open Cert.KernelIdeal Cert.KernelIdeal.Gen Idealize.ShloMosaic Idealize.ShloMosaic.TcCoe Idealize.SL.Sem

variable {F : FTy → Type} [FloatOps F]

set_option maxHeartbeats 4000000 in
/-- The aggregation of the vertex features onto the hyperedges (two gathers, a quotient, a scatter-add), its dense layer, the rectification. -/
abbrev k0A : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1000000, .i32⟩) (broadcastInDim S1000000 ![] bcast_S_S1000000),
    StableHlo.TRef.binary (.of main_arg8 : StableHlo.TRef sig ⟨S1000000, .i32⟩) (.of main_call0_v0 : StableHlo.TRef sig ⟨S1000000, .i32⟩) (.of main_call0_v1 : StableHlo.TRef sig ⟨S1000000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S1000000, .i32⟩) (broadcastInDim S1000000 ![] bcast_S_S1000000),
    StableHlo.TRef.binary (.of main_arg8 : StableHlo.TRef sig ⟨S1000000, .i32⟩) (.of main_call0_v2 : StableHlo.TRef sig ⟨S1000000, .i32⟩) (.of main_call0_v3 : StableHlo.TRef sig ⟨S1000000, .i32⟩) addi,
    StableHlo.TRef.ternary (.of main_call0_v1 : StableHlo.TRef sig ⟨S1000000, .i1⟩) (.of main_call0_v3 : StableHlo.TRef sig ⟨S1000000, .i32⟩) (.of main_arg8 : StableHlo.TRef sig ⟨S1000000, .i32⟩) (.of main_call0_v4 : StableHlo.TRef sig ⟨S1000000, .i32⟩) select,
    StableHlo.TRef.unary (.of main_call0_v4 : StableHlo.TRef sig ⟨S1000000, .i32⟩) (.of main_call0_v5 : StableHlo.TRef sig ⟨S1000000x1, .i32⟩) (broadcastInDim S1000000x1 ![0] bcast_S1000000_S1000000x1_0),
    StableHlo.TRef.binary (.of main_arg2 : StableHlo.TRef sig ⟨S50000x1, .f32⟩) (.of main_call0_v5 : StableHlo.TRef sig ⟨S1000000x1, .i32⟩) (.of main_call0_v6 : StableHlo.TRef sig ⟨S1000000x1, .f32⟩) (fun x i => Host.gather gather_S50000x1_S1000000x1_S1000000x1_1_0_n_n_0_1_11 x i),
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v7 : StableHlo.TRef sig ⟨S1000000, .i32⟩) (broadcastInDim S1000000 ![] bcast_S_S1000000),
    StableHlo.TRef.binary (.of main_arg9 : StableHlo.TRef sig ⟨S1000000, .i32⟩) (.of main_call0_v7 : StableHlo.TRef sig ⟨S1000000, .i32⟩) (.of main_call0_v8 : StableHlo.TRef sig ⟨S1000000, .i1⟩) (cmpi .slt),
    StableHlo.TRef.nullary (.of main_call0_c_2 : StableHlo.TRef sig ⟨S_, .i32⟩) (constantI S_ 32 8192#32),
    StableHlo.TRef.unary (.of main_call0_c_2 : StableHlo.TRef sig ⟨S_, .i32⟩) (.of main_call0_v9 : StableHlo.TRef sig ⟨S1000000, .i32⟩) (broadcastInDim S1000000 ![] bcast_S_S1000000),
    StableHlo.TRef.binary (.of main_arg9 : StableHlo.TRef sig ⟨S1000000, .i32⟩) (.of main_call0_v9 : StableHlo.TRef sig ⟨S1000000, .i32⟩) (.of main_call0_v10 : StableHlo.TRef sig ⟨S1000000, .i32⟩) addi,
    StableHlo.TRef.ternary (.of main_call0_v8 : StableHlo.TRef sig ⟨S1000000, .i1⟩) (.of main_call0_v10 : StableHlo.TRef sig ⟨S1000000, .i32⟩) (.of main_arg9 : StableHlo.TRef sig ⟨S1000000, .i32⟩) (.of main_call0_v11 : StableHlo.TRef sig ⟨S1000000, .i32⟩) select,
    StableHlo.TRef.unary (.of main_call0_v11 : StableHlo.TRef sig ⟨S1000000, .i32⟩) (.of main_call0_v12 : StableHlo.TRef sig ⟨S1000000x1, .i32⟩) (broadcastInDim S1000000x1 ![0] bcast_S1000000_S1000000x1_0),
    StableHlo.TRef.binary (.of main_arg5 : StableHlo.TRef sig ⟨S8192x1, .f32⟩) (.of main_call0_v12 : StableHlo.TRef sig ⟨S1000000x1, .i32⟩) (.of main_call0_v13 : StableHlo.TRef sig ⟨S1000000x1, .f32⟩) (fun x i => Host.gather gather_S8192x1_S1000000x1_S1000000x1_1_0_n_n_0_1_11 x i),
    StableHlo.TRef.binary (.of main_call0_v6 : StableHlo.TRef sig ⟨S1000000x1, .f32⟩) (.of main_call0_v13 : StableHlo.TRef sig ⟨S1000000x1, .f32⟩) (.of main_call0_v14 : StableHlo.TRef sig ⟨S1000000x1, .f32⟩) Host.divf,
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v15 : StableHlo.TRef sig ⟨S1000000, .i32⟩) (broadcastInDim S1000000 ![] bcast_S_S1000000),
    StableHlo.TRef.binary (.of main_arg8 : StableHlo.TRef sig ⟨S1000000, .i32⟩) (.of main_call0_v15 : StableHlo.TRef sig ⟨S1000000, .i32⟩) (.of main_call0_v16 : StableHlo.TRef sig ⟨S1000000, .i1⟩) (cmpi .slt),
    StableHlo.TRef.nullary (.of main_call0_c_4 : StableHlo.TRef sig ⟨S_, .i32⟩) (constantI S_ 32 50000#32),
    StableHlo.TRef.unary (.of main_call0_c_4 : StableHlo.TRef sig ⟨S_, .i32⟩) (.of main_call0_v17 : StableHlo.TRef sig ⟨S1000000, .i32⟩) (broadcastInDim S1000000 ![] bcast_S_S1000000),
    StableHlo.TRef.binary (.of main_arg8 : StableHlo.TRef sig ⟨S1000000, .i32⟩) (.of main_call0_v17 : StableHlo.TRef sig ⟨S1000000, .i32⟩) (.of main_call0_v18 : StableHlo.TRef sig ⟨S1000000, .i32⟩) addi,
    StableHlo.TRef.ternary (.of main_call0_v16 : StableHlo.TRef sig ⟨S1000000, .i1⟩) (.of main_call0_v18 : StableHlo.TRef sig ⟨S1000000, .i32⟩) (.of main_arg8 : StableHlo.TRef sig ⟨S1000000, .i32⟩) (.of main_call0_v19 : StableHlo.TRef sig ⟨S1000000, .i32⟩) select,
    StableHlo.TRef.unary (.of main_call0_v19 : StableHlo.TRef sig ⟨S1000000, .i32⟩) (.of main_call0_v20 : StableHlo.TRef sig ⟨S1000000x1, .i32⟩) (broadcastInDim S1000000x1 ![0] bcast_S1000000_S1000000x1_0),
    StableHlo.TRef.binary (.of main_arg0 : StableHlo.TRef sig ⟨S50000x128, .f32⟩) (.of main_call0_v20 : StableHlo.TRef sig ⟨S1000000x1, .i32⟩) (.of main_call0_v21 : StableHlo.TRef sig ⟨S1000000x128, .f32⟩) (fun x i => Host.gather gather_S50000x128_S1000000x1_S1000000x128_1_0_n_n_0_1_1128 x i),
    StableHlo.TRef.unary (.of main_call0_v14 : StableHlo.TRef sig ⟨S1000000x1, .f32⟩) (.of main_call0_v22 : StableHlo.TRef sig ⟨S1000000x128, .f32⟩) (broadcastInDim S1000000x128 ![0, 1] bcast_S1000000x1_S1000000x128_0_1),
    StableHlo.TRef.binary (.of main_call0_v22 : StableHlo.TRef sig ⟨S1000000x128, .f32⟩) (.of main_call0_v21 : StableHlo.TRef sig ⟨S1000000x128, .f32⟩) (.of main_call0_v23 : StableHlo.TRef sig ⟨S1000000x128, .f32⟩) mulf,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v24 : StableHlo.TRef sig ⟨S8192x128, .f32⟩) (broadcastInDim S8192x128 ![] bcast_S_S8192x128),
    StableHlo.TRef.unary (.of main_arg9 : StableHlo.TRef sig ⟨S1000000, .i32⟩) (.of main_call0_v25 : StableHlo.TRef sig ⟨S1000000x1, .i32⟩) (broadcastInDim S1000000x1 ![0] bcast_S1000000_S1000000x1_0),
    StableHlo.TRef.ternary (.of main_call0_v24 : StableHlo.TRef sig ⟨S8192x128, .f32⟩) (.of main_call0_v25 : StableHlo.TRef sig ⟨S1000000x1, .i32⟩) (.of main_call0_v23 : StableHlo.TRef sig ⟨S1000000x128, .f32⟩) (.of main_call0_v26 : StableHlo.TRef sig ⟨S8192x128, .f32⟩) (fun x i u => Host.scatterAdd scatter_S8192x128_S1000000x1_S1000000x128_1_0_0_1 x i u),
    StableHlo.TRef.binary (.of main_call0_v26 : StableHlo.TRef sig ⟨S8192x128, .f32⟩) (.of main_arg16 : StableHlo.TRef sig ⟨S128x128, .f32⟩) (.of main_call0_v27 : StableHlo.TRef sig ⟨S8192x128, .f32⟩) (fun l r => Host.dotGeneral dot_S8192x128_S128x128_S8192x128_1_0_0_1_n_n none l r),
    StableHlo.TRef.unary (.of main_arg17 : StableHlo.TRef sig ⟨S128, .f32⟩) (.of main_call0_v28 : StableHlo.TRef sig ⟨S1x128, .f32⟩) (broadcastInDim S1x128 ![1] bcast_S128_S1x128_1),
    StableHlo.TRef.unary (.of main_call0_v28 : StableHlo.TRef sig ⟨S1x128, .f32⟩) (.of main_call0_v29 : StableHlo.TRef sig ⟨S8192x128, .f32⟩) (broadcastInDim S8192x128 ![0, 1] bcast_S1x128_S8192x128_0_1),
    StableHlo.TRef.binary (.of main_call0_v27 : StableHlo.TRef sig ⟨S8192x128, .f32⟩) (.of main_call0_v29 : StableHlo.TRef sig ⟨S8192x128, .f32⟩) (.of main_call0_v30 : StableHlo.TRef sig ⟨S8192x128, .f32⟩) addf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S8192x128, .f32⟩) (broadcastInDim S8192x128 ![] bcast_S_S8192x128),
    StableHlo.TRef.binary (.of main_call0_v30 : StableHlo.TRef sig ⟨S8192x128, .f32⟩) (.of main_call0_call0_v0 : StableHlo.TRef sig ⟨S8192x128, .f32⟩) (.of main_call0_v31 : StableHlo.TRef sig ⟨S8192x128, .f32⟩) maximumf ]

set_option maxHeartbeats 4000000 in
/-- The layer normalisation of that, and the edge features' own dense layer added. -/
abbrev k0B : List (HloOp τ sig (Elt F)) :=
  [ StableHlo.TRef.nullary (.of main_call0_cst_5 : StableHlo.TRef sig ⟨S_, .f32⟩) (constant S_ .f32 0x00000000#32),
    StableHlo.TRef.binary main_call0_call0.v1 (.of main_call0_cst_5 : StableHlo.TRef sig ⟨S_, .f32⟩) (.of main_call0_v32 : StableHlo.TRef sig ⟨S8192, .f32⟩) (fun x v => Host.reduceAdd x v reducesTo_S8192x128_S8192_d1 h_S_),
    StableHlo.TRef.unary (.of main_call0_v32 : StableHlo.TRef sig ⟨S8192, .f32⟩) (.of main_call0_v33 : StableHlo.TRef sig ⟨S8192x1, .f32⟩) (broadcastInDim S8192x1 ![0] bcast_S8192_S8192x1_0),
    StableHlo.TRef.nullary (.of main_call0_cst_6 : StableHlo.TRef sig ⟨S_, .f32⟩) (constant S_ .f32 0x43000000#32),
    StableHlo.TRef.unary (.of main_call0_cst_6 : StableHlo.TRef sig ⟨S_, .f32⟩) (.of main_call0_v34 : StableHlo.TRef sig ⟨S8192x1, .f32⟩) (broadcastInDim S8192x1 ![] bcast_S_S8192x1),
    StableHlo.TRef.binary (.of main_call0_v33 : StableHlo.TRef sig ⟨S8192x1, .f32⟩) (.of main_call0_v34 : StableHlo.TRef sig ⟨S8192x1, .f32⟩) (.of main_call0_v35 : StableHlo.TRef sig ⟨S8192x1, .f32⟩) Host.divf,
    StableHlo.TRef.unary (.of main_call0_v35 : StableHlo.TRef sig ⟨S8192x1, .f32⟩) (.of main_call0_v36 : StableHlo.TRef sig ⟨S8192x128, .f32⟩) (broadcastInDim S8192x128 ![0, 1] bcast_S8192x1_S8192x128_0_1),
    StableHlo.TRef.binary main_call0_call0.v1 (.of main_call0_v36 : StableHlo.TRef sig ⟨S8192x128, .f32⟩) (.of main_call0_v37 : StableHlo.TRef sig ⟨S8192x128, .f32⟩) subf,
    StableHlo.TRef.binary (.of main_call0_v37 : StableHlo.TRef sig ⟨S8192x128, .f32⟩) (.of main_call0_v37 : StableHlo.TRef sig ⟨S8192x128, .f32⟩) (.of main_call0_v38 : StableHlo.TRef sig ⟨S8192x128, .f32⟩) mulf,
    StableHlo.TRef.nullary (.of main_call0_cst_7 : StableHlo.TRef sig ⟨S_, .f32⟩) (constant S_ .f32 0x00000000#32),
    StableHlo.TRef.binary (.of main_call0_v38 : StableHlo.TRef sig ⟨S8192x128, .f32⟩) (.of main_call0_cst_7 : StableHlo.TRef sig ⟨S_, .f32⟩) (.of main_call0_v39 : StableHlo.TRef sig ⟨S8192, .f32⟩) (fun x v => Host.reduceAdd x v reducesTo_S8192x128_S8192_d1 h_S_),
    StableHlo.TRef.unary (.of main_call0_v39 : StableHlo.TRef sig ⟨S8192, .f32⟩) (.of main_call0_v40 : StableHlo.TRef sig ⟨S8192x1, .f32⟩) (broadcastInDim S8192x1 ![0] bcast_S8192_S8192x1_0),
    StableHlo.TRef.nullary (.of main_call0_cst_8 : StableHlo.TRef sig ⟨S_, .f32⟩) (constant S_ .f32 0x43000000#32),
    StableHlo.TRef.unary (.of main_call0_cst_8 : StableHlo.TRef sig ⟨S_, .f32⟩) (.of main_call0_v41 : StableHlo.TRef sig ⟨S8192x1, .f32⟩) (broadcastInDim S8192x1 ![] bcast_S_S8192x1),
    StableHlo.TRef.binary (.of main_call0_v40 : StableHlo.TRef sig ⟨S8192x1, .f32⟩) (.of main_call0_v41 : StableHlo.TRef sig ⟨S8192x1, .f32⟩) (.of main_call0_v42 : StableHlo.TRef sig ⟨S8192x1, .f32⟩) Host.divf,
    StableHlo.TRef.unary (.of main_call0_v35 : StableHlo.TRef sig ⟨S8192x1, .f32⟩) (.of main_call0_v43 : StableHlo.TRef sig ⟨S8192x128, .f32⟩) (broadcastInDim S8192x128 ![0, 1] bcast_S8192x1_S8192x128_0_1),
    StableHlo.TRef.binary main_call0_call0.v1 (.of main_call0_v43 : StableHlo.TRef sig ⟨S8192x128, .f32⟩) (.of main_call0_v44 : StableHlo.TRef sig ⟨S8192x128, .f32⟩) subf,
    StableHlo.TRef.nullary (.of main_call0_cst_9 : StableHlo.TRef sig ⟨S_, .f32⟩) (constant S_ .f32 0x3727C5AC#32),
    StableHlo.TRef.unary (.of main_call0_cst_9 : StableHlo.TRef sig ⟨S_, .f32⟩) (.of main_call0_v45 : StableHlo.TRef sig ⟨S8192x1, .f32⟩) (broadcastInDim S8192x1 ![] bcast_S_S8192x1),
    StableHlo.TRef.binary (.of main_call0_v42 : StableHlo.TRef sig ⟨S8192x1, .f32⟩) (.of main_call0_v45 : StableHlo.TRef sig ⟨S8192x1, .f32⟩) (.of main_call0_v46 : StableHlo.TRef sig ⟨S8192x1, .f32⟩) addf,
    StableHlo.TRef.unary (.of main_call0_v46 : StableHlo.TRef sig ⟨S8192x1, .f32⟩) (.of main_call0_v47 : StableHlo.TRef sig ⟨S8192x1, .f32⟩) Host.rsqrt,
    StableHlo.TRef.unary (.of main_call0_v47 : StableHlo.TRef sig ⟨S8192x1, .f32⟩) (.of main_call0_v48 : StableHlo.TRef sig ⟨S8192x128, .f32⟩) (broadcastInDim S8192x128 ![0, 1] bcast_S8192x1_S8192x128_0_1),
    StableHlo.TRef.binary (.of main_call0_v44 : StableHlo.TRef sig ⟨S8192x128, .f32⟩) (.of main_call0_v48 : StableHlo.TRef sig ⟨S8192x128, .f32⟩) (.of main_call0_v49 : StableHlo.TRef sig ⟨S8192x128, .f32⟩) mulf,
    StableHlo.TRef.unary (.of main_arg18 : StableHlo.TRef sig ⟨S128, .f32⟩) (.of main_call0_v50 : StableHlo.TRef sig ⟨S1x128, .f32⟩) (broadcastInDim S1x128 ![1] bcast_S128_S1x128_1),
    StableHlo.TRef.unary (.of main_call0_v50 : StableHlo.TRef sig ⟨S1x128, .f32⟩) (.of main_call0_v51 : StableHlo.TRef sig ⟨S8192x128, .f32⟩) (broadcastInDim S8192x128 ![0, 1] bcast_S1x128_S8192x128_0_1),
    StableHlo.TRef.binary (.of main_call0_v49 : StableHlo.TRef sig ⟨S8192x128, .f32⟩) (.of main_call0_v51 : StableHlo.TRef sig ⟨S8192x128, .f32⟩) (.of main_call0_v52 : StableHlo.TRef sig ⟨S8192x128, .f32⟩) mulf,
    StableHlo.TRef.unary (.of main_arg19 : StableHlo.TRef sig ⟨S128, .f32⟩) (.of main_call0_v53 : StableHlo.TRef sig ⟨S1x128, .f32⟩) (broadcastInDim S1x128 ![1] bcast_S128_S1x128_1),
    StableHlo.TRef.unary (.of main_call0_v53 : StableHlo.TRef sig ⟨S1x128, .f32⟩) (.of main_call0_v54 : StableHlo.TRef sig ⟨S8192x128, .f32⟩) (broadcastInDim S8192x128 ![0, 1] bcast_S1x128_S8192x128_0_1),
    StableHlo.TRef.binary (.of main_call0_v52 : StableHlo.TRef sig ⟨S8192x128, .f32⟩) (.of main_call0_v54 : StableHlo.TRef sig ⟨S8192x128, .f32⟩) (.of main_call0_v55 : StableHlo.TRef sig ⟨S8192x128, .f32⟩) addf,
    StableHlo.TRef.binary (.of main_arg1 : StableHlo.TRef sig ⟨S8192x128, .f32⟩) (.of main_arg20 : StableHlo.TRef sig ⟨S128x128, .f32⟩) (.of main_call0_v56 : StableHlo.TRef sig ⟨S8192x128, .f32⟩) (fun l r => Host.dotGeneral dot_S8192x128_S128x128_S8192x128_1_0_0_1_n_n none l r),
    StableHlo.TRef.unary (.of main_arg21 : StableHlo.TRef sig ⟨S128, .f32⟩) (.of main_call0_v57 : StableHlo.TRef sig ⟨S1x128, .f32⟩) (broadcastInDim S1x128 ![1] bcast_S128_S1x128_1),
    StableHlo.TRef.unary (.of main_call0_v57 : StableHlo.TRef sig ⟨S1x128, .f32⟩) (.of main_call0_v58 : StableHlo.TRef sig ⟨S8192x128, .f32⟩) (broadcastInDim S8192x128 ![0, 1] bcast_S1x128_S8192x128_0_1),
    StableHlo.TRef.binary (.of main_call0_v56 : StableHlo.TRef sig ⟨S8192x128, .f32⟩) (.of main_call0_v58 : StableHlo.TRef sig ⟨S8192x128, .f32⟩) (.of main_call0_v59 : StableHlo.TRef sig ⟨S8192x128, .f32⟩) addf,
    StableHlo.TRef.binary (.of main_call0_v55 : StableHlo.TRef sig ⟨S8192x128, .f32⟩) (.of main_call0_v59 : StableHlo.TRef sig ⟨S8192x128, .f32⟩) (.of main_call0_v60 : StableHlo.TRef sig ⟨S8192x128, .f32⟩) addf ]

set_option maxHeartbeats 4000000 in
/-- The first region's operands: the edge features and the first weight matrix cast, the bias, scale and shift reshaped to rows. -/
abbrev k0C : List (HloOp τ sig (Elt F)) :=
  [ StableHlo.TRef.unary (.of main_call0_v60 : StableHlo.TRef sig ⟨S8192x128, .f32⟩) (.of main_call0_v61 : StableHlo.TRef sig ⟨S8192x128, .bf16⟩) (truncf .bf16 · bitsLt_bf16_f32),
    StableHlo.TRef.unary (.of main_arg22 : StableHlo.TRef sig ⟨S128x128, .f32⟩) (.of main_call0_v62 : StableHlo.TRef sig ⟨S128x128, .bf16⟩) (truncf .bf16 · bitsLt_bf16_f32),
    StableHlo.TRef.reshape (.of main_arg23 : StableHlo.TRef sig ⟨S128, .f32⟩) (.of main_call0_v63 : StableHlo.TRef sig ⟨S1x128, .f32⟩) rfl shapeCasts_S128_S1x128,
    StableHlo.TRef.reshape (.of main_arg24 : StableHlo.TRef sig ⟨S128, .f32⟩) (.of main_call0_v64 : StableHlo.TRef sig ⟨S1x128, .f32⟩) rfl shapeCasts_S128_S1x128,
    StableHlo.TRef.reshape (.of main_arg25 : StableHlo.TRef sig ⟨S128, .f32⟩) (.of main_call0_v65 : StableHlo.TRef sig ⟨S1x128, .f32⟩) rfl shapeCasts_S128_S1x128 ]

set_option maxHeartbeats 4000000 in
theorem hostOps0_split : (hostOps0 : List (HloOp τ sig (Elt F))) = k0A ++ (k0B ++ k0C) := rfl

end Cert.KernelIdeal.Parts

end
-- ==== Proof.KiVals.lean ====
/-
  The kernel program's run, read: what each region's result array holds as the specification's function of the
  arguments and of the edge features the first stretch of host operations computes. The small operands of a
  region are casts and reshapes of arguments (the identity on the extended reals, and a row read at its lane); a
  region's result reaches the next region and the last stretch unchanged, since nothing in between writes it.
-/
import proofs.«119995_j74062416053450_2_alg».proof.Proof.KiFrame
import proofs.«119995_j74062416053450_2_alg».proof.Proof.KiR0Fin
import proofs.«119995_j74062416053450_2_alg».proof.Proof.KiR1Fin
import proofs.«119995_j74062416053450_2_alg».proof.Proof.KiR2Fin
import proofs.«119995_j74062416053450_2_alg».proof.Proof.KiR3Fin
import proofs.«119995_j74062416053450_2_alg».proof.Proof.KiParts
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Parts Cert.KernelIdeal.Sem Idealize.ShloMosaic.StableHlo Idealize.ShloMosaic.ValueIdx

variable (m : (ℓ : Loc nD τ sig) → Buf (Elt Ideal) ℓ) (ρ : Dev nD → PrngReg)

/-! ## The arguments at every boundary -/

theorem W1_arg (c : Dev nD) (b : Ref sig .tc) (hb : b.idx.val < 38) : W1 m ρ c (Proc.devRef .tc b) = m ((c : Thread nD τ).loc b) :=
  StableHlo.after_of_forall_not_mem (b := Proc.devRef .tc b) _ _ (keeps0 b hb)
theorem W2_argm (c : Dev nD) (b : Ref sig .tc) (hb : b.idx.val < 38) : W2 m ρ c (Proc.devRef .tc b) = m ((c : Thread nD τ).loc b) :=
  (W2_arg m ρ c b hb).trans (W1_arg m ρ c b hb)
theorem W3_arg (c : Dev nD) (b : Ref sig .tc) (hb : b.idx.val < 38) : W3 m ρ c (Proc.devRef .tc b) = m ((c : Thread nD τ).loc b) :=
  (StableHlo.after_of_forall_not_mem (b := Proc.devRef .tc b) _ _ (keeps1 b hb)).trans (W2_argm m ρ c b hb)
theorem W4_argm (c : Dev nD) (b : Ref sig .tc) (hb : b.idx.val < 38) : W4 m ρ c (Proc.devRef .tc b) = m ((c : Thread nD τ).loc b) :=
  (W4_arg m ρ c b hb).trans (W3_arg m ρ c b hb)
theorem W5_arg (c : Dev nD) (b : Ref sig .tc) (hb : b.idx.val < 38) : W5 m ρ c (Proc.devRef .tc b) = m ((c : Thread nD τ).loc b) :=
  (StableHlo.after_of_forall_not_mem (b := Proc.devRef .tc b) _ _ (keeps2 b hb)).trans (W4_argm m ρ c b hb)
theorem W6_argm (c : Dev nD) (b : Ref sig .tc) (hb : b.idx.val < 38) : W6 m ρ c (Proc.devRef .tc b) = m ((c : Thread nD τ).loc b) :=
  (W6_arg m ρ c b hb).trans (W5_arg m ρ c b hb)
theorem W7_arg (c : Dev nD) (b : Ref sig .tc) (hb : b.idx.val < 38) : W7 m ρ c (Proc.devRef .tc b) = m ((c : Thread nD τ).loc b) :=
  (StableHlo.after_of_forall_not_mem (b := Proc.devRef .tc b) _ _ (keeps3 b hb)).trans (W6_argm m ρ c b hb)
theorem W8_argm (c : Dev nD) (b : Ref sig .tc) (hb : b.idx.val < 38) : W8 m ρ c (Proc.devRef .tc b) = m ((c : Thread nD τ).loc b) :=
  (W8_arg m ρ c b hb).trans (W7_arg m ρ c b hb)

/-! ## The edge features entering the convolutions -/

theorem after_app {τ : Topo} {sig : RefSig} {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The edge features as the first stretch's second part leaves them (before the cast that makes region 0's operand). -/
def XK (c : Dev nD) : (⟨2, ![8192, 128]⟩ : Shape).Idx → EReal :=
  StableHlo.after (k0B (F := Ideal)) (StableHlo.after (k0A (F := Ideal)) (W0 m ρ c)) (Proc.devRef .tc main_call0_v60)

/-- On the extended reals a change of float format is the identity. -/
theorem truncf_ideal {s : Shape} {φ ψ : FTy} (a : FVec Ideal s φ) (h : ψ.bits < φ.bits) : (truncf ψ a h : FVec Ideal s ψ) = a := rfl

/-- The first stretch is its three parts in order. -/
theorem W1_split (c : Dev nD) (b : DevRef τ sig) :
    W1 m ρ c b = StableHlo.after (k0C (F := Ideal)) (StableHlo.after (k0B (F := Ideal)) (StableHlo.after (k0A (F := Ideal)) (W0 m ρ c))) b :=
  (congrFun (congrArg (fun l => StableHlo.after l (W0 m ρ c)) (hostOps0_split (F := Ideal))) b).trans
    ((congrFun (after_app (k0A (F := Ideal)) (k0B ++ k0C) (W0 m ρ c)) b).trans (congrFun (after_app (k0B (F := Ideal)) k0C _) b))

theorem W1_v60 (c : Dev nD) : W1 m ρ c (Proc.devRef .tc main_call0_v60) = XK m ρ c := by
  refine (W1_split m ρ c _).trans ?_
  unfold XK
  generalize StableHlo.after (k0B (F := Ideal)) (StableHlo.after (k0A (F := Ideal)) (W0 m ρ c)) = Y
  after_results_simp

theorem V1_v61 (c : Dev nD) : V1 m ρ c main_call0_v61 = XK m ρ c := by
  refine (W1_split m ρ c _).trans ?_
  unfold XK
  generalize StableHlo.after (k0B (F := Ideal)) (StableHlo.after (k0A (F := Ideal)) (W0 m ρ c)) = Y
  after_results_simp
  exact truncf_ideal _ _

theorem W0_argm (c : Dev nD) (b : Ref sig .tc) (hb : b.idx.val < 38) : W0 m ρ c (Proc.devRef .tc b) = m ((c : Thread nD τ).loc b) := rfl

theorem V1_v62 (c : Dev nD) : V1 m ρ c main_call0_v62 = m ((c : Thread nD τ).loc main_arg22) := by
  show StableHlo.after hostOps0 (W0 m ρ c) (Proc.devRef .tc main_call0_v62) = _
  after_results_simp
  rw [W0_argm m ρ c main_arg22 (by decide)]
  rfl

theorem V1_v63 (c : Dev nD) (j : Fin 128) : V1 m ρ c main_call0_v63 (ix2 (0 : Fin 1) j) = m ((c : Thread nD τ).loc main_arg23) (ix1 j) := by
  show StableHlo.after hostOps0 (W0 m ρ c) (Proc.devRef .tc main_call0_v63) (ix2 (0 : Fin 1) j) = _
  after_results_simp
  rw [W0_argm m ρ c main_arg23 (by decide)]
  exact shapeCast_a_1a_apply _ _ _ _

theorem V1_v64 (c : Dev nD) (j : Fin 128) : V1 m ρ c main_call0_v64 (ix2 (0 : Fin 1) j) = m ((c : Thread nD τ).loc main_arg24) (ix1 j) := by
  show StableHlo.after hostOps0 (W0 m ρ c) (Proc.devRef .tc main_call0_v64) (ix2 (0 : Fin 1) j) = _
  after_results_simp
  rw [W0_argm m ρ c main_arg24 (by decide)]
  exact shapeCast_a_1a_apply _ _ _ _

theorem V1_v65 (c : Dev nD) (j : Fin 128) : V1 m ρ c main_call0_v65 (ix2 (0 : Fin 1) j) = m ((c : Thread nD τ).loc main_arg25) (ix1 j) := by
  show StableHlo.after hostOps0 (W0 m ρ c) (Proc.devRef .tc main_call0_v65) (ix2 (0 : Fin 1) j) = _
  after_results_simp
  rw [W0_argm m ρ c main_arg25 (by decide)]
  exact shapeCast_a_1a_apply _ _ _ _

theorem V3_v67 (c : Dev nD) : V3 m ρ c main_call0_v67 = m ((c : Thread nD τ).loc main_arg26) := by
  show StableHlo.after hostOps1 (W2 m ρ c) (Proc.devRef .tc main_call0_v67) = _
  after_results_simp
  rw [W2_argm m ρ c main_arg26 (by decide)]
  rfl

theorem V3_v68 (c : Dev nD) (j : Fin 128) : V3 m ρ c main_call0_v68 (ix2 (0 : Fin 1) j) = m ((c : Thread nD τ).loc main_arg27) (ix1 j) := by
  show StableHlo.after hostOps1 (W2 m ρ c) (Proc.devRef .tc main_call0_v68) (ix2 (0 : Fin 1) j) = _
  after_results_simp
  rw [W2_argm m ρ c main_arg27 (by decide)]
  exact shapeCast_a_1a_apply _ _ _ _

theorem V5_v71 (c : Dev nD) : V5 m ρ c main_call0_v71 = m ((c : Thread nD τ).loc main_arg28) := by
  show StableHlo.after hostOps2 (W4 m ρ c) (Proc.devRef .tc main_call0_v71) = _
  after_results_simp
  rw [W4_argm m ρ c main_arg28 (by decide)]
  rfl

theorem V5_v72 (c : Dev nD) (j : Fin 128) : V5 m ρ c main_call0_v72 (ix2 (0 : Fin 1) j) = m ((c : Thread nD τ).loc main_arg29) (ix1 j) := by
  show StableHlo.after hostOps2 (W4 m ρ c) (Proc.devRef .tc main_call0_v72) (ix2 (0 : Fin 1) j) = _
  after_results_simp
  rw [W4_argm m ρ c main_arg29 (by decide)]
  exact shapeCast_a_1a_apply _ _ _ _

theorem V5_v73 (c : Dev nD) (j : Fin 128) : V5 m ρ c main_call0_v73 (ix2 (0 : Fin 1) j) = m ((c : Thread nD τ).loc main_arg30) (ix1 j) := by
  show StableHlo.after hostOps2 (W4 m ρ c) (Proc.devRef .tc main_call0_v73) (ix2 (0 : Fin 1) j) = _
  after_results_simp
  rw [W4_argm m ρ c main_arg30 (by decide)]
  exact shapeCast_a_1a_apply _ _ _ _

theorem V5_v74 (c : Dev nD) (j : Fin 128) : V5 m ρ c main_call0_v74 (ix2 (0 : Fin 1) j) = m ((c : Thread nD τ).loc main_arg31) (ix1 j) := by
  show StableHlo.after hostOps2 (W4 m ρ c) (Proc.devRef .tc main_call0_v74) (ix2 (0 : Fin 1) j) = _
  after_results_simp
  rw [W4_argm m ρ c main_arg31 (by decide)]
  exact shapeCast_a_1a_apply _ _ _ _

theorem V7_v76 (c : Dev nD) : V7 m ρ c main_call0_v76 = m ((c : Thread nD τ).loc main_arg32) := by
  show StableHlo.after hostOps3 (W6 m ρ c) (Proc.devRef .tc main_call0_v76) = _
  after_results_simp
  rw [W6_argm m ρ c main_arg32 (by decide)]
  rfl

theorem V7_v77 (c : Dev nD) (j : Fin 128) : V7 m ρ c main_call0_v77 (ix2 (0 : Fin 1) j) = m ((c : Thread nD τ).loc main_arg33) (ix1 j) := by
  show StableHlo.after hostOps3 (W6 m ρ c) (Proc.devRef .tc main_call0_v77) (ix2 (0 : Fin 1) j) = _
  after_results_simp
  rw [W6_argm m ρ c main_arg33 (by decide)]
  exact shapeCast_a_1a_apply _ _ _ _

/-! ## The first convolution -/

theorem stage1_congr {A A' : (⟨2, ![8192, 8192]⟩ : Shape).Idx → EReal} {X X' : (⟨2, ![8192, 128]⟩ : Shape).Idx → EReal}
    {W W' : (⟨2, ![128, 128]⟩ : Shape).Idx → EReal} {b b' g g' β β' : Fin 128 → EReal}
    (hA : A = A') (hX : X = X') (hW : W = W') (hb : b = b') (hg : g = g') (hβ : β = β') :
    Cert.Spec.stage1 A X W b g β = Cert.Spec.stage1 A' X' W' b' g' β' := by
  subst hA hX hW hb hg hβ; rfl

theorem stage2_congr {A A' : (⟨2, ![8192, 8192]⟩ : Shape).Idx → EReal} {H H' : (⟨2, ![8192, 128]⟩ : Shape).Idx → EReal}
    {W W' : (⟨2, ![128, 128]⟩ : Shape).Idx → EReal} {b b' : Fin 128 → EReal}
    (hA : A = A') (hH : H = H') (hW : W = W') (hb : b = b') :
    Cert.Spec.stage2 A H W b = Cert.Spec.stage2 A' H' W' b' := by
  subst hA hH hW hb; rfl

/-- Region 0's result: the first stage over the first adjacency matrix. -/
theorem W2_v66 (c : Dev nD) : W2 m ρ c (Proc.devRef .tc main_call0_v66)
    = Cert.Spec.stage1 (m ((c : Thread nD τ).loc main_arg6)) (XK m ρ c) (m ((c : Thread nD τ).loc main_arg22)) (fun j => m ((c : Thread nD τ).loc main_arg23) (ix1 j)) (fun j => m ((c : Thread nD τ).loc main_arg24) (ix1 j)) (fun j => m ((c : Thread nD τ).loc main_arg25) (ix1 j)) :=
  (W2_arr m ρ c 6).trans ((final0 (V1 m ρ) c).trans
    (stage1_congr (W1_arg m ρ c main_arg6 (by decide)) (V1_v61 m ρ c) (V1_v62 m ρ c)
      (funext (V1_v63 m ρ c)) (funext (V1_v64 m ρ c)) (funext (V1_v65 m ρ c))))

theorem V3_v66 (c : Dev nD) : V3 m ρ c main_call0_v66 = W2 m ρ c (Proc.devRef .tc main_call0_v66) := by
  show StableHlo.after hostOps1 (W2 m ρ c) (Proc.devRef .tc main_call0_v66) = W2 m ρ c (Proc.devRef .tc main_call0_v66)
  generalize W2 m ρ c = Y
  after_results_simp

/-- Region 1's result: the whole first convolution. -/
theorem W4_v69 (c : Dev nD) : W4 m ρ c (Proc.devRef .tc main_call0_v69)
    = Cert.Spec.gcn (m ((c : Thread nD τ).loc main_arg6)) (XK m ρ c) (m ((c : Thread nD τ).loc main_arg22)) (fun j => m ((c : Thread nD τ).loc main_arg23) (ix1 j)) (fun j => m ((c : Thread nD τ).loc main_arg24) (ix1 j)) (fun j => m ((c : Thread nD τ).loc main_arg25) (ix1 j)) (m ((c : Thread nD τ).loc main_arg26)) (fun j => m ((c : Thread nD τ).loc main_arg27) (ix1 j)) :=
  (W4_arr m ρ c 4).trans ((final1 (V3 m ρ) c).trans
    (stage2_congr (W3_arg m ρ c main_arg6 (by decide)) ((V3_v66 m ρ c).trans (W2_v66 m ρ c)) (V3_v67 m ρ c) (funext (V3_v68 m ρ c))))

/-! ## The second convolution -/

theorem W4_v60 (c : Dev nD) : W4 m ρ c (Proc.devRef .tc main_call0_v60) = XK m ρ c := by
  refine (W4_of_ne m ρ c main_call0_v60 (fun w => by fin_cases w <;> decide)).trans ?_
  refine Eq.trans ?_ ((W2_of_ne m ρ c main_call0_v60 (fun w => by fin_cases w <;> decide)).trans (W1_v60 m ρ c))
  show StableHlo.after hostOps1 (W2 m ρ c) (Proc.devRef .tc main_call0_v60) = W2 m ρ c (Proc.devRef .tc main_call0_v60)
  generalize W2 m ρ c = Y
  after_results_simp

theorem V5_v70 (c : Dev nD) : V5 m ρ c main_call0_v70 = XK m ρ c := by
  have h : V5 m ρ c main_call0_v70 = W4 m ρ c (Proc.devRef .tc main_call0_v60) := by
    show StableHlo.after hostOps2 (W4 m ρ c) (Proc.devRef .tc main_call0_v70) = W4 m ρ c (Proc.devRef .tc main_call0_v60)
    generalize W4 m ρ c = Y
    after_results_simp
    exact truncf_ideal _ _
  exact h.trans (W4_v60 m ρ c)

theorem W6_v75 (c : Dev nD) : W6 m ρ c (Proc.devRef .tc main_call0_v75)
    = Cert.Spec.stage1 (m ((c : Thread nD τ).loc main_arg7)) (XK m ρ c) (m ((c : Thread nD τ).loc main_arg28)) (fun j => m ((c : Thread nD τ).loc main_arg29) (ix1 j)) (fun j => m ((c : Thread nD τ).loc main_arg30) (ix1 j)) (fun j => m ((c : Thread nD τ).loc main_arg31) (ix1 j)) :=
  (W6_arr m ρ c 6).trans ((final2 (V5 m ρ) c).trans
    (stage1_congr (W5_arg m ρ c main_arg7 (by decide)) (V5_v70 m ρ c) (V5_v71 m ρ c)
      (funext (V5_v72 m ρ c)) (funext (V5_v73 m ρ c)) (funext (V5_v74 m ρ c))))

theorem V7_v75 (c : Dev nD) : V7 m ρ c main_call0_v75 = W6 m ρ c (Proc.devRef .tc main_call0_v75) := by
  show StableHlo.after hostOps3 (W6 m ρ c) (Proc.devRef .tc main_call0_v75) = W6 m ρ c (Proc.devRef .tc main_call0_v75)
  generalize W6 m ρ c = Y
  after_results_simp

theorem W8_v78 (c : Dev nD) : W8 m ρ c (Proc.devRef .tc main_call0_v78)
    = Cert.Spec.gcn (m ((c : Thread nD τ).loc main_arg7)) (XK m ρ c) (m ((c : Thread nD τ).loc main_arg28)) (fun j => m ((c : Thread nD τ).loc main_arg29) (ix1 j)) (fun j => m ((c : Thread nD τ).loc main_arg30) (ix1 j)) (fun j => m ((c : Thread nD τ).loc main_arg31) (ix1 j)) (m ((c : Thread nD τ).loc main_arg32)) (fun j => m ((c : Thread nD τ).loc main_arg33) (ix1 j)) :=
  (W8_arr m ρ c 4).trans ((final3 (V7 m ρ) c).trans
    (stage2_congr (W7_arg m ρ c main_arg7 (by decide)) ((V7_v75 m ρ c).trans (W6_v75 m ρ c)) (V7_v76 m ρ c) (funext (V7_v77 m ρ c))))

/-- The first convolution's result reaches the last stretch unchanged. -/
theorem W8_v69 (c : Dev nD) : W8 m ρ c (Proc.devRef .tc main_call0_v69) = W4 m ρ c (Proc.devRef .tc main_call0_v69) := by
  refine (W8_of_ne m ρ c main_call0_v69 (fun w => by fin_cases w <;> decide)).trans ?_
  have h7 : W7 m ρ c (Proc.devRef .tc main_call0_v69) = W6 m ρ c (Proc.devRef .tc main_call0_v69) := by
    show StableHlo.after hostOps3 (W6 m ρ c) (Proc.devRef .tc main_call0_v69) = W6 m ρ c (Proc.devRef .tc main_call0_v69)
    generalize W6 m ρ c = Y
    after_results_simp
  have h5 : W5 m ρ c (Proc.devRef .tc main_call0_v69) = W4 m ρ c (Proc.devRef .tc main_call0_v69) := by
    show StableHlo.after hostOps2 (W4 m ρ c) (Proc.devRef .tc main_call0_v69) = W4 m ρ c (Proc.devRef .tc main_call0_v69)
    generalize W4 m ρ c = Y
    after_results_simp
  exact h7.trans ((W6_of_ne m ρ c main_call0_v69 (fun w => by fin_cases w <;> decide)).trans h5)

end Cert.KernelIdeal.Fr

end
-- ==== Proof.RefParts.lean ====
/-
  The reference's line of host operations cut into four stretches: everything up to the edge features that feed
  the two graph convolutions; the first convolution; the second; and the rest (the losses, the mix of the two
  convolutions' results, and the aggregation back to the vertices). The line is these four in order.
-/
import proofs.«119995_j74062416053450_2_alg».proof.Proof.RefOpsP

set_option maxRecDepth 16384

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The first stretch: a product that nothing reads, then the node-to-hyperedge aggregation, its dense layer and normalisation, and the edge features' own dense layer added: the edge features entering both convolutions. -/
abbrev refA : List (HloOp τ sig (Elt F)) :=
  [ binary main_arg0 main_arg14 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_arg8 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v6 (broadcastInDim S1000000 ![] bcast_S_S1000000 : (⟨S_, .i32⟩ : BufTy).Contents (Elt F) → (⟨S1000000, .i32⟩ : BufTy).Contents (Elt F)),
    binary main_arg8 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_arg8 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg2 main_v9 main_v10 ((fun x i => Host.gather gather_S50000x1_S1000000x1_S1000000x1_1_0_n_n_0_1_11 x i) : (⟨S50000x1, .f32⟩ : BufTy).Contents (Elt F) → (⟨S1000000x1, .i32⟩ : BufTy).Contents (Elt F) → (⟨S1000000x1, .f32⟩ : BufTy).Contents (Elt F)),
    nullary main_c_1 (constantI S_ 32 0#32),
    unary main_c_1 main_v11 (broadcastInDim S1000000 ![] bcast_S_S1000000 : (⟨S_, .i32⟩ : BufTy).Contents (Elt F) → (⟨S1000000, .i32⟩ : BufTy).Contents (Elt F)),
    binary main_arg9 main_v11 main_v12 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 8192#32),
    unary main_c_2 main_v13 (broadcastInDim S1000000 ![] bcast_S_S1000000 : (⟨S_, .i32⟩ : BufTy).Contents (Elt F) → (⟨S1000000, .i32⟩ : BufTy).Contents (Elt F)),
    binary main_arg9 main_v13 main_v14 (addi : (⟨S1000000, .i32⟩ : BufTy).Contents (Elt F) → (⟨S1000000, .i32⟩ : BufTy).Contents (Elt F) → (⟨S1000000, .i32⟩ : BufTy).Contents (Elt F)),
    ternary main_v12 main_v14 main_arg9 main_v15 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v15 main_v16 (broadcastInDim S1000000x1 ![0] bcast_S1000000_S1000000x1_0 : (⟨S1000000, .i32⟩ : BufTy).Contents (Elt F) → (⟨S1000000x1, .i32⟩ : BufTy).Contents (Elt F)),
    binary main_arg5 main_v16 main_v17 ((fun x i => Host.gather gather_S8192x1_S1000000x1_S1000000x1_1_0_n_n_0_1_11 x i) : (⟨S8192x1, .f32⟩ : BufTy).Contents (Elt F) → (⟨S1000000x1, .i32⟩ : BufTy).Contents (Elt F) → (⟨S1000000x1, .f32⟩ : BufTy).Contents (Elt F)),
    binary main_v10 main_v17 main_v18 (Host.divf : (⟨S1000000x1, .f32⟩ : BufTy).Contents (Elt F) → (⟨S1000000x1, .f32⟩ : BufTy).Contents (Elt F) → (⟨S1000000x1, .f32⟩ : BufTy).Contents (Elt F)),
    nullary main_c_3 (constantI S_ 32 0#32),
    unary main_c_3 main_v19 (broadcastInDim S1000000 ![] bcast_S_S1000000 : (⟨S_, .i32⟩ : BufTy).Contents (Elt F) → (⟨S1000000, .i32⟩ : BufTy).Contents (Elt F)),
    binary main_arg8 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 50000#32),
    unary main_c_4 main_v21 (broadcastInDim S1000000 ![] bcast_S_S1000000 : (⟨S_, .i32⟩ : BufTy).Contents (Elt F) → (⟨S1000000, .i32⟩ : BufTy).Contents (Elt F)),
    binary main_arg8 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_arg8 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    binary main_arg0 main_v24 main_v25 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    unary main_v18 main_v26 (broadcastInDim S1000000x128 ![0, 1] bcast_S1000000x1_S1000000x128_0_1 : (⟨S1000000x1, .f32⟩ : BufTy).Contents (Elt F) → (⟨S1000000x128, .f32⟩ : BufTy).Contents (Elt F)),
    binary main_v26 main_v25 main_v27 (mulf : (⟨S1000000x128, .f32⟩ : BufTy).Contents (Elt F) → (⟨S1000000x128, .f32⟩ : BufTy).Contents (Elt F) → (⟨S1000000x128, .f32⟩ : BufTy).Contents (Elt F)),
    nullary main_cst (constant S_ .f32 0x00000000#32),
    unary main_cst main_v28 (broadcastInDim S8192x128 ![] bcast_S_S8192x128 : (⟨S_, .f32⟩ : BufTy).Contents (Elt F) → (⟨S8192x128, .f32⟩ : BufTy).Contents (Elt F)),
    unary main_arg9 main_v29 (broadcastInDim S1000000x1 ![0] bcast_S1000000_S1000000x1_0 : (⟨S1000000, .i32⟩ : BufTy).Contents (Elt F) → (⟨S1000000x1, .i32⟩ : BufTy).Contents (Elt F)),
    ternary main_v28 main_v29 main_v27 main_v30 ((fun x i u => Host.scatterAdd scatter_S8192x128_S1000000x1_S1000000x128_1_0_0_1 x i u) : (⟨S8192x128, .f32⟩ : BufTy).Contents (Elt F) → (⟨S1000000x1, .i32⟩ : BufTy).Contents (Elt F) → (⟨S1000000x128, .f32⟩ : BufTy).Contents (Elt F) → (⟨S8192x128, .f32⟩ : BufTy).Contents (Elt F)),
    binary main_v30 main_arg16 main_v31 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg17 main_v32 (broadcastInDim S1x128 ![1] bcast_S128_S1x128_1 : (⟨S128, .f32⟩ : BufTy).Contents (Elt F) → (⟨S1x128, .f32⟩ : BufTy).Contents (Elt F)),
    unary main_v32 main_v33 (broadcastInDim S8192x128 ![0, 1] bcast_S1x128_S8192x128_0_1 : (⟨S1x128, .f32⟩ : BufTy).Contents (Elt F) → (⟨S8192x128, .f32⟩ : BufTy).Contents (Elt F)),
    binary main_v31 main_v33 main_v34 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x128, .f32⟩) main_call0_v0) (broadcastInDim S8192x128 ![] bcast_S_S8192x128),
    TRef.binary (TRef.of (T := ⟨S8192x128, .f32⟩) main_v34) (TRef.of (T := ⟨S8192x128, .f32⟩) main_call0_v0) (TRef.of (T := ⟨S8192x128, .f32⟩) main_v35) maximumf,
    nullary main_cst_5 (constant S_ .f32 0x00000000#32),
    binary main_v35 main_cst_5 main_v36 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v36 main_v37 (broadcastInDim S8192x1 ![0] bcast_S8192_S8192x1_0 : (⟨S8192, .f32⟩ : BufTy).Contents (Elt F) → (⟨S8192x1, .f32⟩ : BufTy).Contents (Elt F)),
    nullary main_cst_6 (constant S_ .f32 0x43000000#32),
    unary main_cst_6 main_v38 (broadcastInDim S8192x1 ![] bcast_S_S8192x1 : (⟨S_, .f32⟩ : BufTy).Contents (Elt F) → (⟨S8192x1, .f32⟩ : BufTy).Contents (Elt F)),
    binary main_v37 main_v38 main_v39 (Host.divf : (⟨S8192x1, .f32⟩ : BufTy).Contents (Elt F) → (⟨S8192x1, .f32⟩ : BufTy).Contents (Elt F) → (⟨S8192x1, .f32⟩ : BufTy).Contents (Elt F)),
    unary main_v39 main_v40 (broadcastInDim S8192x128 ![0, 1] bcast_S8192x1_S8192x128_0_1 : (⟨S8192x1, .f32⟩ : BufTy).Contents (Elt F) → (⟨S8192x128, .f32⟩ : BufTy).Contents (Elt F)),
    binary main_v35 main_v40 main_v41 (subf : (⟨S8192x128, .f32⟩ : BufTy).Contents (Elt F) → (⟨S8192x128, .f32⟩ : BufTy).Contents (Elt F) → (⟨S8192x128, .f32⟩ : BufTy).Contents (Elt F)),
    binary main_v41 main_v41 main_v42 (mulf : (⟨S8192x128, .f32⟩ : BufTy).Contents (Elt F) → (⟨S8192x128, .f32⟩ : BufTy).Contents (Elt F) → (⟨S8192x128, .f32⟩ : BufTy).Contents (Elt F)),
    nullary main_cst_7 (constant S_ .f32 0x00000000#32),
    binary main_v42 main_cst_7 main_v43 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v43 main_v44 (broadcastInDim S8192x1 ![0] bcast_S8192_S8192x1_0 : (⟨S8192, .f32⟩ : BufTy).Contents (Elt F) → (⟨S8192x1, .f32⟩ : BufTy).Contents (Elt F)),
    nullary main_cst_8 (constant S_ .f32 0x43000000#32),
    unary main_cst_8 main_v45 (broadcastInDim S8192x1 ![] bcast_S_S8192x1 : (⟨S_, .f32⟩ : BufTy).Contents (Elt F) → (⟨S8192x1, .f32⟩ : BufTy).Contents (Elt F)),
    binary main_v44 main_v45 main_v46 (Host.divf : (⟨S8192x1, .f32⟩ : BufTy).Contents (Elt F) → (⟨S8192x1, .f32⟩ : BufTy).Contents (Elt F) → (⟨S8192x1, .f32⟩ : BufTy).Contents (Elt F)),
    unary main_v39 main_v47 (broadcastInDim S8192x128 ![0, 1] bcast_S8192x1_S8192x128_0_1 : (⟨S8192x1, .f32⟩ : BufTy).Contents (Elt F) → (⟨S8192x128, .f32⟩ : BufTy).Contents (Elt F)),
    binary main_v35 main_v47 main_v48 (subf : (⟨S8192x128, .f32⟩ : BufTy).Contents (Elt F) → (⟨S8192x128, .f32⟩ : BufTy).Contents (Elt F) → (⟨S8192x128, .f32⟩ : BufTy).Contents (Elt F)),
    nullary main_cst_9 (constant S_ .f32 0x3727C5AC#32),
    unary main_cst_9 main_v49 (broadcastInDim S8192x1 ![] bcast_S_S8192x1 : (⟨S_, .f32⟩ : BufTy).Contents (Elt F) → (⟨S8192x1, .f32⟩ : BufTy).Contents (Elt F)),
    binary main_v46 main_v49 main_v50 (addf : (⟨S8192x1, .f32⟩ : BufTy).Contents (Elt F) → (⟨S8192x1, .f32⟩ : BufTy).Contents (Elt F) → (⟨S8192x1, .f32⟩ : BufTy).Contents (Elt F)),
    unary main_v50 main_v51 (Host.rsqrt : (⟨S8192x1, .f32⟩ : BufTy).Contents (Elt F) → (⟨S8192x1, .f32⟩ : BufTy).Contents (Elt F)),
    unary main_v51 main_v52 (broadcastInDim S8192x128 ![0, 1] bcast_S8192x1_S8192x128_0_1 : (⟨S8192x1, .f32⟩ : BufTy).Contents (Elt F) → (⟨S8192x128, .f32⟩ : BufTy).Contents (Elt F)),
    binary main_v48 main_v52 main_v53 (mulf : (⟨S8192x128, .f32⟩ : BufTy).Contents (Elt F) → (⟨S8192x128, .f32⟩ : BufTy).Contents (Elt F) → (⟨S8192x128, .f32⟩ : BufTy).Contents (Elt F)),
    unary main_arg18 main_v54 (broadcastInDim S1x128 ![1] bcast_S128_S1x128_1 : (⟨S128, .f32⟩ : BufTy).Contents (Elt F) → (⟨S1x128, .f32⟩ : BufTy).Contents (Elt F)),
    unary main_v54 main_v55 (broadcastInDim S8192x128 ![0, 1] bcast_S1x128_S8192x128_0_1 : (⟨S1x128, .f32⟩ : BufTy).Contents (Elt F) → (⟨S8192x128, .f32⟩ : BufTy).Contents (Elt F)),
    binary main_v53 main_v55 main_v56 (mulf : (⟨S8192x128, .f32⟩ : BufTy).Contents (Elt F) → (⟨S8192x128, .f32⟩ : BufTy).Contents (Elt F) → (⟨S8192x128, .f32⟩ : BufTy).Contents (Elt F)),
    unary main_arg19 main_v57 (broadcastInDim S1x128 ![1] bcast_S128_S1x128_1 : (⟨S128, .f32⟩ : BufTy).Contents (Elt F) → (⟨S1x128, .f32⟩ : BufTy).Contents (Elt F)),
    unary main_v57 main_v58 (broadcastInDim S8192x128 ![0, 1] bcast_S1x128_S8192x128_0_1 : (⟨S1x128, .f32⟩ : BufTy).Contents (Elt F) → (⟨S8192x128, .f32⟩ : BufTy).Contents (Elt F)),
    binary main_v56 main_v58 main_v59 (addf : (⟨S8192x128, .f32⟩ : BufTy).Contents (Elt F) → (⟨S8192x128, .f32⟩ : BufTy).Contents (Elt F) → (⟨S8192x128, .f32⟩ : BufTy).Contents (Elt F)),
    binary main_arg1 main_arg20 main_v60 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg21 main_v61 (broadcastInDim S1x128 ![1] bcast_S128_S1x128_1 : (⟨S128, .f32⟩ : BufTy).Contents (Elt F) → (⟨S1x128, .f32⟩ : BufTy).Contents (Elt F)),
    unary main_v61 main_v62 (broadcastInDim S8192x128 ![0, 1] bcast_S1x128_S8192x128_0_1 : (⟨S1x128, .f32⟩ : BufTy).Contents (Elt F) → (⟨S8192x128, .f32⟩ : BufTy).Contents (Elt F)),
    binary main_v60 main_v62 main_v63 (addf : (⟨S8192x128, .f32⟩ : BufTy).Contents (Elt F) → (⟨S8192x128, .f32⟩ : BufTy).Contents (Elt F) → (⟨S8192x128, .f32⟩ : BufTy).Contents (Elt F)),
    binary main_v59 main_v63 main_v64 (addf : (⟨S8192x128, .f32⟩ : BufTy).Contents (Elt F) → (⟨S8192x128, .f32⟩ : BufTy).Contents (Elt F) → (⟨S8192x128, .f32⟩ : BufTy).Contents (Elt F)) ]

set_option maxHeartbeats 4000000 in
/-- The first convolution: the adjacency matrix times the features, a dense layer, the layer normalisation, the adjacency matrix again, a second dense layer. -/
abbrev refG1 : List (HloOp τ sig (Elt F)) :=
  [ binary main_arg6 main_v64 main_v65 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v65 main_arg22 main_v66 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg23 main_v67 (broadcastInDim S1x128 ![1] bcast_S128_S1x128_1 : (⟨S128, .f32⟩ : BufTy).Contents (Elt F) → (⟨S1x128, .f32⟩ : BufTy).Contents (Elt F)),
    unary main_v67 main_v68 (broadcastInDim S8192x128 ![0, 1] bcast_S1x128_S8192x128_0_1 : (⟨S1x128, .f32⟩ : BufTy).Contents (Elt F) → (⟨S8192x128, .f32⟩ : BufTy).Contents (Elt F)),
    binary main_v66 main_v68 main_v69 (addf : (⟨S8192x128, .f32⟩ : BufTy).Contents (Elt F) → (⟨S8192x128, .f32⟩ : BufTy).Contents (Elt F) → (⟨S8192x128, .f32⟩ : BufTy).Contents (Elt F)),
    nullary main_cst_10 (constant S_ .f32 0x00000000#32),
    binary main_v69 main_cst_10 main_v70 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v70 main_v71 (broadcastInDim S8192x1 ![0] bcast_S8192_S8192x1_0 : (⟨S8192, .f32⟩ : BufTy).Contents (Elt F) → (⟨S8192x1, .f32⟩ : BufTy).Contents (Elt F)),
    nullary main_cst_11 (constant S_ .f32 0x43000000#32),
    unary main_cst_11 main_v72 (broadcastInDim S8192x1 ![] bcast_S_S8192x1 : (⟨S_, .f32⟩ : BufTy).Contents (Elt F) → (⟨S8192x1, .f32⟩ : BufTy).Contents (Elt F)),
    binary main_v71 main_v72 main_v73 (Host.divf : (⟨S8192x1, .f32⟩ : BufTy).Contents (Elt F) → (⟨S8192x1, .f32⟩ : BufTy).Contents (Elt F) → (⟨S8192x1, .f32⟩ : BufTy).Contents (Elt F)),
    unary main_v73 main_v74 (broadcastInDim S8192x128 ![0, 1] bcast_S8192x1_S8192x128_0_1 : (⟨S8192x1, .f32⟩ : BufTy).Contents (Elt F) → (⟨S8192x128, .f32⟩ : BufTy).Contents (Elt F)),
    binary main_v69 main_v74 main_v75 (subf : (⟨S8192x128, .f32⟩ : BufTy).Contents (Elt F) → (⟨S8192x128, .f32⟩ : BufTy).Contents (Elt F) → (⟨S8192x128, .f32⟩ : BufTy).Contents (Elt F)),
    binary main_v75 main_v75 main_v76 (mulf : (⟨S8192x128, .f32⟩ : BufTy).Contents (Elt F) → (⟨S8192x128, .f32⟩ : BufTy).Contents (Elt F) → (⟨S8192x128, .f32⟩ : BufTy).Contents (Elt F)),
    nullary main_cst_12 (constant S_ .f32 0x00000000#32),
    binary main_v76 main_cst_12 main_v77 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v77 main_v78 (broadcastInDim S8192x1 ![0] bcast_S8192_S8192x1_0 : (⟨S8192, .f32⟩ : BufTy).Contents (Elt F) → (⟨S8192x1, .f32⟩ : BufTy).Contents (Elt F)),
    nullary main_cst_13 (constant S_ .f32 0x43000000#32),
    unary main_cst_13 main_v79 (broadcastInDim S8192x1 ![] bcast_S_S8192x1 : (⟨S_, .f32⟩ : BufTy).Contents (Elt F) → (⟨S8192x1, .f32⟩ : BufTy).Contents (Elt F)),
    binary main_v78 main_v79 main_v80 (Host.divf : (⟨S8192x1, .f32⟩ : BufTy).Contents (Elt F) → (⟨S8192x1, .f32⟩ : BufTy).Contents (Elt F) → (⟨S8192x1, .f32⟩ : BufTy).Contents (Elt F)),
    unary main_v73 main_v81 (broadcastInDim S8192x128 ![0, 1] bcast_S8192x1_S8192x128_0_1 : (⟨S8192x1, .f32⟩ : BufTy).Contents (Elt F) → (⟨S8192x128, .f32⟩ : BufTy).Contents (Elt F)),
    binary main_v69 main_v81 main_v82 (subf : (⟨S8192x128, .f32⟩ : BufTy).Contents (Elt F) → (⟨S8192x128, .f32⟩ : BufTy).Contents (Elt F) → (⟨S8192x128, .f32⟩ : BufTy).Contents (Elt F)),
    nullary main_cst_14 (constant S_ .f32 0x3727C5AC#32),
    unary main_cst_14 main_v83 (broadcastInDim S8192x1 ![] bcast_S_S8192x1 : (⟨S_, .f32⟩ : BufTy).Contents (Elt F) → (⟨S8192x1, .f32⟩ : BufTy).Contents (Elt F)),
    binary main_v80 main_v83 main_v84 (addf : (⟨S8192x1, .f32⟩ : BufTy).Contents (Elt F) → (⟨S8192x1, .f32⟩ : BufTy).Contents (Elt F) → (⟨S8192x1, .f32⟩ : BufTy).Contents (Elt F)),
    unary main_v84 main_v85 (Host.rsqrt : (⟨S8192x1, .f32⟩ : BufTy).Contents (Elt F) → (⟨S8192x1, .f32⟩ : BufTy).Contents (Elt F)),
    unary main_v85 main_v86 (broadcastInDim S8192x128 ![0, 1] bcast_S8192x1_S8192x128_0_1 : (⟨S8192x1, .f32⟩ : BufTy).Contents (Elt F) → (⟨S8192x128, .f32⟩ : BufTy).Contents (Elt F)),
    binary main_v82 main_v86 main_v87 (mulf : (⟨S8192x128, .f32⟩ : BufTy).Contents (Elt F) → (⟨S8192x128, .f32⟩ : BufTy).Contents (Elt F) → (⟨S8192x128, .f32⟩ : BufTy).Contents (Elt F)),
    unary main_arg24 main_v88 (broadcastInDim S1x128 ![1] bcast_S128_S1x128_1 : (⟨S128, .f32⟩ : BufTy).Contents (Elt F) → (⟨S1x128, .f32⟩ : BufTy).Contents (Elt F)),
    unary main_v88 main_v89 (broadcastInDim S8192x128 ![0, 1] bcast_S1x128_S8192x128_0_1 : (⟨S1x128, .f32⟩ : BufTy).Contents (Elt F) → (⟨S8192x128, .f32⟩ : BufTy).Contents (Elt F)),
    binary main_v87 main_v89 main_v90 (mulf : (⟨S8192x128, .f32⟩ : BufTy).Contents (Elt F) → (⟨S8192x128, .f32⟩ : BufTy).Contents (Elt F) → (⟨S8192x128, .f32⟩ : BufTy).Contents (Elt F)),
    unary main_arg25 main_v91 (broadcastInDim S1x128 ![1] bcast_S128_S1x128_1 : (⟨S128, .f32⟩ : BufTy).Contents (Elt F) → (⟨S1x128, .f32⟩ : BufTy).Contents (Elt F)),
    unary main_v91 main_v92 (broadcastInDim S8192x128 ![0, 1] bcast_S1x128_S8192x128_0_1 : (⟨S1x128, .f32⟩ : BufTy).Contents (Elt F) → (⟨S8192x128, .f32⟩ : BufTy).Contents (Elt F)),
    binary main_v90 main_v92 main_v93 (addf : (⟨S8192x128, .f32⟩ : BufTy).Contents (Elt F) → (⟨S8192x128, .f32⟩ : BufTy).Contents (Elt F) → (⟨S8192x128, .f32⟩ : BufTy).Contents (Elt F)),
    binary main_arg6 main_v93 main_v94 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v94 main_arg26 main_v95 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg27 main_v96 (broadcastInDim S1x128 ![1] bcast_S128_S1x128_1 : (⟨S128, .f32⟩ : BufTy).Contents (Elt F) → (⟨S1x128, .f32⟩ : BufTy).Contents (Elt F)),
    unary main_v96 main_v97 (broadcastInDim S8192x128 ![0, 1] bcast_S1x128_S8192x128_0_1 : (⟨S1x128, .f32⟩ : BufTy).Contents (Elt F) → (⟨S8192x128, .f32⟩ : BufTy).Contents (Elt F)),
    binary main_v95 main_v97 main_v98 (addf : (⟨S8192x128, .f32⟩ : BufTy).Contents (Elt F) → (⟨S8192x128, .f32⟩ : BufTy).Contents (Elt F) → (⟨S8192x128, .f32⟩ : BufTy).Contents (Elt F)) ]

set_option maxHeartbeats 4000000 in
/-- The second convolution: the same over the second adjacency matrix and its own weights. -/
abbrev refG2 : List (HloOp τ sig (Elt F)) :=
  [ binary main_arg7 main_v64 main_v99 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v99 main_arg28 main_v100 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg29 main_v101 (broadcastInDim S1x128 ![1] bcast_S128_S1x128_1 : (⟨S128, .f32⟩ : BufTy).Contents (Elt F) → (⟨S1x128, .f32⟩ : BufTy).Contents (Elt F)),
    unary main_v101 main_v102 (broadcastInDim S8192x128 ![0, 1] bcast_S1x128_S8192x128_0_1 : (⟨S1x128, .f32⟩ : BufTy).Contents (Elt F) → (⟨S8192x128, .f32⟩ : BufTy).Contents (Elt F)),
    binary main_v100 main_v102 main_v103 (addf : (⟨S8192x128, .f32⟩ : BufTy).Contents (Elt F) → (⟨S8192x128, .f32⟩ : BufTy).Contents (Elt F) → (⟨S8192x128, .f32⟩ : BufTy).Contents (Elt F)),
    nullary main_cst_15 (constant S_ .f32 0x00000000#32),
    binary main_v103 main_cst_15 main_v104 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v104 main_v105 (broadcastInDim S8192x1 ![0] bcast_S8192_S8192x1_0 : (⟨S8192, .f32⟩ : BufTy).Contents (Elt F) → (⟨S8192x1, .f32⟩ : BufTy).Contents (Elt F)),
    nullary main_cst_16 (constant S_ .f32 0x43000000#32),
    unary main_cst_16 main_v106 (broadcastInDim S8192x1 ![] bcast_S_S8192x1 : (⟨S_, .f32⟩ : BufTy).Contents (Elt F) → (⟨S8192x1, .f32⟩ : BufTy).Contents (Elt F)),
    binary main_v105 main_v106 main_v107 (Host.divf : (⟨S8192x1, .f32⟩ : BufTy).Contents (Elt F) → (⟨S8192x1, .f32⟩ : BufTy).Contents (Elt F) → (⟨S8192x1, .f32⟩ : BufTy).Contents (Elt F)),
    unary main_v107 main_v108 (broadcastInDim S8192x128 ![0, 1] bcast_S8192x1_S8192x128_0_1 : (⟨S8192x1, .f32⟩ : BufTy).Contents (Elt F) → (⟨S8192x128, .f32⟩ : BufTy).Contents (Elt F)),
    binary main_v103 main_v108 main_v109 (subf : (⟨S8192x128, .f32⟩ : BufTy).Contents (Elt F) → (⟨S8192x128, .f32⟩ : BufTy).Contents (Elt F) → (⟨S8192x128, .f32⟩ : BufTy).Contents (Elt F)),
    binary main_v109 main_v109 main_v110 (mulf : (⟨S8192x128, .f32⟩ : BufTy).Contents (Elt F) → (⟨S8192x128, .f32⟩ : BufTy).Contents (Elt F) → (⟨S8192x128, .f32⟩ : BufTy).Contents (Elt F)),
    nullary main_cst_17 (constant S_ .f32 0x00000000#32),
    binary main_v110 main_cst_17 main_v111 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v111 main_v112 (broadcastInDim S8192x1 ![0] bcast_S8192_S8192x1_0 : (⟨S8192, .f32⟩ : BufTy).Contents (Elt F) → (⟨S8192x1, .f32⟩ : BufTy).Contents (Elt F)),
    nullary main_cst_18 (constant S_ .f32 0x43000000#32),
    unary main_cst_18 main_v113 (broadcastInDim S8192x1 ![] bcast_S_S8192x1 : (⟨S_, .f32⟩ : BufTy).Contents (Elt F) → (⟨S8192x1, .f32⟩ : BufTy).Contents (Elt F)),
    binary main_v112 main_v113 main_v114 (Host.divf : (⟨S8192x1, .f32⟩ : BufTy).Contents (Elt F) → (⟨S8192x1, .f32⟩ : BufTy).Contents (Elt F) → (⟨S8192x1, .f32⟩ : BufTy).Contents (Elt F)),
    unary main_v107 main_v115 (broadcastInDim S8192x128 ![0, 1] bcast_S8192x1_S8192x128_0_1 : (⟨S8192x1, .f32⟩ : BufTy).Contents (Elt F) → (⟨S8192x128, .f32⟩ : BufTy).Contents (Elt F)),
    binary main_v103 main_v115 main_v116 (subf : (⟨S8192x128, .f32⟩ : BufTy).Contents (Elt F) → (⟨S8192x128, .f32⟩ : BufTy).Contents (Elt F) → (⟨S8192x128, .f32⟩ : BufTy).Contents (Elt F)),
    nullary main_cst_19 (constant S_ .f32 0x3727C5AC#32),
    unary main_cst_19 main_v117 (broadcastInDim S8192x1 ![] bcast_S_S8192x1 : (⟨S_, .f32⟩ : BufTy).Contents (Elt F) → (⟨S8192x1, .f32⟩ : BufTy).Contents (Elt F)),
    binary main_v114 main_v117 main_v118 (addf : (⟨S8192x1, .f32⟩ : BufTy).Contents (Elt F) → (⟨S8192x1, .f32⟩ : BufTy).Contents (Elt F) → (⟨S8192x1, .f32⟩ : BufTy).Contents (Elt F)),
    unary main_v118 main_v119 (Host.rsqrt : (⟨S8192x1, .f32⟩ : BufTy).Contents (Elt F) → (⟨S8192x1, .f32⟩ : BufTy).Contents (Elt F)),
    unary main_v119 main_v120 (broadcastInDim S8192x128 ![0, 1] bcast_S8192x1_S8192x128_0_1 : (⟨S8192x1, .f32⟩ : BufTy).Contents (Elt F) → (⟨S8192x128, .f32⟩ : BufTy).Contents (Elt F)),
    binary main_v116 main_v120 main_v121 (mulf : (⟨S8192x128, .f32⟩ : BufTy).Contents (Elt F) → (⟨S8192x128, .f32⟩ : BufTy).Contents (Elt F) → (⟨S8192x128, .f32⟩ : BufTy).Contents (Elt F)),
    unary main_arg30 main_v122 (broadcastInDim S1x128 ![1] bcast_S128_S1x128_1 : (⟨S128, .f32⟩ : BufTy).Contents (Elt F) → (⟨S1x128, .f32⟩ : BufTy).Contents (Elt F)),
    unary main_v122 main_v123 (broadcastInDim S8192x128 ![0, 1] bcast_S1x128_S8192x128_0_1 : (⟨S1x128, .f32⟩ : BufTy).Contents (Elt F) → (⟨S8192x128, .f32⟩ : BufTy).Contents (Elt F)),
    binary main_v121 main_v123 main_v124 (mulf : (⟨S8192x128, .f32⟩ : BufTy).Contents (Elt F) → (⟨S8192x128, .f32⟩ : BufTy).Contents (Elt F) → (⟨S8192x128, .f32⟩ : BufTy).Contents (Elt F)),
    unary main_arg31 main_v125 (broadcastInDim S1x128 ![1] bcast_S128_S1x128_1 : (⟨S128, .f32⟩ : BufTy).Contents (Elt F) → (⟨S1x128, .f32⟩ : BufTy).Contents (Elt F)),
    unary main_v125 main_v126 (broadcastInDim S8192x128 ![0, 1] bcast_S1x128_S8192x128_0_1 : (⟨S1x128, .f32⟩ : BufTy).Contents (Elt F) → (⟨S8192x128, .f32⟩ : BufTy).Contents (Elt F)),
    binary main_v124 main_v126 main_v127 (addf : (⟨S8192x128, .f32⟩ : BufTy).Contents (Elt F) → (⟨S8192x128, .f32⟩ : BufTy).Contents (Elt F) → (⟨S8192x128, .f32⟩ : BufTy).Contents (Elt F)),
    binary main_arg7 main_v127 main_v128 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v128 main_arg32 main_v129 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg33 main_v130 (broadcastInDim S1x128 ![1] bcast_S128_S1x128_1 : (⟨S128, .f32⟩ : BufTy).Contents (Elt F) → (⟨S1x128, .f32⟩ : BufTy).Contents (Elt F)),
    unary main_v130 main_v131 (broadcastInDim S8192x128 ![0, 1] bcast_S1x128_S8192x128_0_1 : (⟨S1x128, .f32⟩ : BufTy).Contents (Elt F) → (⟨S8192x128, .f32⟩ : BufTy).Contents (Elt F)),
    binary main_v129 main_v131 main_v132 (addf : (⟨S8192x128, .f32⟩ : BufTy).Contents (Elt F) → (⟨S8192x128, .f32⟩ : BufTy).Contents (Elt F) → (⟨S8192x128, .f32⟩ : BufTy).Contents (Elt F)) ]

set_option maxHeartbeats 4000000 in
/-- The rest: the three cosine losses, the mix of the two convolutions' results, the hyperedge-to-node aggregation, its dense layer and normalisation. -/
abbrev refT : List (HloOp τ sig (Elt F)) :=
  [ binary main_v98 main_v132 main_v133 (mulf : (⟨S8192x128, .f32⟩ : BufTy).Contents (Elt F) → (⟨S8192x128, .f32⟩ : BufTy).Contents (Elt F) → (⟨S8192x128, .f32⟩ : BufTy).Contents (Elt F)),
    nullary main_cst_20 (constant S_ .f32 0x00000000#32),
    binary main_v133 main_cst_20 main_v134 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    TRef.binary (TRef.of (T := ⟨S8192x128, .f32⟩) main_v98) (TRef.of (T := ⟨S8192x128, .f32⟩) main_v98) (TRef.of (T := ⟨S8192x128, .f32⟩) main_call1_v0) mulf,
    TRef.nullary (TRef.of (T := ⟨S_, .f32⟩) main_call1_cst) (constant S_ .f32 0x00000000#32),
    TRef.binary (TRef.of (T := ⟨S8192x128, .f32⟩) main_call1_v0) (TRef.of (T := ⟨S_, .f32⟩) main_call1_cst) (TRef.of (T := ⟨S8192, .f32⟩) main_call1_v1) (fun x v => Host.reduceAdd x v reducesTo_S8192x128_S8192_d1 h_S_),
    TRef.unary (TRef.of (T := ⟨S8192, .f32⟩) main_call1_v1) (TRef.of (T := ⟨S8192, .f32⟩) main_v135) Host.sqrt,
    TRef.binary (TRef.of (T := ⟨S8192x128, .f32⟩) main_v132) (TRef.of (T := ⟨S8192x128, .f32⟩) main_v132) (TRef.of (T := ⟨S8192x128, .f32⟩) main_call2_v0) mulf,
    TRef.nullary (TRef.of (T := ⟨S_, .f32⟩) main_call2_cst) (constant S_ .f32 0x00000000#32),
    TRef.binary (TRef.of (T := ⟨S8192x128, .f32⟩) main_call2_v0) (TRef.of (T := ⟨S_, .f32⟩) main_call2_cst) (TRef.of (T := ⟨S8192, .f32⟩) main_call2_v1) (fun x v => Host.reduceAdd x v reducesTo_S8192x128_S8192_d1 h_S_),
    TRef.unary (TRef.of (T := ⟨S8192, .f32⟩) main_call2_v1) (TRef.of (T := ⟨S8192, .f32⟩) main_v136) Host.sqrt,
    binary main_v135 main_v136 main_v137 (mulf : (⟨S8192, .f32⟩ : BufTy).Contents (Elt F) → (⟨S8192, .f32⟩ : BufTy).Contents (Elt F) → (⟨S8192, .f32⟩ : BufTy).Contents (Elt F)),
    nullary main_cst_21 (constant S_ .f32 0x322BCC77#32),
    unary main_cst_21 main_v138 (broadcastInDim S8192 ![] bcast_S_S8192 : (⟨S_, .f32⟩ : BufTy).Contents (Elt F) → (⟨S8192, .f32⟩ : BufTy).Contents (Elt F)),
    binary main_v137 main_v138 main_v139 (maximumf : (⟨S8192, .f32⟩ : BufTy).Contents (Elt F) → (⟨S8192, .f32⟩ : BufTy).Contents (Elt F) → (⟨S8192, .f32⟩ : BufTy).Contents (Elt F)),
    binary main_v134 main_v139 main_v140 (Host.divf : (⟨S8192, .f32⟩ : BufTy).Contents (Elt F) → (⟨S8192, .f32⟩ : BufTy).Contents (Elt F) → (⟨S8192, .f32⟩ : BufTy).Contents (Elt F)),
    nullary main_cst_22 (constant S_ .f32 0x00000000#32),
    binary main_v140 main_cst_22 main_v141 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_23 (constant S_ .f32 0x46000000#32),
    binary main_v141 main_cst_23 main_v142 (Host.divf : (⟨S_, .f32⟩ : BufTy).Contents (Elt F) → (⟨S_, .f32⟩ : BufTy).Contents (Elt F) → (⟨S_, .f32⟩ : BufTy).Contents (Elt F)),
    nullary main_c_24 (constantI S_ 32 0#32),
    unary main_c_24 main_v143 (broadcastInDim S8192 ![] bcast_S_S8192 : (⟨S_, .i32⟩ : BufTy).Contents (Elt F) → (⟨S8192, .i32⟩ : BufTy).Contents (Elt F)),
    binary main_arg12 main_v143 main_v144 (cmpi .slt : (⟨S8192, .i32⟩ : BufTy).Contents (Elt F) → (⟨S8192, .i32⟩ : BufTy).Contents (Elt F) → (⟨S8192, .i1⟩ : BufTy).Contents (Elt F)),
    nullary main_c_25 (constantI S_ 32 8192#32),
    unary main_c_25 main_v145 (broadcastInDim S8192 ![] bcast_S_S8192 : (⟨S_, .i32⟩ : BufTy).Contents (Elt F) → (⟨S8192, .i32⟩ : BufTy).Contents (Elt F)),
    binary main_arg12 main_v145 main_v146 (addi : (⟨S8192, .i32⟩ : BufTy).Contents (Elt F) → (⟨S8192, .i32⟩ : BufTy).Contents (Elt F) → (⟨S8192, .i32⟩ : BufTy).Contents (Elt F)),
    ternary main_v144 main_v146 main_arg12 main_v147 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v147 main_v148 (broadcastInDim S8192x1 ![0] bcast_S8192_S8192x1_0 : (⟨S8192, .i32⟩ : BufTy).Contents (Elt F) → (⟨S8192x1, .i32⟩ : BufTy).Contents (Elt F)),
    binary main_v98 main_v148 main_v149 ((fun x i => Host.gather gather_S8192x128_S8192x1_S8192x128_1_0_n_n_0_1_1128 x i) : (⟨S8192x128, .f32⟩ : BufTy).Contents (Elt F) → (⟨S8192x1, .i32⟩ : BufTy).Contents (Elt F) → (⟨S8192x128, .f32⟩ : BufTy).Contents (Elt F)),
    binary main_v98 main_v149 main_v150 (mulf : (⟨S8192x128, .f32⟩ : BufTy).Contents (Elt F) → (⟨S8192x128, .f32⟩ : BufTy).Contents (Elt F) → (⟨S8192x128, .f32⟩ : BufTy).Contents (Elt F)),
    nullary main_cst_26 (constant S_ .f32 0x00000000#32),
    binary main_v150 main_cst_26 main_v151 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    TRef.binary (TRef.of (T := ⟨S8192x128, .f32⟩) main_v98) (TRef.of (T := ⟨S8192x128, .f32⟩) main_v98) (TRef.of (T := ⟨S8192x128, .f32⟩) main_call3_v0) mulf,
    TRef.nullary (TRef.of (T := ⟨S_, .f32⟩) main_call3_cst) (constant S_ .f32 0x00000000#32),
    TRef.binary (TRef.of (T := ⟨S8192x128, .f32⟩) main_call3_v0) (TRef.of (T := ⟨S_, .f32⟩) main_call3_cst) (TRef.of (T := ⟨S8192, .f32⟩) main_call3_v1) (fun x v => Host.reduceAdd x v reducesTo_S8192x128_S8192_d1 h_S_),
    TRef.unary (TRef.of (T := ⟨S8192, .f32⟩) main_call3_v1) (TRef.of (T := ⟨S8192, .f32⟩) main_v152) Host.sqrt,
    TRef.binary (TRef.of (T := ⟨S8192x128, .f32⟩) main_v149) (TRef.of (T := ⟨S8192x128, .f32⟩) main_v149) (TRef.of (T := ⟨S8192x128, .f32⟩) main_call4_v0) mulf,
    TRef.nullary (TRef.of (T := ⟨S_, .f32⟩) main_call4_cst) (constant S_ .f32 0x00000000#32),
    TRef.binary (TRef.of (T := ⟨S8192x128, .f32⟩) main_call4_v0) (TRef.of (T := ⟨S_, .f32⟩) main_call4_cst) (TRef.of (T := ⟨S8192, .f32⟩) main_call4_v1) (fun x v => Host.reduceAdd x v reducesTo_S8192x128_S8192_d1 h_S_),
    TRef.unary (TRef.of (T := ⟨S8192, .f32⟩) main_call4_v1) (TRef.of (T := ⟨S8192, .f32⟩) main_v153) Host.sqrt,
    binary main_v152 main_v153 main_v154 (mulf : (⟨S8192, .f32⟩ : BufTy).Contents (Elt F) → (⟨S8192, .f32⟩ : BufTy).Contents (Elt F) → (⟨S8192, .f32⟩ : BufTy).Contents (Elt F)),
    nullary main_cst_27 (constant S_ .f32 0x322BCC77#32),
    unary main_cst_27 main_v155 (broadcastInDim S8192 ![] bcast_S_S8192 : (⟨S_, .f32⟩ : BufTy).Contents (Elt F) → (⟨S8192, .f32⟩ : BufTy).Contents (Elt F)),
    binary main_v154 main_v155 main_v156 (maximumf : (⟨S8192, .f32⟩ : BufTy).Contents (Elt F) → (⟨S8192, .f32⟩ : BufTy).Contents (Elt F) → (⟨S8192, .f32⟩ : BufTy).Contents (Elt F)),
    binary main_v151 main_v156 main_v157 (Host.divf : (⟨S8192, .f32⟩ : BufTy).Contents (Elt F) → (⟨S8192, .f32⟩ : BufTy).Contents (Elt F) → (⟨S8192, .f32⟩ : BufTy).Contents (Elt F)),
    nullary main_cst_28 (constant S_ .f32 0x00000000#32),
    binary main_v157 main_cst_28 main_v158 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_29 (constant S_ .f32 0x46000000#32),
    binary main_v158 main_cst_29 main_v159 (Host.divf : (⟨S_, .f32⟩ : BufTy).Contents (Elt F) → (⟨S_, .f32⟩ : BufTy).Contents (Elt F) → (⟨S_, .f32⟩ : BufTy).Contents (Elt F)),
    nullary main_c_30 (constantI S_ 32 0#32),
    unary main_c_30 main_v160 (broadcastInDim S8192 ![] bcast_S_S8192 : (⟨S_, .i32⟩ : BufTy).Contents (Elt F) → (⟨S8192, .i32⟩ : BufTy).Contents (Elt F)),
    binary main_arg13 main_v160 main_v161 (cmpi .slt : (⟨S8192, .i32⟩ : BufTy).Contents (Elt F) → (⟨S8192, .i32⟩ : BufTy).Contents (Elt F) → (⟨S8192, .i1⟩ : BufTy).Contents (Elt F)),
    nullary main_c_31 (constantI S_ 32 8192#32),
    unary main_c_31 main_v162 (broadcastInDim S8192 ![] bcast_S_S8192 : (⟨S_, .i32⟩ : BufTy).Contents (Elt F) → (⟨S8192, .i32⟩ : BufTy).Contents (Elt F)),
    binary main_arg13 main_v162 main_v163 (addi : (⟨S8192, .i32⟩ : BufTy).Contents (Elt F) → (⟨S8192, .i32⟩ : BufTy).Contents (Elt F) → (⟨S8192, .i32⟩ : BufTy).Contents (Elt F)),
    ternary main_v161 main_v163 main_arg13 main_v164 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v164 main_v165 (broadcastInDim S8192x1 ![0] bcast_S8192_S8192x1_0 : (⟨S8192, .i32⟩ : BufTy).Contents (Elt F) → (⟨S8192x1, .i32⟩ : BufTy).Contents (Elt F)),
    binary main_v132 main_v165 main_v166 ((fun x i => Host.gather gather_S8192x128_S8192x1_S8192x128_1_0_n_n_0_1_1128 x i) : (⟨S8192x128, .f32⟩ : BufTy).Contents (Elt F) → (⟨S8192x1, .i32⟩ : BufTy).Contents (Elt F) → (⟨S8192x128, .f32⟩ : BufTy).Contents (Elt F)),
    binary main_v132 main_v166 main_v167 (mulf : (⟨S8192x128, .f32⟩ : BufTy).Contents (Elt F) → (⟨S8192x128, .f32⟩ : BufTy).Contents (Elt F) → (⟨S8192x128, .f32⟩ : BufTy).Contents (Elt F)),
    nullary main_cst_32 (constant S_ .f32 0x00000000#32),
    binary main_v167 main_cst_32 main_v168 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    TRef.binary (TRef.of (T := ⟨S8192x128, .f32⟩) main_v132) (TRef.of (T := ⟨S8192x128, .f32⟩) main_v132) (TRef.of (T := ⟨S8192x128, .f32⟩) main_call5_v0) mulf,
    TRef.nullary (TRef.of (T := ⟨S_, .f32⟩) main_call5_cst) (constant S_ .f32 0x00000000#32),
    TRef.binary (TRef.of (T := ⟨S8192x128, .f32⟩) main_call5_v0) (TRef.of (T := ⟨S_, .f32⟩) main_call5_cst) (TRef.of (T := ⟨S8192, .f32⟩) main_call5_v1) (fun x v => Host.reduceAdd x v reducesTo_S8192x128_S8192_d1 h_S_),
    TRef.unary (TRef.of (T := ⟨S8192, .f32⟩) main_call5_v1) (TRef.of (T := ⟨S8192, .f32⟩) main_v169) Host.sqrt,
    TRef.binary (TRef.of (T := ⟨S8192x128, .f32⟩) main_v166) (TRef.of (T := ⟨S8192x128, .f32⟩) main_v166) (TRef.of (T := ⟨S8192x128, .f32⟩) main_call6_v0) mulf,
    TRef.nullary (TRef.of (T := ⟨S_, .f32⟩) main_call6_cst) (constant S_ .f32 0x00000000#32),
    TRef.binary (TRef.of (T := ⟨S8192x128, .f32⟩) main_call6_v0) (TRef.of (T := ⟨S_, .f32⟩) main_call6_cst) (TRef.of (T := ⟨S8192, .f32⟩) main_call6_v1) (fun x v => Host.reduceAdd x v reducesTo_S8192x128_S8192_d1 h_S_),
    TRef.unary (TRef.of (T := ⟨S8192, .f32⟩) main_call6_v1) (TRef.of (T := ⟨S8192, .f32⟩) main_v170) Host.sqrt,
    binary main_v169 main_v170 main_v171 (mulf : (⟨S8192, .f32⟩ : BufTy).Contents (Elt F) → (⟨S8192, .f32⟩ : BufTy).Contents (Elt F) → (⟨S8192, .f32⟩ : BufTy).Contents (Elt F)),
    nullary main_cst_33 (constant S_ .f32 0x322BCC77#32),
    unary main_cst_33 main_v172 (broadcastInDim S8192 ![] bcast_S_S8192 : (⟨S_, .f32⟩ : BufTy).Contents (Elt F) → (⟨S8192, .f32⟩ : BufTy).Contents (Elt F)),
    binary main_v171 main_v172 main_v173 (maximumf : (⟨S8192, .f32⟩ : BufTy).Contents (Elt F) → (⟨S8192, .f32⟩ : BufTy).Contents (Elt F) → (⟨S8192, .f32⟩ : BufTy).Contents (Elt F)),
    binary main_v168 main_v173 main_v174 (Host.divf : (⟨S8192, .f32⟩ : BufTy).Contents (Elt F) → (⟨S8192, .f32⟩ : BufTy).Contents (Elt F) → (⟨S8192, .f32⟩ : BufTy).Contents (Elt F)),
    nullary main_cst_34 (constant S_ .f32 0x00000000#32),
    binary main_v174 main_cst_34 main_v175 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_35 (constant S_ .f32 0x46000000#32),
    binary main_v175 main_cst_35 main_v176 (Host.divf : (⟨S_, .f32⟩ : BufTy).Contents (Elt F) → (⟨S_, .f32⟩ : BufTy).Contents (Elt F) → (⟨S_, .f32⟩ : BufTy).Contents (Elt F)),
    unary main_v142 main_v177 (Host.negf : (⟨S_, .f32⟩ : BufTy).Contents (Elt F) → (⟨S_, .f32⟩ : BufTy).Contents (Elt F)),
    unary main_v177 main_v178 (Host.exp : (⟨S_, .f32⟩ : BufTy).Contents (Elt F) → (⟨S_, .f32⟩ : BufTy).Contents (Elt F)),
    nullary main_cst_36 (constant S_ .f32 0x3F800000#32),
    binary main_cst_36 main_v178 main_v179 (addf : (⟨S_, .f32⟩ : BufTy).Contents (Elt F) → (⟨S_, .f32⟩ : BufTy).Contents (Elt F) → (⟨S_, .f32⟩ : BufTy).Contents (Elt F)),
    nullary main_cst_37 (constant S_ .f32 0x3F800000#32),
    binary main_cst_37 main_v179 main_v180 (Host.divf : (⟨S_, .f32⟩ : BufTy).Contents (Elt F) → (⟨S_, .f32⟩ : BufTy).Contents (Elt F) → (⟨S_, .f32⟩ : BufTy).Contents (Elt F)),
    unary main_v180 main_v181 (Host.log : (⟨S_, .f32⟩ : BufTy).Contents (Elt F) → (⟨S_, .f32⟩ : BufTy).Contents (Elt F)),
    unary main_v181 main_v182 (Host.negf : (⟨S_, .f32⟩ : BufTy).Contents (Elt F) → (⟨S_, .f32⟩ : BufTy).Contents (Elt F)),
    unary main_v159 main_v183 (Host.negf : (⟨S_, .f32⟩ : BufTy).Contents (Elt F) → (⟨S_, .f32⟩ : BufTy).Contents (Elt F)),
    unary main_v183 main_v184 (Host.exp : (⟨S_, .f32⟩ : BufTy).Contents (Elt F) → (⟨S_, .f32⟩ : BufTy).Contents (Elt F)),
    nullary main_cst_38 (constant S_ .f32 0x3F800000#32),
    binary main_cst_38 main_v184 main_v185 (addf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v185 main_v186 (Host.divf : (⟨S_, .f32⟩ : BufTy).Contents (Elt F) → (⟨S_, .f32⟩ : BufTy).Contents (Elt F) → (⟨S_, .f32⟩ : BufTy).Contents (Elt F)),
    nullary main_cst_40 (constant S_ .f32 0x3F800000#32),
    binary main_cst_40 main_v186 main_v187 (subf : (⟨S_, .f32⟩ : BufTy).Contents (Elt F) → (⟨S_, .f32⟩ : BufTy).Contents (Elt F) → (⟨S_, .f32⟩ : BufTy).Contents (Elt F)),
    unary main_v187 main_v188 (Host.log : (⟨S_, .f32⟩ : BufTy).Contents (Elt F) → (⟨S_, .f32⟩ : BufTy).Contents (Elt F)),
    binary main_v182 main_v188 main_v189 (subf : (⟨S_, .f32⟩ : BufTy).Contents (Elt F) → (⟨S_, .f32⟩ : BufTy).Contents (Elt F) → (⟨S_, .f32⟩ : BufTy).Contents (Elt F)),
    unary main_v176 main_v190 (Host.negf : (⟨S_, .f32⟩ : BufTy).Contents (Elt F) → (⟨S_, .f32⟩ : BufTy).Contents (Elt F)),
    unary main_v190 main_v191 (Host.exp : (⟨S_, .f32⟩ : BufTy).Contents (Elt F) → (⟨S_, .f32⟩ : BufTy).Contents (Elt F)),
    nullary main_cst_41 (constant S_ .f32 0x3F800000#32),
    binary main_cst_41 main_v191 main_v192 (addf : (⟨S_, .f32⟩ : BufTy).Contents (Elt F) → (⟨S_, .f32⟩ : BufTy).Contents (Elt F) → (⟨S_, .f32⟩ : BufTy).Contents (Elt F)),
    nullary main_cst_42 (constant S_ .f32 0x3F800000#32),
    binary main_cst_42 main_v192 main_v193 (Host.divf : (⟨S_, .f32⟩ : BufTy).Contents (Elt F) → (⟨S_, .f32⟩ : BufTy).Contents (Elt F) → (⟨S_, .f32⟩ : BufTy).Contents (Elt F)),
    nullary main_cst_43 (constant S_ .f32 0x3F800000#32),
    binary main_cst_43 main_v193 main_v194 (subf : (⟨S_, .f32⟩ : BufTy).Contents (Elt F) → (⟨S_, .f32⟩ : BufTy).Contents (Elt F) → (⟨S_, .f32⟩ : BufTy).Contents (Elt F)),
    unary main_v194 main_v195 (Host.log : (⟨S_, .f32⟩ : BufTy).Contents (Elt F) → (⟨S_, .f32⟩ : BufTy).Contents (Elt F)),
    binary main_v189 main_v195 main_v196 (subf : (⟨S_, .f32⟩ : BufTy).Contents (Elt F) → (⟨S_, .f32⟩ : BufTy).Contents (Elt F) → (⟨S_, .f32⟩ : BufTy).Contents (Elt F)),
    unary main_v196 main_v197 (Host.negf : (⟨S_, .f32⟩ : BufTy).Contents (Elt F) → (⟨S_, .f32⟩ : BufTy).Contents (Elt F)),
    nullary main_cst_44 (constant S_ .f32 0x3F000000#32),
    unary main_cst_44 main_v198 (broadcastInDim S8192x128 ![] bcast_S_S8192x128 : (⟨S_, .f32⟩ : BufTy).Contents (Elt F) → (⟨S8192x128, .f32⟩ : BufTy).Contents (Elt F)),
    binary main_v98 main_v198 main_v199 (mulf : (⟨S8192x128, .f32⟩ : BufTy).Contents (Elt F) → (⟨S8192x128, .f32⟩ : BufTy).Contents (Elt F) → (⟨S8192x128, .f32⟩ : BufTy).Contents (Elt F)),
    nullary main_cst_45 (constant S_ .f32 0x3F000000#32),
    unary main_cst_45 main_v200 (broadcastInDim S8192x128 ![] bcast_S_S8192x128 : (⟨S_, .f32⟩ : BufTy).Contents (Elt F) → (⟨S8192x128, .f32⟩ : BufTy).Contents (Elt F)),
    binary main_v132 main_v200 main_v201 (mulf : (⟨S8192x128, .f32⟩ : BufTy).Contents (Elt F) → (⟨S8192x128, .f32⟩ : BufTy).Contents (Elt F) → (⟨S8192x128, .f32⟩ : BufTy).Contents (Elt F)),
    binary main_v199 main_v201 main_v202 (addf : (⟨S8192x128, .f32⟩ : BufTy).Contents (Elt F) → (⟨S8192x128, .f32⟩ : BufTy).Contents (Elt F) → (⟨S8192x128, .f32⟩ : BufTy).Contents (Elt F)),
    nullary main_c_46 (constantI S_ 32 0#32),
    unary main_c_46 main_v203 (broadcastInDim S1000000 ![] bcast_S_S1000000 : (⟨S_, .i32⟩ : BufTy).Contents (Elt F) → (⟨S1000000, .i32⟩ : BufTy).Contents (Elt F)),
    binary main_arg10 main_v203 main_v204 (cmpi .slt : (⟨S1000000, .i32⟩ : BufTy).Contents (Elt F) → (⟨S1000000, .i32⟩ : BufTy).Contents (Elt F) → (⟨S1000000, .i1⟩ : BufTy).Contents (Elt F)),
    nullary main_c_47 (constantI S_ 32 8192#32),
    unary main_c_47 main_v205 (broadcastInDim S1000000 ![] bcast_S_S1000000 : (⟨S_, .i32⟩ : BufTy).Contents (Elt F) → (⟨S1000000, .i32⟩ : BufTy).Contents (Elt F)),
    binary main_arg10 main_v205 main_v206 (addi : (⟨S1000000, .i32⟩ : BufTy).Contents (Elt F) → (⟨S1000000, .i32⟩ : BufTy).Contents (Elt F) → (⟨S1000000, .i32⟩ : BufTy).Contents (Elt F)),
    ternary main_v204 main_v206 main_arg10 main_v207 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v207 main_v208 (broadcastInDim S1000000x1 ![0] bcast_S1000000_S1000000x1_0 : (⟨S1000000, .i32⟩ : BufTy).Contents (Elt F) → (⟨S1000000x1, .i32⟩ : BufTy).Contents (Elt F)),
    binary main_arg4 main_v208 main_v209 ((fun x i => Host.gather gather_S8192x1_S1000000x1_S1000000x1_1_0_n_n_0_1_11 x i) : (⟨S8192x1, .f32⟩ : BufTy).Contents (Elt F) → (⟨S1000000x1, .i32⟩ : BufTy).Contents (Elt F) → (⟨S1000000x1, .f32⟩ : BufTy).Contents (Elt F)),
    nullary main_c_48 (constantI S_ 32 0#32),
    unary main_c_48 main_v210 (broadcastInDim S1000000 ![] bcast_S_S1000000 : (⟨S_, .i32⟩ : BufTy).Contents (Elt F) → (⟨S1000000, .i32⟩ : BufTy).Contents (Elt F)),
    binary main_arg11 main_v210 main_v211 (cmpi .slt : (⟨S1000000, .i32⟩ : BufTy).Contents (Elt F) → (⟨S1000000, .i32⟩ : BufTy).Contents (Elt F) → (⟨S1000000, .i1⟩ : BufTy).Contents (Elt F)),
    nullary main_c_49 (constantI S_ 32 50000#32),
    unary main_c_49 main_v212 (broadcastInDim S1000000 ![] bcast_S_S1000000 : (⟨S_, .i32⟩ : BufTy).Contents (Elt F) → (⟨S1000000, .i32⟩ : BufTy).Contents (Elt F)),
    binary main_arg11 main_v212 main_v213 (addi : (⟨S1000000, .i32⟩ : BufTy).Contents (Elt F) → (⟨S1000000, .i32⟩ : BufTy).Contents (Elt F) → (⟨S1000000, .i32⟩ : BufTy).Contents (Elt F)),
    ternary main_v211 main_v213 main_arg11 main_v214 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v214 main_v215 (broadcastInDim S1000000x1 ![0] bcast_S1000000_S1000000x1_0 : (⟨S1000000, .i32⟩ : BufTy).Contents (Elt F) → (⟨S1000000x1, .i32⟩ : BufTy).Contents (Elt F)),
    binary main_arg3 main_v215 main_v216 ((fun x i => Host.gather gather_S50000x1_S1000000x1_S1000000x1_1_0_n_n_0_1_11 x i) : (⟨S50000x1, .f32⟩ : BufTy).Contents (Elt F) → (⟨S1000000x1, .i32⟩ : BufTy).Contents (Elt F) → (⟨S1000000x1, .f32⟩ : BufTy).Contents (Elt F)),
    binary main_v209 main_v216 main_v217 (Host.divf : (⟨S1000000x1, .f32⟩ : BufTy).Contents (Elt F) → (⟨S1000000x1, .f32⟩ : BufTy).Contents (Elt F) → (⟨S1000000x1, .f32⟩ : BufTy).Contents (Elt F)),
    nullary main_c_50 (constantI S_ 32 0#32),
    unary main_c_50 main_v218 (broadcastInDim S1000000 ![] bcast_S_S1000000 : (⟨S_, .i32⟩ : BufTy).Contents (Elt F) → (⟨S1000000, .i32⟩ : BufTy).Contents (Elt F)),
    binary main_arg10 main_v218 main_v219 (cmpi .slt : (⟨S1000000, .i32⟩ : BufTy).Contents (Elt F) → (⟨S1000000, .i32⟩ : BufTy).Contents (Elt F) → (⟨S1000000, .i1⟩ : BufTy).Contents (Elt F)),
    nullary main_c_51 (constantI S_ 32 8192#32),
    unary main_c_51 main_v220 (broadcastInDim S1000000 ![] bcast_S_S1000000 : (⟨S_, .i32⟩ : BufTy).Contents (Elt F) → (⟨S1000000, .i32⟩ : BufTy).Contents (Elt F)),
    binary main_arg10 main_v220 main_v221 (addi : (⟨S1000000, .i32⟩ : BufTy).Contents (Elt F) → (⟨S1000000, .i32⟩ : BufTy).Contents (Elt F) → (⟨S1000000, .i32⟩ : BufTy).Contents (Elt F)),
    ternary main_v219 main_v221 main_arg10 main_v222 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v222 main_v223 (broadcastInDim S1000000x1 ![0] bcast_S1000000_S1000000x1_0 : (⟨S1000000, .i32⟩ : BufTy).Contents (Elt F) → (⟨S1000000x1, .i32⟩ : BufTy).Contents (Elt F)),
    binary main_v202 main_v223 main_v224 ((fun x i => Host.gather gather_S8192x128_S1000000x1_S1000000x128_1_0_n_n_0_1_1128 x i) : (⟨S8192x128, .f32⟩ : BufTy).Contents (Elt F) → (⟨S1000000x1, .i32⟩ : BufTy).Contents (Elt F) → (⟨S1000000x128, .f32⟩ : BufTy).Contents (Elt F)),
    unary main_v217 main_v225 (broadcastInDim S1000000x128 ![0, 1] bcast_S1000000x1_S1000000x128_0_1 : (⟨S1000000x1, .f32⟩ : BufTy).Contents (Elt F) → (⟨S1000000x128, .f32⟩ : BufTy).Contents (Elt F)),
    binary main_v225 main_v224 main_v226 (mulf : (⟨S1000000x128, .f32⟩ : BufTy).Contents (Elt F) → (⟨S1000000x128, .f32⟩ : BufTy).Contents (Elt F) → (⟨S1000000x128, .f32⟩ : BufTy).Contents (Elt F)),
    nullary main_cst_52 (constant S_ .f32 0x00000000#32),
    unary main_cst_52 main_v227 (broadcastInDim S50000x128 ![] bcast_S_S50000x128 : (⟨S_, .f32⟩ : BufTy).Contents (Elt F) → (⟨S50000x128, .f32⟩ : BufTy).Contents (Elt F)),
    unary main_arg11 main_v228 (broadcastInDim S1000000x1 ![0] bcast_S1000000_S1000000x1_0 : (⟨S1000000, .i32⟩ : BufTy).Contents (Elt F) → (⟨S1000000x1, .i32⟩ : BufTy).Contents (Elt F)),
    ternary main_v227 main_v228 main_v226 main_v229 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    binary main_v229 main_arg34 main_v230 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg35 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v230 main_v232 main_v233 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v233) (TRef.of (T := ⟨S50000x128, .f32⟩) main_call7_v0) (TRef.of (T := ⟨S50000x128, .f32⟩) main_v234) maximumf,
    nullary main_cst_53 (constant S_ .f32 0x00000000#32),
    binary main_v234 main_cst_53 main_v235 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v235 main_v236 (broadcastInDim S50000x1 ![0] bcast_S50000_S50000x1_0 : (⟨S50000, .f32⟩ : BufTy).Contents (Elt F) → (⟨S50000x1, .f32⟩ : BufTy).Contents (Elt F)),
    nullary main_cst_54 (constant S_ .f32 0x43000000#32),
    unary main_cst_54 main_v237 (broadcastInDim S50000x1 ![] bcast_S_S50000x1 : (⟨S_, .f32⟩ : BufTy).Contents (Elt F) → (⟨S50000x1, .f32⟩ : BufTy).Contents (Elt F)),
    binary main_v236 main_v237 main_v238 (Host.divf : (⟨S50000x1, .f32⟩ : BufTy).Contents (Elt F) → (⟨S50000x1, .f32⟩ : BufTy).Contents (Elt F) → (⟨S50000x1, .f32⟩ : BufTy).Contents (Elt F)),
    unary main_v238 main_v239 (broadcastInDim S50000x128 ![0, 1] bcast_S50000x1_S50000x128_0_1 : (⟨S50000x1, .f32⟩ : BufTy).Contents (Elt F) → (⟨S50000x128, .f32⟩ : BufTy).Contents (Elt F)),
    binary main_v234 main_v239 main_v240 (subf : (⟨S50000x128, .f32⟩ : BufTy).Contents (Elt F) → (⟨S50000x128, .f32⟩ : BufTy).Contents (Elt F) → (⟨S50000x128, .f32⟩ : BufTy).Contents (Elt F)),
    binary main_v240 main_v240 main_v241 (mulf : (⟨S50000x128, .f32⟩ : BufTy).Contents (Elt F) → (⟨S50000x128, .f32⟩ : BufTy).Contents (Elt F) → (⟨S50000x128, .f32⟩ : BufTy).Contents (Elt F)),
    nullary main_cst_55 (constant S_ .f32 0x00000000#32),
    binary main_v241 main_cst_55 main_v242 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v242 main_v243 (broadcastInDim S50000x1 ![0] bcast_S50000_S50000x1_0 : (⟨S50000, .f32⟩ : BufTy).Contents (Elt F) → (⟨S50000x1, .f32⟩ : BufTy).Contents (Elt F)),
    nullary main_cst_56 (constant S_ .f32 0x43000000#32),
    unary main_cst_56 main_v244 (broadcastInDim S50000x1 ![] bcast_S_S50000x1 : (⟨S_, .f32⟩ : BufTy).Contents (Elt F) → (⟨S50000x1, .f32⟩ : BufTy).Contents (Elt F)),
    binary main_v243 main_v244 main_v245 (Host.divf : (⟨S50000x1, .f32⟩ : BufTy).Contents (Elt F) → (⟨S50000x1, .f32⟩ : BufTy).Contents (Elt F) → (⟨S50000x1, .f32⟩ : BufTy).Contents (Elt F)),
    unary main_v238 main_v246 (broadcastInDim S50000x128 ![0, 1] bcast_S50000x1_S50000x128_0_1 : (⟨S50000x1, .f32⟩ : BufTy).Contents (Elt F) → (⟨S50000x128, .f32⟩ : BufTy).Contents (Elt F)),
    binary main_v234 main_v246 main_v247 (subf : (⟨S50000x128, .f32⟩ : BufTy).Contents (Elt F) → (⟨S50000x128, .f32⟩ : BufTy).Contents (Elt F) → (⟨S50000x128, .f32⟩ : BufTy).Contents (Elt F)),
    nullary main_cst_57 (constant S_ .f32 0x3727C5AC#32),
    unary main_cst_57 main_v248 (broadcastInDim S50000x1 ![] bcast_S_S50000x1 : (⟨S_, .f32⟩ : BufTy).Contents (Elt F) → (⟨S50000x1, .f32⟩ : BufTy).Contents (Elt F)),
    binary main_v245 main_v248 main_v249 (addf : (⟨S50000x1, .f32⟩ : BufTy).Contents (Elt F) → (⟨S50000x1, .f32⟩ : BufTy).Contents (Elt F) → (⟨S50000x1, .f32⟩ : BufTy).Contents (Elt F)),
    unary main_v249 main_v250 (Host.rsqrt : (⟨S50000x1, .f32⟩ : BufTy).Contents (Elt F) → (⟨S50000x1, .f32⟩ : BufTy).Contents (Elt F)),
    unary main_v250 main_v251 (broadcastInDim S50000x128 ![0, 1] bcast_S50000x1_S50000x128_0_1 : (⟨S50000x1, .f32⟩ : BufTy).Contents (Elt F) → (⟨S50000x128, .f32⟩ : BufTy).Contents (Elt F)),
    binary main_v247 main_v251 main_v252 (mulf : (⟨S50000x128, .f32⟩ : BufTy).Contents (Elt F) → (⟨S50000x128, .f32⟩ : BufTy).Contents (Elt F) → (⟨S50000x128, .f32⟩ : BufTy).Contents (Elt F)),
    unary main_arg36 main_v253 (broadcastInDim S1x128 ![1] bcast_S128_S1x128_1 : (⟨S128, .f32⟩ : BufTy).Contents (Elt F) → (⟨S1x128, .f32⟩ : BufTy).Contents (Elt F)),
    unary main_v253 main_v254 (broadcastInDim S50000x128 ![0, 1] bcast_S1x128_S50000x128_0_1 : (⟨S1x128, .f32⟩ : BufTy).Contents (Elt F) → (⟨S50000x128, .f32⟩ : BufTy).Contents (Elt F)),
    binary main_v252 main_v254 main_v255 (mulf : (⟨S50000x128, .f32⟩ : BufTy).Contents (Elt F) → (⟨S50000x128, .f32⟩ : BufTy).Contents (Elt F) → (⟨S50000x128, .f32⟩ : BufTy).Contents (Elt F)),
    unary main_arg37 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v255 main_v257 main_v258 (addf : (⟨S50000x128, .f32⟩ : BufTy).Contents (Elt F) → (⟨S50000x128, .f32⟩ : BufTy).Contents (Elt F) → (⟨S50000x128, .f32⟩ : BufTy).Contents (Elt F)) ]

theorem after_append {τ : Topo} {sig : RefSig} {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append l₁ l₂]

set_option maxHeartbeats 4000000 in
theorem ops_split : (ValueP.ops : List (HloOp τ sig (Elt F))) = refA ++ (refG1 ++ (refG2 ++ refT)) := rfl

end Cert.ReferenceIdeal.Parts

end
-- ==== Proof.RefGcn.lean ====
/-
  One graph convolution, read entry by entry. A graph convolution multiplies the edge features by the adjacency
  matrix (each entry a sum over the 8192 hyperedges), applies a dense layer (a sum over the 128 features plus a
  bias), normalises every row (its mean and its mean squared deviation over the 128 features, the reciprocal square
  root, a scale and a shift), multiplies by the adjacency matrix again and applies a second dense layer. The
  reference computes it as a line of 39 host operations on whole arrays; on the extended reals every operation is
  exact, so each operation read at an entry (a matrix product as its sum of products, a broadcast as the entry it
  copies, a row sum as the sum of the row) composes to the specification's convolution, for either stretch.
-/
import proofs.«119995_j74062416053450_2_alg».proof.Proof.RefParts
import proofs.«119995_j74062416053450_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.RefGcn

open Cert.ReferenceIdeal Cert.ReferenceIdeal.Gen Idealize.ShloMosaic Idealize.ShloMosaic.StableHlo Idealize.ShloMosaic.ValueIdx

/-! ## The two matrix products read at an entry -/

theorem lhsA_0 (i : S8192x128.Idx) (q : dot_S8192x8192_S8192x128_S8192x128_1_0_0_1_n_n.contr.Idx) :
    (dot_S8192x8192_S8192x128_S8192x128_1_0_0_1_n_n.lhsIdx i q 0).val = (i 0).val := by
  unfold DotDims.lhsIdx
  rw [dif_neg (show ¬(0 : Fin S8192x8192.rank) ∈ dot_S8192x8192_S8192x128_S8192x128_1_0_0_1_n_n.lhsBatch by decide), dif_pos (show (0 : Fin S8192x8192.rank) ∈ dot_S8192x8192_S8192x128_S8192x128_1_0_0_1_n_n.lhsNonContracting by decide)]
  rfl
theorem lhsA_1 (i : S8192x128.Idx) (q : dot_S8192x8192_S8192x128_S8192x128_1_0_0_1_n_n.contr.Idx) :
    (dot_S8192x8192_S8192x128_S8192x128_1_0_0_1_n_n.lhsIdx i q 1).val = (q ⟨0, by decide⟩).val :=
  dot_S8192x8192_S8192x128_S8192x128_1_0_0_1_n_n.lhsIdx_val_of_single rfl i q
theorem rhsA_0 (i : S8192x128.Idx) (q : dot_S8192x8192_S8192x128_S8192x128_1_0_0_1_n_n.contr.Idx) :
    (dot_S8192x8192_S8192x128_S8192x128_1_0_0_1_n_n.rhsIdx i q 0).val = (q ⟨0, by decide⟩).val :=
  dot_S8192x8192_S8192x128_S8192x128_1_0_0_1_n_n.rhsIdx_val_of_single rfl i q
theorem rhsA_1 (i : S8192x128.Idx) (q : dot_S8192x8192_S8192x128_S8192x128_1_0_0_1_n_n.contr.Idx) :
    (dot_S8192x8192_S8192x128_S8192x128_1_0_0_1_n_n.rhsIdx i q 1).val = (i 1).val := by
  unfold DotDims.rhsIdx
  rw [dif_neg (show ¬(1 : Fin S8192x128.rank) ∈ dot_S8192x8192_S8192x128_S8192x128_1_0_0_1_n_n.rhsBatch by decide), dif_pos (show (1 : Fin S8192x128.rank) ∈ dot_S8192x8192_S8192x128_S8192x128_1_0_0_1_n_n.rhsNonContracting by decide)]
  rfl

/-- The adjacency matrix times a feature array, at entry (i, j): the sum over the 8192 hyperedges. -/
theorem conv_apply (A : FVec Ideal S8192x8192 .f32) (X : FVec Ideal S8192x128 .f32) (i : Fin 8192) (j : Fin 128) :
    Host.dotGeneral dot_S8192x8192_S8192x128_S8192x128_1_0_0_1_n_n none A X (ix2 i j) = Cert.Spec.conv A X i j := by
  unfold Cert.Spec.conv
  simp only [Host.dotGeneral]
  rw [Ideal.dotGeneral_apply, ← Equiv.sum_comp (ValueIdx.contrEquiv1 dot_S8192x8192_S8192x128_S8192x128_1_0_0_1_n_n 8192 rfl rfl).symm]
  refine Finset.sum_congr rfl fun k _ => ?_
  have hk := ValueIdx.contrEquiv1_symm_val dot_S8192x8192_S8192x128_S8192x128_1_0_0_1_n_n 8192 rfl rfl k
  have el : dot_S8192x8192_S8192x128_S8192x128_1_0_0_1_n_n.lhsIdx (ix2 i j) ((ValueIdx.contrEquiv1 dot_S8192x8192_S8192x128_S8192x128_1_0_0_1_n_n 8192 rfl rfl).symm k) = ix2 i k := funext fun a => Fin.ext (by
    match a with
    | ⟨0, _⟩ => exact lhsA_0 _ _
    | ⟨1, _⟩ => exact (lhsA_1 _ _).trans hk)
  have er : dot_S8192x8192_S8192x128_S8192x128_1_0_0_1_n_n.rhsIdx (ix2 i j) ((ValueIdx.contrEquiv1 dot_S8192x8192_S8192x128_S8192x128_1_0_0_1_n_n 8192 rfl rfl).symm k) = ix2 k j := funext fun a => Fin.ext (by
    match a with
    | ⟨0, _⟩ => exact (rhsA_0 _ _).trans hk
    | ⟨1, _⟩ => exact rhsA_1 _ _)
  rw [el, er]

theorem lhsW_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsW_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsW_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsW_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A feature array times a 128 by 128 weight matrix, at entry (i, j): the sum over the 128 features. -/
theorem dotW_apply (Y : FVec Ideal S8192x128 .f32) (W : FVec Ideal S128x128 .f32) (i : Fin 8192) (j : Fin 128) :
    Host.dotGeneral dot_S8192x128_S128x128_S8192x128_1_0_0_1_n_n none Y W (ix2 i j) = ∑ l : Fin 128, Y (ix2 i l) * W (ix2 l j) := by
  simp only [Host.dotGeneral]
  rw [Ideal.dotGeneral_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 i j) ((ValueIdx.contrEquiv1 dot_S8192x128_S128x128_S8192x128_1_0_0_1_n_n 128 rfl rfl).symm k) = ix2 i k := funext fun a => Fin.ext (by
    match a with
    | ⟨0, _⟩ => exact lhsW_0 _ _
    | ⟨1, _⟩ => exact (lhsW_1 _ _).trans hk)
  have er : dot_S8192x128_S128x128_S8192x128_1_0_0_1_n_n.rhsIdx (ix2 i j) ((ValueIdx.contrEquiv1 dot_S8192x128_S128x128_S8192x128_1_0_0_1_n_n 128 rfl rfl).symm k) = ix2 k j := funext fun a => Fin.ext (by
    match a with
    | ⟨0, _⟩ => exact (rhsW_0 _ _).trans hk
    | ⟨1, _⟩ => exact rhsW_1 _ _)
  rw [el, er]

/-! ## The broadcasts and the row sum read at an entry

The arrays the operations pass to one another are named as they come: each name is the operations' own term over its operands. -/

/-- A vector of 128 spread over all 8192 rows (through a one-row array). -/
abbrev pBias (b : FVec Ideal S128 .f32) : FVec Ideal S8192x128 .f32 :=
  broadcastInDim S8192x128 ![0, 1] bcast_S1x128_S8192x128_0_1 (broadcastInDim S1x128 ![1] bcast_S128_S1x128_1 b)

/-- A constant as an array of one column. -/
abbrev pConst (w : BitVec 32) : FVec Ideal S8192x1 .f32 :=
  broadcastInDim S8192x1 ![] bcast_S_S8192x1 (constant (F := Ideal) S_ .f32 w)

/-- An array of one column spread over the 128 columns. -/
abbrev pSpread (z : FVec Ideal S8192x1 .f32) : FVec Ideal S8192x128 .f32 :=
  broadcastInDim S8192x128 ![0, 1] bcast_S8192x1_S8192x128_0_1 z

/-- Entry (i, j) of a spread vector is the vector's entry j. -/
theorem bias_apply (b : FVec Ideal S128 .f32) (i : Fin 8192) (j : Fin 128) : pBias b (ix2 i j) = b (ix1 j) :=
  (broadcastInDim_apply _ bcast_S1x128_S8192x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])).trans
  (broadcastInDim_apply _ bcast_S128_S1x128_1 b (ix2 (0 : Fin 1) j) (ix1 j) (fun a => match a with
    | ⟨0, _⟩ => by show j.val = if (128 : Nat) = 1 then 0 else j.val; rw [if_neg (by decide)]))

/-- A column of 8192 as an array of one column: entry (i, 0) is the column's entry i. -/
theorem col_apply (r : FVec Ideal S8192 .f32) (i : Fin 8192) :
    broadcastInDim S8192x1 ![0] bcast_S8192_S8192x1_0 r (ix2 i (0 : Fin 1)) = r (ix1 i) :=
  broadcastInDim_apply _ bcast_S8192_S8192x1_0 r _ (ix1 i) (fun a => match a with
    | ⟨0, _⟩ => by show i.val = if (8192 : Nat) = 1 then 0 else i.val; rw [if_neg (by decide)])

/-- Every entry of a constant column is the extended real the constant's word encodes. -/
theorem scal_apply (w : BitVec 32) (i : Fin 8192) : pConst w (ix2 i (0 : Fin 1)) = Ideal.ofBits .f32 w :=
  broadcastInDim_apply _ bcast_S_S8192x1 (constant (F := Ideal) S_ .f32 w) _ ix0 (fun a => a.elim0)

/-- Entry (i, j) of a spread column is the column's entry i. -/
theorem spread_apply (z : FVec Ideal S8192x1 .f32) (i : Fin 8192) (j : Fin 128) : pSpread z (ix2 i j) = z (ix2 i (0 : Fin 1)) :=
  broadcastInDim_apply _ bcast_S8192x1_S8192x128_0_1 z _ _ (fun a => match a with
    | ⟨0, _⟩ => by show i.val = if (8192 : Nat) = 1 then 0 else i.val; rw [if_neg (by decide)]
    | ⟨1, _⟩ => by show 0 = if (1 : Nat) = 1 then 0 else j.val; rw [if_pos rfl])

/-- The sum of a row from zero is the sum of its 128 entries. -/
theorem rowsum_apply (y : FVec Ideal S8192x128 .f32) (i : Fin 8192) :
    Host.reduceAdd y (constant (F := Ideal) S_ .f32 0x00000000#32) reducesTo_S8192x128_S8192_d1 h_S_ (ix1 i) = ∑ l : Fin 128, y (ix2 i l) := by
  simp only [Host.reduceAdd, Ideal.hostReduceAdd_def]
  rw [Ideal.hostReduceAdd_single reducesTo_S8192x128_S8192_d1 (by decide), constant_apply, Ideal.ofBits_zero_f32, zero_add]
  refine Finset.sum_congr rfl fun k _ => ?_
  exact congrArg y (funext fun a => Fin.ext (by match a with | ⟨0, _⟩ => rfl | ⟨1, _⟩ => rfl))

/-! ## The convolution as the line of operations computes it

The layers, named the same way. -/

/-- A dense layer: the product with the weights plus the spread bias. -/
abbrev pDense (Y : FVec Ideal S8192x128 .f32) (W : FVec Ideal S128x128 .f32) (b : FVec Ideal S128 .f32) : FVec Ideal S8192x128 .f32 :=
  addf (Host.dotGeneral dot_S8192x128_S128x128_S8192x128_1_0_0_1_n_n none Y W) (pBias b)

/-- The rows' means, as an array of one column: each row's sum from zero, divided by the constant 128. -/
abbrev pRowMean (y : FVec Ideal S8192x128 .f32) : FVec Ideal S8192x1 .f32 :=
  Host.divf (broadcastInDim S8192x1 ![0] bcast_S8192_S8192x1_0
      (Host.reduceAdd y (constant (F := Ideal) S_ .f32 0x00000000#32) reducesTo_S8192x128_S8192_d1 h_S_))
    (pConst 0x43000000#32)

/-- The layer normalisation of every row. -/
abbrev pLnorm (y : FVec Ideal S8192x128 .f32) (g β : FVec Ideal S128 .f32) : FVec Ideal S8192x128 .f32 :=
  addf (mulf (mulf (subf y (pSpread (pRowMean y)))
        (pSpread (Host.rsqrt (addf (pRowMean (mulf (subf y (pSpread (pRowMean y))) (subf y (pSpread (pRowMean y))))) (pConst 0x3727C5AC#32)))))
      (pBias g))
    (pBias β)

/-- The whole convolution. -/
abbrev pGcn (A : FVec Ideal S8192x8192 .f32) (X : FVec Ideal S8192x128 .f32) (W1 : FVec Ideal S128x128 .f32) (b1 g β : FVec Ideal S128 .f32)
    (W2 : FVec Ideal S128x128 .f32) (b2 : FVec Ideal S128 .f32) : FVec Ideal S8192x128 .f32 :=
  pDense (Host.dotGeneral dot_S8192x8192_S8192x128_S8192x128_1_0_0_1_n_n none A
    (pLnorm (pDense (Host.dotGeneral dot_S8192x8192_S8192x128_S8192x128_1_0_0_1_n_n none A X) W1 b1) g β)) W2 b2

/-! ## Each of them read at an entry is the specification's -/

theorem pDense_apply (Y : FVec Ideal S8192x128 .f32) (W : FVec Ideal S128x128 .f32) (b : FVec Ideal S128 .f32) (i : Fin 8192) (j : Fin 128) :
    pDense Y W b (ix2 i j) = Cert.Spec.dense (fun l => Y (ix2 i l)) W (fun j => b (ix1 j)) j := by
  show Host.dotGeneral dot_S8192x128_S128x128_S8192x128_1_0_0_1_n_n none Y W (ix2 i j) + pBias b (ix2 i j) = _
  rw [dotW_apply, bias_apply]
  rfl

theorem pRowMean_apply (y : FVec Ideal S8192x128 .f32) (i : Fin 8192) :
    pRowMean y (ix2 i (0 : Fin 1)) = Cert.Spec.mean (fun l => y (ix2 i l)) := by
  show Ideal.div (broadcastInDim S8192x1 ![0] bcast_S8192_S8192x1_0
      (Host.reduceAdd y (constant (F := Ideal) S_ .f32 0x00000000#32) reducesTo_S8192x128_S8192_d1 h_S_) (ix2 i (0 : Fin 1)))
    (pConst 0x43000000#32 (ix2 i (0 : Fin 1))) = _
  rw [col_apply, scal_apply, rowsum_apply]
  rfl

theorem pLnorm_apply (y : FVec Ideal S8192x128 .f32) (g β : FVec Ideal S128 .f32) (i : Fin 8192) (j : Fin 128) :
    pLnorm y g β (ix2 i j) = Cert.Spec.lnorm (fun l => y (ix2 i l)) (fun j => g (ix1 j)) (fun j => β (ix1 j)) j := by
  have hmean : ∀ l : Fin 128, pSpread (pRowMean y) (ix2 i l) = Cert.Spec.mean (fun l => y (ix2 i l)) := fun l =>
    (spread_apply _ i l).trans (pRowMean_apply y i)
  have hdev : (fun l : Fin 128 => mulf (subf y (pSpread (pRowMean y))) (subf y (pSpread (pRowMean y))) (ix2 i l))
      = fun l => (y (ix2 i l) - Cert.Spec.mean (fun l => y (ix2 i l))) * (y (ix2 i l) - Cert.Spec.mean (fun l => y (ix2 i l))) := by
    funext l
    show (y (ix2 i l) - pSpread (pRowMean y) (ix2 i l)) * (y (ix2 i l) - pSpread (pRowMean y) (ix2 i l)) = _
    rw [hmean]
  have hvar : pSpread (Host.rsqrt (addf (pRowMean (mulf (subf y (pSpread (pRowMean y))) (subf y (pSpread (pRowMean y))))) (pConst 0x3727C5AC#32))) (ix2 i j)
      = Ideal.rsqrt (Ideal.div (∑ l : Fin 128, (y (ix2 i l) - Cert.Spec.mean (fun l => y (ix2 i l))) * (y (ix2 i l) - Cert.Spec.mean (fun l => y (ix2 i l)))) Cert.Spec.c128 + Cert.Spec.ceps) := by
    refine (spread_apply _ i j).trans ?_
    show Ideal.rsqrt (pRowMean (mulf (subf y (pSpread (pRowMean y))) (subf y (pSpread (pRowMean y)))) (ix2 i (0 : Fin 1)) + pConst 0x3727C5AC#32 (ix2 i (0 : Fin 1))) = _
    rw [pRowMean_apply, scal_apply, hdev]
    rfl
  show (y (ix2 i j) - pSpread (pRowMean y) (ix2 i j))
      * pSpread (Host.rsqrt (addf (pRowMean (mulf (subf y (pSpread (pRowMean y))) (subf y (pSpread (pRowMean y))))) (pConst 0x3727C5AC#32))) (ix2 i j)
      * pBias g (ix2 i j) + pBias β (ix2 i j) = _
  rw [hmean, hvar, bias_apply, bias_apply]
  rfl

theorem pGcn_eq (A : FVec Ideal S8192x8192 .f32) (X : FVec Ideal S8192x128 .f32) (W1 : FVec Ideal S128x128 .f32) (b1 g β : FVec Ideal S128 .f32)
    (W2 : FVec Ideal S128x128 .f32) (b2 : FVec Ideal S128 .f32) :
    pGcn A X W1 b1 g β W2 b2
      = Cert.Spec.gcn A X W1 (fun j => b1 (ix1 j)) (fun j => g (ix1 j)) (fun j => β (ix1 j)) W2 (fun j => b2 (ix1 j)) := by
  have hconv : ∀ (H : FVec Ideal S8192x128 .f32) (i : Fin 8192),
      (fun l => Host.dotGeneral dot_S8192x8192_S8192x128_S8192x128_1_0_0_1_n_n none A H (ix2 i l)) = Cert.Spec.conv A H i := fun H i =>
    funext fun l => conv_apply A H i l
  have h1 : pLnorm (pDense (Host.dotGeneral dot_S8192x8192_S8192x128_S8192x128_1_0_0_1_n_n none A X) W1 b1) g β
      = Cert.Spec.stage1 A X W1 (fun j => b1 (ix1 j)) (fun j => g (ix1 j)) (fun j => β (ix1 j)) := by
    funext idx
    obtain ⟨i, j, rfl⟩ : ∃ (i : Fin 8192) (j : Fin 128), idx = ix2 i j := ⟨idx 0, idx 1, eq_ix2 idx⟩
    refine (pLnorm_apply _ g β i j).trans ?_
    have hrow : (fun l => pDense (Host.dotGeneral dot_S8192x8192_S8192x128_S8192x128_1_0_0_1_n_n none A X) W1 b1 (ix2 i l))
        = Cert.Spec.dense (Cert.Spec.conv A X i) W1 (fun j => b1 (ix1 j)) := by
      funext l
      refine (pDense_apply _ W1 b1 i l).trans ?_
      rw [hconv]
    rw [hrow]
    rfl
  show pDense (Host.dotGeneral dot_S8192x8192_S8192x128_S8192x128_1_0_0_1_n_n none A
    (pLnorm (pDense (Host.dotGeneral dot_S8192x8192_S8192x128_S8192x128_1_0_0_1_n_n none A X) W1 b1) g β)) W2 b2 = _
  rw [h1]
  funext idx
  obtain ⟨i, j, rfl⟩ : ∃ (i : Fin 8192) (j : Fin 128), idx = ix2 i j := ⟨idx 0, idx 1, eq_ix2 idx⟩
  refine (pDense_apply _ W2 b2 i j).trans ?_
  rw [hconv]
  rfl

/-! ## The two stretches -/

set_option maxRecDepth 16384 in
set_option maxHeartbeats 4000000 in
/-- The first convolution's stretch leaves in its last buffer the specification's convolution of the adjacency matrix it reads, the edge features and its weights. -/
theorem refG1_eq (U : Valuation Cert.ReferenceIdeal.τ Cert.ReferenceIdeal.sig (Elt Ideal)) :
    after (Cert.ReferenceIdeal.Parts.refG1 (F := Ideal)) U (Proc.devRef .tc main_v98)
      = Cert.Spec.gcn (U (Proc.devRef .tc main_arg6)) (U (Proc.devRef .tc main_v64)) (U (Proc.devRef .tc main_arg22))
          (fun j => U (Proc.devRef .tc main_arg23) (ix1 j)) (fun j => U (Proc.devRef .tc main_arg24) (ix1 j)) (fun j => U (Proc.devRef .tc main_arg25) (ix1 j))
          (U (Proc.devRef .tc main_arg26)) (fun j => U (Proc.devRef .tc main_arg27) (ix1 j)) := by
  after_results_simp
  exact pGcn_eq (U (Proc.devRef .tc main_arg6)) (U (Proc.devRef .tc main_v64)) (U (Proc.devRef .tc main_arg22))
    (U (Proc.devRef .tc main_arg23)) (U (Proc.devRef .tc main_arg24)) (U (Proc.devRef .tc main_arg25))
    (U (Proc.devRef .tc main_arg26)) (U (Proc.devRef .tc main_arg27))

set_option maxRecDepth 16384 in
set_option maxHeartbeats 4000000 in
/-- The second convolution's stretch likewise, over the second adjacency matrix and its own weights. -/
theorem refG2_eq (U : Valuation Cert.ReferenceIdeal.τ Cert.ReferenceIdeal.sig (Elt Ideal)) :
    after (Cert.ReferenceIdeal.Parts.refG2 (F := Ideal)) U (Proc.devRef .tc main_v132)
      = Cert.Spec.gcn (U (Proc.devRef .tc main_arg7)) (U (Proc.devRef .tc main_v64)) (U (Proc.devRef .tc main_arg28))
          (fun j => U (Proc.devRef .tc main_arg29) (ix1 j)) (fun j => U (Proc.devRef .tc main_arg30) (ix1 j)) (fun j => U (Proc.devRef .tc main_arg31) (ix1 j))
          (U (Proc.devRef .tc main_arg32)) (fun j => U (Proc.devRef .tc main_arg33) (ix1 j)) := by
  after_results_simp
  exact pGcn_eq (U (Proc.devRef .tc main_arg7)) (U (Proc.devRef .tc main_v64)) (U (Proc.devRef .tc main_arg28))
    (U (Proc.devRef .tc main_arg29)) (U (Proc.devRef .tc main_arg30)) (U (Proc.devRef .tc main_arg31))
    (U (Proc.devRef .tc main_arg32)) (U (Proc.devRef .tc main_arg33))

end Cert.ReferenceIdeal.RefGcn

end
-- ==== Proof.RefPartsA.lean ====
/-
  The reference's first stretch cut in two at the same place as the kernel program's: up to the rectified dense
  layer of the node-to-hyperedge aggregation, and from there to the edge features entering the convolutions.
-/
import proofs.«119995_j74062416053450_2_alg».proof.Proof.RefParts

set_option maxRecDepth 16384

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- A product nothing reads, then the aggregation of the vertex features onto the hyperedges, its dense layer, the rectification. -/
abbrev refA1 : List (HloOp τ sig (Elt F)) :=
  [ binary main_arg0 main_arg14 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_arg8 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v6 (broadcastInDim S1000000 ![] bcast_S_S1000000 : (⟨S_, .i32⟩ : BufTy).Contents (Elt F) → (⟨S1000000, .i32⟩ : BufTy).Contents (Elt F)),
    binary main_arg8 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_arg8 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg2 main_v9 main_v10 ((fun x i => Host.gather gather_S50000x1_S1000000x1_S1000000x1_1_0_n_n_0_1_11 x i) : (⟨S50000x1, .f32⟩ : BufTy).Contents (Elt F) → (⟨S1000000x1, .i32⟩ : BufTy).Contents (Elt F) → (⟨S1000000x1, .f32⟩ : BufTy).Contents (Elt F)),
    nullary main_c_1 (constantI S_ 32 0#32),
    unary main_c_1 main_v11 (broadcastInDim S1000000 ![] bcast_S_S1000000 : (⟨S_, .i32⟩ : BufTy).Contents (Elt F) → (⟨S1000000, .i32⟩ : BufTy).Contents (Elt F)),
    binary main_arg9 main_v11 main_v12 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 8192#32),
    unary main_c_2 main_v13 (broadcastInDim S1000000 ![] bcast_S_S1000000 : (⟨S_, .i32⟩ : BufTy).Contents (Elt F) → (⟨S1000000, .i32⟩ : BufTy).Contents (Elt F)),
    binary main_arg9 main_v13 main_v14 (addi : (⟨S1000000, .i32⟩ : BufTy).Contents (Elt F) → (⟨S1000000, .i32⟩ : BufTy).Contents (Elt F) → (⟨S1000000, .i32⟩ : BufTy).Contents (Elt F)),
    ternary main_v12 main_v14 main_arg9 main_v15 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v15 main_v16 (broadcastInDim S1000000x1 ![0] bcast_S1000000_S1000000x1_0 : (⟨S1000000, .i32⟩ : BufTy).Contents (Elt F) → (⟨S1000000x1, .i32⟩ : BufTy).Contents (Elt F)),
    binary main_arg5 main_v16 main_v17 ((fun x i => Host.gather gather_S8192x1_S1000000x1_S1000000x1_1_0_n_n_0_1_11 x i) : (⟨S8192x1, .f32⟩ : BufTy).Contents (Elt F) → (⟨S1000000x1, .i32⟩ : BufTy).Contents (Elt F) → (⟨S1000000x1, .f32⟩ : BufTy).Contents (Elt F)),
    binary main_v10 main_v17 main_v18 (Host.divf : (⟨S1000000x1, .f32⟩ : BufTy).Contents (Elt F) → (⟨S1000000x1, .f32⟩ : BufTy).Contents (Elt F) → (⟨S1000000x1, .f32⟩ : BufTy).Contents (Elt F)),
    nullary main_c_3 (constantI S_ 32 0#32),
    unary main_c_3 main_v19 (broadcastInDim S1000000 ![] bcast_S_S1000000 : (⟨S_, .i32⟩ : BufTy).Contents (Elt F) → (⟨S1000000, .i32⟩ : BufTy).Contents (Elt F)),
    binary main_arg8 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 50000#32),
    unary main_c_4 main_v21 (broadcastInDim S1000000 ![] bcast_S_S1000000 : (⟨S_, .i32⟩ : BufTy).Contents (Elt F) → (⟨S1000000, .i32⟩ : BufTy).Contents (Elt F)),
    binary main_arg8 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_arg8 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    binary main_arg0 main_v24 main_v25 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    unary main_v18 main_v26 (broadcastInDim S1000000x128 ![0, 1] bcast_S1000000x1_S1000000x128_0_1 : (⟨S1000000x1, .f32⟩ : BufTy).Contents (Elt F) → (⟨S1000000x128, .f32⟩ : BufTy).Contents (Elt F)),
    binary main_v26 main_v25 main_v27 (mulf : (⟨S1000000x128, .f32⟩ : BufTy).Contents (Elt F) → (⟨S1000000x128, .f32⟩ : BufTy).Contents (Elt F) → (⟨S1000000x128, .f32⟩ : BufTy).Contents (Elt F)),
    nullary main_cst (constant S_ .f32 0x00000000#32),
    unary main_cst main_v28 (broadcastInDim S8192x128 ![] bcast_S_S8192x128 : (⟨S_, .f32⟩ : BufTy).Contents (Elt F) → (⟨S8192x128, .f32⟩ : BufTy).Contents (Elt F)),
    unary main_arg9 main_v29 (broadcastInDim S1000000x1 ![0] bcast_S1000000_S1000000x1_0 : (⟨S1000000, .i32⟩ : BufTy).Contents (Elt F) → (⟨S1000000x1, .i32⟩ : BufTy).Contents (Elt F)),
    ternary main_v28 main_v29 main_v27 main_v30 ((fun x i u => Host.scatterAdd scatter_S8192x128_S1000000x1_S1000000x128_1_0_0_1 x i u) : (⟨S8192x128, .f32⟩ : BufTy).Contents (Elt F) → (⟨S1000000x1, .i32⟩ : BufTy).Contents (Elt F) → (⟨S1000000x128, .f32⟩ : BufTy).Contents (Elt F) → (⟨S8192x128, .f32⟩ : BufTy).Contents (Elt F)),
    binary main_v30 main_arg16 main_v31 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg17 main_v32 (broadcastInDim S1x128 ![1] bcast_S128_S1x128_1 : (⟨S128, .f32⟩ : BufTy).Contents (Elt F) → (⟨S1x128, .f32⟩ : BufTy).Contents (Elt F)),
    unary main_v32 main_v33 (broadcastInDim S8192x128 ![0, 1] bcast_S1x128_S8192x128_0_1 : (⟨S1x128, .f32⟩ : BufTy).Contents (Elt F) → (⟨S8192x128, .f32⟩ : BufTy).Contents (Elt F)),
    binary main_v31 main_v33 main_v34 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x128, .f32⟩) main_call0_v0) (broadcastInDim S8192x128 ![] bcast_S_S8192x128),
    TRef.binary (TRef.of (T := ⟨S8192x128, .f32⟩) main_v34) (TRef.of (T := ⟨S8192x128, .f32⟩) main_call0_v0) (TRef.of (T := ⟨S8192x128, .f32⟩) main_v35) maximumf ]

set_option maxHeartbeats 4000000 in
/-- The layer normalisation of that, and the edge features' own dense layer added. -/
abbrev refA2 : List (HloOp τ sig (Elt F)) :=
  [ nullary main_cst_5 (constant S_ .f32 0x00000000#32),
    binary main_v35 main_cst_5 main_v36 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v36 main_v37 (broadcastInDim S8192x1 ![0] bcast_S8192_S8192x1_0 : (⟨S8192, .f32⟩ : BufTy).Contents (Elt F) → (⟨S8192x1, .f32⟩ : BufTy).Contents (Elt F)),
    nullary main_cst_6 (constant S_ .f32 0x43000000#32),
    unary main_cst_6 main_v38 (broadcastInDim S8192x1 ![] bcast_S_S8192x1 : (⟨S_, .f32⟩ : BufTy).Contents (Elt F) → (⟨S8192x1, .f32⟩ : BufTy).Contents (Elt F)),
    binary main_v37 main_v38 main_v39 (Host.divf : (⟨S8192x1, .f32⟩ : BufTy).Contents (Elt F) → (⟨S8192x1, .f32⟩ : BufTy).Contents (Elt F) → (⟨S8192x1, .f32⟩ : BufTy).Contents (Elt F)),
    unary main_v39 main_v40 (broadcastInDim S8192x128 ![0, 1] bcast_S8192x1_S8192x128_0_1 : (⟨S8192x1, .f32⟩ : BufTy).Contents (Elt F) → (⟨S8192x128, .f32⟩ : BufTy).Contents (Elt F)),
    binary main_v35 main_v40 main_v41 (subf : (⟨S8192x128, .f32⟩ : BufTy).Contents (Elt F) → (⟨S8192x128, .f32⟩ : BufTy).Contents (Elt F) → (⟨S8192x128, .f32⟩ : BufTy).Contents (Elt F)),
    binary main_v41 main_v41 main_v42 (mulf : (⟨S8192x128, .f32⟩ : BufTy).Contents (Elt F) → (⟨S8192x128, .f32⟩ : BufTy).Contents (Elt F) → (⟨S8192x128, .f32⟩ : BufTy).Contents (Elt F)),
    nullary main_cst_7 (constant S_ .f32 0x00000000#32),
    binary main_v42 main_cst_7 main_v43 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v43 main_v44 (broadcastInDim S8192x1 ![0] bcast_S8192_S8192x1_0 : (⟨S8192, .f32⟩ : BufTy).Contents (Elt F) → (⟨S8192x1, .f32⟩ : BufTy).Contents (Elt F)),
    nullary main_cst_8 (constant S_ .f32 0x43000000#32),
    unary main_cst_8 main_v45 (broadcastInDim S8192x1 ![] bcast_S_S8192x1 : (⟨S_, .f32⟩ : BufTy).Contents (Elt F) → (⟨S8192x1, .f32⟩ : BufTy).Contents (Elt F)),
    binary main_v44 main_v45 main_v46 (Host.divf : (⟨S8192x1, .f32⟩ : BufTy).Contents (Elt F) → (⟨S8192x1, .f32⟩ : BufTy).Contents (Elt F) → (⟨S8192x1, .f32⟩ : BufTy).Contents (Elt F)),
    unary main_v39 main_v47 (broadcastInDim S8192x128 ![0, 1] bcast_S8192x1_S8192x128_0_1 : (⟨S8192x1, .f32⟩ : BufTy).Contents (Elt F) → (⟨S8192x128, .f32⟩ : BufTy).Contents (Elt F)),
    binary main_v35 main_v47 main_v48 (subf : (⟨S8192x128, .f32⟩ : BufTy).Contents (Elt F) → (⟨S8192x128, .f32⟩ : BufTy).Contents (Elt F) → (⟨S8192x128, .f32⟩ : BufTy).Contents (Elt F)),
    nullary main_cst_9 (constant S_ .f32 0x3727C5AC#32),
    unary main_cst_9 main_v49 (broadcastInDim S8192x1 ![] bcast_S_S8192x1 : (⟨S_, .f32⟩ : BufTy).Contents (Elt F) → (⟨S8192x1, .f32⟩ : BufTy).Contents (Elt F)),
    binary main_v46 main_v49 main_v50 (addf : (⟨S8192x1, .f32⟩ : BufTy).Contents (Elt F) → (⟨S8192x1, .f32⟩ : BufTy).Contents (Elt F) → (⟨S8192x1, .f32⟩ : BufTy).Contents (Elt F)),
    unary main_v50 main_v51 (Host.rsqrt : (⟨S8192x1, .f32⟩ : BufTy).Contents (Elt F) → (⟨S8192x1, .f32⟩ : BufTy).Contents (Elt F)),
    unary main_v51 main_v52 (broadcastInDim S8192x128 ![0, 1] bcast_S8192x1_S8192x128_0_1 : (⟨S8192x1, .f32⟩ : BufTy).Contents (Elt F) → (⟨S8192x128, .f32⟩ : BufTy).Contents (Elt F)),
    binary main_v48 main_v52 main_v53 (mulf : (⟨S8192x128, .f32⟩ : BufTy).Contents (Elt F) → (⟨S8192x128, .f32⟩ : BufTy).Contents (Elt F) → (⟨S8192x128, .f32⟩ : BufTy).Contents (Elt F)),
    unary main_arg18 main_v54 (broadcastInDim S1x128 ![1] bcast_S128_S1x128_1 : (⟨S128, .f32⟩ : BufTy).Contents (Elt F) → (⟨S1x128, .f32⟩ : BufTy).Contents (Elt F)),
    unary main_v54 main_v55 (broadcastInDim S8192x128 ![0, 1] bcast_S1x128_S8192x128_0_1 : (⟨S1x128, .f32⟩ : BufTy).Contents (Elt F) → (⟨S8192x128, .f32⟩ : BufTy).Contents (Elt F)),
    binary main_v53 main_v55 main_v56 (mulf : (⟨S8192x128, .f32⟩ : BufTy).Contents (Elt F) → (⟨S8192x128, .f32⟩ : BufTy).Contents (Elt F) → (⟨S8192x128, .f32⟩ : BufTy).Contents (Elt F)),
    unary main_arg19 main_v57 (broadcastInDim S1x128 ![1] bcast_S128_S1x128_1 : (⟨S128, .f32⟩ : BufTy).Contents (Elt F) → (⟨S1x128, .f32⟩ : BufTy).Contents (Elt F)),
    unary main_v57 main_v58 (broadcastInDim S8192x128 ![0, 1] bcast_S1x128_S8192x128_0_1 : (⟨S1x128, .f32⟩ : BufTy).Contents (Elt F) → (⟨S8192x128, .f32⟩ : BufTy).Contents (Elt F)),
    binary main_v56 main_v58 main_v59 (addf : (⟨S8192x128, .f32⟩ : BufTy).Contents (Elt F) → (⟨S8192x128, .f32⟩ : BufTy).Contents (Elt F) → (⟨S8192x128, .f32⟩ : BufTy).Contents (Elt F)),
    binary main_arg1 main_arg20 main_v60 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg21 main_v61 (broadcastInDim S1x128 ![1] bcast_S128_S1x128_1 : (⟨S128, .f32⟩ : BufTy).Contents (Elt F) → (⟨S1x128, .f32⟩ : BufTy).Contents (Elt F)),
    unary main_v61 main_v62 (broadcastInDim S8192x128 ![0, 1] bcast_S1x128_S8192x128_0_1 : (⟨S1x128, .f32⟩ : BufTy).Contents (Elt F) → (⟨S8192x128, .f32⟩ : BufTy).Contents (Elt F)),
    binary main_v60 main_v62 main_v63 (addf : (⟨S8192x128, .f32⟩ : BufTy).Contents (Elt F) → (⟨S8192x128, .f32⟩ : BufTy).Contents (Elt F) → (⟨S8192x128, .f32⟩ : BufTy).Contents (Elt F)),
    binary main_v59 main_v63 main_v64 (addf : (⟨S8192x128, .f32⟩ : BufTy).Contents (Elt F) → (⟨S8192x128, .f32⟩ : BufTy).Contents (Elt F) → (⟨S8192x128, .f32⟩ : BufTy).Contents (Elt F)) ]

set_option maxHeartbeats 4000000 in
theorem refA_split : (refA : List (HloOp τ sig (Elt F))) = refA1 ++ refA2 := rfl

end Cert.ReferenceIdeal.Parts

end
-- ==== Proof.RefVals.lean ====
/-
  The reference's line of host operations is its four stretches run in order, so what the line leaves in a buffer
  is what the last stretch leaves when started from the memory the first three leave. No operation writes an
  argument array, so every argument reads through every stretch unchanged; the first convolution's result is not
  written by the second. Hence the two convolutions' results are the specification's convolution of the adjacency
  matrices, of the edge features the first stretch leaves, and of the weight arguments as launched.
-/
import proofs.«119995_j74062416053450_2_alg».proof.Proof.RefGcn
import proofs.«119995_j74062416053450_2_alg».proof.Proof.RefPartsA

set_option maxRecDepth 16384

noncomputable section

namespace Cert.ReferenceIdeal.RefVals

open Cert.ReferenceIdeal Cert.ReferenceIdeal.Gen Idealize.ShloMosaic Idealize.ShloMosaic.TcCoe Idealize.SL.Sem Idealize.ShloMosaic.StableHlo Idealize.ShloMosaic.ValueIdx

/-! ## No stretch writes an argument array

The arguments are the first 38 buffers; every operation's result buffer is a later one. -/

set_option maxHeartbeats 4000000 in
theorem keepsA (b : Ref sig .tc) (hb : b.idx.val < 38) :
    ∀ op ∈ (Parts.refA : List (HloOp τ sig (Elt Ideal))), Proc.devRef .tc b ∉ op.writes :=
  List.forall_iff_forall_mem.mp (by
    simp only [Parts.refA, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

set_option maxHeartbeats 4000000 in
theorem keepsG1 (b : Ref sig .tc) (hb : b.idx.val < 38) :
    ∀ op ∈ (Parts.refG1 : List (HloOp τ sig (Elt Ideal))), Proc.devRef .tc b ∉ op.writes :=
  List.forall_iff_forall_mem.mp (by
    simp only [Parts.refG1, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

set_option maxHeartbeats 4000000 in
theorem keepsG2 (b : Ref sig .tc) (hb : b.idx.val < 38) :
    ∀ op ∈ (Parts.refG2 : List (HloOp τ sig (Elt Ideal))), Proc.devRef .tc b ∉ op.writes :=
  List.forall_iff_forall_mem.mp (by
    simp only [Parts.refG2, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide)))

/-- An argument reads through the first stretch unchanged … -/
theorem argA (b : Ref sig .tc) (hb : b.idx.val < 38) (V : Valuation τ sig (Elt Ideal)) :
    after (Parts.refA (F := Ideal)) V (Proc.devRef .tc b) = V (Proc.devRef .tc b) :=
  after_of_forall_not_mem _ _ (keepsA b hb)
/-- … through its first half (an operation of the half is one of the stretch) … -/
theorem argA1 (b : Ref sig .tc) (hb : b.idx.val < 38) (V : Valuation τ sig (Elt Ideal)) :
    after (Parts.refA1 (F := Ideal)) V (Proc.devRef .tc b) = V (Proc.devRef .tc b) :=
  after_of_forall_not_mem _ _ fun op h => keepsA b hb op (by rw [Parts.refA_split]; exact List.mem_append_left _ h)
/-- … through the first convolution … -/
theorem argG1 (b : Ref sig .tc) (hb : b.idx.val < 38) (V : Valuation τ sig (Elt Ideal)) :
    after (Parts.refG1 (F := Ideal)) V (Proc.devRef .tc b) = V (Proc.devRef .tc b) :=
  after_of_forall_not_mem _ _ (keepsG1 b hb)
/-- … and through the second. -/
theorem argG2 (b : Ref sig .tc) (hb : b.idx.val < 38) (V : Valuation τ sig (Elt Ideal)) :
    after (Parts.refG2 (F := Ideal)) V (Proc.devRef .tc b) = V (Proc.devRef .tc b) :=
  after_of_forall_not_mem _ _ (keepsG2 b hb)

set_option maxHeartbeats 4000000 in
/-- The first convolution writes its own buffers only: the edge features read through it unchanged. -/
theorem G1_v64 (V : Valuation τ sig (Elt Ideal)) :
    after (Parts.refG1 (F := Ideal)) V (Proc.devRef .tc main_v64) = V (Proc.devRef .tc main_v64) := by
  after_results_simp

set_option maxHeartbeats 4000000 in
/-- The second convolution does not write the first one's result. -/
theorem G2_v98 (V : Valuation τ sig (Elt Ideal)) :
    after (Parts.refG2 (F := Ideal)) V (Proc.devRef .tc main_v98) = V (Proc.devRef .tc main_v98) := by
  after_results_simp

/-! ## The line as its four stretches -/

variable (U0 : Valuation Cert.ReferenceIdeal.τ Cert.ReferenceIdeal.sig (Elt Ideal))

/-- The memory after the first stretch … -/
abbrev U1 : Valuation Cert.ReferenceIdeal.τ Cert.ReferenceIdeal.sig (Elt Ideal) := after (Parts.refA (F := Ideal)) U0
/-- … after the first convolution … -/
abbrev U2 : Valuation Cert.ReferenceIdeal.τ Cert.ReferenceIdeal.sig (Elt Ideal) := after (Parts.refG1 (F := Ideal)) (U1 U0)
/-- … and after the second. -/
abbrev U3 : Valuation Cert.ReferenceIdeal.τ Cert.ReferenceIdeal.sig (Elt Ideal) := after (Parts.refG2 (F := Ideal)) (U2 U0)

/-- The whole line leaves what its last stretch leaves from the memory after the first three. -/
theorem ops_after (b : DevRef Cert.ReferenceIdeal.τ Cert.ReferenceIdeal.sig) :
    after (ValueP.ops (F := Ideal)) U0 b = after (Parts.refT (F := Ideal)) (U3 U0) b := by
  rw [Parts.ops_split, Parts.after_append, Parts.after_append, Parts.after_append]

/-- An argument is as launched after the first stretch, after the first convolution and after the second. -/
theorem U1_arg (b : Ref sig .tc) (hb : b.idx.val < 38) : U1 U0 (Proc.devRef .tc b) = U0 (Proc.devRef .tc b) := argA b hb U0
theorem U2_arg (b : Ref sig .tc) (hb : b.idx.val < 38) : U2 U0 (Proc.devRef .tc b) = U0 (Proc.devRef .tc b) :=
  (argG1 b hb (U1 U0)).trans (U1_arg U0 b hb)
theorem U3_arg (b : Ref sig .tc) (hb : b.idx.val < 38) : U3 U0 (Proc.devRef .tc b) = U0 (Proc.devRef .tc b) :=
  (argG2 b hb (U2 U0)).trans (U2_arg U0 b hb)

/-- The first convolution's result, still there after the second: the specification's convolution of the first adjacency matrix, the edge features the first stretch leaves, and the first convolution's weights as launched. -/
theorem U3_struct : U3 U0 (Proc.devRef .tc main_v98)
    = Cert.Spec.gcn (U0 (Proc.devRef .tc main_arg6)) (U1 U0 (Proc.devRef .tc main_v64)) (U0 (Proc.devRef .tc main_arg22))
        (fun j => U0 (Proc.devRef .tc main_arg23) (ix1 j)) (fun j => U0 (Proc.devRef .tc main_arg24) (ix1 j)) (fun j => U0 (Proc.devRef .tc main_arg25) (ix1 j))
        (U0 (Proc.devRef .tc main_arg26)) (fun j => U0 (Proc.devRef .tc main_arg27) (ix1 j)) := by
  refine (G2_v98 (U2 U0)).trans ?_
  refine (RefGcn.refG1_eq (U1 U0)).trans ?_
  rw [U1_arg U0 main_arg6 (by decide), U1_arg U0 main_arg22 (by decide), U1_arg U0 main_arg23 (by decide), U1_arg U0 main_arg24 (by decide),
    U1_arg U0 main_arg25 (by decide), U1_arg U0 main_arg26 (by decide), U1_arg U0 main_arg27 (by decide)]

/-- The second convolution's result: the same of the second adjacency matrix, the same edge features, and its own weights as launched. -/
theorem U3_temp : U3 U0 (Proc.devRef .tc main_v132)
    = Cert.Spec.gcn (U0 (Proc.devRef .tc main_arg7)) (U1 U0 (Proc.devRef .tc main_v64)) (U0 (Proc.devRef .tc main_arg28))
        (fun j => U0 (Proc.devRef .tc main_arg29) (ix1 j)) (fun j => U0 (Proc.devRef .tc main_arg30) (ix1 j)) (fun j => U0 (Proc.devRef .tc main_arg31) (ix1 j))
        (U0 (Proc.devRef .tc main_arg32)) (fun j => U0 (Proc.devRef .tc main_arg33) (ix1 j)) := by
  refine (RefGcn.refG2_eq (U2 U0)).trans ?_
  rw [U2_arg U0 main_arg7 (by decide), U2_arg U0 main_arg28 (by decide), U2_arg U0 main_arg29 (by decide), U2_arg U0 main_arg30 (by decide),
    U2_arg U0 main_arg31 (by decide), U2_arg U0 main_arg32 (by decide), U2_arg U0 main_arg33 (by decide),
    show U2 U0 (Proc.devRef .tc main_v64) = U1 U0 (Proc.devRef .tc main_v64) from G1_v64 (U1 U0)]

/-! ## The arguments the last stretch reads, as launched -/

theorem U3_arg3 : U3 U0 (Proc.devRef .tc main_arg3) = U0 (Proc.devRef .tc main_arg3) := U3_arg U0 main_arg3 (by decide)
theorem U3_arg4 : U3 U0 (Proc.devRef .tc main_arg4) = U0 (Proc.devRef .tc main_arg4) := U3_arg U0 main_arg4 (by decide)
theorem U3_arg10 : U3 U0 (Proc.devRef .tc main_arg10) = U0 (Proc.devRef .tc main_arg10) := U3_arg U0 main_arg10 (by decide)
theorem U3_arg11 : U3 U0 (Proc.devRef .tc main_arg11) = U0 (Proc.devRef .tc main_arg11) := U3_arg U0 main_arg11 (by decide)
theorem U3_arg12 : U3 U0 (Proc.devRef .tc main_arg12) = U0 (Proc.devRef .tc main_arg12) := U3_arg U0 main_arg12 (by decide)
theorem U3_arg13 : U3 U0 (Proc.devRef .tc main_arg13) = U0 (Proc.devRef .tc main_arg13) := U3_arg U0 main_arg13 (by decide)
theorem U3_arg34 : U3 U0 (Proc.devRef .tc main_arg34) = U0 (Proc.devRef .tc main_arg34) := U3_arg U0 main_arg34 (by decide)
theorem U3_arg35 : U3 U0 (Proc.devRef .tc main_arg35) = U0 (Proc.devRef .tc main_arg35) := U3_arg U0 main_arg35 (by decide)
theorem U3_arg36 : U3 U0 (Proc.devRef .tc main_arg36) = U0 (Proc.devRef .tc main_arg36) := U3_arg U0 main_arg36 (by decide)
theorem U3_arg37 : U3 U0 (Proc.devRef .tc main_arg37) = U0 (Proc.devRef .tc main_arg37) := U3_arg U0 main_arg37 (by decide)

/-! ## The first stretch in its two halves -/

/-- The edge features after the first stretch are what its second half leaves from the memory after its first half. -/
theorem U1_v64 : U1 U0 (Proc.devRef .tc main_v64)
    = after (Parts.refA2 (F := Ideal)) (after (Parts.refA1 (F := Ideal)) U0) (Proc.devRef .tc main_v64) := by
  show after (Parts.refA (F := Ideal)) U0 _ = _
  rw [Parts.refA_split, Parts.after_append]

theorem A1_arg1 : after (Parts.refA1 (F := Ideal)) U0 (Proc.devRef .tc main_arg1) = U0 (Proc.devRef .tc main_arg1) := argA1 main_arg1 (by decide) U0
theorem A1_arg18 : after (Parts.refA1 (F := Ideal)) U0 (Proc.devRef .tc main_arg18) = U0 (Proc.devRef .tc main_arg18) := argA1 main_arg18 (by decide) U0
theorem A1_arg19 : after (Parts.refA1 (F := Ideal)) U0 (Proc.devRef .tc main_arg19) = U0 (Proc.devRef .tc main_arg19) := argA1 main_arg19 (by decide) U0
theorem A1_arg20 : after (Parts.refA1 (F := Ideal)) U0 (Proc.devRef .tc main_arg20) = U0 (Proc.devRef .tc main_arg20) := argA1 main_arg20 (by decide) U0
theorem A1_arg21 : after (Parts.refA1 (F := Ideal)) U0 (Proc.devRef .tc main_arg21) = U0 (Proc.devRef .tc main_arg21) := argA1 main_arg21 (by decide) U0

end Cert.ReferenceIdeal.RefVals

end
-- ==== Proof.RefPartsT.lean ====
/-
  The reference's last stretch cut in two at the same place as the kernel program's: up to the rectified dense
  layer of the hyperedge-to-node aggregation, and that layer's normalisation.
-/
import proofs.«119995_j74062416053450_2_alg».proof.Proof.RefParts

set_option maxRecDepth 16384

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The three cosine losses, the mix of the two convolutions' results, its aggregation onto the vertices, the dense layer, the rectification. -/
abbrev refT1 : List (HloOp τ sig (Elt F)) :=
  [ binary main_v98 main_v132 main_v133 (mulf : (⟨S8192x128, .f32⟩ : BufTy).Contents (Elt F) → (⟨S8192x128, .f32⟩ : BufTy).Contents (Elt F) → (⟨S8192x128, .f32⟩ : BufTy).Contents (Elt F)),
    nullary main_cst_20 (constant S_ .f32 0x00000000#32),
    binary main_v133 main_cst_20 main_v134 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    TRef.binary (TRef.of (T := ⟨S8192x128, .f32⟩) main_v98) (TRef.of (T := ⟨S8192x128, .f32⟩) main_v98) (TRef.of (T := ⟨S8192x128, .f32⟩) main_call1_v0) mulf,
    TRef.nullary (TRef.of (T := ⟨S_, .f32⟩) main_call1_cst) (constant S_ .f32 0x00000000#32),
    TRef.binary (TRef.of (T := ⟨S8192x128, .f32⟩) main_call1_v0) (TRef.of (T := ⟨S_, .f32⟩) main_call1_cst) (TRef.of (T := ⟨S8192, .f32⟩) main_call1_v1) (fun x v => Host.reduceAdd x v reducesTo_S8192x128_S8192_d1 h_S_),
    TRef.unary (TRef.of (T := ⟨S8192, .f32⟩) main_call1_v1) (TRef.of (T := ⟨S8192, .f32⟩) main_v135) Host.sqrt,
    TRef.binary (TRef.of (T := ⟨S8192x128, .f32⟩) main_v132) (TRef.of (T := ⟨S8192x128, .f32⟩) main_v132) (TRef.of (T := ⟨S8192x128, .f32⟩) main_call2_v0) mulf,
    TRef.nullary (TRef.of (T := ⟨S_, .f32⟩) main_call2_cst) (constant S_ .f32 0x00000000#32),
    TRef.binary (TRef.of (T := ⟨S8192x128, .f32⟩) main_call2_v0) (TRef.of (T := ⟨S_, .f32⟩) main_call2_cst) (TRef.of (T := ⟨S8192, .f32⟩) main_call2_v1) (fun x v => Host.reduceAdd x v reducesTo_S8192x128_S8192_d1 h_S_),
    TRef.unary (TRef.of (T := ⟨S8192, .f32⟩) main_call2_v1) (TRef.of (T := ⟨S8192, .f32⟩) main_v136) Host.sqrt,
    binary main_v135 main_v136 main_v137 (mulf : (⟨S8192, .f32⟩ : BufTy).Contents (Elt F) → (⟨S8192, .f32⟩ : BufTy).Contents (Elt F) → (⟨S8192, .f32⟩ : BufTy).Contents (Elt F)),
    nullary main_cst_21 (constant S_ .f32 0x322BCC77#32),
    unary main_cst_21 main_v138 (broadcastInDim S8192 ![] bcast_S_S8192 : (⟨S_, .f32⟩ : BufTy).Contents (Elt F) → (⟨S8192, .f32⟩ : BufTy).Contents (Elt F)),
    binary main_v137 main_v138 main_v139 (maximumf : (⟨S8192, .f32⟩ : BufTy).Contents (Elt F) → (⟨S8192, .f32⟩ : BufTy).Contents (Elt F) → (⟨S8192, .f32⟩ : BufTy).Contents (Elt F)),
    binary main_v134 main_v139 main_v140 (Host.divf : (⟨S8192, .f32⟩ : BufTy).Contents (Elt F) → (⟨S8192, .f32⟩ : BufTy).Contents (Elt F) → (⟨S8192, .f32⟩ : BufTy).Contents (Elt F)),
    nullary main_cst_22 (constant S_ .f32 0x00000000#32),
    binary main_v140 main_cst_22 main_v141 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_23 (constant S_ .f32 0x46000000#32),
    binary main_v141 main_cst_23 main_v142 (Host.divf : (⟨S_, .f32⟩ : BufTy).Contents (Elt F) → (⟨S_, .f32⟩ : BufTy).Contents (Elt F) → (⟨S_, .f32⟩ : BufTy).Contents (Elt F)),
    nullary main_c_24 (constantI S_ 32 0#32),
    unary main_c_24 main_v143 (broadcastInDim S8192 ![] bcast_S_S8192 : (⟨S_, .i32⟩ : BufTy).Contents (Elt F) → (⟨S8192, .i32⟩ : BufTy).Contents (Elt F)),
    binary main_arg12 main_v143 main_v144 (cmpi .slt : (⟨S8192, .i32⟩ : BufTy).Contents (Elt F) → (⟨S8192, .i32⟩ : BufTy).Contents (Elt F) → (⟨S8192, .i1⟩ : BufTy).Contents (Elt F)),
    nullary main_c_25 (constantI S_ 32 8192#32),
    unary main_c_25 main_v145 (broadcastInDim S8192 ![] bcast_S_S8192 : (⟨S_, .i32⟩ : BufTy).Contents (Elt F) → (⟨S8192, .i32⟩ : BufTy).Contents (Elt F)),
    binary main_arg12 main_v145 main_v146 (addi : (⟨S8192, .i32⟩ : BufTy).Contents (Elt F) → (⟨S8192, .i32⟩ : BufTy).Contents (Elt F) → (⟨S8192, .i32⟩ : BufTy).Contents (Elt F)),
    ternary main_v144 main_v146 main_arg12 main_v147 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v147 main_v148 (broadcastInDim S8192x1 ![0] bcast_S8192_S8192x1_0 : (⟨S8192, .i32⟩ : BufTy).Contents (Elt F) → (⟨S8192x1, .i32⟩ : BufTy).Contents (Elt F)),
    binary main_v98 main_v148 main_v149 ((fun x i => Host.gather gather_S8192x128_S8192x1_S8192x128_1_0_n_n_0_1_1128 x i) : (⟨S8192x128, .f32⟩ : BufTy).Contents (Elt F) → (⟨S8192x1, .i32⟩ : BufTy).Contents (Elt F) → (⟨S8192x128, .f32⟩ : BufTy).Contents (Elt F)),
    binary main_v98 main_v149 main_v150 (mulf : (⟨S8192x128, .f32⟩ : BufTy).Contents (Elt F) → (⟨S8192x128, .f32⟩ : BufTy).Contents (Elt F) → (⟨S8192x128, .f32⟩ : BufTy).Contents (Elt F)),
    nullary main_cst_26 (constant S_ .f32 0x00000000#32),
    binary main_v150 main_cst_26 main_v151 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    TRef.binary (TRef.of (T := ⟨S8192x128, .f32⟩) main_v98) (TRef.of (T := ⟨S8192x128, .f32⟩) main_v98) (TRef.of (T := ⟨S8192x128, .f32⟩) main_call3_v0) mulf,
    TRef.nullary (TRef.of (T := ⟨S_, .f32⟩) main_call3_cst) (constant S_ .f32 0x00000000#32),
    TRef.binary (TRef.of (T := ⟨S8192x128, .f32⟩) main_call3_v0) (TRef.of (T := ⟨S_, .f32⟩) main_call3_cst) (TRef.of (T := ⟨S8192, .f32⟩) main_call3_v1) (fun x v => Host.reduceAdd x v reducesTo_S8192x128_S8192_d1 h_S_),
    TRef.unary (TRef.of (T := ⟨S8192, .f32⟩) main_call3_v1) (TRef.of (T := ⟨S8192, .f32⟩) main_v152) Host.sqrt,
    TRef.binary (TRef.of (T := ⟨S8192x128, .f32⟩) main_v149) (TRef.of (T := ⟨S8192x128, .f32⟩) main_v149) (TRef.of (T := ⟨S8192x128, .f32⟩) main_call4_v0) mulf,
    TRef.nullary (TRef.of (T := ⟨S_, .f32⟩) main_call4_cst) (constant S_ .f32 0x00000000#32),
    TRef.binary (TRef.of (T := ⟨S8192x128, .f32⟩) main_call4_v0) (TRef.of (T := ⟨S_, .f32⟩) main_call4_cst) (TRef.of (T := ⟨S8192, .f32⟩) main_call4_v1) (fun x v => Host.reduceAdd x v reducesTo_S8192x128_S8192_d1 h_S_),
    TRef.unary (TRef.of (T := ⟨S8192, .f32⟩) main_call4_v1) (TRef.of (T := ⟨S8192, .f32⟩) main_v153) Host.sqrt,
    binary main_v152 main_v153 main_v154 (mulf : (⟨S8192, .f32⟩ : BufTy).Contents (Elt F) → (⟨S8192, .f32⟩ : BufTy).Contents (Elt F) → (⟨S8192, .f32⟩ : BufTy).Contents (Elt F)),
    nullary main_cst_27 (constant S_ .f32 0x322BCC77#32),
    unary main_cst_27 main_v155 (broadcastInDim S8192 ![] bcast_S_S8192 : (⟨S_, .f32⟩ : BufTy).Contents (Elt F) → (⟨S8192, .f32⟩ : BufTy).Contents (Elt F)),
    binary main_v154 main_v155 main_v156 (maximumf : (⟨S8192, .f32⟩ : BufTy).Contents (Elt F) → (⟨S8192, .f32⟩ : BufTy).Contents (Elt F) → (⟨S8192, .f32⟩ : BufTy).Contents (Elt F)),
    binary main_v151 main_v156 main_v157 (Host.divf : (⟨S8192, .f32⟩ : BufTy).Contents (Elt F) → (⟨S8192, .f32⟩ : BufTy).Contents (Elt F) → (⟨S8192, .f32⟩ : BufTy).Contents (Elt F)),
    nullary main_cst_28 (constant S_ .f32 0x00000000#32),
    binary main_v157 main_cst_28 main_v158 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_29 (constant S_ .f32 0x46000000#32),
    binary main_v158 main_cst_29 main_v159 (Host.divf : (⟨S_, .f32⟩ : BufTy).Contents (Elt F) → (⟨S_, .f32⟩ : BufTy).Contents (Elt F) → (⟨S_, .f32⟩ : BufTy).Contents (Elt F)),
    nullary main_c_30 (constantI S_ 32 0#32),
    unary main_c_30 main_v160 (broadcastInDim S8192 ![] bcast_S_S8192 : (⟨S_, .i32⟩ : BufTy).Contents (Elt F) → (⟨S8192, .i32⟩ : BufTy).Contents (Elt F)),
    binary main_arg13 main_v160 main_v161 (cmpi .slt : (⟨S8192, .i32⟩ : BufTy).Contents (Elt F) → (⟨S8192, .i32⟩ : BufTy).Contents (Elt F) → (⟨S8192, .i1⟩ : BufTy).Contents (Elt F)),
    nullary main_c_31 (constantI S_ 32 8192#32),
    unary main_c_31 main_v162 (broadcastInDim S8192 ![] bcast_S_S8192 : (⟨S_, .i32⟩ : BufTy).Contents (Elt F) → (⟨S8192, .i32⟩ : BufTy).Contents (Elt F)),
    binary main_arg13 main_v162 main_v163 (addi : (⟨S8192, .i32⟩ : BufTy).Contents (Elt F) → (⟨S8192, .i32⟩ : BufTy).Contents (Elt F) → (⟨S8192, .i32⟩ : BufTy).Contents (Elt F)),
    ternary main_v161 main_v163 main_arg13 main_v164 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v164 main_v165 (broadcastInDim S8192x1 ![0] bcast_S8192_S8192x1_0 : (⟨S8192, .i32⟩ : BufTy).Contents (Elt F) → (⟨S8192x1, .i32⟩ : BufTy).Contents (Elt F)),
    binary main_v132 main_v165 main_v166 ((fun x i => Host.gather gather_S8192x128_S8192x1_S8192x128_1_0_n_n_0_1_1128 x i) : (⟨S8192x128, .f32⟩ : BufTy).Contents (Elt F) → (⟨S8192x1, .i32⟩ : BufTy).Contents (Elt F) → (⟨S8192x128, .f32⟩ : BufTy).Contents (Elt F)),
    binary main_v132 main_v166 main_v167 (mulf : (⟨S8192x128, .f32⟩ : BufTy).Contents (Elt F) → (⟨S8192x128, .f32⟩ : BufTy).Contents (Elt F) → (⟨S8192x128, .f32⟩ : BufTy).Contents (Elt F)),
    nullary main_cst_32 (constant S_ .f32 0x00000000#32),
    binary main_v167 main_cst_32 main_v168 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    TRef.binary (TRef.of (T := ⟨S8192x128, .f32⟩) main_v132) (TRef.of (T := ⟨S8192x128, .f32⟩) main_v132) (TRef.of (T := ⟨S8192x128, .f32⟩) main_call5_v0) mulf,
    TRef.nullary (TRef.of (T := ⟨S_, .f32⟩) main_call5_cst) (constant S_ .f32 0x00000000#32),
    TRef.binary (TRef.of (T := ⟨S8192x128, .f32⟩) main_call5_v0) (TRef.of (T := ⟨S_, .f32⟩) main_call5_cst) (TRef.of (T := ⟨S8192, .f32⟩) main_call5_v1) (fun x v => Host.reduceAdd x v reducesTo_S8192x128_S8192_d1 h_S_),
    TRef.unary (TRef.of (T := ⟨S8192, .f32⟩) main_call5_v1) (TRef.of (T := ⟨S8192, .f32⟩) main_v169) Host.sqrt,
    TRef.binary (TRef.of (T := ⟨S8192x128, .f32⟩) main_v166) (TRef.of (T := ⟨S8192x128, .f32⟩) main_v166) (TRef.of (T := ⟨S8192x128, .f32⟩) main_call6_v0) mulf,
    TRef.nullary (TRef.of (T := ⟨S_, .f32⟩) main_call6_cst) (constant S_ .f32 0x00000000#32),
    TRef.binary (TRef.of (T := ⟨S8192x128, .f32⟩) main_call6_v0) (TRef.of (T := ⟨S_, .f32⟩) main_call6_cst) (TRef.of (T := ⟨S8192, .f32⟩) main_call6_v1) (fun x v => Host.reduceAdd x v reducesTo_S8192x128_S8192_d1 h_S_),
    TRef.unary (TRef.of (T := ⟨S8192, .f32⟩) main_call6_v1) (TRef.of (T := ⟨S8192, .f32⟩) main_v170) Host.sqrt,
    binary main_v169 main_v170 main_v171 (mulf : (⟨S8192, .f32⟩ : BufTy).Contents (Elt F) → (⟨S8192, .f32⟩ : BufTy).Contents (Elt F) → (⟨S8192, .f32⟩ : BufTy).Contents (Elt F)),
    nullary main_cst_33 (constant S_ .f32 0x322BCC77#32),
    unary main_cst_33 main_v172 (broadcastInDim S8192 ![] bcast_S_S8192 : (⟨S_, .f32⟩ : BufTy).Contents (Elt F) → (⟨S8192, .f32⟩ : BufTy).Contents (Elt F)),
    binary main_v171 main_v172 main_v173 (maximumf : (⟨S8192, .f32⟩ : BufTy).Contents (Elt F) → (⟨S8192, .f32⟩ : BufTy).Contents (Elt F) → (⟨S8192, .f32⟩ : BufTy).Contents (Elt F)),
    binary main_v168 main_v173 main_v174 (Host.divf : (⟨S8192, .f32⟩ : BufTy).Contents (Elt F) → (⟨S8192, .f32⟩ : BufTy).Contents (Elt F) → (⟨S8192, .f32⟩ : BufTy).Contents (Elt F)),
    nullary main_cst_34 (constant S_ .f32 0x00000000#32),
    binary main_v174 main_cst_34 main_v175 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_35 (constant S_ .f32 0x46000000#32),
    binary main_v175 main_cst_35 main_v176 (Host.divf : (⟨S_, .f32⟩ : BufTy).Contents (Elt F) → (⟨S_, .f32⟩ : BufTy).Contents (Elt F) → (⟨S_, .f32⟩ : BufTy).Contents (Elt F)),
    unary main_v142 main_v177 (Host.negf : (⟨S_, .f32⟩ : BufTy).Contents (Elt F) → (⟨S_, .f32⟩ : BufTy).Contents (Elt F)),
    unary main_v177 main_v178 (Host.exp : (⟨S_, .f32⟩ : BufTy).Contents (Elt F) → (⟨S_, .f32⟩ : BufTy).Contents (Elt F)),
    nullary main_cst_36 (constant S_ .f32 0x3F800000#32),
    binary main_cst_36 main_v178 main_v179 (addf : (⟨S_, .f32⟩ : BufTy).Contents (Elt F) → (⟨S_, .f32⟩ : BufTy).Contents (Elt F) → (⟨S_, .f32⟩ : BufTy).Contents (Elt F)),
    nullary main_cst_37 (constant S_ .f32 0x3F800000#32),
    binary main_cst_37 main_v179 main_v180 (Host.divf : (⟨S_, .f32⟩ : BufTy).Contents (Elt F) → (⟨S_, .f32⟩ : BufTy).Contents (Elt F) → (⟨S_, .f32⟩ : BufTy).Contents (Elt F)),
    unary main_v180 main_v181 (Host.log : (⟨S_, .f32⟩ : BufTy).Contents (Elt F) → (⟨S_, .f32⟩ : BufTy).Contents (Elt F)),
    unary main_v181 main_v182 (Host.negf : (⟨S_, .f32⟩ : BufTy).Contents (Elt F) → (⟨S_, .f32⟩ : BufTy).Contents (Elt F)),
    unary main_v159 main_v183 (Host.negf : (⟨S_, .f32⟩ : BufTy).Contents (Elt F) → (⟨S_, .f32⟩ : BufTy).Contents (Elt F)),
    unary main_v183 main_v184 (Host.exp : (⟨S_, .f32⟩ : BufTy).Contents (Elt F) → (⟨S_, .f32⟩ : BufTy).Contents (Elt F)),
    nullary main_cst_38 (constant S_ .f32 0x3F800000#32),
    binary main_cst_38 main_v184 main_v185 (addf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v185 main_v186 (Host.divf : (⟨S_, .f32⟩ : BufTy).Contents (Elt F) → (⟨S_, .f32⟩ : BufTy).Contents (Elt F) → (⟨S_, .f32⟩ : BufTy).Contents (Elt F)),
    nullary main_cst_40 (constant S_ .f32 0x3F800000#32),
    binary main_cst_40 main_v186 main_v187 (subf : (⟨S_, .f32⟩ : BufTy).Contents (Elt F) → (⟨S_, .f32⟩ : BufTy).Contents (Elt F) → (⟨S_, .f32⟩ : BufTy).Contents (Elt F)),
    unary main_v187 main_v188 (Host.log : (⟨S_, .f32⟩ : BufTy).Contents (Elt F) → (⟨S_, .f32⟩ : BufTy).Contents (Elt F)),
    binary main_v182 main_v188 main_v189 (subf : (⟨S_, .f32⟩ : BufTy).Contents (Elt F) → (⟨S_, .f32⟩ : BufTy).Contents (Elt F) → (⟨S_, .f32⟩ : BufTy).Contents (Elt F)),
    unary main_v176 main_v190 (Host.negf : (⟨S_, .f32⟩ : BufTy).Contents (Elt F) → (⟨S_, .f32⟩ : BufTy).Contents (Elt F)),
    unary main_v190 main_v191 (Host.exp : (⟨S_, .f32⟩ : BufTy).Contents (Elt F) → (⟨S_, .f32⟩ : BufTy).Contents (Elt F)),
    nullary main_cst_41 (constant S_ .f32 0x3F800000#32),
    binary main_cst_41 main_v191 main_v192 (addf : (⟨S_, .f32⟩ : BufTy).Contents (Elt F) → (⟨S_, .f32⟩ : BufTy).Contents (Elt F) → (⟨S_, .f32⟩ : BufTy).Contents (Elt F)),
    nullary main_cst_42 (constant S_ .f32 0x3F800000#32),
    binary main_cst_42 main_v192 main_v193 (Host.divf : (⟨S_, .f32⟩ : BufTy).Contents (Elt F) → (⟨S_, .f32⟩ : BufTy).Contents (Elt F) → (⟨S_, .f32⟩ : BufTy).Contents (Elt F)),
    nullary main_cst_43 (constant S_ .f32 0x3F800000#32),
    binary main_cst_43 main_v193 main_v194 (subf : (⟨S_, .f32⟩ : BufTy).Contents (Elt F) → (⟨S_, .f32⟩ : BufTy).Contents (Elt F) → (⟨S_, .f32⟩ : BufTy).Contents (Elt F)),
    unary main_v194 main_v195 (Host.log : (⟨S_, .f32⟩ : BufTy).Contents (Elt F) → (⟨S_, .f32⟩ : BufTy).Contents (Elt F)),
    binary main_v189 main_v195 main_v196 (subf : (⟨S_, .f32⟩ : BufTy).Contents (Elt F) → (⟨S_, .f32⟩ : BufTy).Contents (Elt F) → (⟨S_, .f32⟩ : BufTy).Contents (Elt F)),
    unary main_v196 main_v197 (Host.negf : (⟨S_, .f32⟩ : BufTy).Contents (Elt F) → (⟨S_, .f32⟩ : BufTy).Contents (Elt F)),
    nullary main_cst_44 (constant S_ .f32 0x3F000000#32),
    unary main_cst_44 main_v198 (broadcastInDim S8192x128 ![] bcast_S_S8192x128 : (⟨S_, .f32⟩ : BufTy).Contents (Elt F) → (⟨S8192x128, .f32⟩ : BufTy).Contents (Elt F)),
    binary main_v98 main_v198 main_v199 (mulf : (⟨S8192x128, .f32⟩ : BufTy).Contents (Elt F) → (⟨S8192x128, .f32⟩ : BufTy).Contents (Elt F) → (⟨S8192x128, .f32⟩ : BufTy).Contents (Elt F)),
    nullary main_cst_45 (constant S_ .f32 0x3F000000#32),
    unary main_cst_45 main_v200 (broadcastInDim S8192x128 ![] bcast_S_S8192x128 : (⟨S_, .f32⟩ : BufTy).Contents (Elt F) → (⟨S8192x128, .f32⟩ : BufTy).Contents (Elt F)),
    binary main_v132 main_v200 main_v201 (mulf : (⟨S8192x128, .f32⟩ : BufTy).Contents (Elt F) → (⟨S8192x128, .f32⟩ : BufTy).Contents (Elt F) → (⟨S8192x128, .f32⟩ : BufTy).Contents (Elt F)),
    binary main_v199 main_v201 main_v202 (addf : (⟨S8192x128, .f32⟩ : BufTy).Contents (Elt F) → (⟨S8192x128, .f32⟩ : BufTy).Contents (Elt F) → (⟨S8192x128, .f32⟩ : BufTy).Contents (Elt F)),
    nullary main_c_46 (constantI S_ 32 0#32),
    unary main_c_46 main_v203 (broadcastInDim S1000000 ![] bcast_S_S1000000 : (⟨S_, .i32⟩ : BufTy).Contents (Elt F) → (⟨S1000000, .i32⟩ : BufTy).Contents (Elt F)),
    binary main_arg10 main_v203 main_v204 (cmpi .slt : (⟨S1000000, .i32⟩ : BufTy).Contents (Elt F) → (⟨S1000000, .i32⟩ : BufTy).Contents (Elt F) → (⟨S1000000, .i1⟩ : BufTy).Contents (Elt F)),
    nullary main_c_47 (constantI S_ 32 8192#32),
    unary main_c_47 main_v205 (broadcastInDim S1000000 ![] bcast_S_S1000000 : (⟨S_, .i32⟩ : BufTy).Contents (Elt F) → (⟨S1000000, .i32⟩ : BufTy).Contents (Elt F)),
    binary main_arg10 main_v205 main_v206 (addi : (⟨S1000000, .i32⟩ : BufTy).Contents (Elt F) → (⟨S1000000, .i32⟩ : BufTy).Contents (Elt F) → (⟨S1000000, .i32⟩ : BufTy).Contents (Elt F)),
    ternary main_v204 main_v206 main_arg10 main_v207 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v207 main_v208 (broadcastInDim S1000000x1 ![0] bcast_S1000000_S1000000x1_0 : (⟨S1000000, .i32⟩ : BufTy).Contents (Elt F) → (⟨S1000000x1, .i32⟩ : BufTy).Contents (Elt F)),
    binary main_arg4 main_v208 main_v209 ((fun x i => Host.gather gather_S8192x1_S1000000x1_S1000000x1_1_0_n_n_0_1_11 x i) : (⟨S8192x1, .f32⟩ : BufTy).Contents (Elt F) → (⟨S1000000x1, .i32⟩ : BufTy).Contents (Elt F) → (⟨S1000000x1, .f32⟩ : BufTy).Contents (Elt F)),
    nullary main_c_48 (constantI S_ 32 0#32),
    unary main_c_48 main_v210 (broadcastInDim S1000000 ![] bcast_S_S1000000 : (⟨S_, .i32⟩ : BufTy).Contents (Elt F) → (⟨S1000000, .i32⟩ : BufTy).Contents (Elt F)),
    binary main_arg11 main_v210 main_v211 (cmpi .slt : (⟨S1000000, .i32⟩ : BufTy).Contents (Elt F) → (⟨S1000000, .i32⟩ : BufTy).Contents (Elt F) → (⟨S1000000, .i1⟩ : BufTy).Contents (Elt F)),
    nullary main_c_49 (constantI S_ 32 50000#32),
    unary main_c_49 main_v212 (broadcastInDim S1000000 ![] bcast_S_S1000000 : (⟨S_, .i32⟩ : BufTy).Contents (Elt F) → (⟨S1000000, .i32⟩ : BufTy).Contents (Elt F)),
    binary main_arg11 main_v212 main_v213 (addi : (⟨S1000000, .i32⟩ : BufTy).Contents (Elt F) → (⟨S1000000, .i32⟩ : BufTy).Contents (Elt F) → (⟨S1000000, .i32⟩ : BufTy).Contents (Elt F)),
    ternary main_v211 main_v213 main_arg11 main_v214 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v214 main_v215 (broadcastInDim S1000000x1 ![0] bcast_S1000000_S1000000x1_0 : (⟨S1000000, .i32⟩ : BufTy).Contents (Elt F) → (⟨S1000000x1, .i32⟩ : BufTy).Contents (Elt F)),
    binary main_arg3 main_v215 main_v216 ((fun x i => Host.gather gather_S50000x1_S1000000x1_S1000000x1_1_0_n_n_0_1_11 x i) : (⟨S50000x1, .f32⟩ : BufTy).Contents (Elt F) → (⟨S1000000x1, .i32⟩ : BufTy).Contents (Elt F) → (⟨S1000000x1, .f32⟩ : BufTy).Contents (Elt F)),
    binary main_v209 main_v216 main_v217 (Host.divf : (⟨S1000000x1, .f32⟩ : BufTy).Contents (Elt F) → (⟨S1000000x1, .f32⟩ : BufTy).Contents (Elt F) → (⟨S1000000x1, .f32⟩ : BufTy).Contents (Elt F)),
    nullary main_c_50 (constantI S_ 32 0#32),
    unary main_c_50 main_v218 (broadcastInDim S1000000 ![] bcast_S_S1000000 : (⟨S_, .i32⟩ : BufTy).Contents (Elt F) → (⟨S1000000, .i32⟩ : BufTy).Contents (Elt F)),
    binary main_arg10 main_v218 main_v219 (cmpi .slt : (⟨S1000000, .i32⟩ : BufTy).Contents (Elt F) → (⟨S1000000, .i32⟩ : BufTy).Contents (Elt F) → (⟨S1000000, .i1⟩ : BufTy).Contents (Elt F)),
    nullary main_c_51 (constantI S_ 32 8192#32),
    unary main_c_51 main_v220 (broadcastInDim S1000000 ![] bcast_S_S1000000 : (⟨S_, .i32⟩ : BufTy).Contents (Elt F) → (⟨S1000000, .i32⟩ : BufTy).Contents (Elt F)),
    binary main_arg10 main_v220 main_v221 (addi : (⟨S1000000, .i32⟩ : BufTy).Contents (Elt F) → (⟨S1000000, .i32⟩ : BufTy).Contents (Elt F) → (⟨S1000000, .i32⟩ : BufTy).Contents (Elt F)),
    ternary main_v219 main_v221 main_arg10 main_v222 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v222 main_v223 (broadcastInDim S1000000x1 ![0] bcast_S1000000_S1000000x1_0 : (⟨S1000000, .i32⟩ : BufTy).Contents (Elt F) → (⟨S1000000x1, .i32⟩ : BufTy).Contents (Elt F)),
    binary main_v202 main_v223 main_v224 ((fun x i => Host.gather gather_S8192x128_S1000000x1_S1000000x128_1_0_n_n_0_1_1128 x i) : (⟨S8192x128, .f32⟩ : BufTy).Contents (Elt F) → (⟨S1000000x1, .i32⟩ : BufTy).Contents (Elt F) → (⟨S1000000x128, .f32⟩ : BufTy).Contents (Elt F)),
    unary main_v217 main_v225 (broadcastInDim S1000000x128 ![0, 1] bcast_S1000000x1_S1000000x128_0_1 : (⟨S1000000x1, .f32⟩ : BufTy).Contents (Elt F) → (⟨S1000000x128, .f32⟩ : BufTy).Contents (Elt F)),
    binary main_v225 main_v224 main_v226 (mulf : (⟨S1000000x128, .f32⟩ : BufTy).Contents (Elt F) → (⟨S1000000x128, .f32⟩ : BufTy).Contents (Elt F) → (⟨S1000000x128, .f32⟩ : BufTy).Contents (Elt F)),
    nullary main_cst_52 (constant S_ .f32 0x00000000#32),
    unary main_cst_52 main_v227 (broadcastInDim S50000x128 ![] bcast_S_S50000x128 : (⟨S_, .f32⟩ : BufTy).Contents (Elt F) → (⟨S50000x128, .f32⟩ : BufTy).Contents (Elt F)),
    unary main_arg11 main_v228 (broadcastInDim S1000000x1 ![0] bcast_S1000000_S1000000x1_0 : (⟨S1000000, .i32⟩ : BufTy).Contents (Elt F) → (⟨S1000000x1, .i32⟩ : BufTy).Contents (Elt F)),
    ternary main_v227 main_v228 main_v226 main_v229 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    binary main_v229 main_arg34 main_v230 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg35 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v230 main_v232 main_v233 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v233) (TRef.of (T := ⟨S50000x128, .f32⟩) main_call7_v0) (TRef.of (T := ⟨S50000x128, .f32⟩) main_v234) maximumf ]

set_option maxHeartbeats 4000000 in
/-- The layer normalisation of the rectified dense layer. -/
abbrev refT2 : List (HloOp τ sig (Elt F)) :=
  [ nullary main_cst_53 (constant S_ .f32 0x00000000#32),
    binary main_v234 main_cst_53 main_v235 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v235 main_v236 (broadcastInDim S50000x1 ![0] bcast_S50000_S50000x1_0 : (⟨S50000, .f32⟩ : BufTy).Contents (Elt F) → (⟨S50000x1, .f32⟩ : BufTy).Contents (Elt F)),
    nullary main_cst_54 (constant S_ .f32 0x43000000#32),
    unary main_cst_54 main_v237 (broadcastInDim S50000x1 ![] bcast_S_S50000x1 : (⟨S_, .f32⟩ : BufTy).Contents (Elt F) → (⟨S50000x1, .f32⟩ : BufTy).Contents (Elt F)),
    binary main_v236 main_v237 main_v238 (Host.divf : (⟨S50000x1, .f32⟩ : BufTy).Contents (Elt F) → (⟨S50000x1, .f32⟩ : BufTy).Contents (Elt F) → (⟨S50000x1, .f32⟩ : BufTy).Contents (Elt F)),
    unary main_v238 main_v239 (broadcastInDim S50000x128 ![0, 1] bcast_S50000x1_S50000x128_0_1 : (⟨S50000x1, .f32⟩ : BufTy).Contents (Elt F) → (⟨S50000x128, .f32⟩ : BufTy).Contents (Elt F)),
    binary main_v234 main_v239 main_v240 (subf : (⟨S50000x128, .f32⟩ : BufTy).Contents (Elt F) → (⟨S50000x128, .f32⟩ : BufTy).Contents (Elt F) → (⟨S50000x128, .f32⟩ : BufTy).Contents (Elt F)),
    binary main_v240 main_v240 main_v241 (mulf : (⟨S50000x128, .f32⟩ : BufTy).Contents (Elt F) → (⟨S50000x128, .f32⟩ : BufTy).Contents (Elt F) → (⟨S50000x128, .f32⟩ : BufTy).Contents (Elt F)),
    nullary main_cst_55 (constant S_ .f32 0x00000000#32),
    binary main_v241 main_cst_55 main_v242 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v242 main_v243 (broadcastInDim S50000x1 ![0] bcast_S50000_S50000x1_0 : (⟨S50000, .f32⟩ : BufTy).Contents (Elt F) → (⟨S50000x1, .f32⟩ : BufTy).Contents (Elt F)),
    nullary main_cst_56 (constant S_ .f32 0x43000000#32),
    unary main_cst_56 main_v244 (broadcastInDim S50000x1 ![] bcast_S_S50000x1 : (⟨S_, .f32⟩ : BufTy).Contents (Elt F) → (⟨S50000x1, .f32⟩ : BufTy).Contents (Elt F)),
    binary main_v243 main_v244 main_v245 (Host.divf : (⟨S50000x1, .f32⟩ : BufTy).Contents (Elt F) → (⟨S50000x1, .f32⟩ : BufTy).Contents (Elt F) → (⟨S50000x1, .f32⟩ : BufTy).Contents (Elt F)),
    unary main_v238 main_v246 (broadcastInDim S50000x128 ![0, 1] bcast_S50000x1_S50000x128_0_1 : (⟨S50000x1, .f32⟩ : BufTy).Contents (Elt F) → (⟨S50000x128, .f32⟩ : BufTy).Contents (Elt F)),
    binary main_v234 main_v246 main_v247 (subf : (⟨S50000x128, .f32⟩ : BufTy).Contents (Elt F) → (⟨S50000x128, .f32⟩ : BufTy).Contents (Elt F) → (⟨S50000x128, .f32⟩ : BufTy).Contents (Elt F)),
    nullary main_cst_57 (constant S_ .f32 0x3727C5AC#32),
    unary main_cst_57 main_v248 (broadcastInDim S50000x1 ![] bcast_S_S50000x1 : (⟨S_, .f32⟩ : BufTy).Contents (Elt F) → (⟨S50000x1, .f32⟩ : BufTy).Contents (Elt F)),
    binary main_v245 main_v248 main_v249 (addf : (⟨S50000x1, .f32⟩ : BufTy).Contents (Elt F) → (⟨S50000x1, .f32⟩ : BufTy).Contents (Elt F) → (⟨S50000x1, .f32⟩ : BufTy).Contents (Elt F)),
    unary main_v249 main_v250 (Host.rsqrt : (⟨S50000x1, .f32⟩ : BufTy).Contents (Elt F) → (⟨S50000x1, .f32⟩ : BufTy).Contents (Elt F)),
    unary main_v250 main_v251 (broadcastInDim S50000x128 ![0, 1] bcast_S50000x1_S50000x128_0_1 : (⟨S50000x1, .f32⟩ : BufTy).Contents (Elt F) → (⟨S50000x128, .f32⟩ : BufTy).Contents (Elt F)),
    binary main_v247 main_v251 main_v252 (mulf : (⟨S50000x128, .f32⟩ : BufTy).Contents (Elt F) → (⟨S50000x128, .f32⟩ : BufTy).Contents (Elt F) → (⟨S50000x128, .f32⟩ : BufTy).Contents (Elt F)),
    unary main_arg36 main_v253 (broadcastInDim S1x128 ![1] bcast_S128_S1x128_1 : (⟨S128, .f32⟩ : BufTy).Contents (Elt F) → (⟨S1x128, .f32⟩ : BufTy).Contents (Elt F)),
    unary main_v253 main_v254 (broadcastInDim S50000x128 ![0, 1] bcast_S1x128_S50000x128_0_1 : (⟨S1x128, .f32⟩ : BufTy).Contents (Elt F) → (⟨S50000x128, .f32⟩ : BufTy).Contents (Elt F)),
    binary main_v252 main_v254 main_v255 (mulf : (⟨S50000x128, .f32⟩ : BufTy).Contents (Elt F) → (⟨S50000x128, .f32⟩ : BufTy).Contents (Elt F) → (⟨S50000x128, .f32⟩ : BufTy).Contents (Elt F)),
    unary main_arg37 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v255 main_v257 main_v258 (addf : (⟨S50000x128, .f32⟩ : BufTy).Contents (Elt F) → (⟨S50000x128, .f32⟩ : BufTy).Contents (Elt F) → (⟨S50000x128, .f32⟩ : BufTy).Contents (Elt F)) ]

set_option maxHeartbeats 8000000 in
theorem refT_split : (refT : List (HloOp τ sig (Elt F))) = refT1 ++ refT2 := rfl

end Cert.ReferenceIdeal.Parts

end
-- ==== Proof.KiPartsT.lean ====
/-
  The kernel program's last stretch of host operations cut in two: up to the rectified dense layer of the
  hyperedge-to-node aggregation, and that layer's normalisation.
-/
import proofs.«119995_j74062416053450_2_alg».proof.Proof.Gen.KernelIdeal.Launch

set_option maxRecDepth 16384

noncomputable section

namespace Cert.KernelIdeal.Parts

open Cert.KernelIdeal Cert.KernelIdeal.Gen Idealize.ShloMosaic Idealize.ShloMosaic.TcCoe Idealize.SL.Sem

variable {F : FTy → Type} [FloatOps F]

set_option maxHeartbeats 8000000 in
/-- The three cosine losses, the mix of the two convolutions' results, its aggregation onto the vertices (two gathers, a quotient, a scatter-add), the dense layer, the rectification. -/
abbrev k4A : List (HloOp τ sig (Elt F)) :=
  [ StableHlo.TRef.binary (.of main_call0_v69 : StableHlo.TRef sig ⟨S8192x128, .f32⟩) (.of main_call0_v78 : StableHlo.TRef sig ⟨S8192x128, .f32⟩) (.of main_call0_v79 : StableHlo.TRef sig ⟨S8192x128, .f32⟩) mulf,
    StableHlo.TRef.nullary (.of main_call0_cst_10 : StableHlo.TRef sig ⟨S_, .f32⟩) (constant S_ .f32 0x00000000#32),
    StableHlo.TRef.binary (.of main_call0_v79 : StableHlo.TRef sig ⟨S8192x128, .f32⟩) (.of main_call0_cst_10 : StableHlo.TRef sig ⟨S_, .f32⟩) (.of main_call0_v80 : StableHlo.TRef sig ⟨S8192, .f32⟩) (fun x v => Host.reduceAdd x v reducesTo_S8192x128_S8192_d1 h_S_),
    StableHlo.TRef.binary (.of main_call0_v69 : StableHlo.TRef sig ⟨S8192x128, .f32⟩) (.of main_call0_v69 : StableHlo.TRef sig ⟨S8192x128, .f32⟩) (.of main_call0_call1_v0 : StableHlo.TRef sig ⟨S8192x128, .f32⟩) mulf,
    StableHlo.TRef.nullary (.of main_call0_call1_cst : StableHlo.TRef sig ⟨S_, .f32⟩) (constant S_ .f32 0x00000000#32),
    StableHlo.TRef.binary (.of main_call0_call1_v0 : StableHlo.TRef sig ⟨S8192x128, .f32⟩) (.of main_call0_call1_cst : StableHlo.TRef sig ⟨S_, .f32⟩) (.of main_call0_call1_v1 : StableHlo.TRef sig ⟨S8192, .f32⟩) (fun x v => Host.reduceAdd x v reducesTo_S8192x128_S8192_d1 h_S_),
    StableHlo.TRef.unary (.of main_call0_call1_v1 : StableHlo.TRef sig ⟨S8192, .f32⟩) (.of main_call0_v81 : StableHlo.TRef sig ⟨S8192, .f32⟩) Host.sqrt,
    StableHlo.TRef.binary (.of main_call0_v78 : StableHlo.TRef sig ⟨S8192x128, .f32⟩) (.of main_call0_v78 : StableHlo.TRef sig ⟨S8192x128, .f32⟩) (.of main_call0_call2_v0 : StableHlo.TRef sig ⟨S8192x128, .f32⟩) mulf,
    StableHlo.TRef.nullary (.of main_call0_call2_cst : StableHlo.TRef sig ⟨S_, .f32⟩) (constant S_ .f32 0x00000000#32),
    StableHlo.TRef.binary (.of main_call0_call2_v0 : StableHlo.TRef sig ⟨S8192x128, .f32⟩) (.of main_call0_call2_cst : StableHlo.TRef sig ⟨S_, .f32⟩) (.of main_call0_call2_v1 : StableHlo.TRef sig ⟨S8192, .f32⟩) (fun x v => Host.reduceAdd x v reducesTo_S8192x128_S8192_d1 h_S_),
    StableHlo.TRef.unary (.of main_call0_call2_v1 : StableHlo.TRef sig ⟨S8192, .f32⟩) (.of main_call0_v82 : StableHlo.TRef sig ⟨S8192, .f32⟩) Host.sqrt,
    StableHlo.TRef.binary main_call0_call1.v2 main_call0_call2.v2 (.of main_call0_v83 : StableHlo.TRef sig ⟨S8192, .f32⟩) mulf,
    StableHlo.TRef.nullary (.of main_call0_cst_11 : StableHlo.TRef sig ⟨S_, .f32⟩) (constant S_ .f32 0x322BCC77#32),
    StableHlo.TRef.unary (.of main_call0_cst_11 : StableHlo.TRef sig ⟨S_, .f32⟩) (.of main_call0_v84 : StableHlo.TRef sig ⟨S8192, .f32⟩) (broadcastInDim S8192 ![] bcast_S_S8192),
    StableHlo.TRef.binary (.of main_call0_v83 : StableHlo.TRef sig ⟨S8192, .f32⟩) (.of main_call0_v84 : StableHlo.TRef sig ⟨S8192, .f32⟩) (.of main_call0_v85 : StableHlo.TRef sig ⟨S8192, .f32⟩) maximumf,
    StableHlo.TRef.binary (.of main_call0_v80 : StableHlo.TRef sig ⟨S8192, .f32⟩) (.of main_call0_v85 : StableHlo.TRef sig ⟨S8192, .f32⟩) (.of main_call0_v86 : StableHlo.TRef sig ⟨S8192, .f32⟩) Host.divf,
    StableHlo.TRef.nullary (.of main_call0_cst_12 : StableHlo.TRef sig ⟨S_, .f32⟩) (constant S_ .f32 0x00000000#32),
    StableHlo.TRef.binary (.of main_call0_v86 : StableHlo.TRef sig ⟨S8192, .f32⟩) (.of main_call0_cst_12 : StableHlo.TRef sig ⟨S_, .f32⟩) (.of main_call0_v87 : StableHlo.TRef sig ⟨S_, .f32⟩) (fun x v => Host.reduceAdd x v reducesTo_S8192_S_d0 h_S_),
    StableHlo.TRef.nullary (.of main_call0_cst_13 : StableHlo.TRef sig ⟨S_, .f32⟩) (constant S_ .f32 0x46000000#32),
    StableHlo.TRef.binary (.of main_call0_v87 : StableHlo.TRef sig ⟨S_, .f32⟩) (.of main_call0_cst_13 : StableHlo.TRef sig ⟨S_, .f32⟩) (.of main_call0_v88 : StableHlo.TRef sig ⟨S_, .f32⟩) Host.divf,
    StableHlo.TRef.nullary (.of main_call0_c_14 : StableHlo.TRef sig ⟨S_, .i32⟩) (constantI S_ 32 0#32),
    StableHlo.TRef.unary (.of main_call0_c_14 : StableHlo.TRef sig ⟨S_, .i32⟩) (.of main_call0_v89 : StableHlo.TRef sig ⟨S8192, .i32⟩) (broadcastInDim S8192 ![] bcast_S_S8192),
    StableHlo.TRef.binary (.of main_arg12 : StableHlo.TRef sig ⟨S8192, .i32⟩) (.of main_call0_v89 : StableHlo.TRef sig ⟨S8192, .i32⟩) (.of main_call0_v90 : StableHlo.TRef sig ⟨S8192, .i1⟩) (cmpi .slt),
    StableHlo.TRef.nullary (.of main_call0_c_15 : StableHlo.TRef sig ⟨S_, .i32⟩) (constantI S_ 32 8192#32),
    StableHlo.TRef.unary (.of main_call0_c_15 : StableHlo.TRef sig ⟨S_, .i32⟩) (.of main_call0_v91 : StableHlo.TRef sig ⟨S8192, .i32⟩) (broadcastInDim S8192 ![] bcast_S_S8192),
    StableHlo.TRef.binary (.of main_arg12 : StableHlo.TRef sig ⟨S8192, .i32⟩) (.of main_call0_v91 : StableHlo.TRef sig ⟨S8192, .i32⟩) (.of main_call0_v92 : StableHlo.TRef sig ⟨S8192, .i32⟩) addi,
    StableHlo.TRef.ternary (.of main_call0_v90 : StableHlo.TRef sig ⟨S8192, .i1⟩) (.of main_call0_v92 : StableHlo.TRef sig ⟨S8192, .i32⟩) (.of main_arg12 : StableHlo.TRef sig ⟨S8192, .i32⟩) (.of main_call0_v93 : StableHlo.TRef sig ⟨S8192, .i32⟩) select,
    StableHlo.TRef.unary (.of main_call0_v93 : StableHlo.TRef sig ⟨S8192, .i32⟩) (.of main_call0_v94 : StableHlo.TRef sig ⟨S8192x1, .i32⟩) (broadcastInDim S8192x1 ![0] bcast_S8192_S8192x1_0),
    StableHlo.TRef.binary (.of main_call0_v69 : StableHlo.TRef sig ⟨S8192x128, .f32⟩) (.of main_call0_v94 : StableHlo.TRef sig ⟨S8192x1, .i32⟩) (.of main_call0_v95 : StableHlo.TRef sig ⟨S8192x128, .f32⟩) (fun x i => Host.gather gather_S8192x128_S8192x1_S8192x128_1_0_n_n_0_1_1128 x i),
    StableHlo.TRef.binary (.of main_call0_v69 : StableHlo.TRef sig ⟨S8192x128, .f32⟩) (.of main_call0_v95 : StableHlo.TRef sig ⟨S8192x128, .f32⟩) (.of main_call0_v96 : StableHlo.TRef sig ⟨S8192x128, .f32⟩) mulf,
    StableHlo.TRef.nullary (.of main_call0_cst_16 : StableHlo.TRef sig ⟨S_, .f32⟩) (constant S_ .f32 0x00000000#32),
    StableHlo.TRef.binary (.of main_call0_v96 : StableHlo.TRef sig ⟨S8192x128, .f32⟩) (.of main_call0_cst_16 : StableHlo.TRef sig ⟨S_, .f32⟩) (.of main_call0_v97 : StableHlo.TRef sig ⟨S8192, .f32⟩) (fun x v => Host.reduceAdd x v reducesTo_S8192x128_S8192_d1 h_S_),
    StableHlo.TRef.binary (.of main_call0_v69 : StableHlo.TRef sig ⟨S8192x128, .f32⟩) (.of main_call0_v69 : StableHlo.TRef sig ⟨S8192x128, .f32⟩) (.of main_call0_call3_v0 : StableHlo.TRef sig ⟨S8192x128, .f32⟩) mulf,
    StableHlo.TRef.nullary (.of main_call0_call3_cst : StableHlo.TRef sig ⟨S_, .f32⟩) (constant S_ .f32 0x00000000#32),
    StableHlo.TRef.binary (.of main_call0_call3_v0 : StableHlo.TRef sig ⟨S8192x128, .f32⟩) (.of main_call0_call3_cst : StableHlo.TRef sig ⟨S_, .f32⟩) (.of main_call0_call3_v1 : StableHlo.TRef sig ⟨S8192, .f32⟩) (fun x v => Host.reduceAdd x v reducesTo_S8192x128_S8192_d1 h_S_),
    StableHlo.TRef.unary (.of main_call0_call3_v1 : StableHlo.TRef sig ⟨S8192, .f32⟩) (.of main_call0_v98 : StableHlo.TRef sig ⟨S8192, .f32⟩) Host.sqrt,
    StableHlo.TRef.binary (.of main_call0_v95 : StableHlo.TRef sig ⟨S8192x128, .f32⟩) (.of main_call0_v95 : StableHlo.TRef sig ⟨S8192x128, .f32⟩) (.of main_call0_call4_v0 : StableHlo.TRef sig ⟨S8192x128, .f32⟩) mulf,
    StableHlo.TRef.nullary (.of main_call0_call4_cst : StableHlo.TRef sig ⟨S_, .f32⟩) (constant S_ .f32 0x00000000#32),
    StableHlo.TRef.binary (.of main_call0_call4_v0 : StableHlo.TRef sig ⟨S8192x128, .f32⟩) (.of main_call0_call4_cst : StableHlo.TRef sig ⟨S_, .f32⟩) (.of main_call0_call4_v1 : StableHlo.TRef sig ⟨S8192, .f32⟩) (fun x v => Host.reduceAdd x v reducesTo_S8192x128_S8192_d1 h_S_),
    StableHlo.TRef.unary (.of main_call0_call4_v1 : StableHlo.TRef sig ⟨S8192, .f32⟩) (.of main_call0_v99 : StableHlo.TRef sig ⟨S8192, .f32⟩) Host.sqrt,
    StableHlo.TRef.binary main_call0_call3.v2 main_call0_call4.v2 (.of main_call0_v100 : StableHlo.TRef sig ⟨S8192, .f32⟩) mulf,
    StableHlo.TRef.nullary (.of main_call0_cst_17 : StableHlo.TRef sig ⟨S_, .f32⟩) (constant S_ .f32 0x322BCC77#32),
    StableHlo.TRef.unary (.of main_call0_cst_17 : StableHlo.TRef sig ⟨S_, .f32⟩) (.of main_call0_v101 : StableHlo.TRef sig ⟨S8192, .f32⟩) (broadcastInDim S8192 ![] bcast_S_S8192),
    StableHlo.TRef.binary (.of main_call0_v100 : StableHlo.TRef sig ⟨S8192, .f32⟩) (.of main_call0_v101 : StableHlo.TRef sig ⟨S8192, .f32⟩) (.of main_call0_v102 : StableHlo.TRef sig ⟨S8192, .f32⟩) maximumf,
    StableHlo.TRef.binary (.of main_call0_v97 : StableHlo.TRef sig ⟨S8192, .f32⟩) (.of main_call0_v102 : StableHlo.TRef sig ⟨S8192, .f32⟩) (.of main_call0_v103 : StableHlo.TRef sig ⟨S8192, .f32⟩) Host.divf,
    StableHlo.TRef.nullary (.of main_call0_cst_18 : StableHlo.TRef sig ⟨S_, .f32⟩) (constant S_ .f32 0x00000000#32),
    StableHlo.TRef.binary (.of main_call0_v103 : StableHlo.TRef sig ⟨S8192, .f32⟩) (.of main_call0_cst_18 : StableHlo.TRef sig ⟨S_, .f32⟩) (.of main_call0_v104 : StableHlo.TRef sig ⟨S_, .f32⟩) (fun x v => Host.reduceAdd x v reducesTo_S8192_S_d0 h_S_),
    StableHlo.TRef.nullary (.of main_call0_cst_19 : StableHlo.TRef sig ⟨S_, .f32⟩) (constant S_ .f32 0x46000000#32),
    StableHlo.TRef.binary (.of main_call0_v104 : StableHlo.TRef sig ⟨S_, .f32⟩) (.of main_call0_cst_19 : StableHlo.TRef sig ⟨S_, .f32⟩) (.of main_call0_v105 : StableHlo.TRef sig ⟨S_, .f32⟩) Host.divf,
    StableHlo.TRef.nullary (.of main_call0_c_20 : StableHlo.TRef sig ⟨S_, .i32⟩) (constantI S_ 32 0#32),
    StableHlo.TRef.unary (.of main_call0_c_20 : StableHlo.TRef sig ⟨S_, .i32⟩) (.of main_call0_v106 : StableHlo.TRef sig ⟨S8192, .i32⟩) (broadcastInDim S8192 ![] bcast_S_S8192),
    StableHlo.TRef.binary (.of main_arg13 : StableHlo.TRef sig ⟨S8192, .i32⟩) (.of main_call0_v106 : StableHlo.TRef sig ⟨S8192, .i32⟩) (.of main_call0_v107 : StableHlo.TRef sig ⟨S8192, .i1⟩) (cmpi .slt),
    StableHlo.TRef.nullary (.of main_call0_c_21 : StableHlo.TRef sig ⟨S_, .i32⟩) (constantI S_ 32 8192#32),
    StableHlo.TRef.unary (.of main_call0_c_21 : StableHlo.TRef sig ⟨S_, .i32⟩) (.of main_call0_v108 : StableHlo.TRef sig ⟨S8192, .i32⟩) (broadcastInDim S8192 ![] bcast_S_S8192),
    StableHlo.TRef.binary (.of main_arg13 : StableHlo.TRef sig ⟨S8192, .i32⟩) (.of main_call0_v108 : StableHlo.TRef sig ⟨S8192, .i32⟩) (.of main_call0_v109 : StableHlo.TRef sig ⟨S8192, .i32⟩) addi,
    StableHlo.TRef.ternary (.of main_call0_v107 : StableHlo.TRef sig ⟨S8192, .i1⟩) (.of main_call0_v109 : StableHlo.TRef sig ⟨S8192, .i32⟩) (.of main_arg13 : StableHlo.TRef sig ⟨S8192, .i32⟩) (.of main_call0_v110 : StableHlo.TRef sig ⟨S8192, .i32⟩) select,
    StableHlo.TRef.unary (.of main_call0_v110 : StableHlo.TRef sig ⟨S8192, .i32⟩) (.of main_call0_v111 : StableHlo.TRef sig ⟨S8192x1, .i32⟩) (broadcastInDim S8192x1 ![0] bcast_S8192_S8192x1_0),
    StableHlo.TRef.binary (.of main_call0_v78 : StableHlo.TRef sig ⟨S8192x128, .f32⟩) (.of main_call0_v111 : StableHlo.TRef sig ⟨S8192x1, .i32⟩) (.of main_call0_v112 : StableHlo.TRef sig ⟨S8192x128, .f32⟩) (fun x i => Host.gather gather_S8192x128_S8192x1_S8192x128_1_0_n_n_0_1_1128 x i),
    StableHlo.TRef.binary (.of main_call0_v78 : StableHlo.TRef sig ⟨S8192x128, .f32⟩) (.of main_call0_v112 : StableHlo.TRef sig ⟨S8192x128, .f32⟩) (.of main_call0_v113 : StableHlo.TRef sig ⟨S8192x128, .f32⟩) mulf,
    StableHlo.TRef.nullary (.of main_call0_cst_22 : StableHlo.TRef sig ⟨S_, .f32⟩) (constant S_ .f32 0x00000000#32),
    StableHlo.TRef.binary (.of main_call0_v113 : StableHlo.TRef sig ⟨S8192x128, .f32⟩) (.of main_call0_cst_22 : StableHlo.TRef sig ⟨S_, .f32⟩) (.of main_call0_v114 : StableHlo.TRef sig ⟨S8192, .f32⟩) (fun x v => Host.reduceAdd x v reducesTo_S8192x128_S8192_d1 h_S_),
    StableHlo.TRef.binary (.of main_call0_v78 : StableHlo.TRef sig ⟨S8192x128, .f32⟩) (.of main_call0_v78 : StableHlo.TRef sig ⟨S8192x128, .f32⟩) (.of main_call0_call5_v0 : StableHlo.TRef sig ⟨S8192x128, .f32⟩) mulf,
    StableHlo.TRef.nullary (.of main_call0_call5_cst : StableHlo.TRef sig ⟨S_, .f32⟩) (constant S_ .f32 0x00000000#32),
    StableHlo.TRef.binary (.of main_call0_call5_v0 : StableHlo.TRef sig ⟨S8192x128, .f32⟩) (.of main_call0_call5_cst : StableHlo.TRef sig ⟨S_, .f32⟩) (.of main_call0_call5_v1 : StableHlo.TRef sig ⟨S8192, .f32⟩) (fun x v => Host.reduceAdd x v reducesTo_S8192x128_S8192_d1 h_S_),
    StableHlo.TRef.unary (.of main_call0_call5_v1 : StableHlo.TRef sig ⟨S8192, .f32⟩) (.of main_call0_v115 : StableHlo.TRef sig ⟨S8192, .f32⟩) Host.sqrt,
    StableHlo.TRef.binary (.of main_call0_v112 : StableHlo.TRef sig ⟨S8192x128, .f32⟩) (.of main_call0_v112 : StableHlo.TRef sig ⟨S8192x128, .f32⟩) (.of main_call0_call6_v0 : StableHlo.TRef sig ⟨S8192x128, .f32⟩) mulf,
    StableHlo.TRef.nullary (.of main_call0_call6_cst : StableHlo.TRef sig ⟨S_, .f32⟩) (constant S_ .f32 0x00000000#32),
    StableHlo.TRef.binary (.of main_call0_call6_v0 : StableHlo.TRef sig ⟨S8192x128, .f32⟩) (.of main_call0_call6_cst : StableHlo.TRef sig ⟨S_, .f32⟩) (.of main_call0_call6_v1 : StableHlo.TRef sig ⟨S8192, .f32⟩) (fun x v => Host.reduceAdd x v reducesTo_S8192x128_S8192_d1 h_S_),
    StableHlo.TRef.unary (.of main_call0_call6_v1 : StableHlo.TRef sig ⟨S8192, .f32⟩) (.of main_call0_v116 : StableHlo.TRef sig ⟨S8192, .f32⟩) Host.sqrt,
    StableHlo.TRef.binary main_call0_call5.v2 main_call0_call6.v2 (.of main_call0_v117 : StableHlo.TRef sig ⟨S8192, .f32⟩) mulf,
    StableHlo.TRef.nullary (.of main_call0_cst_23 : StableHlo.TRef sig ⟨S_, .f32⟩) (constant S_ .f32 0x322BCC77#32),
    StableHlo.TRef.unary (.of main_call0_cst_23 : StableHlo.TRef sig ⟨S_, .f32⟩) (.of main_call0_v118 : StableHlo.TRef sig ⟨S8192, .f32⟩) (broadcastInDim S8192 ![] bcast_S_S8192),
    StableHlo.TRef.binary (.of main_call0_v117 : StableHlo.TRef sig ⟨S8192, .f32⟩) (.of main_call0_v118 : StableHlo.TRef sig ⟨S8192, .f32⟩) (.of main_call0_v119 : StableHlo.TRef sig ⟨S8192, .f32⟩) maximumf,
    StableHlo.TRef.binary (.of main_call0_v114 : StableHlo.TRef sig ⟨S8192, .f32⟩) (.of main_call0_v119 : StableHlo.TRef sig ⟨S8192, .f32⟩) (.of main_call0_v120 : StableHlo.TRef sig ⟨S8192, .f32⟩) Host.divf,
    StableHlo.TRef.nullary (.of main_call0_cst_24 : StableHlo.TRef sig ⟨S_, .f32⟩) (constant S_ .f32 0x00000000#32),
    StableHlo.TRef.binary (.of main_call0_v120 : StableHlo.TRef sig ⟨S8192, .f32⟩) (.of main_call0_cst_24 : StableHlo.TRef sig ⟨S_, .f32⟩) (.of main_call0_v121 : StableHlo.TRef sig ⟨S_, .f32⟩) (fun x v => Host.reduceAdd x v reducesTo_S8192_S_d0 h_S_),
    StableHlo.TRef.nullary (.of main_call0_cst_25 : StableHlo.TRef sig ⟨S_, .f32⟩) (constant S_ .f32 0x46000000#32),
    StableHlo.TRef.binary (.of main_call0_v121 : StableHlo.TRef sig ⟨S_, .f32⟩) (.of main_call0_cst_25 : StableHlo.TRef sig ⟨S_, .f32⟩) (.of main_call0_v122 : StableHlo.TRef sig ⟨S_, .f32⟩) Host.divf,
    StableHlo.TRef.unary (.of main_call0_v88 : StableHlo.TRef sig ⟨S_, .f32⟩) (.of main_call0_v123 : StableHlo.TRef sig ⟨S_, .f32⟩) Host.negf,
    StableHlo.TRef.unary (.of main_call0_v123 : StableHlo.TRef sig ⟨S_, .f32⟩) (.of main_call0_v124 : StableHlo.TRef sig ⟨S_, .f32⟩) Host.exp,
    StableHlo.TRef.nullary (.of main_call0_cst_26 : StableHlo.TRef sig ⟨S_, .f32⟩) (constant S_ .f32 0x3F800000#32),
    StableHlo.TRef.binary (.of main_call0_cst_26 : StableHlo.TRef sig ⟨S_, .f32⟩) (.of main_call0_v124 : StableHlo.TRef sig ⟨S_, .f32⟩) (.of main_call0_v125 : StableHlo.TRef sig ⟨S_, .f32⟩) addf,
    StableHlo.TRef.nullary (.of main_call0_cst_27 : StableHlo.TRef sig ⟨S_, .f32⟩) (constant S_ .f32 0x3F800000#32),
    StableHlo.TRef.binary (.of main_call0_cst_27 : StableHlo.TRef sig ⟨S_, .f32⟩) (.of main_call0_v125 : StableHlo.TRef sig ⟨S_, .f32⟩) (.of main_call0_v126 : StableHlo.TRef sig ⟨S_, .f32⟩) Host.divf,
    StableHlo.TRef.unary (.of main_call0_v126 : StableHlo.TRef sig ⟨S_, .f32⟩) (.of main_call0_v127 : StableHlo.TRef sig ⟨S_, .f32⟩) Host.log,
    StableHlo.TRef.unary (.of main_call0_v127 : StableHlo.TRef sig ⟨S_, .f32⟩) (.of main_call0_v128 : StableHlo.TRef sig ⟨S_, .f32⟩) Host.negf,
    StableHlo.TRef.unary (.of main_call0_v105 : StableHlo.TRef sig ⟨S_, .f32⟩) (.of main_call0_v129 : StableHlo.TRef sig ⟨S_, .f32⟩) Host.negf,
    StableHlo.TRef.unary (.of main_call0_v129 : StableHlo.TRef sig ⟨S_, .f32⟩) (.of main_call0_v130 : StableHlo.TRef sig ⟨S_, .f32⟩) Host.exp,
    StableHlo.TRef.nullary (.of main_call0_cst_28 : StableHlo.TRef sig ⟨S_, .f32⟩) (constant S_ .f32 0x3F800000#32),
    StableHlo.TRef.binary (.of main_call0_cst_28 : StableHlo.TRef sig ⟨S_, .f32⟩) (.of main_call0_v130 : StableHlo.TRef sig ⟨S_, .f32⟩) (.of main_call0_v131 : StableHlo.TRef sig ⟨S_, .f32⟩) addf,
    StableHlo.TRef.nullary (.of main_call0_cst_29 : StableHlo.TRef sig ⟨S_, .f32⟩) (constant S_ .f32 0x3F800000#32),
    StableHlo.TRef.binary (.of main_call0_cst_29 : StableHlo.TRef sig ⟨S_, .f32⟩) (.of main_call0_v131 : StableHlo.TRef sig ⟨S_, .f32⟩) (.of main_call0_v132 : StableHlo.TRef sig ⟨S_, .f32⟩) Host.divf,
    StableHlo.TRef.nullary (.of main_call0_cst_30 : StableHlo.TRef sig ⟨S_, .f32⟩) (constant S_ .f32 0x3F800000#32),
    StableHlo.TRef.binary (.of main_call0_cst_30 : StableHlo.TRef sig ⟨S_, .f32⟩) (.of main_call0_v132 : StableHlo.TRef sig ⟨S_, .f32⟩) (.of main_call0_v133 : StableHlo.TRef sig ⟨S_, .f32⟩) subf,
    StableHlo.TRef.unary (.of main_call0_v133 : StableHlo.TRef sig ⟨S_, .f32⟩) (.of main_call0_v134 : StableHlo.TRef sig ⟨S_, .f32⟩) Host.log,
    StableHlo.TRef.binary (.of main_call0_v128 : StableHlo.TRef sig ⟨S_, .f32⟩) (.of main_call0_v134 : StableHlo.TRef sig ⟨S_, .f32⟩) (.of main_call0_v135 : StableHlo.TRef sig ⟨S_, .f32⟩) subf,
    StableHlo.TRef.unary (.of main_call0_v122 : StableHlo.TRef sig ⟨S_, .f32⟩) (.of main_call0_v136 : StableHlo.TRef sig ⟨S_, .f32⟩) Host.negf,
    StableHlo.TRef.unary (.of main_call0_v136 : StableHlo.TRef sig ⟨S_, .f32⟩) (.of main_call0_v137 : StableHlo.TRef sig ⟨S_, .f32⟩) Host.exp,
    StableHlo.TRef.nullary (.of main_call0_cst_31 : StableHlo.TRef sig ⟨S_, .f32⟩) (constant S_ .f32 0x3F800000#32),
    StableHlo.TRef.binary (.of main_call0_cst_31 : StableHlo.TRef sig ⟨S_, .f32⟩) (.of main_call0_v137 : StableHlo.TRef sig ⟨S_, .f32⟩) (.of main_call0_v138 : StableHlo.TRef sig ⟨S_, .f32⟩) addf,
    StableHlo.TRef.nullary (.of main_call0_cst_32 : StableHlo.TRef sig ⟨S_, .f32⟩) (constant S_ .f32 0x3F800000#32),
    StableHlo.TRef.binary (.of main_call0_cst_32 : StableHlo.TRef sig ⟨S_, .f32⟩) (.of main_call0_v138 : StableHlo.TRef sig ⟨S_, .f32⟩) (.of main_call0_v139 : StableHlo.TRef sig ⟨S_, .f32⟩) Host.divf,
    StableHlo.TRef.nullary (.of main_call0_cst_33 : StableHlo.TRef sig ⟨S_, .f32⟩) (constant S_ .f32 0x3F800000#32),
    StableHlo.TRef.binary (.of main_call0_cst_33 : StableHlo.TRef sig ⟨S_, .f32⟩) (.of main_call0_v139 : StableHlo.TRef sig ⟨S_, .f32⟩) (.of main_call0_v140 : StableHlo.TRef sig ⟨S_, .f32⟩) subf,
    StableHlo.TRef.unary (.of main_call0_v140 : StableHlo.TRef sig ⟨S_, .f32⟩) (.of main_call0_v141 : StableHlo.TRef sig ⟨S_, .f32⟩) Host.log,
    StableHlo.TRef.binary (.of main_call0_v135 : StableHlo.TRef sig ⟨S_, .f32⟩) (.of main_call0_v141 : StableHlo.TRef sig ⟨S_, .f32⟩) (.of main_call0_v142 : StableHlo.TRef sig ⟨S_, .f32⟩) subf,
    StableHlo.TRef.unary (.of main_call0_v142 : StableHlo.TRef sig ⟨S_, .f32⟩) (.of main_v0_2 : StableHlo.TRef sig ⟨S_, .f32⟩) Host.negf,
    StableHlo.TRef.nullary (.of main_call0_cst_34 : StableHlo.TRef sig ⟨S_, .f32⟩) (constant S_ .f32 0x3F000000#32),
    StableHlo.TRef.unary (.of main_call0_cst_34 : StableHlo.TRef sig ⟨S_, .f32⟩) (.of main_call0_v144 : StableHlo.TRef sig ⟨S8192x128, .f32⟩) (broadcastInDim S8192x128 ![] bcast_S_S8192x128),
    StableHlo.TRef.binary (.of main_call0_v69 : StableHlo.TRef sig ⟨S8192x128, .f32⟩) (.of main_call0_v144 : StableHlo.TRef sig ⟨S8192x128, .f32⟩) (.of main_call0_v145 : StableHlo.TRef sig ⟨S8192x128, .f32⟩) mulf,
    StableHlo.TRef.nullary (.of main_call0_cst_35 : StableHlo.TRef sig ⟨S_, .f32⟩) (constant S_ .f32 0x3F000000#32),
    StableHlo.TRef.unary (.of main_call0_cst_35 : StableHlo.TRef sig ⟨S_, .f32⟩) (.of main_call0_v146 : StableHlo.TRef sig ⟨S8192x128, .f32⟩) (broadcastInDim S8192x128 ![] bcast_S_S8192x128),
    StableHlo.TRef.binary (.of main_call0_v78 : StableHlo.TRef sig ⟨S8192x128, .f32⟩) (.of main_call0_v146 : StableHlo.TRef sig ⟨S8192x128, .f32⟩) (.of main_call0_v147 : StableHlo.TRef sig ⟨S8192x128, .f32⟩) mulf,
    StableHlo.TRef.binary (.of main_call0_v145 : StableHlo.TRef sig ⟨S8192x128, .f32⟩) (.of main_call0_v147 : StableHlo.TRef sig ⟨S8192x128, .f32⟩) (.of main_v0_1 : StableHlo.TRef sig ⟨S8192x128, .f32⟩) addf,
    StableHlo.TRef.nullary (.of main_call0_c_36 : StableHlo.TRef sig ⟨S_, .i32⟩) (constantI S_ 32 0#32),
    StableHlo.TRef.unary (.of main_call0_c_36 : StableHlo.TRef sig ⟨S_, .i32⟩) (.of main_call0_v149 : StableHlo.TRef sig ⟨S1000000, .i32⟩) (broadcastInDim S1000000 ![] bcast_S_S1000000),
    StableHlo.TRef.binary (.of main_arg10 : StableHlo.TRef sig ⟨S1000000, .i32⟩) (.of main_call0_v149 : StableHlo.TRef sig ⟨S1000000, .i32⟩) (.of main_call0_v150 : StableHlo.TRef sig ⟨S1000000, .i1⟩) (cmpi .slt),
    StableHlo.TRef.nullary (.of main_call0_c_37 : StableHlo.TRef sig ⟨S_, .i32⟩) (constantI S_ 32 8192#32),
    StableHlo.TRef.unary (.of main_call0_c_37 : StableHlo.TRef sig ⟨S_, .i32⟩) (.of main_call0_v151 : StableHlo.TRef sig ⟨S1000000, .i32⟩) (broadcastInDim S1000000 ![] bcast_S_S1000000),
    StableHlo.TRef.binary (.of main_arg10 : StableHlo.TRef sig ⟨S1000000, .i32⟩) (.of main_call0_v151 : StableHlo.TRef sig ⟨S1000000, .i32⟩) (.of main_call0_v152 : StableHlo.TRef sig ⟨S1000000, .i32⟩) addi,
    StableHlo.TRef.ternary (.of main_call0_v150 : StableHlo.TRef sig ⟨S1000000, .i1⟩) (.of main_call0_v152 : StableHlo.TRef sig ⟨S1000000, .i32⟩) (.of main_arg10 : StableHlo.TRef sig ⟨S1000000, .i32⟩) (.of main_call0_v153 : StableHlo.TRef sig ⟨S1000000, .i32⟩) select,
    StableHlo.TRef.unary (.of main_call0_v153 : StableHlo.TRef sig ⟨S1000000, .i32⟩) (.of main_call0_v154 : StableHlo.TRef sig ⟨S1000000x1, .i32⟩) (broadcastInDim S1000000x1 ![0] bcast_S1000000_S1000000x1_0),
    StableHlo.TRef.binary (.of main_arg4 : StableHlo.TRef sig ⟨S8192x1, .f32⟩) (.of main_call0_v154 : StableHlo.TRef sig ⟨S1000000x1, .i32⟩) (.of main_call0_v155 : StableHlo.TRef sig ⟨S1000000x1, .f32⟩) (fun x i => Host.gather gather_S8192x1_S1000000x1_S1000000x1_1_0_n_n_0_1_11 x i),
    StableHlo.TRef.nullary (.of main_call0_c_38 : StableHlo.TRef sig ⟨S_, .i32⟩) (constantI S_ 32 0#32),
    StableHlo.TRef.unary (.of main_call0_c_38 : StableHlo.TRef sig ⟨S_, .i32⟩) (.of main_call0_v156 : StableHlo.TRef sig ⟨S1000000, .i32⟩) (broadcastInDim S1000000 ![] bcast_S_S1000000),
    StableHlo.TRef.binary (.of main_arg11 : StableHlo.TRef sig ⟨S1000000, .i32⟩) (.of main_call0_v156 : StableHlo.TRef sig ⟨S1000000, .i32⟩) (.of main_call0_v157 : StableHlo.TRef sig ⟨S1000000, .i1⟩) (cmpi .slt),
    StableHlo.TRef.nullary (.of main_call0_c_39 : StableHlo.TRef sig ⟨S_, .i32⟩) (constantI S_ 32 50000#32),
    StableHlo.TRef.unary (.of main_call0_c_39 : StableHlo.TRef sig ⟨S_, .i32⟩) (.of main_call0_v158 : StableHlo.TRef sig ⟨S1000000, .i32⟩) (broadcastInDim S1000000 ![] bcast_S_S1000000),
    StableHlo.TRef.binary (.of main_arg11 : StableHlo.TRef sig ⟨S1000000, .i32⟩) (.of main_call0_v158 : StableHlo.TRef sig ⟨S1000000, .i32⟩) (.of main_call0_v159 : StableHlo.TRef sig ⟨S1000000, .i32⟩) addi,
    StableHlo.TRef.ternary (.of main_call0_v157 : StableHlo.TRef sig ⟨S1000000, .i1⟩) (.of main_call0_v159 : StableHlo.TRef sig ⟨S1000000, .i32⟩) (.of main_arg11 : StableHlo.TRef sig ⟨S1000000, .i32⟩) (.of main_call0_v160 : StableHlo.TRef sig ⟨S1000000, .i32⟩) select,
    StableHlo.TRef.unary (.of main_call0_v160 : StableHlo.TRef sig ⟨S1000000, .i32⟩) (.of main_call0_v161 : StableHlo.TRef sig ⟨S1000000x1, .i32⟩) (broadcastInDim S1000000x1 ![0] bcast_S1000000_S1000000x1_0),
    StableHlo.TRef.binary (.of main_arg3 : StableHlo.TRef sig ⟨S50000x1, .f32⟩) (.of main_call0_v161 : StableHlo.TRef sig ⟨S1000000x1, .i32⟩) (.of main_call0_v162 : StableHlo.TRef sig ⟨S1000000x1, .f32⟩) (fun x i => Host.gather gather_S50000x1_S1000000x1_S1000000x1_1_0_n_n_0_1_11 x i),
    StableHlo.TRef.binary (.of main_call0_v155 : StableHlo.TRef sig ⟨S1000000x1, .f32⟩) (.of main_call0_v162 : StableHlo.TRef sig ⟨S1000000x1, .f32⟩) (.of main_call0_v163 : StableHlo.TRef sig ⟨S1000000x1, .f32⟩) Host.divf,
    StableHlo.TRef.nullary (.of main_call0_c_40 : StableHlo.TRef sig ⟨S_, .i32⟩) (constantI S_ 32 0#32),
    StableHlo.TRef.unary (.of main_call0_c_40 : StableHlo.TRef sig ⟨S_, .i32⟩) (.of main_call0_v164 : StableHlo.TRef sig ⟨S1000000, .i32⟩) (broadcastInDim S1000000 ![] bcast_S_S1000000),
    StableHlo.TRef.binary (.of main_arg10 : StableHlo.TRef sig ⟨S1000000, .i32⟩) (.of main_call0_v164 : StableHlo.TRef sig ⟨S1000000, .i32⟩) (.of main_call0_v165 : StableHlo.TRef sig ⟨S1000000, .i1⟩) (cmpi .slt),
    StableHlo.TRef.nullary (.of main_call0_c_41 : StableHlo.TRef sig ⟨S_, .i32⟩) (constantI S_ 32 8192#32),
    StableHlo.TRef.unary (.of main_call0_c_41 : StableHlo.TRef sig ⟨S_, .i32⟩) (.of main_call0_v166 : StableHlo.TRef sig ⟨S1000000, .i32⟩) (broadcastInDim S1000000 ![] bcast_S_S1000000),
    StableHlo.TRef.binary (.of main_arg10 : StableHlo.TRef sig ⟨S1000000, .i32⟩) (.of main_call0_v166 : StableHlo.TRef sig ⟨S1000000, .i32⟩) (.of main_call0_v167 : StableHlo.TRef sig ⟨S1000000, .i32⟩) addi,
    StableHlo.TRef.ternary (.of main_call0_v165 : StableHlo.TRef sig ⟨S1000000, .i1⟩) (.of main_call0_v167 : StableHlo.TRef sig ⟨S1000000, .i32⟩) (.of main_arg10 : StableHlo.TRef sig ⟨S1000000, .i32⟩) (.of main_call0_v168 : StableHlo.TRef sig ⟨S1000000, .i32⟩) select,
    StableHlo.TRef.unary (.of main_call0_v168 : StableHlo.TRef sig ⟨S1000000, .i32⟩) (.of main_call0_v169 : StableHlo.TRef sig ⟨S1000000x1, .i32⟩) (broadcastInDim S1000000x1 ![0] bcast_S1000000_S1000000x1_0),
    StableHlo.TRef.binary (.of main_v0_1 : StableHlo.TRef sig ⟨S8192x128, .f32⟩) (.of main_call0_v169 : StableHlo.TRef sig ⟨S1000000x1, .i32⟩) (.of main_call0_v170 : StableHlo.TRef sig ⟨S1000000x128, .f32⟩) (fun x i => Host.gather gather_S8192x128_S1000000x1_S1000000x128_1_0_n_n_0_1_1128 x i),
    StableHlo.TRef.unary (.of main_call0_v163 : StableHlo.TRef sig ⟨S1000000x1, .f32⟩) (.of main_call0_v171 : StableHlo.TRef sig ⟨S1000000x128, .f32⟩) (broadcastInDim S1000000x128 ![0, 1] bcast_S1000000x1_S1000000x128_0_1),
    StableHlo.TRef.binary (.of main_call0_v171 : StableHlo.TRef sig ⟨S1000000x128, .f32⟩) (.of main_call0_v170 : StableHlo.TRef sig ⟨S1000000x128, .f32⟩) (.of main_call0_v172 : StableHlo.TRef sig ⟨S1000000x128, .f32⟩) mulf,
    StableHlo.TRef.nullary (.of main_call0_cst_42 : StableHlo.TRef sig ⟨S_, .f32⟩) (constant S_ .f32 0x00000000#32),
    StableHlo.TRef.unary (.of main_call0_cst_42 : StableHlo.TRef sig ⟨S_, .f32⟩) (.of main_call0_v173 : StableHlo.TRef sig ⟨S50000x128, .f32⟩) (broadcastInDim S50000x128 ![] bcast_S_S50000x128),
    StableHlo.TRef.unary (.of main_arg11 : StableHlo.TRef sig ⟨S1000000, .i32⟩) (.of main_call0_v174 : StableHlo.TRef sig ⟨S1000000x1, .i32⟩) (broadcastInDim S1000000x1 ![0] bcast_S1000000_S1000000x1_0),
    StableHlo.TRef.ternary (.of main_call0_v173 : StableHlo.TRef sig ⟨S50000x128, .f32⟩) (.of main_call0_v174 : StableHlo.TRef sig ⟨S1000000x1, .i32⟩) (.of main_call0_v172 : StableHlo.TRef sig ⟨S1000000x128, .f32⟩) (.of main_call0_v175 : StableHlo.TRef sig ⟨S50000x128, .f32⟩) (fun x i u => Host.scatterAdd scatter_S50000x128_S1000000x1_S1000000x128_1_0_0_1 x i u),
    StableHlo.TRef.binary (.of main_call0_v175 : StableHlo.TRef sig ⟨S50000x128, .f32⟩) (.of main_arg34 : StableHlo.TRef sig ⟨S128x128, .f32⟩) (.of main_call0_v176 : StableHlo.TRef sig ⟨S50000x128, .f32⟩) (fun l r => Host.dotGeneral dot_S50000x128_S128x128_S50000x128_1_0_0_1_n_n none l r),
    StableHlo.TRef.unary (.of main_arg35 : StableHlo.TRef sig ⟨S128, .f32⟩) (.of main_call0_v177 : StableHlo.TRef sig ⟨S1x128, .f32⟩) (broadcastInDim S1x128 ![1] bcast_S128_S1x128_1),
    StableHlo.TRef.unary (.of main_call0_v177 : StableHlo.TRef sig ⟨S1x128, .f32⟩) (.of main_call0_v178 : StableHlo.TRef sig ⟨S50000x128, .f32⟩) (broadcastInDim S50000x128 ![0, 1] bcast_S1x128_S50000x128_0_1),
    StableHlo.TRef.binary (.of main_call0_v176 : StableHlo.TRef sig ⟨S50000x128, .f32⟩) (.of main_call0_v178 : StableHlo.TRef sig ⟨S50000x128, .f32⟩) (.of main_call0_v179 : StableHlo.TRef sig ⟨S50000x128, .f32⟩) addf,
    StableHlo.TRef.nullary (.of main_call0_call7_cst : StableHlo.TRef sig ⟨S_, .f32⟩) (constant S_ .f32 0x00000000#32),
    StableHlo.TRef.unary (.of main_call0_call7_cst : StableHlo.TRef sig ⟨S_, .f32⟩) (.of main_call0_call7_v0 : StableHlo.TRef sig ⟨S50000x128, .f32⟩) (broadcastInDim S50000x128 ![] bcast_S_S50000x128),
    StableHlo.TRef.binary (.of main_call0_v179 : StableHlo.TRef sig ⟨S50000x128, .f32⟩) (.of main_call0_call7_v0 : StableHlo.TRef sig ⟨S50000x128, .f32⟩) (.of main_call0_v180 : StableHlo.TRef sig ⟨S50000x128, .f32⟩) maximumf ]

set_option maxHeartbeats 4000000 in
/-- The layer normalisation of the rectified dense layer: the vertex features the program returns. -/
abbrev k4B : List (HloOp τ sig (Elt F)) :=
  [ StableHlo.TRef.nullary (.of main_call0_cst_43 : StableHlo.TRef sig ⟨S_, .f32⟩) (constant S_ .f32 0x00000000#32),
    StableHlo.TRef.binary main_call0_call7.v1 (.of main_call0_cst_43 : StableHlo.TRef sig ⟨S_, .f32⟩) (.of main_call0_v181 : StableHlo.TRef sig ⟨S50000, .f32⟩) (fun x v => Host.reduceAdd x v reducesTo_S50000x128_S50000_d1 h_S_),
    StableHlo.TRef.unary (.of main_call0_v181 : StableHlo.TRef sig ⟨S50000, .f32⟩) (.of main_call0_v182 : StableHlo.TRef sig ⟨S50000x1, .f32⟩) (broadcastInDim S50000x1 ![0] bcast_S50000_S50000x1_0),
    StableHlo.TRef.nullary (.of main_call0_cst_44 : StableHlo.TRef sig ⟨S_, .f32⟩) (constant S_ .f32 0x43000000#32),
    StableHlo.TRef.unary (.of main_call0_cst_44 : StableHlo.TRef sig ⟨S_, .f32⟩) (.of main_call0_v183 : StableHlo.TRef sig ⟨S50000x1, .f32⟩) (broadcastInDim S50000x1 ![] bcast_S_S50000x1),
    StableHlo.TRef.binary (.of main_call0_v182 : StableHlo.TRef sig ⟨S50000x1, .f32⟩) (.of main_call0_v183 : StableHlo.TRef sig ⟨S50000x1, .f32⟩) (.of main_call0_v184 : StableHlo.TRef sig ⟨S50000x1, .f32⟩) Host.divf,
    StableHlo.TRef.unary (.of main_call0_v184 : StableHlo.TRef sig ⟨S50000x1, .f32⟩) (.of main_call0_v185 : StableHlo.TRef sig ⟨S50000x128, .f32⟩) (broadcastInDim S50000x128 ![0, 1] bcast_S50000x1_S50000x128_0_1),
    StableHlo.TRef.binary main_call0_call7.v1 (.of main_call0_v185 : StableHlo.TRef sig ⟨S50000x128, .f32⟩) (.of main_call0_v186 : StableHlo.TRef sig ⟨S50000x128, .f32⟩) subf,
    StableHlo.TRef.binary (.of main_call0_v186 : StableHlo.TRef sig ⟨S50000x128, .f32⟩) (.of main_call0_v186 : StableHlo.TRef sig ⟨S50000x128, .f32⟩) (.of main_call0_v187 : StableHlo.TRef sig ⟨S50000x128, .f32⟩) mulf,
    StableHlo.TRef.nullary (.of main_call0_cst_45 : StableHlo.TRef sig ⟨S_, .f32⟩) (constant S_ .f32 0x00000000#32),
    StableHlo.TRef.binary (.of main_call0_v187 : StableHlo.TRef sig ⟨S50000x128, .f32⟩) (.of main_call0_cst_45 : StableHlo.TRef sig ⟨S_, .f32⟩) (.of main_call0_v188 : StableHlo.TRef sig ⟨S50000, .f32⟩) (fun x v => Host.reduceAdd x v reducesTo_S50000x128_S50000_d1 h_S_),
    StableHlo.TRef.unary (.of main_call0_v188 : StableHlo.TRef sig ⟨S50000, .f32⟩) (.of main_call0_v189 : StableHlo.TRef sig ⟨S50000x1, .f32⟩) (broadcastInDim S50000x1 ![0] bcast_S50000_S50000x1_0),
    StableHlo.TRef.nullary (.of main_call0_cst_46 : StableHlo.TRef sig ⟨S_, .f32⟩) (constant S_ .f32 0x43000000#32),
    StableHlo.TRef.unary (.of main_call0_cst_46 : StableHlo.TRef sig ⟨S_, .f32⟩) (.of main_call0_v190 : StableHlo.TRef sig ⟨S50000x1, .f32⟩) (broadcastInDim S50000x1 ![] bcast_S_S50000x1),
    StableHlo.TRef.binary (.of main_call0_v189 : StableHlo.TRef sig ⟨S50000x1, .f32⟩) (.of main_call0_v190 : StableHlo.TRef sig ⟨S50000x1, .f32⟩) (.of main_call0_v191 : StableHlo.TRef sig ⟨S50000x1, .f32⟩) Host.divf,
    StableHlo.TRef.unary (.of main_call0_v184 : StableHlo.TRef sig ⟨S50000x1, .f32⟩) (.of main_call0_v192 : StableHlo.TRef sig ⟨S50000x128, .f32⟩) (broadcastInDim S50000x128 ![0, 1] bcast_S50000x1_S50000x128_0_1),
    StableHlo.TRef.binary main_call0_call7.v1 (.of main_call0_v192 : StableHlo.TRef sig ⟨S50000x128, .f32⟩) (.of main_call0_v193 : StableHlo.TRef sig ⟨S50000x128, .f32⟩) subf,
    StableHlo.TRef.nullary (.of main_call0_cst_47 : StableHlo.TRef sig ⟨S_, .f32⟩) (constant S_ .f32 0x3727C5AC#32),
    StableHlo.TRef.unary (.of main_call0_cst_47 : StableHlo.TRef sig ⟨S_, .f32⟩) (.of main_call0_v194 : StableHlo.TRef sig ⟨S50000x1, .f32⟩) (broadcastInDim S50000x1 ![] bcast_S_S50000x1),
    StableHlo.TRef.binary (.of main_call0_v191 : StableHlo.TRef sig ⟨S50000x1, .f32⟩) (.of main_call0_v194 : StableHlo.TRef sig ⟨S50000x1, .f32⟩) (.of main_call0_v195 : StableHlo.TRef sig ⟨S50000x1, .f32⟩) addf,
    StableHlo.TRef.unary (.of main_call0_v195 : StableHlo.TRef sig ⟨S50000x1, .f32⟩) (.of main_call0_v196 : StableHlo.TRef sig ⟨S50000x1, .f32⟩) Host.rsqrt,
    StableHlo.TRef.unary (.of main_call0_v196 : StableHlo.TRef sig ⟨S50000x1, .f32⟩) (.of main_call0_v197 : StableHlo.TRef sig ⟨S50000x128, .f32⟩) (broadcastInDim S50000x128 ![0, 1] bcast_S50000x1_S50000x128_0_1),
    StableHlo.TRef.binary (.of main_call0_v193 : StableHlo.TRef sig ⟨S50000x128, .f32⟩) (.of main_call0_v197 : StableHlo.TRef sig ⟨S50000x128, .f32⟩) (.of main_call0_v198 : StableHlo.TRef sig ⟨S50000x128, .f32⟩) mulf,
    StableHlo.TRef.unary (.of main_arg36 : StableHlo.TRef sig ⟨S128, .f32⟩) (.of main_call0_v199 : StableHlo.TRef sig ⟨S1x128, .f32⟩) (broadcastInDim S1x128 ![1] bcast_S128_S1x128_1),
    StableHlo.TRef.unary (.of main_call0_v199 : StableHlo.TRef sig ⟨S1x128, .f32⟩) (.of main_call0_v200 : StableHlo.TRef sig ⟨S50000x128, .f32⟩) (broadcastInDim S50000x128 ![0, 1] bcast_S1x128_S50000x128_0_1),
    StableHlo.TRef.binary (.of main_call0_v198 : StableHlo.TRef sig ⟨S50000x128, .f32⟩) (.of main_call0_v200 : StableHlo.TRef sig ⟨S50000x128, .f32⟩) (.of main_call0_v201 : StableHlo.TRef sig ⟨S50000x128, .f32⟩) mulf,
    StableHlo.TRef.unary (.of main_arg37 : StableHlo.TRef sig ⟨S128, .f32⟩) (.of main_call0_v202 : StableHlo.TRef sig ⟨S1x128, .f32⟩) (broadcastInDim S1x128 ![1] bcast_S128_S1x128_1),
    StableHlo.TRef.unary (.of main_call0_v202 : StableHlo.TRef sig ⟨S1x128, .f32⟩) (.of main_call0_v203 : StableHlo.TRef sig ⟨S50000x128, .f32⟩) (broadcastInDim S50000x128 ![0, 1] bcast_S1x128_S50000x128_0_1),
    StableHlo.TRef.binary (.of main_call0_v201 : StableHlo.TRef sig ⟨S50000x128, .f32⟩) (.of main_call0_v203 : StableHlo.TRef sig ⟨S50000x128, .f32⟩) (.of main_v0_0 : StableHlo.TRef sig ⟨S50000x128, .f32⟩) addf ]

set_option maxHeartbeats 8000000 in
theorem hostOps4_split : (hostOps4 : List (HloOp τ sig (Elt F))) = k4A ++ k4B := rfl

end Cert.KernelIdeal.Parts

end
-- ==== Proof.TailE.lean ====
/-
  The two programs end with the same host operations. From valuations that agree on the two convolutions' results
  and on the arguments the last stretch reads, the reference's last stretch and the kernel program's leave the same
  mix of the two convolutions' results: the composed terms of the two stretches are one term.
-/
import proofs.«119995_j74062416053450_2_alg».proof.Proof.Gen.KernelIdeal.Launch
import proofs.«119995_j74062416053450_2_alg».proof.Proof.RefParts
import Idealize.ShloMosaic.Lib.StableHlo.Run
import Idealize.ShloMosaic.PureOps.Ideal

noncomputable section

namespace Cert.Proof.Host

open Idealize.ShloMosaic Idealize.ShloMosaic.TcCoe Idealize.SL.Sem Idealize.ShloMosaic.StableHlo

set_option maxRecDepth 16384 in
set_option maxHeartbeats 40000000 in
theorem tail_e (U : Valuation Cert.ReferenceIdeal.τ Cert.ReferenceIdeal.sig (Elt Ideal)) (W : Valuation Cert.KernelIdeal.τ Cert.KernelIdeal.sig (Elt Ideal))
    (hs : U (Proc.devRef .tc Cert.ReferenceIdeal.main_v98) = W (Proc.devRef .tc Cert.KernelIdeal.main_call0_v69))
    (ht : U (Proc.devRef .tc Cert.ReferenceIdeal.main_v132) = W (Proc.devRef .tc Cert.KernelIdeal.main_call0_v78))
    (ha3 : U (Proc.devRef .tc Cert.ReferenceIdeal.main_arg3) = W (Proc.devRef .tc Cert.KernelIdeal.main_arg3))
    (ha4 : U (Proc.devRef .tc Cert.ReferenceIdeal.main_arg4) = W (Proc.devRef .tc Cert.KernelIdeal.main_arg4))
    (ha10 : U (Proc.devRef .tc Cert.ReferenceIdeal.main_arg10) = W (Proc.devRef .tc Cert.KernelIdeal.main_arg10))
    (ha11 : U (Proc.devRef .tc Cert.ReferenceIdeal.main_arg11) = W (Proc.devRef .tc Cert.KernelIdeal.main_arg11))
    (ha12 : U (Proc.devRef .tc Cert.ReferenceIdeal.main_arg12) = W (Proc.devRef .tc Cert.KernelIdeal.main_arg12))
    (ha13 : U (Proc.devRef .tc Cert.ReferenceIdeal.main_arg13) = W (Proc.devRef .tc Cert.KernelIdeal.main_arg13))
    (ha34 : U (Proc.devRef .tc Cert.ReferenceIdeal.main_arg34) = W (Proc.devRef .tc Cert.KernelIdeal.main_arg34))
    (ha35 : U (Proc.devRef .tc Cert.ReferenceIdeal.main_arg35) = W (Proc.devRef .tc Cert.KernelIdeal.main_arg35))
    (ha36 : U (Proc.devRef .tc Cert.ReferenceIdeal.main_arg36) = W (Proc.devRef .tc Cert.KernelIdeal.main_arg36))
    (ha37 : U (Proc.devRef .tc Cert.ReferenceIdeal.main_arg37) = W (Proc.devRef .tc Cert.KernelIdeal.main_arg37)) :
    after (Cert.ReferenceIdeal.Parts.refT (F := Ideal)) U (Proc.devRef .tc Cert.ReferenceIdeal.main_v202)
      = after (Cert.KernelIdeal.Gen.hostOps4 (F := Ideal)) W (Proc.devRef .tc Cert.KernelIdeal.main_v0_1) := by
  after_results_simp
  simp only [hs, ht, ha3, ha4, ha10, ha11, ha12, ha13, ha34, ha35, ha36, ha37]
  rfl

end Cert.Proof.Host

end
-- ==== Proof.TailS.lean ====
/-
  The two programs end with the same host operations: the same three cosine losses of the two convolutions'
  results, read as one composed term on both sides.
-/
import proofs.«119995_j74062416053450_2_alg».proof.Proof.Gen.KernelIdeal.Launch
import proofs.«119995_j74062416053450_2_alg».proof.Proof.RefParts
import Idealize.ShloMosaic.Lib.StableHlo.Run
import Idealize.ShloMosaic.PureOps.Ideal

noncomputable section

namespace Cert.Proof.Host

open Idealize.ShloMosaic Idealize.ShloMosaic.TcCoe Idealize.SL.Sem Idealize.ShloMosaic.StableHlo

set_option maxRecDepth 16384 in
set_option maxHeartbeats 40000000 in
theorem tail_s (U : Valuation Cert.ReferenceIdeal.τ Cert.ReferenceIdeal.sig (Elt Ideal)) (W : Valuation Cert.KernelIdeal.τ Cert.KernelIdeal.sig (Elt Ideal))
    (hs : U (Proc.devRef .tc Cert.ReferenceIdeal.main_v98) = W (Proc.devRef .tc Cert.KernelIdeal.main_call0_v69))
    (ht : U (Proc.devRef .tc Cert.ReferenceIdeal.main_v132) = W (Proc.devRef .tc Cert.KernelIdeal.main_call0_v78))
    (ha3 : U (Proc.devRef .tc Cert.ReferenceIdeal.main_arg3) = W (Proc.devRef .tc Cert.KernelIdeal.main_arg3))
    (ha4 : U (Proc.devRef .tc Cert.ReferenceIdeal.main_arg4) = W (Proc.devRef .tc Cert.KernelIdeal.main_arg4))
    (ha10 : U (Proc.devRef .tc Cert.ReferenceIdeal.main_arg10) = W (Proc.devRef .tc Cert.KernelIdeal.main_arg10))
    (ha11 : U (Proc.devRef .tc Cert.ReferenceIdeal.main_arg11) = W (Proc.devRef .tc Cert.KernelIdeal.main_arg11))
    (ha12 : U (Proc.devRef .tc Cert.ReferenceIdeal.main_arg12) = W (Proc.devRef .tc Cert.KernelIdeal.main_arg12))
    (ha13 : U (Proc.devRef .tc Cert.ReferenceIdeal.main_arg13) = W (Proc.devRef .tc Cert.KernelIdeal.main_arg13))
    (ha34 : U (Proc.devRef .tc Cert.ReferenceIdeal.main_arg34) = W (Proc.devRef .tc Cert.KernelIdeal.main_arg34))
    (ha35 : U (Proc.devRef .tc Cert.ReferenceIdeal.main_arg35) = W (Proc.devRef .tc Cert.KernelIdeal.main_arg35))
    (ha36 : U (Proc.devRef .tc Cert.ReferenceIdeal.main_arg36) = W (Proc.devRef .tc Cert.KernelIdeal.main_arg36))
    (ha37 : U (Proc.devRef .tc Cert.ReferenceIdeal.main_arg37) = W (Proc.devRef .tc Cert.KernelIdeal.main_arg37)) :
    after (Cert.ReferenceIdeal.Parts.refT (F := Ideal)) U (Proc.devRef .tc Cert.ReferenceIdeal.main_v197)
      = after (Cert.KernelIdeal.Gen.hostOps4 (F := Ideal)) W (Proc.devRef .tc Cert.KernelIdeal.main_v0_2) := by
  after_results_simp
  simp only [hs, ht, ha3, ha4, ha10, ha11, ha12, ha13, ha34, ha35, ha36, ha37]
  rfl

end Cert.Proof.Host

end
-- ==== Proof.HostCast.lean ====
/-
  The operations of a function called from the main program name their buffers by references that carry the type
  of the value they hold, and move contents between that type and the buffer's own along the equation of the two.
  The two types are one type, so the move changes nothing: moved there and back the contents are the contents, and
  along an equation of a type with itself they are unchanged. Stated here as equations to rewrite with.
-/
import Idealize.ShloMosaic.Lib.StableHlo

noncomputable section

namespace Cert.Proof.Host

open Idealize.ShloMosaic Idealize.ShloMosaic.StableHlo

/-- Moving a value along an equation of a type with itself changes nothing. -/
theorem cast_self {α : Type} (h : α = α) (a : α) : cast h a = a := by cases h; rfl

/-- Contents moved to the buffer's own type and back are the contents. -/
theorem ofBuf_toBuf {sig : RefSig} {T : BufTy} {Val : EltTy → Type} (t : TRef sig T) (v : T.Contents Val) : t.ofBuf (t.toBuf v) = v := by
  obtain ⟨r, h, h2, h3⟩ := t
  subst h
  rfl

end Cert.Proof.Host

end
-- ==== Proof.TailV1.lean ====
/-
  The two programs end with the same host operations: from valuations that agree on the two convolutions' results
  and on the arguments, the rectified dense layer of the hyperedge-to-node aggregation is one composed term on both
  sides. The operations of a called function move contents between a value's type and its buffer's own type; those
  moves are removed first (each is the identity), and the two composed terms that remain are the same operations of
  the same operands.
-/
import proofs.«119995_j74062416053450_2_alg».proof.Proof.KiPartsT
import proofs.«119995_j74062416053450_2_alg».proof.Proof.RefPartsT
import proofs.«119995_j74062416053450_2_alg».proof.Proof.HostCast
import Idealize.ShloMosaic.Lib.StableHlo.Run
import Idealize.ShloMosaic.PureOps.Ideal

noncomputable section

namespace Cert.Proof.Host

open Idealize.ShloMosaic Idealize.ShloMosaic.TcCoe Idealize.SL.Sem Idealize.ShloMosaic.StableHlo

/-! The moves that have no partner in the composed terms: the reference's rectification reads the dense layer's
    buffer and writes the result's; the kernel program's operations read the two convolutions' results and the
    arguments and write the result. -/

theorem tv1_R_main_v233_of (v : (⟨Cert.ReferenceIdeal.S50000x128, .f32⟩ : BufTy).Contents (Elt Ideal)) : (TRef.of (T := ⟨Cert.ReferenceIdeal.S50000x128, .f32⟩) Cert.ReferenceIdeal.main_v233).ofBuf v = v := cast_self _ _
theorem tv1_R_main_v234_to (v : (⟨Cert.ReferenceIdeal.S50000x128, .f32⟩ : BufTy).Contents (Elt Ideal)) : (TRef.of (T := ⟨Cert.ReferenceIdeal.S50000x128, .f32⟩) Cert.ReferenceIdeal.main_v234).toBuf v = v := cast_self _ _
theorem tv1_K_main_call0_v180_to (v : (⟨Cert.KernelIdeal.S50000x128, .f32⟩ : BufTy).Contents (Elt Ideal)) : (TRef.of (T := ⟨Cert.KernelIdeal.S50000x128, .f32⟩) Cert.KernelIdeal.main_call0_v180).toBuf v = v := cast_self _ _
theorem tv1_K_main_call0_v69_leaf (W : Valuation Cert.KernelIdeal.τ Cert.KernelIdeal.sig (Elt Ideal)) : (TRef.of (T := ⟨Cert.KernelIdeal.S8192x128, .f32⟩) Cert.KernelIdeal.main_call0_v69).ofBuf (W (Proc.devRef .tc Cert.KernelIdeal.main_call0_v69)) = W (Proc.devRef .tc Cert.KernelIdeal.main_call0_v69) := cast_self _ _
theorem tv1_K_main_call0_v78_leaf (W : Valuation Cert.KernelIdeal.τ Cert.KernelIdeal.sig (Elt Ideal)) : (TRef.of (T := ⟨Cert.KernelIdeal.S8192x128, .f32⟩) Cert.KernelIdeal.main_call0_v78).ofBuf (W (Proc.devRef .tc Cert.KernelIdeal.main_call0_v78)) = W (Proc.devRef .tc Cert.KernelIdeal.main_call0_v78) := cast_self _ _
theorem tv1_K_main_arg3_leaf (W : Valuation Cert.KernelIdeal.τ Cert.KernelIdeal.sig (Elt Ideal)) : (TRef.of (T := ⟨Cert.KernelIdeal.S50000x1, .f32⟩) Cert.KernelIdeal.main_arg3).ofBuf (W (Proc.devRef .tc Cert.KernelIdeal.main_arg3)) = W (Proc.devRef .tc Cert.KernelIdeal.main_arg3) := cast_self _ _
theorem tv1_K_main_arg4_leaf (W : Valuation Cert.KernelIdeal.τ Cert.KernelIdeal.sig (Elt Ideal)) : (TRef.of (T := ⟨Cert.KernelIdeal.S8192x1, .f32⟩) Cert.KernelIdeal.main_arg4).ofBuf (W (Proc.devRef .tc Cert.KernelIdeal.main_arg4)) = W (Proc.devRef .tc Cert.KernelIdeal.main_arg4) := cast_self _ _
theorem tv1_K_main_arg10_leaf (W : Valuation Cert.KernelIdeal.τ Cert.KernelIdeal.sig (Elt Ideal)) : (TRef.of (T := ⟨Cert.KernelIdeal.S1000000, .i32⟩) Cert.KernelIdeal.main_arg10).ofBuf (W (Proc.devRef .tc Cert.KernelIdeal.main_arg10)) = W (Proc.devRef .tc Cert.KernelIdeal.main_arg10) := cast_self _ _
theorem tv1_K_main_arg11_leaf (W : Valuation Cert.KernelIdeal.τ Cert.KernelIdeal.sig (Elt Ideal)) : (TRef.of (T := ⟨Cert.KernelIdeal.S1000000, .i32⟩) Cert.KernelIdeal.main_arg11).ofBuf (W (Proc.devRef .tc Cert.KernelIdeal.main_arg11)) = W (Proc.devRef .tc Cert.KernelIdeal.main_arg11) := cast_self _ _
theorem tv1_K_main_arg12_leaf (W : Valuation Cert.KernelIdeal.τ Cert.KernelIdeal.sig (Elt Ideal)) : (TRef.of (T := ⟨Cert.KernelIdeal.S8192, .i32⟩) Cert.KernelIdeal.main_arg12).ofBuf (W (Proc.devRef .tc Cert.KernelIdeal.main_arg12)) = W (Proc.devRef .tc Cert.KernelIdeal.main_arg12) := cast_self _ _
theorem tv1_K_main_arg13_leaf (W : Valuation Cert.KernelIdeal.τ Cert.KernelIdeal.sig (Elt Ideal)) : (TRef.of (T := ⟨Cert.KernelIdeal.S8192, .i32⟩) Cert.KernelIdeal.main_arg13).ofBuf (W (Proc.devRef .tc Cert.KernelIdeal.main_arg13)) = W (Proc.devRef .tc Cert.KernelIdeal.main_arg13) := cast_self _ _
theorem tv1_K_main_arg34_leaf (W : Valuation Cert.KernelIdeal.τ Cert.KernelIdeal.sig (Elt Ideal)) : (TRef.of (T := ⟨Cert.KernelIdeal.S128x128, .f32⟩) Cert.KernelIdeal.main_arg34).ofBuf (W (Proc.devRef .tc Cert.KernelIdeal.main_arg34)) = W (Proc.devRef .tc Cert.KernelIdeal.main_arg34) := cast_self _ _
theorem tv1_K_main_arg35_leaf (W : Valuation Cert.KernelIdeal.τ Cert.KernelIdeal.sig (Elt Ideal)) : (TRef.of (T := ⟨Cert.KernelIdeal.S128, .f32⟩) Cert.KernelIdeal.main_arg35).ofBuf (W (Proc.devRef .tc Cert.KernelIdeal.main_arg35)) = W (Proc.devRef .tc Cert.KernelIdeal.main_arg35) := cast_self _ _

set_option maxRecDepth 16384 in
set_option maxHeartbeats 40000000 in
theorem tail_v1 (U : Valuation Cert.ReferenceIdeal.τ Cert.ReferenceIdeal.sig (Elt Ideal)) (W : Valuation Cert.KernelIdeal.τ Cert.KernelIdeal.sig (Elt Ideal))
    (hs : U (Proc.devRef .tc Cert.ReferenceIdeal.main_v98) = W (Proc.devRef .tc Cert.KernelIdeal.main_call0_v69))
    (ht : U (Proc.devRef .tc Cert.ReferenceIdeal.main_v132) = W (Proc.devRef .tc Cert.KernelIdeal.main_call0_v78))
    (ha3 : U (Proc.devRef .tc Cert.ReferenceIdeal.main_arg3) = W (Proc.devRef .tc Cert.KernelIdeal.main_arg3))
    (ha4 : U (Proc.devRef .tc Cert.ReferenceIdeal.main_arg4) = W (Proc.devRef .tc Cert.KernelIdeal.main_arg4))
    (ha10 : U (Proc.devRef .tc Cert.ReferenceIdeal.main_arg10) = W (Proc.devRef .tc Cert.KernelIdeal.main_arg10))
    (ha11 : U (Proc.devRef .tc Cert.ReferenceIdeal.main_arg11) = W (Proc.devRef .tc Cert.KernelIdeal.main_arg11))
    (ha12 : U (Proc.devRef .tc Cert.ReferenceIdeal.main_arg12) = W (Proc.devRef .tc Cert.KernelIdeal.main_arg12))
    (ha13 : U (Proc.devRef .tc Cert.ReferenceIdeal.main_arg13) = W (Proc.devRef .tc Cert.KernelIdeal.main_arg13))
    (ha34 : U (Proc.devRef .tc Cert.ReferenceIdeal.main_arg34) = W (Proc.devRef .tc Cert.KernelIdeal.main_arg34))
    (ha35 : U (Proc.devRef .tc Cert.ReferenceIdeal.main_arg35) = W (Proc.devRef .tc Cert.KernelIdeal.main_arg35)) :
    after (Cert.ReferenceIdeal.Parts.refT1 (F := Ideal)) U (Proc.devRef .tc Cert.ReferenceIdeal.main_v234)
      = after (Cert.KernelIdeal.Parts.k4A (F := Ideal)) W (Proc.devRef .tc Cert.KernelIdeal.main_call0_v180) := by
  after_results_simp
  simp only [ofBuf_toBuf, tv1_R_main_v233_of, tv1_R_main_v234_to, tv1_K_main_call0_v180_to, tv1_K_main_call0_v69_leaf, tv1_K_main_call0_v78_leaf, tv1_K_main_arg3_leaf, tv1_K_main_arg4_leaf, tv1_K_main_arg10_leaf, tv1_K_main_arg11_leaf, tv1_K_main_arg12_leaf, tv1_K_main_arg13_leaf, tv1_K_main_arg34_leaf, tv1_K_main_arg35_leaf]
  simp only [hs, ht, ha3, ha4, ha10, ha11, ha12, ha13, ha34, ha35]
  rfl

end Cert.Proof.Host

end
-- ==== Proof.TailV2.lean ====
/-
  From valuations that agree on that rectified dense layer and on the normalisation's scale and shift, the vertex
  features the two programs return are one composed term.
-/
import proofs.«119995_j74062416053450_2_alg».proof.Proof.KiPartsT
import proofs.«119995_j74062416053450_2_alg».proof.Proof.RefPartsT
import Idealize.ShloMosaic.Lib.StableHlo.Run
import Idealize.ShloMosaic.PureOps.Ideal

noncomputable section

namespace Cert.Proof.Host

open Idealize.ShloMosaic Idealize.ShloMosaic.TcCoe Idealize.SL.Sem Idealize.ShloMosaic.StableHlo

set_option maxRecDepth 16384 in
set_option maxHeartbeats 40000000 in
theorem tail_v2 (U : Valuation Cert.ReferenceIdeal.τ Cert.ReferenceIdeal.sig (Elt Ideal)) (W : Valuation Cert.KernelIdeal.τ Cert.KernelIdeal.sig (Elt Ideal))
    (hz : U (Proc.devRef .tc Cert.ReferenceIdeal.main_v234) = W (Proc.devRef .tc Cert.KernelIdeal.main_call0_v180))
    (ha36 : U (Proc.devRef .tc Cert.ReferenceIdeal.main_arg36) = W (Proc.devRef .tc Cert.KernelIdeal.main_arg36))
    (ha37 : U (Proc.devRef .tc Cert.ReferenceIdeal.main_arg37) = W (Proc.devRef .tc Cert.KernelIdeal.main_arg37)) :
    after (Cert.ReferenceIdeal.Parts.refT2 (F := Ideal)) U (Proc.devRef .tc Cert.ReferenceIdeal.main_v258)
      = after (Cert.KernelIdeal.Parts.k4B (F := Ideal)) W (Proc.devRef .tc Cert.KernelIdeal.main_v0_0) := by
  after_results_simp
  simp only [hz, ha36, ha37]
  rfl

end Cert.Proof.Host

end
-- ==== Proof.PreEq1.lean ====
/-
  The two programs begin with the same host operations: from valuations that agree on the arguments, the
  rectified dense layer of the node-to-hyperedge aggregation is one composed term on both sides. The operations
  of a called function move contents between a value's type and its buffer's own type; those moves are removed
  first (each is the identity), and the two composed terms that remain are the same operations of the same operands.
-/
import proofs.«119995_j74062416053450_2_alg».proof.Proof.KiParts
import proofs.«119995_j74062416053450_2_alg».proof.Proof.RefPartsA
import proofs.«119995_j74062416053450_2_alg».proof.Proof.HostCast
import Idealize.ShloMosaic.Lib.StableHlo.Run
import Idealize.ShloMosaic.PureOps.Ideal

noncomputable section

namespace Cert.Proof.Host

open Idealize.ShloMosaic Idealize.ShloMosaic.TcCoe Idealize.SL.Sem Idealize.ShloMosaic.StableHlo

/-! The moves that have no partner in the composed terms: the reference's rectification reads the dense layer's
    buffer and writes the result's; the kernel program's operations read the arguments and write the result. -/

theorem pre1_R_main_v34_of (v : (⟨Cert.ReferenceIdeal.S8192x128, .f32⟩ : BufTy).Contents (Elt Ideal)) : (TRef.of (T := ⟨Cert.ReferenceIdeal.S8192x128, .f32⟩) Cert.ReferenceIdeal.main_v34).ofBuf v = v := cast_self _ _
theorem pre1_R_main_v35_to (v : (⟨Cert.ReferenceIdeal.S8192x128, .f32⟩ : BufTy).Contents (Elt Ideal)) : (TRef.of (T := ⟨Cert.ReferenceIdeal.S8192x128, .f32⟩) Cert.ReferenceIdeal.main_v35).toBuf v = v := cast_self _ _
theorem pre1_K_main_call0_v31_to (v : (⟨Cert.KernelIdeal.S8192x128, .f32⟩ : BufTy).Contents (Elt Ideal)) : (TRef.of (T := ⟨Cert.KernelIdeal.S8192x128, .f32⟩) Cert.KernelIdeal.main_call0_v31).toBuf v = v := cast_self _ _
theorem pre1_K_main_arg0_leaf (W : Valuation Cert.KernelIdeal.τ Cert.KernelIdeal.sig (Elt Ideal)) : (TRef.of (T := ⟨Cert.KernelIdeal.S50000x128, .f32⟩) Cert.KernelIdeal.main_arg0).ofBuf (W (Proc.devRef .tc Cert.KernelIdeal.main_arg0)) = W (Proc.devRef .tc Cert.KernelIdeal.main_arg0) := cast_self _ _
theorem pre1_K_main_arg2_leaf (W : Valuation Cert.KernelIdeal.τ Cert.KernelIdeal.sig (Elt Ideal)) : (TRef.of (T := ⟨Cert.KernelIdeal.S50000x1, .f32⟩) Cert.KernelIdeal.main_arg2).ofBuf (W (Proc.devRef .tc Cert.KernelIdeal.main_arg2)) = W (Proc.devRef .tc Cert.KernelIdeal.main_arg2) := cast_self _ _
theorem pre1_K_main_arg5_leaf (W : Valuation Cert.KernelIdeal.τ Cert.KernelIdeal.sig (Elt Ideal)) : (TRef.of (T := ⟨Cert.KernelIdeal.S8192x1, .f32⟩) Cert.KernelIdeal.main_arg5).ofBuf (W (Proc.devRef .tc Cert.KernelIdeal.main_arg5)) = W (Proc.devRef .tc Cert.KernelIdeal.main_arg5) := cast_self _ _
theorem pre1_K_main_arg8_leaf (W : Valuation Cert.KernelIdeal.τ Cert.KernelIdeal.sig (Elt Ideal)) : (TRef.of (T := ⟨Cert.KernelIdeal.S1000000, .i32⟩) Cert.KernelIdeal.main_arg8).ofBuf (W (Proc.devRef .tc Cert.KernelIdeal.main_arg8)) = W (Proc.devRef .tc Cert.KernelIdeal.main_arg8) := cast_self _ _
theorem pre1_K_main_arg9_leaf (W : Valuation Cert.KernelIdeal.τ Cert.KernelIdeal.sig (Elt Ideal)) : (TRef.of (T := ⟨Cert.KernelIdeal.S1000000, .i32⟩) Cert.KernelIdeal.main_arg9).ofBuf (W (Proc.devRef .tc Cert.KernelIdeal.main_arg9)) = W (Proc.devRef .tc Cert.KernelIdeal.main_arg9) := cast_self _ _
theorem pre1_K_main_arg16_leaf (W : Valuation Cert.KernelIdeal.τ Cert.KernelIdeal.sig (Elt Ideal)) : (TRef.of (T := ⟨Cert.KernelIdeal.S128x128, .f32⟩) Cert.KernelIdeal.main_arg16).ofBuf (W (Proc.devRef .tc Cert.KernelIdeal.main_arg16)) = W (Proc.devRef .tc Cert.KernelIdeal.main_arg16) := cast_self _ _
theorem pre1_K_main_arg17_leaf (W : Valuation Cert.KernelIdeal.τ Cert.KernelIdeal.sig (Elt Ideal)) : (TRef.of (T := ⟨Cert.KernelIdeal.S128, .f32⟩) Cert.KernelIdeal.main_arg17).ofBuf (W (Proc.devRef .tc Cert.KernelIdeal.main_arg17)) = W (Proc.devRef .tc Cert.KernelIdeal.main_arg17) := cast_self _ _

set_option maxRecDepth 16384 in
set_option maxHeartbeats 40000000 in
theorem pre_eq1 (U : Valuation Cert.ReferenceIdeal.τ Cert.ReferenceIdeal.sig (Elt Ideal)) (W : Valuation Cert.KernelIdeal.τ Cert.KernelIdeal.sig (Elt Ideal))
    (ha0 : U (Proc.devRef .tc Cert.ReferenceIdeal.main_arg0) = W (Proc.devRef .tc Cert.KernelIdeal.main_arg0))
    (ha2 : U (Proc.devRef .tc Cert.ReferenceIdeal.main_arg2) = W (Proc.devRef .tc Cert.KernelIdeal.main_arg2))
    (ha5 : U (Proc.devRef .tc Cert.ReferenceIdeal.main_arg5) = W (Proc.devRef .tc Cert.KernelIdeal.main_arg5))
    (ha8 : U (Proc.devRef .tc Cert.ReferenceIdeal.main_arg8) = W (Proc.devRef .tc Cert.KernelIdeal.main_arg8))
    (ha9 : U (Proc.devRef .tc Cert.ReferenceIdeal.main_arg9) = W (Proc.devRef .tc Cert.KernelIdeal.main_arg9))
    (ha16 : U (Proc.devRef .tc Cert.ReferenceIdeal.main_arg16) = W (Proc.devRef .tc Cert.KernelIdeal.main_arg16))
    (ha17 : U (Proc.devRef .tc Cert.ReferenceIdeal.main_arg17) = W (Proc.devRef .tc Cert.KernelIdeal.main_arg17)) :
    after (Cert.ReferenceIdeal.Parts.refA1 (F := Ideal)) U (Proc.devRef .tc Cert.ReferenceIdeal.main_v35)
      = after (Cert.KernelIdeal.Parts.k0A (F := Ideal)) W (Proc.devRef .tc Cert.KernelIdeal.main_call0_v31) := by
  after_results_simp
  simp only [ofBuf_toBuf, pre1_R_main_v34_of, pre1_R_main_v35_to, pre1_K_main_call0_v31_to, pre1_K_main_arg0_leaf, pre1_K_main_arg2_leaf, pre1_K_main_arg5_leaf, pre1_K_main_arg8_leaf, pre1_K_main_arg9_leaf, pre1_K_main_arg16_leaf, pre1_K_main_arg17_leaf]
  simp only [ha0, ha2, ha5, ha8, ha9, ha16, ha17]
  rfl

end Cert.Proof.Host

end
-- ==== Proof.PreEq2.lean ====
/-
  From valuations that agree on the rectified dense layer's result and on the arguments, the edge features
  entering the convolutions (the layer normalisation of that result plus the edge features' own dense layer) are
  one composed term on both sides.
-/
import proofs.«119995_j74062416053450_2_alg».proof.Proof.KiParts
import proofs.«119995_j74062416053450_2_alg».proof.Proof.RefPartsA
import Idealize.ShloMosaic.Lib.StableHlo.Run
import Idealize.ShloMosaic.PureOps.Ideal

noncomputable section

namespace Cert.Proof.Host

open Idealize.ShloMosaic Idealize.ShloMosaic.TcCoe Idealize.SL.Sem Idealize.ShloMosaic.StableHlo

set_option maxRecDepth 16384 in
set_option maxHeartbeats 40000000 in
theorem pre_eq2 (U : Valuation Cert.ReferenceIdeal.τ Cert.ReferenceIdeal.sig (Elt Ideal)) (W : Valuation Cert.KernelIdeal.τ Cert.KernelIdeal.sig (Elt Ideal))
    (hz : U (Proc.devRef .tc Cert.ReferenceIdeal.main_v35) = W (Proc.devRef .tc Cert.KernelIdeal.main_call0_v31))
    (ha1 : U (Proc.devRef .tc Cert.ReferenceIdeal.main_arg1) = W (Proc.devRef .tc Cert.KernelIdeal.main_arg1))
    (ha18 : U (Proc.devRef .tc Cert.ReferenceIdeal.main_arg18) = W (Proc.devRef .tc Cert.KernelIdeal.main_arg18))
    (ha19 : U (Proc.devRef .tc Cert.ReferenceIdeal.main_arg19) = W (Proc.devRef .tc Cert.KernelIdeal.main_arg19))
    (ha20 : U (Proc.devRef .tc Cert.ReferenceIdeal.main_arg20) = W (Proc.devRef .tc Cert.KernelIdeal.main_arg20))
    (ha21 : U (Proc.devRef .tc Cert.ReferenceIdeal.main_arg21) = W (Proc.devRef .tc Cert.KernelIdeal.main_arg21)) :
    after (Cert.ReferenceIdeal.Parts.refA2 (F := Ideal)) U (Proc.devRef .tc Cert.ReferenceIdeal.main_v64)
      = after (Cert.KernelIdeal.Parts.k0B (F := Ideal)) W (Proc.devRef .tc Cert.KernelIdeal.main_call0_v60) := by
  after_results_simp
  simp only [hz, ha1, ha18, ha19, ha20, ha21]
  rfl

end Cert.Proof.Host

end
-- ==== Proof.Algebraic.lean ====
/-
  The two idealized programs return the same three arrays. Both begin with the same host operations (so the edge
  features entering the convolutions agree), both end with the same host operations (so the results agree once
  the two convolutions' results do), and in between the kernel program's four regions compute, block by block,
  the two graph convolutions the reference computes with whole matrix products: the accumulation over four column
  blocks is the whole sum, and the row-wise epilogues are the reference's dense layers and layer normalisation.
-/
import proofs.«119995_j74062416053450_2_alg».proof.Defs
import proofs.«119995_j74062416053450_2_alg».proof.Proof.Gen.Pre_finite_inputs
import proofs.«119995_j74062416053450_2_alg».proof.Proof.KiVals
import proofs.«119995_j74062416053450_2_alg».proof.Proof.RefVals
import proofs.«119995_j74062416053450_2_alg».proof.Proof.RefFrame
import proofs.«119995_j74062416053450_2_alg».proof.Proof.RefPartsT
import proofs.«119995_j74062416053450_2_alg».proof.Proof.KiPartsT
import proofs.«119995_j74062416053450_2_alg».proof.Proof.TailE
import proofs.«119995_j74062416053450_2_alg».proof.Proof.TailS
import proofs.«119995_j74062416053450_2_alg».proof.Proof.TailV1
import proofs.«119995_j74062416053450_2_alg».proof.Proof.TailV2
import proofs.«119995_j74062416053450_2_alg».proof.Proof.PreEq1
import proofs.«119995_j74062416053450_2_alg».proof.Proof.PreEq2

set_option maxRecDepth 16384

noncomputable section

namespace Cert.Proof.Alg

open Idealize.ShloMosaic Idealize.ShloMosaic.TcCoe Idealize.SL.Sem Idealize.ShloMosaic.StableHlo Idealize.ShloMosaic.ValueIdx
open Cert.ReferenceIdeal.RefVals Cert.ReferenceIdeal.Parts Cert.KernelIdeal.Parts Cert.KernelIdeal.Fr Cert.Proof.Host

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's buffers at launch, on core `c`. -/
abbrev U0 : Valuation Cert.ReferenceIdeal.τ Cert.ReferenceIdeal.sig (Elt Ideal) := launchContents m' c

/-- No operation of the kernel program's first stretch's first part writes an argument. -/
theorem k0A_arg (b : Ref Cert.KernelIdeal.sig .tc) (hb : b.idx.val < 38) (V : Valuation Cert.KernelIdeal.τ Cert.KernelIdeal.sig (Elt Ideal)) :
    after (k0A (F := Ideal)) V (Proc.devRef .tc b) = V (Proc.devRef .tc b) :=
  after_of_forall_not_mem (b := Proc.devRef .tc b) _ _ (List.forall_iff_forall_mem.mp (by
    simp only [k0A, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide))))

set_option maxHeartbeats 4000000 in
theorem k4A_arg (b : Ref Cert.KernelIdeal.sig .tc) (hb : b.idx.val < 38) (V : Valuation Cert.KernelIdeal.τ Cert.KernelIdeal.sig (Elt Ideal)) :
    after (k4A (F := Ideal)) V (Proc.devRef .tc b) = V (Proc.devRef .tc b) :=
  after_of_forall_not_mem (b := Proc.devRef .tc b) _ _ (List.forall_iff_forall_mem.mp (by
    simp only [k4A, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide))))

set_option maxHeartbeats 4000000 in
theorem refT1_arg (b : Ref Cert.ReferenceIdeal.sig .tc) (hb : b.idx.val < 38) (V : Valuation Cert.ReferenceIdeal.τ Cert.ReferenceIdeal.sig (Elt Ideal)) :
    after (refT1 (F := Ideal)) V (Proc.devRef .tc b) = V (Proc.devRef .tc b) :=
  after_of_forall_not_mem (b := Proc.devRef .tc b) _ _ (List.forall_iff_forall_mem.mp (by
    simp only [refT1, List.Forall, StableHlo.nullary_writes, StableHlo.unary_writes, StableHlo.binary_writes, StableHlo.ternary_writes, StableHlo.reshape_writes, Finset.mem_singleton]
    repeat' apply And.intro
    all_goals exact StableHlo.devRef_ne_of_ne (fun e => by subst e; exact absurd hb (by decide))))

/-- The edge features entering the convolutions agree. -/
theorem pre (a0 : U0 m' c (Proc.devRef .tc Cert.ReferenceIdeal.main_arg0) = m ((c.tc : Thread Cert.KernelIdeal.nD Cert.KernelIdeal.τ).loc Cert.KernelIdeal.main_arg0))
    (a2 : U0 m' c (Proc.devRef .tc Cert.ReferenceIdeal.main_arg2) = m ((c.tc : Thread Cert.KernelIdeal.nD Cert.KernelIdeal.τ).loc Cert.KernelIdeal.main_arg2))
    (a5 : U0 m' c (Proc.devRef .tc Cert.ReferenceIdeal.main_arg5) = m ((c.tc : Thread Cert.KernelIdeal.nD Cert.KernelIdeal.τ).loc Cert.KernelIdeal.main_arg5))
    (a8 : U0 m' c (Proc.devRef .tc Cert.ReferenceIdeal.main_arg8) = m ((c.tc : Thread Cert.KernelIdeal.nD Cert.KernelIdeal.τ).loc Cert.KernelIdeal.main_arg8))
    (a9 : U0 m' c (Proc.devRef .tc Cert.ReferenceIdeal.main_arg9) = m ((c.tc : Thread Cert.KernelIdeal.nD Cert.KernelIdeal.τ).loc Cert.KernelIdeal.main_arg9))
    (a16 : U0 m' c (Proc.devRef .tc Cert.ReferenceIdeal.main_arg16) = m ((c.tc : Thread Cert.KernelIdeal.nD Cert.KernelIdeal.τ).loc Cert.KernelIdeal.main_arg16))
    (a17 : U0 m' c (Proc.devRef .tc Cert.ReferenceIdeal.main_arg17) = m ((c.tc : Thread Cert.KernelIdeal.nD Cert.KernelIdeal.τ).loc Cert.KernelIdeal.main_arg17))
    (a1 : U0 m' c (Proc.devRef .tc Cert.ReferenceIdeal.main_arg1) = m ((c.tc : Thread Cert.KernelIdeal.nD Cert.KernelIdeal.τ).loc Cert.KernelIdeal.main_arg1))
    (a18 : U0 m' c (Proc.devRef .tc Cert.ReferenceIdeal.main_arg18) = m ((c.tc : Thread Cert.KernelIdeal.nD Cert.KernelIdeal.τ).loc Cert.KernelIdeal.main_arg18))
    (a19 : U0 m' c (Proc.devRef .tc Cert.ReferenceIdeal.main_arg19) = m ((c.tc : Thread Cert.KernelIdeal.nD Cert.KernelIdeal.τ).loc Cert.KernelIdeal.main_arg19))
    (a20 : U0 m' c (Proc.devRef .tc Cert.ReferenceIdeal.main_arg20) = m ((c.tc : Thread Cert.KernelIdeal.nD Cert.KernelIdeal.τ).loc Cert.KernelIdeal.main_arg20))
    (a21 : U0 m' c (Proc.devRef .tc Cert.ReferenceIdeal.main_arg21) = m ((c.tc : Thread Cert.KernelIdeal.nD Cert.KernelIdeal.τ).loc Cert.KernelIdeal.main_arg21)) :
    U1 (U0 m' c) (Proc.devRef .tc Cert.ReferenceIdeal.main_v64) = XK m ρ c := by
  rw [U1_v64]
  unfold XK
  refine pre_eq2 _ _ ?_ ?_ ?_ ?_ ?_ ?_
  · exact pre_eq1 _ _ a0 a2 a5 a8 a9 a16 a17
  · rw [A1_arg1, k0A_arg (Cert.KernelIdeal.main_arg1) (by decide)]; exact a1
  · rw [A1_arg18, k0A_arg (Cert.KernelIdeal.main_arg18) (by decide)]; exact a18
  · rw [A1_arg19, k0A_arg (Cert.KernelIdeal.main_arg19) (by decide)]; exact a19
  · rw [A1_arg20, k0A_arg (Cert.KernelIdeal.main_arg20) (by decide)]; exact a20
  · rw [A1_arg21, k0A_arg (Cert.KernelIdeal.main_arg21) (by decide)]; exact a21

/-- The first convolution's results agree. -/
theorem hs (hpre : U1 (U0 m' c) (Proc.devRef .tc Cert.ReferenceIdeal.main_v64) = XK m ρ c) (a6 : U0 m' c (Proc.devRef .tc Cert.ReferenceIdeal.main_arg6) = m ((c.tc : Thread Cert.KernelIdeal.nD Cert.KernelIdeal.τ).loc Cert.KernelIdeal.main_arg6))
    (a22 : U0 m' c (Proc.devRef .tc Cert.ReferenceIdeal.main_arg22) = m ((c.tc : Thread Cert.KernelIdeal.nD Cert.KernelIdeal.τ).loc Cert.KernelIdeal.main_arg22))
    (a23 : U0 m' c (Proc.devRef .tc Cert.ReferenceIdeal.main_arg23) = m ((c.tc : Thread Cert.KernelIdeal.nD Cert.KernelIdeal.τ).loc Cert.KernelIdeal.main_arg23))
    (a24 : U0 m' c (Proc.devRef .tc Cert.ReferenceIdeal.main_arg24) = m ((c.tc : Thread Cert.KernelIdeal.nD Cert.KernelIdeal.τ).loc Cert.KernelIdeal.main_arg24))
    (a25 : U0 m' c (Proc.devRef .tc Cert.ReferenceIdeal.main_arg25) = m ((c.tc : Thread Cert.KernelIdeal.nD Cert.KernelIdeal.τ).loc Cert.KernelIdeal.main_arg25))
    (a26 : U0 m' c (Proc.devRef .tc Cert.ReferenceIdeal.main_arg26) = m ((c.tc : Thread Cert.KernelIdeal.nD Cert.KernelIdeal.τ).loc Cert.KernelIdeal.main_arg26))
    (a27 : U0 m' c (Proc.devRef .tc Cert.ReferenceIdeal.main_arg27) = m ((c.tc : Thread Cert.KernelIdeal.nD Cert.KernelIdeal.τ).loc Cert.KernelIdeal.main_arg27)) :
    U3 (U0 m' c) (Proc.devRef .tc Cert.ReferenceIdeal.main_v98) = W8 m ρ c (Proc.devRef .tc Cert.KernelIdeal.main_call0_v69) := by
  rw [U3_struct, W8_v69, W4_v69, hpre, a6, a22, a26]
  simp only [a23, a24, a25, a27]

/-- The second convolution's results agree. -/
theorem ht (hpre : U1 (U0 m' c) (Proc.devRef .tc Cert.ReferenceIdeal.main_v64) = XK m ρ c) (a7 : U0 m' c (Proc.devRef .tc Cert.ReferenceIdeal.main_arg7) = m ((c.tc : Thread Cert.KernelIdeal.nD Cert.KernelIdeal.τ).loc Cert.KernelIdeal.main_arg7))
    (a28 : U0 m' c (Proc.devRef .tc Cert.ReferenceIdeal.main_arg28) = m ((c.tc : Thread Cert.KernelIdeal.nD Cert.KernelIdeal.τ).loc Cert.KernelIdeal.main_arg28))
    (a29 : U0 m' c (Proc.devRef .tc Cert.ReferenceIdeal.main_arg29) = m ((c.tc : Thread Cert.KernelIdeal.nD Cert.KernelIdeal.τ).loc Cert.KernelIdeal.main_arg29))
    (a30 : U0 m' c (Proc.devRef .tc Cert.ReferenceIdeal.main_arg30) = m ((c.tc : Thread Cert.KernelIdeal.nD Cert.KernelIdeal.τ).loc Cert.KernelIdeal.main_arg30))
    (a31 : U0 m' c (Proc.devRef .tc Cert.ReferenceIdeal.main_arg31) = m ((c.tc : Thread Cert.KernelIdeal.nD Cert.KernelIdeal.τ).loc Cert.KernelIdeal.main_arg31))
    (a32 : U0 m' c (Proc.devRef .tc Cert.ReferenceIdeal.main_arg32) = m ((c.tc : Thread Cert.KernelIdeal.nD Cert.KernelIdeal.τ).loc Cert.KernelIdeal.main_arg32))
    (a33 : U0 m' c (Proc.devRef .tc Cert.ReferenceIdeal.main_arg33) = m ((c.tc : Thread Cert.KernelIdeal.nD Cert.KernelIdeal.τ).loc Cert.KernelIdeal.main_arg33)) :
    U3 (U0 m' c) (Proc.devRef .tc Cert.ReferenceIdeal.main_v132) = W8 m ρ c (Proc.devRef .tc Cert.KernelIdeal.main_call0_v78) := by
  rw [U3_temp, W8_v78, hpre, a7, a28, a32]
  simp only [a29, a30, a31, a33]

/-- The mixed convolution results the two programs return agree. -/
theorem res_e (h98 : U3 (U0 m' c) (Proc.devRef .tc Cert.ReferenceIdeal.main_v98) = W8 m ρ c (Proc.devRef .tc Cert.KernelIdeal.main_call0_v69)) (h132 : U3 (U0 m' c) (Proc.devRef .tc Cert.ReferenceIdeal.main_v132) = W8 m ρ c (Proc.devRef .tc Cert.KernelIdeal.main_call0_v78))
    (a3 : U0 m' c (Proc.devRef .tc Cert.ReferenceIdeal.main_arg3) = m ((c.tc : Thread Cert.KernelIdeal.nD Cert.KernelIdeal.τ).loc Cert.KernelIdeal.main_arg3))
    (a4 : U0 m' c (Proc.devRef .tc Cert.ReferenceIdeal.main_arg4) = m ((c.tc : Thread Cert.KernelIdeal.nD Cert.KernelIdeal.τ).loc Cert.KernelIdeal.main_arg4))
    (a10 : U0 m' c (Proc.devRef .tc Cert.ReferenceIdeal.main_arg10) = m ((c.tc : Thread Cert.KernelIdeal.nD Cert.KernelIdeal.τ).loc Cert.KernelIdeal.main_arg10))
    (a11 : U0 m' c (Proc.devRef .tc Cert.ReferenceIdeal.main_arg11) = m ((c.tc : Thread Cert.KernelIdeal.nD Cert.KernelIdeal.τ).loc Cert.KernelIdeal.main_arg11))
    (a12 : U0 m' c (Proc.devRef .tc Cert.ReferenceIdeal.main_arg12) = m ((c.tc : Thread Cert.KernelIdeal.nD Cert.KernelIdeal.τ).loc Cert.KernelIdeal.main_arg12))
    (a13 : U0 m' c (Proc.devRef .tc Cert.ReferenceIdeal.main_arg13) = m ((c.tc : Thread Cert.KernelIdeal.nD Cert.KernelIdeal.τ).loc Cert.KernelIdeal.main_arg13))
    (a34 : U0 m' c (Proc.devRef .tc Cert.ReferenceIdeal.main_arg34) = m ((c.tc : Thread Cert.KernelIdeal.nD Cert.KernelIdeal.τ).loc Cert.KernelIdeal.main_arg34))
    (a35 : U0 m' c (Proc.devRef .tc Cert.ReferenceIdeal.main_arg35) = m ((c.tc : Thread Cert.KernelIdeal.nD Cert.KernelIdeal.τ).loc Cert.KernelIdeal.main_arg35))
    (a36 : U0 m' c (Proc.devRef .tc Cert.ReferenceIdeal.main_arg36) = m ((c.tc : Thread Cert.KernelIdeal.nD Cert.KernelIdeal.τ).loc Cert.KernelIdeal.main_arg36))
    (a37 : U0 m' c (Proc.devRef .tc Cert.ReferenceIdeal.main_arg37) = m ((c.tc : Thread Cert.KernelIdeal.nD Cert.KernelIdeal.τ).loc Cert.KernelIdeal.main_arg37)) :
    after (Cert.ReferenceIdeal.ValueP.ops (F := Ideal)) (U0 m' c) (Proc.devRef .tc Cert.ReferenceIdeal.main_v202) = W9 m ρ c (Proc.devRef .tc Cert.KernelIdeal.main_v0_1) := by
  rw [ops_after]
  exact tail_e _ _ h98 h132 (by rw [U3_arg3, W8_argm m ρ c _ (by decide)]; exact a3) (by rw [U3_arg4, W8_argm m ρ c _ (by decide)]; exact a4) (by rw [U3_arg10, W8_argm m ρ c _ (by decide)]; exact a10) (by rw [U3_arg11, W8_argm m ρ c _ (by decide)]; exact a11) (by rw [U3_arg12, W8_argm m ρ c _ (by decide)]; exact a12) (by rw [U3_arg13, W8_argm m ρ c _ (by decide)]; exact a13) (by rw [U3_arg34, W8_argm m ρ c _ (by decide)]; exact a34) (by rw [U3_arg35, W8_argm m ρ c _ (by decide)]; exact a35) (by rw [U3_arg36, W8_argm m ρ c _ (by decide)]; exact a36) (by rw [U3_arg37, W8_argm m ρ c _ (by decide)]; exact a37)

/-- The losses agree. -/
theorem res_s (h98 : U3 (U0 m' c) (Proc.devRef .tc Cert.ReferenceIdeal.main_v98) = W8 m ρ c (Proc.devRef .tc Cert.KernelIdeal.main_call0_v69)) (h132 : U3 (U0 m' c) (Proc.devRef .tc Cert.ReferenceIdeal.main_v132) = W8 m ρ c (Proc.devRef .tc Cert.KernelIdeal.main_call0_v78))
    (a3 : U0 m' c (Proc.devRef .tc Cert.ReferenceIdeal.main_arg3) = m ((c.tc : Thread Cert.KernelIdeal.nD Cert.KernelIdeal.τ).loc Cert.KernelIdeal.main_arg3))
    (a4 : U0 m' c (Proc.devRef .tc Cert.ReferenceIdeal.main_arg4) = m ((c.tc : Thread Cert.KernelIdeal.nD Cert.KernelIdeal.τ).loc Cert.KernelIdeal.main_arg4))
    (a10 : U0 m' c (Proc.devRef .tc Cert.ReferenceIdeal.main_arg10) = m ((c.tc : Thread Cert.KernelIdeal.nD Cert.KernelIdeal.τ).loc Cert.KernelIdeal.main_arg10))
    (a11 : U0 m' c (Proc.devRef .tc Cert.ReferenceIdeal.main_arg11) = m ((c.tc : Thread Cert.KernelIdeal.nD Cert.KernelIdeal.τ).loc Cert.KernelIdeal.main_arg11))
    (a12 : U0 m' c (Proc.devRef .tc Cert.ReferenceIdeal.main_arg12) = m ((c.tc : Thread Cert.KernelIdeal.nD Cert.KernelIdeal.τ).loc Cert.KernelIdeal.main_arg12))
    (a13 : U0 m' c (Proc.devRef .tc Cert.ReferenceIdeal.main_arg13) = m ((c.tc : Thread Cert.KernelIdeal.nD Cert.KernelIdeal.τ).loc Cert.KernelIdeal.main_arg13))
    (a34 : U0 m' c (Proc.devRef .tc Cert.ReferenceIdeal.main_arg34) = m ((c.tc : Thread Cert.KernelIdeal.nD Cert.KernelIdeal.τ).loc Cert.KernelIdeal.main_arg34))
    (a35 : U0 m' c (Proc.devRef .tc Cert.ReferenceIdeal.main_arg35) = m ((c.tc : Thread Cert.KernelIdeal.nD Cert.KernelIdeal.τ).loc Cert.KernelIdeal.main_arg35))
    (a36 : U0 m' c (Proc.devRef .tc Cert.ReferenceIdeal.main_arg36) = m ((c.tc : Thread Cert.KernelIdeal.nD Cert.KernelIdeal.τ).loc Cert.KernelIdeal.main_arg36))
    (a37 : U0 m' c (Proc.devRef .tc Cert.ReferenceIdeal.main_arg37) = m ((c.tc : Thread Cert.KernelIdeal.nD Cert.KernelIdeal.τ).loc Cert.KernelIdeal.main_arg37)) :
    after (Cert.ReferenceIdeal.ValueP.ops (F := Ideal)) (U0 m' c) (Proc.devRef .tc Cert.ReferenceIdeal.main_v197) = W9 m ρ c (Proc.devRef .tc Cert.KernelIdeal.main_v0_2) := by
  rw [ops_after]
  exact tail_s _ _ h98 h132 (by rw [U3_arg3, W8_argm m ρ c _ (by decide)]; exact a3) (by rw [U3_arg4, W8_argm m ρ c _ (by decide)]; exact a4) (by rw [U3_arg10, W8_argm m ρ c _ (by decide)]; exact a10) (by rw [U3_arg11, W8_argm m ρ c _ (by decide)]; exact a11) (by rw [U3_arg12, W8_argm m ρ c _ (by decide)]; exact a12) (by rw [U3_arg13, W8_argm m ρ c _ (by decide)]; exact a13) (by rw [U3_arg34, W8_argm m ρ c _ (by decide)]; exact a34) (by rw [U3_arg35, W8_argm m ρ c _ (by decide)]; exact a35) (by rw [U3_arg36, W8_argm m ρ c _ (by decide)]; exact a36) (by rw [U3_arg37, W8_argm m ρ c _ (by decide)]; exact a37)

/-- The vertex features agree. -/
theorem res_v (h98 : U3 (U0 m' c) (Proc.devRef .tc Cert.ReferenceIdeal.main_v98) = W8 m ρ c (Proc.devRef .tc Cert.KernelIdeal.main_call0_v69)) (h132 : U3 (U0 m' c) (Proc.devRef .tc Cert.ReferenceIdeal.main_v132) = W8 m ρ c (Proc.devRef .tc Cert.KernelIdeal.main_call0_v78))
    (a3 : U0 m' c (Proc.devRef .tc Cert.ReferenceIdeal.main_arg3) = m ((c.tc : Thread Cert.KernelIdeal.nD Cert.KernelIdeal.τ).loc Cert.KernelIdeal.main_arg3))
    (a4 : U0 m' c (Proc.devRef .tc Cert.ReferenceIdeal.main_arg4) = m ((c.tc : Thread Cert.KernelIdeal.nD Cert.KernelIdeal.τ).loc Cert.KernelIdeal.main_arg4))
    (a10 : U0 m' c (Proc.devRef .tc Cert.ReferenceIdeal.main_arg10) = m ((c.tc : Thread Cert.KernelIdeal.nD Cert.KernelIdeal.τ).loc Cert.KernelIdeal.main_arg10))
    (a11 : U0 m' c (Proc.devRef .tc Cert.ReferenceIdeal.main_arg11) = m ((c.tc : Thread Cert.KernelIdeal.nD Cert.KernelIdeal.τ).loc Cert.KernelIdeal.main_arg11))
    (a12 : U0 m' c (Proc.devRef .tc Cert.ReferenceIdeal.main_arg12) = m ((c.tc : Thread Cert.KernelIdeal.nD Cert.KernelIdeal.τ).loc Cert.KernelIdeal.main_arg12))
    (a13 : U0 m' c (Proc.devRef .tc Cert.ReferenceIdeal.main_arg13) = m ((c.tc : Thread Cert.KernelIdeal.nD Cert.KernelIdeal.τ).loc Cert.KernelIdeal.main_arg13))
    (a34 : U0 m' c (Proc.devRef .tc Cert.ReferenceIdeal.main_arg34) = m ((c.tc : Thread Cert.KernelIdeal.nD Cert.KernelIdeal.τ).loc Cert.KernelIdeal.main_arg34))
    (a35 : U0 m' c (Proc.devRef .tc Cert.ReferenceIdeal.main_arg35) = m ((c.tc : Thread Cert.KernelIdeal.nD Cert.KernelIdeal.τ).loc Cert.KernelIdeal.main_arg35))
    (a36 : U0 m' c (Proc.devRef .tc Cert.ReferenceIdeal.main_arg36) = m ((c.tc : Thread Cert.KernelIdeal.nD Cert.KernelIdeal.τ).loc Cert.KernelIdeal.main_arg36))
    (a37 : U0 m' c (Proc.devRef .tc Cert.ReferenceIdeal.main_arg37) = m ((c.tc : Thread Cert.KernelIdeal.nD Cert.KernelIdeal.τ).loc Cert.KernelIdeal.main_arg37)) :
    after (Cert.ReferenceIdeal.ValueP.ops (F := Ideal)) (U0 m' c) (Proc.devRef .tc Cert.ReferenceIdeal.main_v258) = W9 m ρ c (Proc.devRef .tc Cert.KernelIdeal.main_v0_0) := by
  rw [ops_after]
  show after (refT (F := Ideal)) (U3 (U0 m' c)) (Proc.devRef .tc Cert.ReferenceIdeal.main_v258) = after (Cert.KernelIdeal.Gen.hostOps4 (F := Ideal)) (W8 m ρ c) (Proc.devRef .tc Cert.KernelIdeal.main_v0_0)
  rw [refT_split, hostOps4_split, Cert.ReferenceIdeal.Parts.after_append, Cert.ReferenceIdeal.Parts.after_append]
  refine tail_v2 _ _ ?_ ?_ ?_
  · exact tail_v1 _ _ h98 h132 (by rw [U3_arg3, W8_argm m ρ c _ (by decide)]; exact a3) (by rw [U3_arg4, W8_argm m ρ c _ (by decide)]; exact a4) (by rw [U3_arg10, W8_argm m ρ c _ (by decide)]; exact a10) (by rw [U3_arg11, W8_argm m ρ c _ (by decide)]; exact a11) (by rw [U3_arg12, W8_argm m ρ c _ (by decide)]; exact a12) (by rw [U3_arg13, W8_argm m ρ c _ (by decide)]; exact a13) (by rw [U3_arg34, W8_argm m ρ c _ (by decide)]; exact a34) (by rw [U3_arg35, W8_argm m ρ c _ (by decide)]; exact a35)
  · rw [refT1_arg (Cert.ReferenceIdeal.main_arg36) (by decide), k4A_arg (Cert.KernelIdeal.main_arg36) (by decide), U3_arg36, W8_argm m ρ c _ (by decide)]; exact a36
  · rw [refT1_arg (Cert.ReferenceIdeal.main_arg37) (by decide), k4A_arg (Cert.KernelIdeal.main_arg37) (by decide), U3_arg37, W8_argm m ρ c _ (by decide)]; exact a37

end

end Cert.Proof.Alg

namespace Cert.Proof

open Idealize.ShloMosaic Idealize.ShloMosaic.TcCoe Idealize.SL.Sem Idealize.ShloMosaic.StableHlo

set_option maxHeartbeats 4000000 in
theorem algebraic : Cert.algebraic_KernelIdeal_ReferenceIdeal := by
  intro m ρ m' ρ' _ hagree
  refine ⟨fun c => Cert.KernelIdeal.Fr.W9 m ρ c (Proc.devRef .tc Cert.KernelIdeal.main_v0_0), fun c => Cert.KernelIdeal.Fr.W9 m ρ c (Proc.devRef .tc Cert.KernelIdeal.main_v0_1), fun c => Cert.KernelIdeal.Fr.W9 m ρ c (Proc.devRef .tc Cert.KernelIdeal.main_v0_2), ?_, ?_⟩
  · refine (θ_run (Cert.KernelIdeal.defs (F := Ideal)) _ _).mono (fun r h c => ?_) (Cert.KernelIdeal.Fr.run_main (F := Ideal) m ρ)
    exact ⟨h c _ (Cert.KernelIdeal.Fr.mem_uc Cert.KernelIdeal.main_v0_0 (by decide)), h c _ (Cert.KernelIdeal.Fr.mem_uc Cert.KernelIdeal.main_v0_1 (by decide)), h c _ (Cert.KernelIdeal.Fr.mem_uc Cert.KernelIdeal.main_v0_2 (by decide)),
      Cert.KernelIdeal.Fr.arg_kept m ρ h c Cert.KernelIdeal.main_arg0 (by decide) (by decide),
      Cert.KernelIdeal.Fr.arg_kept m ρ h c Cert.KernelIdeal.main_arg1 (by decide) (by decide),
      Cert.KernelIdeal.Fr.arg_kept m ρ h c Cert.KernelIdeal.main_arg2 (by decide) (by decide),
      Cert.KernelIdeal.Fr.arg_kept m ρ h c Cert.KernelIdeal.main_arg3 (by decide) (by decide),
      Cert.KernelIdeal.Fr.arg_kept m ρ h c Cert.KernelIdeal.main_arg4 (by decide) (by decide),
      Cert.KernelIdeal.Fr.arg_kept m ρ h c Cert.KernelIdeal.main_arg5 (by decide) (by decide),
      Cert.KernelIdeal.Fr.arg_kept m ρ h c Cert.KernelIdeal.main_arg6 (by decide) (by decide),
      Cert.KernelIdeal.Fr.arg_kept m ρ h c Cert.KernelIdeal.main_arg7 (by decide) (by decide),
      Cert.KernelIdeal.Fr.arg_kept m ρ h c Cert.KernelIdeal.main_arg8 (by decide) (by decide),
      Cert.KernelIdeal.Fr.arg_kept m ρ h c Cert.KernelIdeal.main_arg9 (by decide) (by decide),
      Cert.KernelIdeal.Fr.arg_kept m ρ h c Cert.KernelIdeal.main_arg10 (by decide) (by decide),
      Cert.KernelIdeal.Fr.arg_kept m ρ h c Cert.KernelIdeal.main_arg11 (by decide) (by decide),
      Cert.KernelIdeal.Fr.arg_kept m ρ h c Cert.KernelIdeal.main_arg12 (by decide) (by decide),
      Cert.KernelIdeal.Fr.arg_kept m ρ h c Cert.KernelIdeal.main_arg13 (by decide) (by decide),
      Cert.KernelIdeal.Fr.arg_kept m ρ h c Cert.KernelIdeal.main_arg14 (by decide) (by decide),
      Cert.KernelIdeal.Fr.arg_kept m ρ h c Cert.KernelIdeal.main_arg15 (by decide) (by decide),
      Cert.KernelIdeal.Fr.arg_kept m ρ h c Cert.KernelIdeal.main_arg16 (by decide) (by decide),
      Cert.KernelIdeal.Fr.arg_kept m ρ h c Cert.KernelIdeal.main_arg17 (by decide) (by decide),
      Cert.KernelIdeal.Fr.arg_kept m ρ h c Cert.KernelIdeal.main_arg18 (by decide) (by decide),
      Cert.KernelIdeal.Fr.arg_kept m ρ h c Cert.KernelIdeal.main_arg19 (by decide) (by decide),
      Cert.KernelIdeal.Fr.arg_kept m ρ h c Cert.KernelIdeal.main_arg20 (by decide) (by decide),
      Cert.KernelIdeal.Fr.arg_kept m ρ h c Cert.KernelIdeal.main_arg21 (by decide) (by decide),
      Cert.KernelIdeal.Fr.arg_kept m ρ h c Cert.KernelIdeal.main_arg22 (by decide) (by decide),
      Cert.KernelIdeal.Fr.arg_kept m ρ h c Cert.KernelIdeal.main_arg23 (by decide) (by decide),
      Cert.KernelIdeal.Fr.arg_kept m ρ h c Cert.KernelIdeal.main_arg24 (by decide) (by decide),
      Cert.KernelIdeal.Fr.arg_kept m ρ h c Cert.KernelIdeal.main_arg25 (by decide) (by decide),
      Cert.KernelIdeal.Fr.arg_kept m ρ h c Cert.KernelIdeal.main_arg26 (by decide) (by decide),
      Cert.KernelIdeal.Fr.arg_kept m ρ h c Cert.KernelIdeal.main_arg27 (by decide) (by decide),
      Cert.KernelIdeal.Fr.arg_kept m ρ h c Cert.KernelIdeal.main_arg28 (by decide) (by decide),
      Cert.KernelIdeal.Fr.arg_kept m ρ h c Cert.KernelIdeal.main_arg29 (by decide) (by decide),
      Cert.KernelIdeal.Fr.arg_kept m ρ h c Cert.KernelIdeal.main_arg30 (by decide) (by decide),
      Cert.KernelIdeal.Fr.arg_kept m ρ h c Cert.KernelIdeal.main_arg31 (by decide) (by decide),
      Cert.KernelIdeal.Fr.arg_kept m ρ h c Cert.KernelIdeal.main_arg32 (by decide) (by decide),
      Cert.KernelIdeal.Fr.arg_kept m ρ h c Cert.KernelIdeal.main_arg33 (by decide) (by decide),
      Cert.KernelIdeal.Fr.arg_kept m ρ h c Cert.KernelIdeal.main_arg34 (by decide) (by decide),
      Cert.KernelIdeal.Fr.arg_kept m ρ h c Cert.KernelIdeal.main_arg35 (by decide) (by decide),
      Cert.KernelIdeal.Fr.arg_kept m ρ h c Cert.KernelIdeal.main_arg36 (by decide) (by decide),
      Cert.KernelIdeal.Fr.arg_kept m ρ h c Cert.KernelIdeal.main_arg37 (by decide) (by decide)⟩
  · refine (θ_run (Cert.ReferenceIdeal.defs (F := Ideal)) _ _).mono (fun r h c => ?_)
      (run_seq Cert.ReferenceIdeal.ValueP.scopedRefs_eq Cert.ReferenceIdeal.ValueP.scopedSems_eq Cert.ReferenceIdeal.defs Cert.ReferenceIdeal.main (fun _ => Cert.ReferenceIdeal.ValueP.ops) Cert.ReferenceIdeal.ValueP.main_eq (fun _ => Cert.ReferenceIdeal.ValueP.ops_sub) m' ρ')
    have a0 : Alg.U0 m' c (Proc.devRef .tc Cert.ReferenceIdeal.main_arg0) = m ((c.tc : Thread Cert.KernelIdeal.nD Cert.KernelIdeal.τ).loc Cert.KernelIdeal.main_arg0) := (hagree c).1
    have a1 : Alg.U0 m' c (Proc.devRef .tc Cert.ReferenceIdeal.main_arg1) = m ((c.tc : Thread Cert.KernelIdeal.nD Cert.KernelIdeal.τ).loc Cert.KernelIdeal.main_arg1) := (hagree c).2.1
    have a2 : Alg.U0 m' c (Proc.devRef .tc Cert.ReferenceIdeal.main_arg2) = m ((c.tc : Thread Cert.KernelIdeal.nD Cert.KernelIdeal.τ).loc Cert.KernelIdeal.main_arg2) := (hagree c).2.2.1
    have a3 : Alg.U0 m' c (Proc.devRef .tc Cert.ReferenceIdeal.main_arg3) = m ((c.tc : Thread Cert.KernelIdeal.nD Cert.KernelIdeal.τ).loc Cert.KernelIdeal.main_arg3) := (hagree c).2.2.2.1
    have a4 : Alg.U0 m' c (Proc.devRef .tc Cert.ReferenceIdeal.main_arg4) = m ((c.tc : Thread Cert.KernelIdeal.nD Cert.KernelIdeal.τ).loc Cert.KernelIdeal.main_arg4) := (hagree c).2.2.2.2.1
    have a5 : Alg.U0 m' c (Proc.devRef .tc Cert.ReferenceIdeal.main_arg5) = m ((c.tc : Thread Cert.KernelIdeal.nD Cert.KernelIdeal.τ).loc Cert.KernelIdeal.main_arg5) := (hagree c).2.2.2.2.2.1
    have a6 : Alg.U0 m' c (Proc.devRef .tc Cert.ReferenceIdeal.main_arg6) = m ((c.tc : Thread Cert.KernelIdeal.nD Cert.KernelIdeal.τ).loc Cert.KernelIdeal.main_arg6) := (hagree c).2.2.2.2.2.2.1
    have a7 : Alg.U0 m' c (Proc.devRef .tc Cert.ReferenceIdeal.main_arg7) = m ((c.tc : Thread Cert.KernelIdeal.nD Cert.KernelIdeal.τ).loc Cert.KernelIdeal.main_arg7) := (hagree c).2.2.2.2.2.2.2.1
    have a8 : Alg.U0 m' c (Proc.devRef .tc Cert.ReferenceIdeal.main_arg8) = m ((c.tc : Thread Cert.KernelIdeal.nD Cert.KernelIdeal.τ).loc Cert.KernelIdeal.main_arg8) := (hagree c).2.2.2.2.2.2.2.2.1
    have a9 : Alg.U0 m' c (Proc.devRef .tc Cert.ReferenceIdeal.main_arg9) = m ((c.tc : Thread Cert.KernelIdeal.nD Cert.KernelIdeal.τ).loc Cert.KernelIdeal.main_arg9) := (hagree c).2.2.2.2.2.2.2.2.2.1
    have a10 : Alg.U0 m' c (Proc.devRef .tc Cert.ReferenceIdeal.main_arg10) = m ((c.tc : Thread Cert.KernelIdeal.nD Cert.KernelIdeal.τ).loc Cert.KernelIdeal.main_arg10) := (hagree c).2.2.2.2.2.2.2.2.2.2.1
    have a11 : Alg.U0 m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
    have a12 : Alg.U0 m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
    have a13 : Alg.U0 m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
    have a14 : Alg.U0 m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
    have a15 : Alg.U0 m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2.1
    have a16 : Alg.U0 m' c (Proc.devRef .tc Cert.ReferenceIdeal.main_arg16) = m ((c.tc : Thread Cert.KernelIdeal.nD Cert.KernelIdeal.τ).loc Cert.KernelIdeal.main_arg16) := (hagree c).2.2.2.2.2.2.2.2.2.2.2.2.2.2.2.2.1
    have a17 : Alg.U0 m' c (Proc.devRef .tc Cert.ReferenceIdeal.main_arg17) = m ((c.tc : Thread Cert.KernelIdeal.nD Cert.KernelIdeal.τ).loc Cert.KernelIdeal.main_arg17) := (hagree c).2.2.2.2.2.2.2.2.2.2.2.2.2.2.2.2.2.1
    have a18 : Alg.U0 m' c (Proc.devRef .tc Cert.ReferenceIdeal.main_arg18) = m ((c.tc : Thread Cert.KernelIdeal.nD Cert.KernelIdeal.τ).loc Cert.KernelIdeal.main_arg18) := (hagree c).2.2.2.2.2.2.2.2.2.2.2.2.2.2.2.2.2.2.1
    have a19 : Alg.U0 m' c (Proc.devRef .tc Cert.ReferenceIdeal.main_arg19) = m ((c.tc : Thread Cert.KernelIdeal.nD Cert.KernelIdeal.τ).loc Cert.KernelIdeal.main_arg19) := (hagree c).2.2.2.2.2.2.2.2.2.2.2.2.2.2.2.2.2.2.2.1
    have a20 : Alg.U0 m' c (Proc.devRef .tc Cert.ReferenceIdeal.main_arg20) = m ((c.tc : Thread Cert.KernelIdeal.nD Cert.KernelIdeal.τ).loc Cert.KernelIdeal.main_arg20) := (hagree c).2.2.2.2.2.2.2.2.2.2.2.2.2.2.2.2.2.2.2.2.1
    have a21 : Alg.U0 m' c (Proc.devRef .tc Cert.ReferenceIdeal.main_arg21) = m ((c.tc : Thread Cert.KernelIdeal.nD Cert.KernelIdeal.τ).loc Cert.KernelIdeal.main_arg21) := (hagree c).2.2.2.2.2.2.2.2.2.2.2.2.2.2.2.2.2.2.2.2.2.1
    have a22 : Alg.U0 m' c (Proc.devRef .tc Cert.ReferenceIdeal.main_arg22) = m ((c.tc : Thread Cert.KernelIdeal.nD Cert.KernelIdeal.τ).loc Cert.KernelIdeal.main_arg22) := (hagree c).2.2.2.2.2.2.2.2.2.2.2.2.2.2.2.2.2.2.2.2.2.2.1
    have a23 : Alg.U0 m' c (Proc.devRef .tc Cert.ReferenceIdeal.main_arg23) = m ((c.tc : Thread Cert.KernelIdeal.nD Cert.KernelIdeal.τ).loc Cert.KernelIdeal.main_arg23) := (hagree c).2.2.2.2.2.2.2.2.2.2.2.2.2.2.2.2.2.2.2.2.2.2.2.1
    have a24 : Alg.U0 m' c (Proc.devRef .tc Cert.ReferenceIdeal.main_arg24) = m ((c.tc : Thread Cert.KernelIdeal.nD Cert.KernelIdeal.τ).loc Cert.KernelIdeal.main_arg24) := (hagree c).2.2.2.2.2.2.2.2.2.2.2.2.2.2.2.2.2.2.2.2.2.2.2.2.1
    have a25 : Alg.U0 m' c (Proc.devRef .tc Cert.ReferenceIdeal.main_arg25) = m ((c.tc : Thread Cert.KernelIdeal.nD Cert.KernelIdeal.τ).loc Cert.KernelIdeal.main_arg25) := (hagree c).2.2.2.2.2.2.2.2.2.2.2.2.2.2.2.2.2.2.2.2.2.2.2.2.2.1
    have a26 : Alg.U0 m' c (Proc.devRef .tc Cert.ReferenceIdeal.main_arg26) = m ((c.tc : Thread Cert.KernelIdeal.nD Cert.KernelIdeal.τ).loc Cert.KernelIdeal.main_arg26) := (hagree c).2.2.2.2.2.2.2.2.2.2.2.2.2.2.2.2.2.2.2.2.2.2.2.2.2.2.1
    have a27 : Alg.U0 m' c (Proc.devRef .tc Cert.ReferenceIdeal.main_arg27) = m ((c.tc : Thread Cert.KernelIdeal.nD Cert.KernelIdeal.τ).loc Cert.KernelIdeal.main_arg27) := (hagree c).2.2.2.2.2.2.2.2.2.2.2.2.2.2.2.2.2.2.2.2.2.2.2.2.2.2.2.1
    have a28 : Alg.U0 m' c (Proc.devRef .tc Cert.ReferenceIdeal.main_arg28) = m ((c.tc : Thread Cert.KernelIdeal.nD Cert.KernelIdeal.τ).loc Cert.KernelIdeal.main_arg28) := (hagree c).2.2.2.2.2.2.2.2.2.2.2.2.2.2.2.2.2.2.2.2.2.2.2.2.2.2.2.2.1
    have a29 : Alg.U0 m' c (Proc.devRef .tc Cert.ReferenceIdeal.main_arg29) = m ((c.tc : Thread Cert.KernelIdeal.nD Cert.KernelIdeal.τ).loc Cert.KernelIdeal.main_arg29) := (hagree c).2.2.2.2.2.2.2.2.2.2.2.2.2.2.2.2.2.2.2.2.2.2.2.2.2.2.2.2.2.1
    have a30 : Alg.U0 m' c (Proc.devRef .tc Cert.ReferenceIdeal.main_arg30) = m ((c.tc : Thread Cert.KernelIdeal.nD Cert.KernelIdeal.τ).loc Cert.KernelIdeal.main_arg30) := (hagree c).2.2.2.2.2.2.2.2.2.2.2.2.2.2.2.2.2.2.2.2.2.2.2.2.2.2.2.2.2.2.1
    have a31 : Alg.U0 m' c (Proc.devRef .tc Cert.ReferenceIdeal.main_arg31) = m ((c.tc : Thread Cert.KernelIdeal.nD Cert.KernelIdeal.τ).loc Cert.KernelIdeal.main_arg31) := (hagree c).2.2.2.2.2.2.2.2.2.2.2.2.2.2.2.2.2.2.2.2.2.2.2.2.2.2.2.2.2.2.2.1
    have a32 : Alg.U0 m' c (Proc.devRef .tc Cert.ReferenceIdeal.main_arg32) = m ((c.tc : Thread Cert.KernelIdeal.nD Cert.KernelIdeal.τ).loc Cert.KernelIdeal.main_arg32) := (hagree c).2.2.2.2.2.2.2.2.2.2.2.2.2.2.2.2.2.2.2.2.2.2.2.2.2.2.2.2.2.2.2.2.1
    have a33 : Alg.U0 m' c (Proc.devRef .tc Cert.ReferenceIdeal.main_arg33) = m ((c.tc : Thread Cert.KernelIdeal.nD Cert.KernelIdeal.τ).loc Cert.KernelIdeal.main_arg33) := (hagree c).2.2.2.2.2.2.2.2.2.2.2.2.2.2.2.2.2.2.2.2.2.2.2.2.2.2.2.2.2.2.2.2.2.1
    have a34 : Alg.U0 m' c (Proc.devRef .tc Cert.ReferenceIdeal.main_arg34) = m ((c.tc : Thread Cert.KernelIdeal.nD Cert.KernelIdeal.τ).loc Cert.KernelIdeal.main_arg34) := (hagree c).2.2.2.2.2.2.2.2.2.2.2.2.2.2.2.2.2.2.2.2.2.2.2.2.2.2.2.2.2.2.2.2.2.2.1
    have a35 : Alg.U0 m' c (Proc.devRef .tc Cert.ReferenceIdeal.main_arg35) = m ((c.tc : Thread Cert.KernelIdeal.nD Cert.KernelIdeal.τ).loc Cert.KernelIdeal.main_arg35) := (hagree c).2.2.2.2.2.2.2.2.2.2.2.2.2.2.2.2.2.2.2.2.2.2.2.2.2.2.2.2.2.2.2.2.2.2.2.1
    have a36 : Alg.U0 m' c (Proc.devRef .tc Cert.ReferenceIdeal.main_arg36) = m ((c.tc : Thread Cert.KernelIdeal.nD Cert.KernelIdeal.τ).loc Cert.KernelIdeal.main_arg36) := (hagree c).2.2.2.2.2.2.2.2.2.2.2.2.2.2.2.2.2.2.2.2.2.2.2.2.2.2.2.2.2.2.2.2.2.2.2.2.1
    have a37 : Alg.U0 m' c (Proc.devRef .tc Cert.ReferenceIdeal.main_arg37) = m ((c.tc : Thread Cert.KernelIdeal.nD Cert.KernelIdeal.τ).loc Cert.KernelIdeal.main_arg37) := (hagree c).2.2.2.2.2.2.2.2.2.2.2.2.2.2.2.2.2.2.2.2.2.2.2.2.2.2.2.2.2.2.2.2.2.2.2.2.2
    have hpre := Alg.pre m ρ m' c a0 a2 a5 a8 a9 a16 a17 a1 a18 a19 a20 a21
    have h98 := Alg.hs m ρ m' c hpre a6 a22 a23 a24 a25 a26 a27
    have h132 := Alg.ht m ρ m' c hpre a7 a28 a29 a30 a31 a32 a33
    exact ⟨(h c Cert.ReferenceIdeal.main_v258).trans (Alg.res_v m ρ m' c h98 h132 a3 a4 a10 a11 a12 a13 a34 a35 a36 a37), (h c Cert.ReferenceIdeal.main_v202).trans (Alg.res_e m ρ m' c h98 h132 a3 a4 a10 a11 a12 a13 a34 a35 a36 a37), (h c Cert.ReferenceIdeal.main_v197).trans (Alg.res_s m ρ m' c h98 h132 a3 a4 a10 a11 a12 a13 a34 a35 a36 a37),
      (h c Cert.ReferenceIdeal.main_arg0).trans (after_of_forall_not_mem (b := Proc.devRef .tc Cert.ReferenceIdeal.main_arg0) _ _ (Cert.ReferenceIdeal.RefFrame.keeps Cert.ReferenceIdeal.main_arg0 (by decide))),
      (h c Cert.ReferenceIdeal.main_arg1).trans (after_of_forall_not_mem (b := Proc.devRef .tc Cert.ReferenceIdeal.main_arg1) _ _ (Cert.ReferenceIdeal.RefFrame.keeps Cert.ReferenceIdeal.main_arg1 (by decide))),
      (h c Cert.ReferenceIdeal.main_arg2).trans (after_of_forall_not_mem (b := Proc.devRef .tc Cert.ReferenceIdeal.main_arg2) _ _ (Cert.ReferenceIdeal.RefFrame.keeps Cert.ReferenceIdeal.main_arg2 (by decide))),
      (h c Cert.ReferenceIdeal.main_arg3).trans (after_of_forall_not_mem (b := Proc.devRef .tc Cert.ReferenceIdeal.main_arg3) _ _ (Cert.ReferenceIdeal.RefFrame.keeps Cert.ReferenceIdeal.main_arg3 (by decide))),
      (h c Cert.ReferenceIdeal.main_arg4).trans (after_of_forall_not_mem (b := Proc.devRef .tc Cert.ReferenceIdeal.main_arg4) _ _ (Cert.ReferenceIdeal.RefFrame.keeps Cert.ReferenceIdeal.main_arg4 (by decide))),
      (h c Cert.ReferenceIdeal.main_arg5).trans (after_of_forall_not_mem (b := Proc.devRef .tc Cert.ReferenceIdeal.main_arg5) _ _ (Cert.ReferenceIdeal.RefFrame.keeps Cert.ReferenceIdeal.main_arg5 (by decide))),
      (h c Cert.ReferenceIdeal.main_arg6).trans (after_of_forall_not_mem (b := Proc.devRef .tc Cert.ReferenceIdeal.main_arg6) _ _ (Cert.ReferenceIdeal.RefFrame.keeps Cert.ReferenceIdeal.main_arg6 (by decide))),
      (h c Cert.ReferenceIdeal.main_arg7).trans (after_of_forall_not_mem (b := Proc.devRef .tc Cert.ReferenceIdeal.main_arg7) _ _ (Cert.ReferenceIdeal.RefFrame.keeps Cert.ReferenceIdeal.main_arg7 (by decide))),
      (h c Cert.ReferenceIdeal.main_arg8).trans (after_of_forall_not_mem (b := Proc.devRef .tc Cert.ReferenceIdeal.main_arg8) _ _ (Cert.ReferenceIdeal.RefFrame.keeps Cert.ReferenceIdeal.main_arg8 (by decide))),
      (h c Cert.ReferenceIdeal.main_arg9).trans (after_of_forall_not_mem (b := Proc.devRef .tc Cert.ReferenceIdeal.main_arg9) _ _ (Cert.ReferenceIdeal.RefFrame.keeps Cert.ReferenceIdeal.main_arg9 (by decide))),
      (h c Cert.ReferenceIdeal.main_arg10).trans (after_of_forall_not_mem (b := Proc.devRef .tc Cert.ReferenceIdeal.main_arg10) _ _ (Cert.ReferenceIdeal.RefFrame.keeps Cert.ReferenceIdeal.main_arg10 (by decide))),
      (h c Cert.ReferenceIdeal.main_arg11).trans (after_of_forall_not_mem (b := Proc.devRef .tc Cert.ReferenceIdeal.main_arg11) _ _ (Cert.ReferenceIdeal.RefFrame.keeps Cert.ReferenceIdeal.main_arg11 (by decide))),
      (h c Cert.ReferenceIdeal.main_arg12).trans (after_of_forall_not_mem (b := Proc.devRef .tc Cert.ReferenceIdeal.main_arg12) _ _ (Cert.ReferenceIdeal.RefFrame.keeps Cert.ReferenceIdeal.main_arg12 (by decide))),
      (h c Cert.ReferenceIdeal.main_arg13).trans (after_of_forall_not_mem (b := Proc.devRef .tc Cert.ReferenceIdeal.main_arg13) _ _ (Cert.ReferenceIdeal.RefFrame.keeps Cert.ReferenceIdeal.main_arg13 (by decide))),
      (h c Cert.ReferenceIdeal.main_arg14).trans (after_of_forall_not_mem (b := Proc.devRef .tc Cert.ReferenceIdeal.main_arg14) _ _ (Cert.ReferenceIdeal.RefFrame.keeps Cert.ReferenceIdeal.main_arg14 (by decide))),
      (h c Cert.ReferenceIdeal.main_arg15).trans (after_of_forall_not_mem (b := Proc.devRef .tc Cert.ReferenceIdeal.main_arg15) _ _ (Cert.ReferenceIdeal.RefFrame.keeps Cert.ReferenceIdeal.main_arg15 (by decide))),
      (h c Cert.ReferenceIdeal.main_arg16).trans (after_of_forall_not_mem (b := Proc.devRef .tc Cert.ReferenceIdeal.main_arg16) _ _ (Cert.ReferenceIdeal.RefFrame.keeps Cert.ReferenceIdeal.main_arg16 (by decide))),
      (h c Cert.ReferenceIdeal.main_arg17).trans (after_of_forall_not_mem (b := Proc.devRef .tc Cert.ReferenceIdeal.main_arg17) _ _ (Cert.ReferenceIdeal.RefFrame.keeps Cert.ReferenceIdeal.main_arg17 (by decide))),
      (h c Cert.ReferenceIdeal.main_arg18).trans (after_of_forall_not_mem (b := Proc.devRef .tc Cert.ReferenceIdeal.main_arg18) _ _ (Cert.ReferenceIdeal.RefFrame.keeps Cert.ReferenceIdeal.main_arg18 (by decide))),
      (h c Cert.ReferenceIdeal.main_arg19).trans (after_of_forall_not_mem (b := Proc.devRef .tc Cert.ReferenceIdeal.main_arg19) _ _ (Cert.ReferenceIdeal.RefFrame.keeps Cert.ReferenceIdeal.main_arg19 (by decide))),
      (h c Cert.ReferenceIdeal.main_arg20).trans (after_of_forall_not_mem (b := Proc.devRef .tc Cert.ReferenceIdeal.main_arg20) _ _ (Cert.ReferenceIdeal.RefFrame.keeps Cert.ReferenceIdeal.main_arg20 (by decide))),
      (h c Cert.ReferenceIdeal.main_arg21).trans (after_of_forall_not_mem (b := Proc.devRef .tc Cert.ReferenceIdeal.main_arg21) _ _ (Cert.ReferenceIdeal.RefFrame.keeps Cert.ReferenceIdeal.main_arg21 (by decide))),
      (h c Cert.ReferenceIdeal.main_arg22).trans (after_of_forall_not_mem (b := Proc.devRef .tc Cert.ReferenceIdeal.main_arg22) _ _ (Cert.ReferenceIdeal.RefFrame.keeps Cert.ReferenceIdeal.main_arg22 (by decide))),
      (h c Cert.ReferenceIdeal.main_arg23).trans (after_of_forall_not_mem (b := Proc.devRef .tc Cert.ReferenceIdeal.main_arg23) _ _ (Cert.ReferenceIdeal.RefFrame.keeps Cert.ReferenceIdeal.main_arg23 (by decide))),
      (h c Cert.ReferenceIdeal.main_arg24).trans (after_of_forall_not_mem (b := Proc.devRef .tc Cert.ReferenceIdeal.main_arg24) _ _ (Cert.ReferenceIdeal.RefFrame.keeps Cert.ReferenceIdeal.main_arg24 (by decide))),
      (h c Cert.ReferenceIdeal.main_arg25).trans (after_of_forall_not_mem (b := Proc.devRef .tc Cert.ReferenceIdeal.main_arg25) _ _ (Cert.ReferenceIdeal.RefFrame.keeps Cert.ReferenceIdeal.main_arg25 (by decide))),
      (h c Cert.ReferenceIdeal.main_arg26).trans (after_of_forall_not_mem (b := Proc.devRef .tc Cert.ReferenceIdeal.main_arg26) _ _ (Cert.ReferenceIdeal.RefFrame.keeps Cert.ReferenceIdeal.main_arg26 (by decide))),
      (h c Cert.ReferenceIdeal.main_arg27).trans (after_of_forall_not_mem (b := Proc.devRef .tc Cert.ReferenceIdeal.main_arg27) _ _ (Cert.ReferenceIdeal.RefFrame.keeps Cert.ReferenceIdeal.main_arg27 (by decide))),
      (h c Cert.ReferenceIdeal.main_arg28).trans (after_of_forall_not_mem (b := Proc.devRef .tc Cert.ReferenceIdeal.main_arg28) _ _ (Cert.ReferenceIdeal.RefFrame.keeps Cert.ReferenceIdeal.main_arg28 (by decide))),
      (h c Cert.ReferenceIdeal.main_arg29).trans (after_of_forall_not_mem (b := Proc.devRef .tc Cert.ReferenceIdeal.main_arg29) _ _ (Cert.ReferenceIdeal.RefFrame.keeps Cert.ReferenceIdeal.main_arg29 (by decide))),
      (h c Cert.ReferenceIdeal.main_arg30).trans (after_of_forall_not_mem (b := Proc.devRef .tc Cert.ReferenceIdeal.main_arg30) _ _ (Cert.ReferenceIdeal.RefFrame.keeps Cert.ReferenceIdeal.main_arg30 (by decide))),
      (h c Cert.ReferenceIdeal.main_arg31).trans (after_of_forall_not_mem (b := Proc.devRef .tc Cert.ReferenceIdeal.main_arg31) _ _ (Cert.ReferenceIdeal.RefFrame.keeps Cert.ReferenceIdeal.main_arg31 (by decide))),
      (h c Cert.ReferenceIdeal.main_arg32).trans (after_of_forall_not_mem (b := Proc.devRef .tc Cert.ReferenceIdeal.main_arg32) _ _ (Cert.ReferenceIdeal.RefFrame.keeps Cert.ReferenceIdeal.main_arg32 (by decide))),
      (h c Cert.ReferenceIdeal.main_arg33).trans (after_of_forall_not_mem (b := Proc.devRef .tc Cert.ReferenceIdeal.main_arg33) _ _ (Cert.ReferenceIdeal.RefFrame.keeps Cert.ReferenceIdeal.main_arg33 (by decide))),
      (h c Cert.ReferenceIdeal.main_arg34).trans (after_of_forall_not_mem (b := Proc.devRef .tc Cert.ReferenceIdeal.main_arg34) _ _ (Cert.ReferenceIdeal.RefFrame.keeps Cert.ReferenceIdeal.main_arg34 (by decide))),
      (h c Cert.ReferenceIdeal.main_arg35).trans (after_of_forall_not_mem (b := Proc.devRef .tc Cert.ReferenceIdeal.main_arg35) _ _ (Cert.ReferenceIdeal.RefFrame.keeps Cert.ReferenceIdeal.main_arg35 (by decide))),
      (h c Cert.ReferenceIdeal.main_arg36).trans (after_of_forall_not_mem (b := Proc.devRef .tc Cert.ReferenceIdeal.main_arg36) _ _ (Cert.ReferenceIdeal.RefFrame.keeps Cert.ReferenceIdeal.main_arg36 (by decide))),
      (h c Cert.ReferenceIdeal.main_arg37).trans (after_of_forall_not_mem (b := Proc.devRef .tc Cert.ReferenceIdeal.main_arg37) _ _ (Cert.ReferenceIdeal.RefFrame.keeps Cert.ReferenceIdeal.main_arg37 (by decide)))⟩

end Cert.Proof

end
-- ==== Proof.lean ====
/-
  The certificate of one hypergraph message-passing layer whose two graph convolutions run as four kernel regions
  (each convolution: the adjacency matrix times the features accumulated over four column blocks, a small dense
  layer and a layer normalisation; then the adjacency matrix again and a second dense layer), everything else being
  host operations shared with the reference.

  The three frames: each kernel program runs as nine segments (five stretches of host operations around the four
  regions), every region's body run once per control case, the accumulator's contents carried from grid point to
  grid point in the region's invariant; an argument array is never written, so it ends as launched. The reference is
  one straight line of host operations. The idealization rewrote nothing, so it is preserved trivially.

  The value claim (Proof/Algebraic.lean): the two idealized programs begin and end with the same host operations,
  read as one composed term on both sides, and each pair of regions computes one graph convolution of the
  specification (Proof/Spec.lean): a row block's accumulator after its four points holds the whole matrix
  product's entries (a sum over 4 × 2048 terms regrouped), the epilogues are the dense layers and the layer
  normalisation row by row, and the eight row blocks cover the result array.
-/
import proofs.«119995_j74062416053450_2_alg».proof.Defs
import proofs.«119995_j74062416053450_2_alg».proof.Proof.Gen.Kernel
import proofs.«119995_j74062416053450_2_alg».proof.Proof.Gen.KernelIdeal
import proofs.«119995_j74062416053450_2_alg».proof.Proof.Gen.ReferenceIdeal
import proofs.«119995_j74062416053450_2_alg».proof.Proof.Gen.Pre_finite_inputs
import proofs.«119995_j74062416053450_2_alg».proof.Proof.Frames
import proofs.«119995_j74062416053450_2_alg».proof.Proof.RefFrame
import proofs.«119995_j74062416053450_2_alg».proof.Proof.Algebraic
import Idealize.ShloMosaic.Adequacy
import Idealize.ShloMosaic.Init

noncomputable section

namespace Cert.Proof

open Idealize.ShloMosaic Idealize.SL.Sem

theorem frame_ri : Cert.frame_ReferenceIdeal := fun m ρ _ =>
  (θ_run (Cert.ReferenceIdeal.defs (F := Ideal)) _ _).mono (fun _ h c =>
    ⟨h c Cert.ReferenceIdeal.main_arg0 (by decide),
      h c Cert.ReferenceIdeal.main_arg1 (by decide),
      h c Cert.ReferenceIdeal.main_arg2 (by decide),
      h c Cert.ReferenceIdeal.main_arg3 (by decide),
      h c Cert.ReferenceIdeal.main_arg4 (by decide),
      h c Cert.ReferenceIdeal.main_arg5 (by decide),
      h c Cert.ReferenceIdeal.main_arg6 (by decide),
      h c Cert.ReferenceIdeal.main_arg7 (by decide),
      h c Cert.ReferenceIdeal.main_arg8 (by decide),
      h c Cert.ReferenceIdeal.main_arg9 (by decide),
      h c Cert.ReferenceIdeal.main_arg10 (by decide),
      h c Cert.ReferenceIdeal.main_arg11 (by decide),
      h c Cert.ReferenceIdeal.main_arg12 (by decide),
      h c Cert.ReferenceIdeal.main_arg13 (by decide),
      h c Cert.ReferenceIdeal.main_arg14 (by decide),
      h c Cert.ReferenceIdeal.main_arg15 (by decide),
      h c Cert.ReferenceIdeal.main_arg16 (by decide),
      h c Cert.ReferenceIdeal.main_arg17 (by decide),
      h c Cert.ReferenceIdeal.main_arg18 (by decide),
      h c Cert.ReferenceIdeal.main_arg19 (by decide),
      h c Cert.ReferenceIdeal.main_arg20 (by decide),
      h c Cert.ReferenceIdeal.main_arg21 (by decide),
      h c Cert.ReferenceIdeal.main_arg22 (by decide),
      h c Cert.ReferenceIdeal.main_arg23 (by decide),
      h c Cert.ReferenceIdeal.main_arg24 (by decide),
      h c Cert.ReferenceIdeal.main_arg25 (by decide),
      h c Cert.ReferenceIdeal.main_arg26 (by decide),
      h c Cert.ReferenceIdeal.main_arg27 (by decide),
      h c Cert.ReferenceIdeal.main_arg28 (by decide),
      h c Cert.ReferenceIdeal.main_arg29 (by decide),
      h c Cert.ReferenceIdeal.main_arg30 (by decide),
      h c Cert.ReferenceIdeal.main_arg31 (by decide),
      h c Cert.ReferenceIdeal.main_arg32 (by decide),
      h c Cert.ReferenceIdeal.main_arg33 (by decide),
      h c Cert.ReferenceIdeal.main_arg34 (by decide),
      h c Cert.ReferenceIdeal.main_arg35 (by decide),
      h c Cert.ReferenceIdeal.main_arg36 (by decide),
      h c Cert.ReferenceIdeal.main_arg37 (by decide)⟩)
    (Cert.ReferenceIdeal.RefFrame.frame (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    Frames.frame_k, Frames.frame_ki, frame_ri, preserves, algebraic⟩

end Cert.Proof

end
